-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x1 .f32) (main_arg11 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x800000 32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x1 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S800000x64 : Shape := ⟨2, ![800000, 64]⟩
abbrev S1x64 : Shape := ⟨2, ![1, 64]⟩
abbrev S5000x1 : Shape := ⟨2, ![5000, 1]⟩
abbrev S1x1 : Shape := ⟨2, ![1, 1]⟩

abbrev nBuf : Space → Nat
  | .hbm => 167
  | .vmem => 66
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S50000, .f32⟩
  | 27 => ⟨S50000x1, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S1x64, .f32⟩
  | 65 => ⟨S50000x64, .f32⟩
  | 66 => ⟨S1x64, .f32⟩
  | 67 => ⟨S1x64, .f32⟩
  | 68 => ⟨S_, .f32⟩
  | 69 => ⟨S1x64, .f32⟩
  | 70 => ⟨S1x64, .f32⟩
  | 71 => ⟨S_, .f32⟩
  | 72 => ⟨S1x64, .f32⟩
  | 73 => ⟨S1x64, .f32⟩
  | 74 => ⟨S1x64, .f32⟩
  | 75 => ⟨S1x64, .f32⟩
  | 76 => ⟨S1x64, .f32⟩
  | 77 => ⟨S1x64, .f32⟩
  | 78 => ⟨S50000x64, .f32⟩
  | 79 => ⟨S50000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S800000x1, .f32⟩
  | 109 => ⟨S800000x64, .f32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S1x64, .f32⟩
  | 116 => ⟨S50000x64, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S50000x64, .f32⟩

abbrev hbmTy0_1 (i : Nat) : BufTy := match i % 128 with
  | 0 => ⟨S1x64, .f32⟩
  | 1 => ⟨S50000x64, .f32⟩
  | 2 => ⟨S50000x1, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x1, .f32⟩
  | 31 => ⟨S800000x1, .f32⟩
  | 32 => ⟨S800000x1, .f32⟩
  | 33 => ⟨S_, .f32⟩
  | 34 => ⟨S50000x1, .f32⟩
  | 35 => ⟨S800000x1, .i32⟩
  | 36 => ⟨S50000x1, .f32⟩
  | 37 => ⟨S1x1, .f32⟩
  | 38 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S64x1, .f32⟩
  | .local _ .vmem, ⟨55, _⟩ => ⟨S5000x1, .f32⟩
  | .local _ .vmem, ⟨56, _⟩ => ⟨S5000x1, .f32⟩
  | .local _ .vmem, ⟨57, _⟩ => ⟨S5000x1, .f32⟩
  | .local _ .vmem, ⟨58, _⟩ => ⟨S5000x1, .f32⟩
  | .local _ .vmem, ⟨59, _⟩ => ⟨S5000x1, .f32⟩
  | .local _ .vmem, ⟨60, _⟩ => ⟨S5000x1, .f32⟩
  | .local _ .vmem, ⟨61, _⟩ => ⟨S5000x1, .f32⟩
  | .local _ .vmem, ⟨62, _⟩ => ⟨S5000x1, .f32⟩
  | .local _ .vmem, ⟨63, _⟩ => ⟨S1x1, .f32⟩
  | .local _ .vmem, ⟨64, _⟩ => ⟨S5000x1, .f32⟩
  | .local _ .vmem, ⟨65, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_v43_2 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83_0 : Ref sig .tc := ⟨.hbm, 116, rfl⟩
abbrev main_v83_1 : Ref sig .tc := ⟨.hbm, 117, rfl⟩
abbrev main_v83_2 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_cst_18 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_19 : Ref sig .tc := ⟨.hbm, 131, rfl⟩
abbrev main_v94 : Ref sig .tc := ⟨.hbm, 132, rfl⟩
abbrev main_v95 : Ref sig .tc := ⟨.hbm, 133, rfl⟩
abbrev main_c_20 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_21 : Ref sig .tc := ⟨.hbm, 140, rfl⟩
abbrev main_v101 : Ref sig .tc := ⟨.hbm, 141, rfl⟩
abbrev main_v102 : Ref sig .tc := ⟨.hbm, 142, rfl⟩
abbrev main_c_22 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_23 : Ref sig .tc := ⟨.hbm, 150, rfl⟩
abbrev main_v109 : Ref sig .tc := ⟨.hbm, 151, rfl⟩
abbrev main_v110 : Ref sig .tc := ⟨.hbm, 152, rfl⟩
abbrev main_c_24 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_25 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg6_0 : Ref sig .tc := ⟨.vmem, 41, rfl⟩
abbrev cc4_scratch0 : Ref sig .tc := ⟨.vmem, 42, rfl⟩
abbrev cc4_scratch1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg4_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_19 : BitVec 32 := 0#32
  let v34 : BitVec 1 := Scalar.cmpi .ne v33 c0_i32_19
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S64x1_S64x1_0_0 : ∀ a, (![0, 0] : Fin 2 → Nat) a + S64x1.size a ≤ S64x1.size a
  h_S64x1 : 0 < S64x1.numel
  bcast_S_S50000x1 : S_.BroadcastsInDim S50000x1 (![] : Fin 0 → Fin S50000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x1_S5000x1_1_0_0_1_n_n_wf : DotDims.WF S5000x64 S64x1 S5000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x1.size a ≤ S50000x1.size a
  hwx7_0 : ∀ i : grid7.Coords, EltTy.bits .f32 = 32 ∨ (Rect.block (s := S50000x1) S5000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x1.size a ≤ S50000x1.size a
  hwx7_4 : ∀ i : grid7.Coords, EltTy.bits .f32 = 32 ∨ (Rect.block (s := S50000x1) S5000x1.size (cc7_transform_4 i) (hinb7_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v43_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v83_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v83_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v92) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S5000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v120) S5000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v121) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v122) S5000x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 270
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x64, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x1, .f32⟩
  | 56 => ⟨S800000x64, .f32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000, .f32⟩
  | 63 => ⟨S50000x1, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S50000x64, .f32⟩
  | 83 => ⟨S50000x64, .f32⟩
  | 84 => ⟨S50000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S_, .f32⟩
  | 105 => ⟨S64, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S50000x64, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000, .f32⟩
  | _ => ⟨S50000x64, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x1, .f32⟩
  | 29 => ⟨S800000x64, .f32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000, .f32⟩
  | 36 => ⟨S50000x1, .f32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x1, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_2 (i : Nat) : BufTy := match i % 128 with
  | 0 => ⟨S800000x1, .f32⟩
  | 1 => ⟨S800000x1, .f32⟩
  | 2 => ⟨S800000x1, .f32⟩
  | 3 => ⟨S_, .f32⟩
  | 4 => ⟨S50000x1, .f32⟩
  | 5 => ⟨S800000x1, .i32⟩
  | 6 => ⟨S50000x1, .f32⟩
  | 7 => ⟨S50000, .f32⟩
  | 8 => ⟨S50000x1, .f32⟩
  | 9 => ⟨S50000x1, .f32⟩
  | 10 => ⟨S50000x1, .f32⟩
  | 11 => ⟨S1x1, .f32⟩
  | 12 => ⟨S50000x1, .f32⟩
  | 13 => ⟨S50000x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call1_cst : Ref sig .tc := ⟨.hbm, 114, rfl⟩
abbrev main_call1_v0 : Ref sig .tc := ⟨.hbm, 115, rfl⟩
abbrev main_v67 : Ref sig .tc := ⟨.hbm, 116, rfl⟩
abbrev main_v68 : Ref sig .tc := ⟨.hbm, 117, rfl⟩
abbrev main_cst_12 : Ref sig .tc := ⟨.hbm, 118, rfl⟩
abbrev main_v69 : Ref sig .tc := ⟨.hbm, 119, rfl⟩
abbrev main_cst_13 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_14 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_15 : Ref sig .tc := ⟨.hbm, 128, rfl⟩
abbrev main_v76 : Ref sig .tc := ⟨.hbm, 129, rfl⟩
abbrev main_v77 : Ref sig .tc := ⟨.hbm, 130, rfl⟩
abbrev main_c_16 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_19 : Ref sig .tc := ⟨.hbm, 147, rfl⟩
abbrev main_v91 : Ref sig .tc := ⟨.hbm, 148, rfl⟩
abbrev main_v92 : Ref sig .tc := ⟨.hbm, 149, rfl⟩
abbrev main_c_20 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_21 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_22 : Ref sig .tc := ⟨.hbm, 171, rfl⟩
abbrev main_v112 : Ref sig .tc := ⟨.hbm, 172, rfl⟩
abbrev main_cst_23 : Ref sig .tc := ⟨.hbm, 173, rfl⟩
abbrev main_v113 : Ref sig .tc := ⟨.hbm, 174, rfl⟩
abbrev main_v114 : Ref sig .tc := ⟨.hbm, 175, rfl⟩
abbrev main_c_24 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_cst_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_v6 : Ref sig .tc := ⟨.hbm, 185, rfl⟩
abbrev main_call2_v7 : Ref sig .tc := ⟨.hbm, 186, rfl⟩
abbrev main_call2_cst_1 : Ref sig .tc := ⟨.hbm, 187, rfl⟩
abbrev main_call2_v8 : Ref sig .tc := ⟨.hbm, 188, rfl⟩
abbrev main_call2_cst_2 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_cst_3 : Ref sig .tc := ⟨.hbm, 193, rfl⟩
abbrev main_call2_v12 : Ref sig .tc := ⟨.hbm, 194, rfl⟩
abbrev main_call2_cst_4 : Ref sig .tc := ⟨.hbm, 195, rfl⟩
abbrev main_call2_call0_v0 : Ref sig .tc := ⟨.hbm, 196, rfl⟩
abbrev main_call2_call0_v1 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_25 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_call3_cst : Ref sig .tc := ⟨.hbm, 215, rfl⟩
abbrev main_call3_v0 : Ref sig .tc := ⟨.hbm, 216, rfl⟩
abbrev main_v131 : Ref sig .tc := ⟨.hbm, 217, rfl⟩
abbrev main_v132 : Ref sig .tc := ⟨.hbm, 218, rfl⟩
abbrev main_cst_26 : Ref sig .tc := ⟨.hbm, 219, rfl⟩
abbrev main_v133 : Ref sig .tc := ⟨.hbm, 220, rfl⟩
abbrev main_cst_27 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_cst_28 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_c_29 : Ref sig .tc := ⟨.hbm, 229, rfl⟩
abbrev main_v140 : Ref sig .tc := ⟨.hbm, 230, rfl⟩
abbrev main_v141 : Ref sig .tc := ⟨.hbm, 231, rfl⟩
abbrev main_c_30 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_c_31 : Ref sig .tc := ⟨.hbm, 238, rfl⟩
abbrev main_v147 : Ref sig .tc := ⟨.hbm, 239, rfl⟩
abbrev main_v148 : Ref sig .tc := ⟨.hbm, 240, rfl⟩
abbrev main_c_32 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_c_33 : Ref sig .tc := ⟨.hbm, 248, rfl⟩
abbrev main_v155 : Ref sig .tc := ⟨.hbm, 249, rfl⟩
abbrev main_v156 : Ref sig .tc := ⟨.hbm, 250, rfl⟩
abbrev main_c_34 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_cst_35 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.K.Reg0.lean ====
/-
  Region 0: the first layer's dense product. At grid point t the body multiplies the t-th block of 5000 rows of the node features by the whole 64 x 64 weight matrix (one matrix product into a zero accumulator) and stores the 5000 x 64 product whole as the t-th block of the result.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, whether that point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the result window's buffer: one value of the loaded blocks, stored whole. -/
def out0_2 (x0 : Vec F S5000x64 .f32) (x1 : Vec F S64x64 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0))⟩]

theorem cover0_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0_2 _)

/-- The region's proof data: the arrays as the region finds them; after the body each input's buffer at its block and
    the result's at the stored value of the blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
/-
  Region 1: a layer's combination and its column statistics. At grid point t the body forms the t-th block of 5000 rows of
  P = agg + H * d + b (d the squared inverse root degree of each row, b the bias row) and stores it as the t-th block of the
  first result; it also keeps two 1 x 64 accumulators in scratch buffers that live across the grid: both are zeroed at the
  first point, at every point the column sums of the block and of its entrywise square are added to them, and at the last
  point they are copied into the second and third results, which no other point stores into.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid, and where the two statistics windows are idle -/

/-- "This is the first point", as the body computes it from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is the last point". -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The scratch accumulators -/

abbrev sc1_0 : Memref sig .tc .vmem S1x64 .f32 := Memref.whole cc1_scratch0
abbrev sc1_1 : Memref sig .tc .vmem S1x64 .f32 := Memref.whole cc1_scratch1

/-- The class invariant with the two accumulators split off the scoped buffers no window stages. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sc1_0, sc1_1, owns_whole]; try rfl

/-! ## The body's run, case by case -/

set_option maxHeartbeats 4000000 in
/-- THE FIRST POINT: both accumulators are zeroed and then added to; nothing is stored into the two statistics windows,
    whose buffers are handed back as found. The pieces each written buffer ends with are what the run finds. -/
noncomputable def kernelRun1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S5000x64 .f32) (x1 : Vec F S5000x64 .f32) (x2 : Vec F S5000x1 .f32) (x3 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__combine_stats_kernel_eq_skeleton]; unfold cc1__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A MIDDLE POINT: the accumulators, found at what the point before left (xs0, xs1), are added to; the two statistics
    windows are handed back as found. -/
noncomputable def kernelRun1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__combine_stats_kernel_eq_skeleton]; unfold cc1__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- THE LAST POINT: the accumulators are added to and then copied into the two statistics windows. -/
noncomputable def kernelRun1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (L5 : List (View.Piece (Elt F) S1x64 .f32)), Σ' (L6 : List (View.Piece (Elt F) S1x64 .f32)),
     Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Reg1.lean ====
/-
  Region 1, continued: what the written buffers hold after each point (by recursion on the point), the invariant that
  carries the two accumulators from one point to the next, the region's proof data and the body obligation at every point.
-/
import proofs.«135780_j72241349919044_1_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What the written buffers hold after each point -/

/-- Views through which a written buffer's contents are stated (which staging buffer is taken does not matter). -/
abbrev VO1_4 : View sig .tc .vmem S5000x64 .f32 := (Memref.whole cc1_stg4_0 : Memref sig .tc .vmem S5000x64 .f32).view
abbrev VO1_5 : View sig .tc .vmem S1x64 .f32 := (Memref.whole cc1_stg5_0 : Memref sig .tc .vmem S1x64 .f32).view
abbrev VO1_6 : View sig .tc .vmem S1x64 .f32 := (Memref.whole cc1_stg6_0 : Memref sig .tc .vmem S1x64 .f32).view
abbrev VS1_0 : View sig .tc .vmem S1x64 .f32 := sc1_0.view
abbrev VS1_1 : View sig .tc .vmem S1x64 .f32 := sc1_1.view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The three runs at the memrefs and input blocks of point t. -/
abbrev runA1 (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) h0 h1 (iblk1 V c 0 t) (iblk1 V c 1 t) (iblk1 V c 2 t) (iblk1 V c 3 t)
abbrev runB1 (c : Dev nD) (t : Fin cfg1.N) (h0 : ¬cond1_0 (grid1.coords t)) (h1 : ¬cond1_1 (grid1.coords t)) (xs0 xs1 : Vec F S1x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) h0 h1 (iblk1 V c 0 t) (iblk1 V c 1 t) (iblk1 V c 2 t) (iblk1 V c 3 t) xs0 xs1
abbrev runC1 (c : Dev nD) (t : Fin cfg1.N) (h0 : ¬cond1_0 (grid1.coords t)) (h1 : cond1_1 (grid1.coords t)) (xs0 xs1 : Vec F S1x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) h0 h1 (iblk1 V c 0 t) (iblk1 V c 1 t) (iblk1 V c 2 t) (iblk1 V c 3 t) xs0 xs1

/-- Reading a list of pieces back over anything, through a fixed view. -/
abbrev rd1_4 (L : List (View.Piece (Elt F) S5000x64 .f32)) : Vec F S5000x64 .f32 := VO1_4.read (Elt F) (VO1_4.writes (Elt F) VO1_4.junk L)
abbrev rd1_5 (L : List (View.Piece (Elt F) S1x64 .f32)) : Vec F S1x64 .f32 := VO1_5.read (Elt F) (VO1_5.writes (Elt F) VO1_5.junk L)
abbrev rd1_6 (L : List (View.Piece (Elt F) S1x64 .f32)) : Vec F S1x64 .f32 := VO1_6.read (Elt F) (VO1_6.writes (Elt F) VO1_6.junk L)
abbrev rs1_0 (L : List (View.Piece (Elt F) S1x64 .f32)) : Vec F S1x64 .f32 := VS1_0.read (Elt F) (VS1_0.writes (Elt F) VS1_0.junk L)
abbrev rs1_1 (L : List (View.Piece (Elt F) S1x64 .f32)) : Vec F S1x64 .f32 := VS1_1.read (Elt F) (VS1_1.writes (Elt F) VS1_1.junk L)

/-- What one point's stores cover: each written buffer whole. -/
theorem coverA1_4 (c t h0 h1) (y : S5000x64.Idx) : ∃ pc ∈ (runA1 (F := F) V c t h0 h1).1, y ∈ pc.1.set :=
  View.cover_of_tiledL (runA1 (F := F) V c t h0 h1).1 S5000x64.size (by sl_kernel_rfl) y
theorem coverA1_s0 (c t h0 h1) (y : S1x64.Idx) : ∃ pc ∈ (runA1 (F := F) V c t h0 h1).2.1, y ∈ pc.1.set :=
  View.cover_of_tiledL (runA1 (F := F) V c t h0 h1).2.1 S1x64.size (by sl_kernel_rfl) y
theorem coverA1_s1 (c t h0 h1) (y : S1x64.Idx) : ∃ pc ∈ (runA1 (F := F) V c t h0 h1).2.2.1, y ∈ pc.1.set :=
  View.cover_of_tiledL (runA1 (F := F) V c t h0 h1).2.2.1 S1x64.size (by sl_kernel_rfl) y
theorem coverB1_4 (c t h0 h1 xs0 xs1) (y : S5000x64.Idx) : ∃ pc ∈ (runB1 (F := F) V c t h0 h1 xs0 xs1).1, y ∈ pc.1.set :=
  View.cover_of_tiledL (runB1 (F := F) V c t h0 h1 xs0 xs1).1 S5000x64.size (by sl_kernel_rfl) y
theorem coverB1_s0 (c t h0 h1 xs0 xs1) (y : S1x64.Idx) : ∃ pc ∈ (runB1 (F := F) V c t h0 h1 xs0 xs1).2.1, y ∈ pc.1.set :=
  View.cover_of_tiledL (runB1 (F := F) V c t h0 h1 xs0 xs1).2.1 S1x64.size (by sl_kernel_rfl) y
theorem coverB1_s1 (c t h0 h1 xs0 xs1) (y : S1x64.Idx) : ∃ pc ∈ (runB1 (F := F) V c t h0 h1 xs0 xs1).2.2.1, y ∈ pc.1.set :=
  View.cover_of_tiledL (runB1 (F := F) V c t h0 h1 xs0 xs1).2.2.1 S1x64.size (by sl_kernel_rfl) y
theorem coverC1_4 (c t h0 h1 xs0 xs1) (y : S5000x64.Idx) : ∃ pc ∈ (runC1 (F := F) V c t h0 h1 xs0 xs1).1, y ∈ pc.1.set :=
  View.cover_of_tiledL (runC1 (F := F) V c t h0 h1 xs0 xs1).1 S5000x64.size (by sl_kernel_rfl) y
theorem coverC1_5 (c t h0 h1 xs0 xs1) (y : S1x64.Idx) : ∃ pc ∈ (runC1 (F := F) V c t h0 h1 xs0 xs1).2.1, y ∈ pc.1.set :=
  View.cover_of_tiledL (runC1 (F := F) V c t h0 h1 xs0 xs1).2.1 S1x64.size (by sl_kernel_rfl) y
theorem coverC1_6 (c t h0 h1 xs0 xs1) (y : S1x64.Idx) : ∃ pc ∈ (runC1 (F := F) V c t h0 h1 xs0 xs1).2.2.1, y ∈ pc.1.set :=
  View.cover_of_tiledL (runC1 (F := F) V c t h0 h1 xs0 xs1).2.2.1 S1x64.size (by sl_kernel_rfl) y
theorem coverC1_s0 (c t h0 h1 xs0 xs1) (y : S1x64.Idx) : ∃ pc ∈ (runC1 (F := F) V c t h0 h1 xs0 xs1).2.2.2.1, y ∈ pc.1.set :=
  View.cover_of_tiledL (runC1 (F := F) V c t h0 h1 xs0 xs1).2.2.2.1 S1x64.size (by sl_kernel_rfl) y
theorem coverC1_s1 (c t h0 h1 xs0 xs1) (y : S1x64.Idx) : ∃ pc ∈ (runC1 (F := F) V c t h0 h1 xs0 xs1).2.2.2.2.1, y ∈ pc.1.set :=
  View.cover_of_tiledL (runC1 (F := F) V c t h0 h1 xs0 xs1).2.2.2.2.1 S1x64.size (by sl_kernel_rfl) y

/-! ## The accumulation -/

/-- What one point leaves, case by case: (the block of P, the two statistics windows' buffers, the two accumulators).
    A case that stores nothing into the statistics windows names no contents for them (they are idle there). -/
def stepA1 (c : Dev nD) (t : Fin cfg1.N) (h0 : cond1_0 (grid1.coords t)) (h1 : ¬cond1_1 (grid1.coords t)) : Vec F S5000x64 .f32 × Vec F S1x64 .f32 × Vec F S1x64 .f32 × Vec F S1x64 .f32 × Vec F S1x64 .f32 :=
  (rd1_4 (runA1 (F := F) V c t h0 h1).1, rd1_5 [], rd1_6 [], rs1_0 (runA1 (F := F) V c t h0 h1).2.1, rs1_1 (runA1 (F := F) V c t h0 h1).2.2.1)
def stepB1 (c : Dev nD) (t : Fin cfg1.N) (h0 : ¬cond1_0 (grid1.coords t)) (h1 : ¬cond1_1 (grid1.coords t)) (xs0 xs1 : Vec F S1x64 .f32) : Vec F S5000x64 .f32 × Vec F S1x64 .f32 × Vec F S1x64 .f32 × Vec F S1x64 .f32 × Vec F S1x64 .f32 :=
  (rd1_4 (runB1 (F := F) V c t h0 h1 xs0 xs1).1, rd1_5 [], rd1_6 [], rs1_0 (runB1 (F := F) V c t h0 h1 xs0 xs1).2.1, rs1_1 (runB1 (F := F) V c t h0 h1 xs0 xs1).2.2.1)
def stepC1 (c : Dev nD) (t : Fin cfg1.N) (h0 : ¬cond1_0 (grid1.coords t)) (h1 : cond1_1 (grid1.coords t)) (xs0 xs1 : Vec F S1x64 .f32) : Vec F S5000x64 .f32 × Vec F S1x64 .f32 × Vec F S1x64 .f32 × Vec F S1x64 .f32 × Vec F S1x64 .f32 :=
  (rd1_4 (runC1 (F := F) V c t h0 h1 xs0 xs1).1, rd1_5 (runC1 (F := F) V c t h0 h1 xs0 xs1).2.1, rd1_6 (runC1 (F := F) V c t h0 h1 xs0 xs1).2.2.1,
    rs1_0 (runC1 (F := F) V c t h0 h1 xs0 xs1).2.2.2.1, rs1_1 (runC1 (F := F) V c t h0 h1 xs0 xs1).2.2.2.2.1)

/-- THE ACCUMULATION, by recursion on the point: the first point starts the accumulators, every later one adds to what the
    point before left, the last one also copies them out. -/
def outsAt1 (c : Dev nD) : (n : ℕ) → n < cfg1.N → Vec F S5000x64 .f32 × Vec F S1x64 .f32 × Vec F S1x64 .f32 × Vec F S1x64 .f32 × Vec F S1x64 .f32
  | 0, hn => stepA1 V c ⟨0, hn⟩ ((hcond1_0 ⟨0, hn⟩).mpr rfl) (fun h => (fun h => by (try dsimp only at h); omega) ((hcond1_1 ⟨0, hn⟩).mp h))
  | n + 1, hn =>
    if h1 : n + 1 = 9 then
      stepC1 V c ⟨n + 1, hn⟩ (fun h => Nat.succ_ne_zero n ((hcond1_0 ⟨n + 1, hn⟩).mp h)) ((hcond1_1 ⟨n + 1, hn⟩).mpr h1)
        (outsAt1 c n (Nat.lt_of_succ_lt hn)).2.2.2.1 (outsAt1 c n (Nat.lt_of_succ_lt hn)).2.2.2.2
    else
      stepB1 V c ⟨n + 1, hn⟩ (fun h => Nat.succ_ne_zero n ((hcond1_0 ⟨n + 1, hn⟩).mp h)) (fun h => h1 ((hcond1_1 ⟨n + 1, hn⟩).mp h))
        (outsAt1 c n (Nat.lt_of_succ_lt hn)).2.2.2.1 (outsAt1 c n (Nat.lt_of_succ_lt hn)).2.2.2.2

theorem outsAt1_A (c : Dev nD) (t : Fin cfg1.N) (h0 : cond1_0 (grid1.coords t)) (h1 : ¬cond1_1 (grid1.coords t)) :
    outsAt1 V c t.val t.isLt = stepA1 V c t h0 h1 := by
  obtain ⟨n, hn⟩ := t
  cases n with
  | zero => exact rfl
  | succ n => exact absurd ((hcond1_0 ⟨n + 1, hn⟩).mp h0) (Nat.succ_ne_zero n)

theorem outsAt1_B (c : Dev nD) (t : Fin cfg1.N) (h0 : ¬cond1_0 (grid1.coords t)) (h1 : ¬cond1_1 (grid1.coords t)) :
    outsAt1 V c t.val t.isLt = stepB1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd ((hcond1_0 ⟨0, hn⟩).mpr rfl) h0
  | succ n => exact (dif_neg (fun h => h1 ((hcond1_1 ⟨n + 1, hn⟩).mpr h))).trans rfl

theorem outsAt1_C (c : Dev nD) (t : Fin cfg1.N) (h0 : ¬cond1_0 (grid1.coords t)) (h1 : cond1_1 (grid1.coords t)) :
    outsAt1 V c t.val t.isLt = stepC1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd ((hcond1_0 ⟨0, hn⟩).mpr rfl) h0
  | succ n => exact (dif_pos ((hcond1_1 ⟨n + 1, hn⟩).mp h1)).trans rfl

/-! ## The invariant: the accumulators at what the point before left -/

def PhiS1 (c : Dev nD) : (n : ℕ) → n ≤ cfg1.N → sProp 𝕄
  | 0, _ => Pipeline.ΦA spec1 c
  | n + 1, hn => iprop(iprop(iprop(owns (c : Thread nD τ) sc1_0 fullShare (outsAt1 V c n hn).2.2.2.1 ∗ owns (c : Thread nD τ) sc1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) sc1_0 fullShare (outsAt1 V c n hn).2.2.2.1 ∗ owns (c : Thread nD τ) sc1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl
theorem PhiS1_pos (c : Dev nD) (n : ℕ) (h : n ≤ cfg1.N) (hz : n ≠ 0) :
    PhiS1 V c n h = iprop(iprop(iprop(owns (c : Thread nD τ) sc1_0 fullShare (outsAt1 V c (n - 1) (by omega)).2.2.2.1 ∗ owns (c : Thread nD τ) sc1_1 fullShare (outsAt1 V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: which case the point is in is decided by the closed forms; the invariant hands the body the
    accumulators at what the point before left (at anything at the first point) and takes them back at this point's contents;
    the statistics windows are handed back as found except at the last point, where they take the accumulators' contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [show (dat1 V c).leavesExact 4 t = owns (c : Thread nD τ) (ms1_4 t) fullShare ((dat1 V c).after 4 t) from by
    unfold Dat.leavesExact; rw [liveAt1_4 t]]
  rw [after1_0, after1_1, after1_2, after1_3, after1_4]
  have hN : t.val < 10 := lt_of_lt_of_eq t.isLt (show cfg1.N = 10 from N_1)
  by_cases hz : t.val = 0
  · have h0 : cond1_0 (grid1.coords t) := (hcond1_0 t).mpr hz
    have h1 : ¬cond1_1 (grid1.coords t) := fun h => by have := (hcond1_1 t).mp h; omega
    rw [Dat.leavesExact_idle (dat1 V c) 5 t (idleAt1_5 t h1) (noFlush1_5 t h1),
      Dat.leavesExact_idle (dat1 V c) 6 t (idleAt1_6 t h1) (noFlush1_6 t h1)]
    rw [outsAt1_A V c t h0 h1]
    unfold stepA1; (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 (F := F) V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (coverA1_s0 V c t h0 h1)
          · unfold owns; iexists _; isplitr
            swap; · iexact HS1
            ipureintro; exact View.read_writes_of_cover _ _ _ _ _ (coverA1_s1 V c t h0 h1)
        · iexact Hrest
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA1_4 V c t h0 h1)
    isplitl [H5]; · iexists _; iexact H5
    iexists _; iexact H6
  · have h0 : ¬cond1_0 (grid1.coords t) := fun h => hz ((hcond1_0 t).mp h)
    by_cases h9 : t.val = 9
    · have h1 : cond1_1 (grid1.coords t) := (hcond1_1 t).mpr h9
      rw [show (dat1 V c).leavesExact 5 t = owns (c : Thread nD τ) (ms1_5 t) fullShare ((dat1 V c).after 5 t) from by
        unfold Dat.leavesExact; rw [liveAt1_5 t h1]]
      rw [show (dat1 V c).leavesExact 6 t = owns (c : Thread nD τ) (ms1_6 t) fullShare ((dat1 V c).after 6 t) from by
        unfold Dat.leavesExact; rw [liveAt1_6 t h1]]
      rw [after1_5, after1_6, outsAt1_C V c t h0 h1]
      unfold stepC1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runC1 (F := F) V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverC1_s0 V c t h0 h1 _ _)
            · unfold owns; iexists _; isplitr
              swap; · iexact HS1
              ipureintro; exact View.read_writes_of_cover _ _ _ _ _ (coverC1_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC1_4 V c t h0 h1 _ _)
      isplitl [H5]
      · unfold owns; iexists _; isplitr
        swap; · iexact H5
        ipureintro; exact View.read_writes_of_cover _ _ _ _ _ (coverC1_5 V c t h0 h1 _ _)
      unfold owns; iexists _; isplitr
      swap; · iexact H6
      ipureintro; exact View.read_writes_of_cover _ _ _ _ _ (coverC1_6 V c t h0 h1 _ _)
    · have h1 : ¬cond1_1 (grid1.coords t) := fun h => h9 ((hcond1_1 t).mp h)
      rw [Dat.leavesExact_idle (dat1 V c) 5 t (idleAt1_5 t h1) (noFlush1_5 t h1),
        Dat.leavesExact_idle (dat1 V c) 6 t (idleAt1_6 t h1) (noFlush1_6 t h1)]
      rw [outsAt1_B V c t h0 h1]
      unfold stepB1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runB1 (F := F) V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverB1_s0 V c t h0 h1 _ _)
            · unfold owns; iexists _; isplitr
              swap; · iexact HS1
              ipureintro; exact View.read_writes_of_cover _ _ _ _ _ (coverB1_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB1_4 V c t h0 h1 _ _)
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After the last point it gives the class's back: what the accumulators hold is forgotten. -/
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.Kernel.Hand

end
-- ==== Proof.K.Reg2.lean ====
/-
  Region 2: the first layer's normalisation. At grid point t the body takes the t-th block of 5000 rows of the pre-activations and the four rows mean, variance, scale and shift, forms scale * (x - mean) * rsqrt(variance + eps) + shift, clamps it below at zero and stores the block whole.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, whether that point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the result window's buffer: one value of the loaded blocks, stored whole. -/
def out2_5 (x0 : Vec F S5000x64 .f32) (x1 : Vec F S1x64 .f32) (x2 : Vec F S1x64 .f32) (x3 : Vec F S1x64 .f32) (x4 : Vec F S1x64 .f32) : Vec F S5000x64 .f32 :=
  View.canon [⟨(Rect.unit (s := S5000x64) ![0, 0] S5000x64.size inb_S5000x64_S5000x64_0_0), k2_pay1 (View.ld x2 (Rect.unit (s := S1x64) ![0, 0] S1x64.size inb_S1x64_S1x64_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S1x64) ![0, 0] S1x64.size inb_S1x64_S1x64_0_0)) (View.ld x4 (Rect.unit (s := S1x64) ![0, 0] S1x64.size inb_S1x64_S1x64_0_0))⟩]

theorem cover2_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover2_5 _)

/-- The region's proof data: the arrays as the region finds them; after the body each input's buffer at its block and
    the result's at the stored value of the blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3: the second layer's dense product, block of 5000 rows by block, as in the first layer.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's staging buffer holds its block at every point, whether that point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the result window's buffer: one value of the loaded blocks, stored whole. -/
def out3_2 (x0 : Vec F S5000x64 .f32) (x1 : Vec F S64x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S64x64) ![0, 0] S64x64.size inb_S64x64_S64x64_0_0))⟩]

theorem cover3_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover3_2 _)

/-- The region's proof data: the arrays as the region finds them; after the body each input's buffer at its block and
    the result's at the stored value of the blocks; nothing carried between points. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4Runs.lean ====
/-
  Region 4: a layer's combination and its column statistics. At grid point t the body forms the t-th block of 5000 rows of
  P = agg + H * d + b (d the squared inverse root degree of each row, b the bias row) and stores it as the t-th block of the
  first result; it also keeps two 1 x 64 accumulators in scratch buffers that live across the grid: both are zeroed at the
  first point, at every point the column sums of the block and of its entrywise square are added to them, and at the last
  point they are copied into the second and third results, which no other point stores into.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid, and where the two statistics windows are idle -/

/-- "This is the first point", as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- "This is the last point". -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, ¬cond4_1 (grid4.coords t) → cfg4.idle 5 (grid4.coords t) = true := by decide +kernel
theorem idleAt4_6 : ∀ t : Fin cfg4.N, ¬cond4_1 (grid4.coords t) → cfg4.idle 6 (grid4.coords t) = true := by decide +kernel
theorem noFlush4_5 : ∀ t : Fin cfg4.N, ¬cond4_1 (grid4.coords t) → (cfg4.win 5).flush t = false := by decide +kernel
theorem noFlush4_6 : ∀ t : Fin cfg4.N, ¬cond4_1 (grid4.coords t) → (cfg4.win 6).flush t = false := by decide +kernel
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

/-! ## The scratch accumulators -/

abbrev sc4_0 : Memref sig .tc .vmem S1x64 .f32 := Memref.whole cc4_scratch0
abbrev sc4_1 : Memref sig .tc .vmem S1x64 .f32 := Memref.whole cc4_scratch1

/-- The class invariant with the two accumulators split off the scoped buffers no window stages. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sc4_0, sc4_1, owns_whole]; try rfl

/-! ## The body's run, case by case -/

set_option maxHeartbeats 4000000 in
/-- THE FIRST POINT: both accumulators are zeroed and then added to; nothing is stored into the two statistics windows,
    whose buffers are handed back as found. The pieces each written buffer ends with are what the run finds. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__combine_stats_kernel_eq_skeleton]; unfold cc4__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A MIDDLE POINT: the accumulators, found at what the point before left (xs0, xs1), are added to; the two statistics
    windows are handed back as found. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__combine_stats_kernel_eq_skeleton]; unfold cc4__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- THE LAST POINT: the accumulators are added to and then copied into the two statistics windows. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (L5 : List (View.Piece (Elt F) S1x64 .f32)), Σ' (L6 : List (View.Piece (Elt F) S1x64 .f32)),
     Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__combine_stats_kernel_eq_skeleton]; unfold cc4__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.Reg4.lean ====
/-
  Region 4, continued: what the written buffers hold after each point (by recursion on the point), the invariant that
  carries the two accumulators from one point to the next, the region's proof data and the body obligation at every point.
-/
import proofs.«135780_j72241349919044_1_alg».proof.Proof.K.Reg4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What the written buffers hold after each point -/

/-- Views through which a written buffer's contents are stated (which staging buffer is taken does not matter). -/
abbrev VO4_4 : View sig .tc .vmem S5000x64 .f32 := (Memref.whole cc4_stg4_0 : Memref sig .tc .vmem S5000x64 .f32).view
abbrev VO4_5 : View sig .tc .vmem S1x64 .f32 := (Memref.whole cc4_stg5_0 : Memref sig .tc .vmem S1x64 .f32).view
abbrev VO4_6 : View sig .tc .vmem S1x64 .f32 := (Memref.whole cc4_stg6_0 : Memref sig .tc .vmem S1x64 .f32).view
abbrev VS4_0 : View sig .tc .vmem S1x64 .f32 := sc4_0.view
abbrev VS4_1 : View sig .tc .vmem S1x64 .f32 := sc4_1.view
abbrev ms4_0 (t : Fin cfg4.N) := win4_0.stage (cfg4.slots t 0)
abbrev hs4_0 (t : Fin cfg4.N) : (ms4_0 t).IsWhole := hstage4_0 ((cfg4.slots t 0).cast nbuf4_0)
abbrev ms4_1 (t : Fin cfg4.N) := win4_1.stage (cfg4.slots t 1)
abbrev hs4_1 (t : Fin cfg4.N) : (ms4_1 t).IsWhole := hstage4_1 ((cfg4.slots t 1).cast nbuf4_1)
abbrev ms4_2 (t : Fin cfg4.N) := win4_2.stage (cfg4.slots t 2)
abbrev hs4_2 (t : Fin cfg4.N) : (ms4_2 t).IsWhole := hstage4_2 ((cfg4.slots t 2).cast nbuf4_2)
abbrev ms4_3 (t : Fin cfg4.N) := win4_3.stage (cfg4.slots t 3)
abbrev hs4_3 (t : Fin cfg4.N) : (ms4_3 t).IsWhole := hstage4_3 ((cfg4.slots t 3).cast nbuf4_3)
abbrev ms4_4 (t : Fin cfg4.N) := win4_4.stage (cfg4.slots t 4)
abbrev hs4_4 (t : Fin cfg4.N) : (ms4_4 t).IsWhole := hstage4_4 ((cfg4.slots t 4).cast nbuf4_4)
abbrev ms4_5 (t : Fin cfg4.N) := win4_5.stage (cfg4.slots t 5)
abbrev hs4_5 (t : Fin cfg4.N) : (ms4_5 t).IsWhole := hstage4_5 ((cfg4.slots t 5).cast nbuf4_5)
abbrev ms4_6 (t : Fin cfg4.N) := win4_6.stage (cfg4.slots t 6)
abbrev hs4_6 (t : Fin cfg4.N) : (ms4_6 t).IsWhole := hstage4_6 ((cfg4.slots t 6).cast nbuf4_6)

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The three runs at the memrefs and input blocks of point t. -/
abbrev runA4 (c : Dev nD) (t : Fin cfg4.N) (h0 : cond4_0 (grid4.coords t)) (h1 : ¬cond4_1 (grid4.coords t)) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sc4_0 (Memref.isWhole_whole _) sc4_1 (Memref.isWhole_whole _) h0 h1 (iblk4 V c 0 t) (iblk4 V c 1 t) (iblk4 V c 2 t) (iblk4 V c 3 t)
abbrev runB4 (c : Dev nD) (t : Fin cfg4.N) (h0 : ¬cond4_0 (grid4.coords t)) (h1 : ¬cond4_1 (grid4.coords t)) (xs0 xs1 : Vec F S1x64 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sc4_0 (Memref.isWhole_whole _) sc4_1 (Memref.isWhole_whole _) h0 h1 (iblk4 V c 0 t) (iblk4 V c 1 t) (iblk4 V c 2 t) (iblk4 V c 3 t) xs0 xs1
abbrev runC4 (c : Dev nD) (t : Fin cfg4.N) (h0 : ¬cond4_0 (grid4.coords t)) (h1 : cond4_1 (grid4.coords t)) (xs0 xs1 : Vec F S1x64 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sc4_0 (Memref.isWhole_whole _) sc4_1 (Memref.isWhole_whole _) h0 h1 (iblk4 V c 0 t) (iblk4 V c 1 t) (iblk4 V c 2 t) (iblk4 V c 3 t) xs0 xs1

/-- Reading a list of pieces back over anything, through a fixed view. -/
abbrev rd4_4 (L : List (View.Piece (Elt F) S5000x64 .f32)) : Vec F S5000x64 .f32 := VO4_4.read (Elt F) (VO4_4.writes (Elt F) VO4_4.junk L)
abbrev rd4_5 (L : List (View.Piece (Elt F) S1x64 .f32)) : Vec F S1x64 .f32 := VO4_5.read (Elt F) (VO4_5.writes (Elt F) VO4_5.junk L)
abbrev rd4_6 (L : List (View.Piece (Elt F) S1x64 .f32)) : Vec F S1x64 .f32 := VO4_6.read (Elt F) (VO4_6.writes (Elt F) VO4_6.junk L)
abbrev rs4_0 (L : List (View.Piece (Elt F) S1x64 .f32)) : Vec F S1x64 .f32 := VS4_0.read (Elt F) (VS4_0.writes (Elt F) VS4_0.junk L)
abbrev rs4_1 (L : List (View.Piece (Elt F) S1x64 .f32)) : Vec F S1x64 .f32 := VS4_1.read (Elt F) (VS4_1.writes (Elt F) VS4_1.junk L)

/-- What one point's stores cover: each written buffer whole. -/
theorem coverA4_4 (c t h0 h1) (y : S5000x64.Idx) : ∃ pc ∈ (runA4 (F := F) V c t h0 h1).1, y ∈ pc.1.set :=
  View.cover_of_tiledL (runA4 (F := F) V c t h0 h1).1 S5000x64.size (by sl_kernel_rfl) y
theorem coverA4_s0 (c t h0 h1) (y : S1x64.Idx) : ∃ pc ∈ (runA4 (F := F) V c t h0 h1).2.1, y ∈ pc.1.set :=
  View.cover_of_tiledL (runA4 (F := F) V c t h0 h1).2.1 S1x64.size (by sl_kernel_rfl) y
theorem coverA4_s1 (c t h0 h1) (y : S1x64.Idx) : ∃ pc ∈ (runA4 (F := F) V c t h0 h1).2.2.1, y ∈ pc.1.set :=
  View.cover_of_tiledL (runA4 (F := F) V c t h0 h1).2.2.1 S1x64.size (by sl_kernel_rfl) y
theorem coverB4_4 (c t h0 h1 xs0 xs1) (y : S5000x64.Idx) : ∃ pc ∈ (runB4 (F := F) V c t h0 h1 xs0 xs1).1, y ∈ pc.1.set :=
  View.cover_of_tiledL (runB4 (F := F) V c t h0 h1 xs0 xs1).1 S5000x64.size (by sl_kernel_rfl) y
theorem coverB4_s0 (c t h0 h1 xs0 xs1) (y : S1x64.Idx) : ∃ pc ∈ (runB4 (F := F) V c t h0 h1 xs0 xs1).2.1, y ∈ pc.1.set :=
  View.cover_of_tiledL (runB4 (F := F) V c t h0 h1 xs0 xs1).2.1 S1x64.size (by sl_kernel_rfl) y
theorem coverB4_s1 (c t h0 h1 xs0 xs1) (y : S1x64.Idx) : ∃ pc ∈ (runB4 (F := F) V c t h0 h1 xs0 xs1).2.2.1, y ∈ pc.1.set :=
  View.cover_of_tiledL (runB4 (F := F) V c t h0 h1 xs0 xs1).2.2.1 S1x64.size (by sl_kernel_rfl) y
theorem coverC4_4 (c t h0 h1 xs0 xs1) (y : S5000x64.Idx) : ∃ pc ∈ (runC4 (F := F) V c t h0 h1 xs0 xs1).1, y ∈ pc.1.set :=
  View.cover_of_tiledL (runC4 (F := F) V c t h0 h1 xs0 xs1).1 S5000x64.size (by sl_kernel_rfl) y
theorem coverC4_5 (c t h0 h1 xs0 xs1) (y : S1x64.Idx) : ∃ pc ∈ (runC4 (F := F) V c t h0 h1 xs0 xs1).2.1, y ∈ pc.1.set :=
  View.cover_of_tiledL (runC4 (F := F) V c t h0 h1 xs0 xs1).2.1 S1x64.size (by sl_kernel_rfl) y
theorem coverC4_6 (c t h0 h1 xs0 xs1) (y : S1x64.Idx) : ∃ pc ∈ (runC4 (F := F) V c t h0 h1 xs0 xs1).2.2.1, y ∈ pc.1.set :=
  View.cover_of_tiledL (runC4 (F := F) V c t h0 h1 xs0 xs1).2.2.1 S1x64.size (by sl_kernel_rfl) y
theorem coverC4_s0 (c t h0 h1 xs0 xs1) (y : S1x64.Idx) : ∃ pc ∈ (runC4 (F := F) V c t h0 h1 xs0 xs1).2.2.2.1, y ∈ pc.1.set :=
  View.cover_of_tiledL (runC4 (F := F) V c t h0 h1 xs0 xs1).2.2.2.1 S1x64.size (by sl_kernel_rfl) y
theorem coverC4_s1 (c t h0 h1 xs0 xs1) (y : S1x64.Idx) : ∃ pc ∈ (runC4 (F := F) V c t h0 h1 xs0 xs1).2.2.2.2.1, y ∈ pc.1.set :=
  View.cover_of_tiledL (runC4 (F := F) V c t h0 h1 xs0 xs1).2.2.2.2.1 S1x64.size (by sl_kernel_rfl) y

/-! ## The accumulation -/

/-- What one point leaves, case by case: (the block of P, the two statistics windows' buffers, the two accumulators).
    A case that stores nothing into the statistics windows names no contents for them (they are idle there). -/
def stepA4 (c : Dev nD) (t : Fin cfg4.N) (h0 : cond4_0 (grid4.coords t)) (h1 : ¬cond4_1 (grid4.coords t)) : Vec F S5000x64 .f32 × Vec F S1x64 .f32 × Vec F S1x64 .f32 × Vec F S1x64 .f32 × Vec F S1x64 .f32 :=
  (rd4_4 (runA4 (F := F) V c t h0 h1).1, rd4_5 [], rd4_6 [], rs4_0 (runA4 (F := F) V c t h0 h1).2.1, rs4_1 (runA4 (F := F) V c t h0 h1).2.2.1)
def stepB4 (c : Dev nD) (t : Fin cfg4.N) (h0 : ¬cond4_0 (grid4.coords t)) (h1 : ¬cond4_1 (grid4.coords t)) (xs0 xs1 : Vec F S1x64 .f32) : Vec F S5000x64 .f32 × Vec F S1x64 .f32 × Vec F S1x64 .f32 × Vec F S1x64 .f32 × Vec F S1x64 .f32 :=
  (rd4_4 (runB4 (F := F) V c t h0 h1 xs0 xs1).1, rd4_5 [], rd4_6 [], rs4_0 (runB4 (F := F) V c t h0 h1 xs0 xs1).2.1, rs4_1 (runB4 (F := F) V c t h0 h1 xs0 xs1).2.2.1)
def stepC4 (c : Dev nD) (t : Fin cfg4.N) (h0 : ¬cond4_0 (grid4.coords t)) (h1 : cond4_1 (grid4.coords t)) (xs0 xs1 : Vec F S1x64 .f32) : Vec F S5000x64 .f32 × Vec F S1x64 .f32 × Vec F S1x64 .f32 × Vec F S1x64 .f32 × Vec F S1x64 .f32 :=
  (rd4_4 (runC4 (F := F) V c t h0 h1 xs0 xs1).1, rd4_5 (runC4 (F := F) V c t h0 h1 xs0 xs1).2.1, rd4_6 (runC4 (F := F) V c t h0 h1 xs0 xs1).2.2.1,
    rs4_0 (runC4 (F := F) V c t h0 h1 xs0 xs1).2.2.2.1, rs4_1 (runC4 (F := F) V c t h0 h1 xs0 xs1).2.2.2.2.1)

/-- THE ACCUMULATION, by recursion on the point: the first point starts the accumulators, every later one adds to what the
    point before left, the last one also copies them out. -/
def outsAt4 (c : Dev nD) : (n : ℕ) → n < cfg4.N → Vec F S5000x64 .f32 × Vec F S1x64 .f32 × Vec F S1x64 .f32 × Vec F S1x64 .f32 × Vec F S1x64 .f32
  | 0, hn => stepA4 V c ⟨0, hn⟩ ((hcond4_0 ⟨0, hn⟩).mpr rfl) (fun h => (fun h => by (try dsimp only at h); omega) ((hcond4_1 ⟨0, hn⟩).mp h))
  | n + 1, hn =>
    if h1 : n + 1 = 9 then
      stepC4 V c ⟨n + 1, hn⟩ (fun h => Nat.succ_ne_zero n ((hcond4_0 ⟨n + 1, hn⟩).mp h)) ((hcond4_1 ⟨n + 1, hn⟩).mpr h1)
        (outsAt4 c n (Nat.lt_of_succ_lt hn)).2.2.2.1 (outsAt4 c n (Nat.lt_of_succ_lt hn)).2.2.2.2
    else
      stepB4 V c ⟨n + 1, hn⟩ (fun h => Nat.succ_ne_zero n ((hcond4_0 ⟨n + 1, hn⟩).mp h)) (fun h => h1 ((hcond4_1 ⟨n + 1, hn⟩).mp h))
        (outsAt4 c n (Nat.lt_of_succ_lt hn)).2.2.2.1 (outsAt4 c n (Nat.lt_of_succ_lt hn)).2.2.2.2

theorem outsAt4_A (c : Dev nD) (t : Fin cfg4.N) (h0 : cond4_0 (grid4.coords t)) (h1 : ¬cond4_1 (grid4.coords t)) :
    outsAt4 V c t.val t.isLt = stepA4 V c t h0 h1 := by
  obtain ⟨n, hn⟩ := t
  cases n with
  | zero => exact rfl
  | succ n => exact absurd ((hcond4_0 ⟨n + 1, hn⟩).mp h0) (Nat.succ_ne_zero n)

theorem outsAt4_B (c : Dev nD) (t : Fin cfg4.N) (h0 : ¬cond4_0 (grid4.coords t)) (h1 : ¬cond4_1 (grid4.coords t)) :
    outsAt4 V c t.val t.isLt = stepB4 V c t h0 h1
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd ((hcond4_0 ⟨0, hn⟩).mpr rfl) h0
  | succ n => exact (dif_neg (fun h => h1 ((hcond4_1 ⟨n + 1, hn⟩).mpr h))).trans rfl

theorem outsAt4_C (c : Dev nD) (t : Fin cfg4.N) (h0 : ¬cond4_0 (grid4.coords t)) (h1 : cond4_1 (grid4.coords t)) :
    outsAt4 V c t.val t.isLt = stepC4 V c t h0 h1
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd ((hcond4_0 ⟨0, hn⟩).mpr rfl) h0
  | succ n => exact (dif_pos ((hcond4_1 ⟨n + 1, hn⟩).mp h1)).trans rfl

/-! ## The invariant: the accumulators at what the point before left -/

def PhiS4 (c : Dev nD) : (n : ℕ) → n ≤ cfg4.N → sProp 𝕄
  | 0, _ => Pipeline.ΦA spec4 c
  | n + 1, hn => iprop(iprop(iprop(owns (c : Thread nD τ) sc4_0 fullShare (outsAt4 V c n hn).2.2.2.1 ∗ owns (c : Thread nD τ) sc4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) sc4_0 fullShare (outsAt4 V c n hn).2.2.2.1 ∗ owns (c : Thread nD τ) sc4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) sc4_0 fullShare (outsAt4 V c (n - 1) (by omega)).2.2.2.1 ∗ owns (c : Thread nD τ) sc4_1 fullShare (outsAt4 V c (n - 1) (by omega)).2.2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: which case the point is in is decided by the closed forms; the invariant hands the body the
    accumulators at what the point before left (at anything at the first point) and takes them back at this point's contents;
    the statistics windows are handed back as found except at the last point, where they take the accumulators' contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t]]
  rw [show (dat4 V c).leavesExact 1 t = owns (c : Thread nD τ) (ms4_1 t) fullShare ((dat4 V c).after 1 t) from by
    unfold Dat.leavesExact; rw [liveAt4_1 t]]
  rw [show (dat4 V c).leavesExact 2 t = owns (c : Thread nD τ) (ms4_2 t) fullShare ((dat4 V c).after 2 t) from by
    unfold Dat.leavesExact; rw [liveAt4_2 t]]
  rw [show (dat4 V c).leavesExact 3 t = owns (c : Thread nD τ) (ms4_3 t) fullShare ((dat4 V c).after 3 t) from by
    unfold Dat.leavesExact; rw [liveAt4_3 t]]
  rw [show (dat4 V c).leavesExact 4 t = owns (c : Thread nD τ) (ms4_4 t) fullShare ((dat4 V c).after 4 t) from by
    unfold Dat.leavesExact; rw [liveAt4_4 t]]
  rw [after4_0, after4_1, after4_2, after4_3, after4_4]
  have hN : t.val < 10 := lt_of_lt_of_eq t.isLt (show cfg4.N = 10 from N_4)
  by_cases hz : t.val = 0
  · have h0 : cond4_0 (grid4.coords t) := (hcond4_0 t).mpr hz
    have h1 : ¬cond4_1 (grid4.coords t) := fun h => by have := (hcond4_1 t).mp h; omega
    rw [Dat.leavesExact_idle (dat4 V c) 5 t (idleAt4_5 t h1) (noFlush4_5 t h1),
      Dat.leavesExact_idle (dat4 V c) 6 t (idleAt4_6 t h1) (noFlush4_6 t h1)]
    rw [outsAt4_A V c t h0 h1]
    unfold stepA4; (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA4 (F := F) V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (coverA4_s0 V c t h0 h1)
          · unfold owns; iexists _; isplitr
            swap; · iexact HS1
            ipureintro; exact View.read_writes_of_cover _ _ _ _ _ (coverA4_s1 V c t h0 h1)
        · iexact Hrest
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4_4 V c t h0 h1)
    isplitl [H5]; · iexists _; iexact H5
    iexists _; iexact H6
  · have h0 : ¬cond4_0 (grid4.coords t) := fun h => hz ((hcond4_0 t).mp h)
    by_cases h9 : t.val = 9
    · have h1 : cond4_1 (grid4.coords t) := (hcond4_1 t).mpr h9
      rw [show (dat4 V c).leavesExact 5 t = owns (c : Thread nD τ) (ms4_5 t) fullShare ((dat4 V c).after 5 t) from by
        unfold Dat.leavesExact; rw [liveAt4_5 t h1]]
      rw [show (dat4 V c).leavesExact 6 t = owns (c : Thread nD τ) (ms4_6 t) fullShare ((dat4 V c).after 6 t) from by
        unfold Dat.leavesExact; rw [liveAt4_6 t h1]]
      rw [after4_5, after4_6, outsAt4_C V c t h0 h1]
      unfold stepC4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runC4 (F := F) V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverC4_s0 V c t h0 h1 _ _)
            · unfold owns; iexists _; isplitr
              swap; · iexact HS1
              ipureintro; exact View.read_writes_of_cover _ _ _ _ _ (coverC4_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC4_4 V c t h0 h1 _ _)
      isplitl [H5]
      · unfold owns; iexists _; isplitr
        swap; · iexact H5
        ipureintro; exact View.read_writes_of_cover _ _ _ _ _ (coverC4_5 V c t h0 h1 _ _)
      unfold owns; iexists _; isplitr
      swap; · iexact H6
      ipureintro; exact View.read_writes_of_cover _ _ _ _ _ (coverC4_6 V c t h0 h1 _ _)
    · have h1 : ¬cond4_1 (grid4.coords t) := fun h => h9 ((hcond4_1 t).mp h)
      rw [Dat.leavesExact_idle (dat4 V c) 5 t (idleAt4_5 t h1) (noFlush4_5 t h1),
        Dat.leavesExact_idle (dat4 V c) 6 t (idleAt4_6 t h1) (noFlush4_6 t h1)]
      rw [outsAt4_B V c t h0 h1]
      unfold stepB4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runB4 (F := F) V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverB4_s0 V c t h0 h1 _ _)
            · unfold owns; iexists _; isplitr
              swap; · iexact HS1
              ipureintro; exact View.read_writes_of_cover _ _ _ _ _ (coverB4_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB4_4 V c t h0 h1 _ _)
      isplitl [H5]; · iexists _; iexact H5
      iexists _; iexact H6

theorem body_obligation4 (c : Dev nD) : BodyObligation (dat4 (F := F) V c) (defs₀ (F := F)) Variants.none () Set.univ := fun t => by
  rw [bigSep_W4, bigSep_W4]
  exact sound_body4 V c t

/-- Before the first point the invariant is the class's. -/
theorem Phi4_zero (c : Dev nD) : (dat4 V c).Φ 0 = Pipeline.ΦA spec4 c := by
  rw [show (dat4 V c).Φ 0 = PhiS4 V c 0 (Nat.zero_le _) from rfl, PhiS4_zero V c 0 _ rfl]

/-- After the last point it gives the class's back: what the accumulators hold is forgotten. -/
theorem Phi4_last (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.Kernel.Hand

end
-- ==== Proof.K.Reg5.lean ====
/-
  Region 5: the second layer's normalisation, block of 5000 rows by block, as in the first layer.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's staging buffer holds its block at every point, whether that point fetches it or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in the result window's buffer: one value of the loaded blocks, stored whole. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨(Rect.unit (s := S5000x64) ![0, 0] S5000x64.size inb_S5000x64_S5000x64_0_0), k5_pay1 (View.ld x2 (Rect.unit (s := S1x64) ![0, 0] S1x64.size inb_S1x64_S1x64_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S1x64) ![0, 0] S1x64.size inb_S1x64_S1x64_0_0)) (View.ld x4 (Rect.unit (s := S1x64) ![0, 0] S1x64.size inb_S1x64_S1x64_0_0))⟩]

theorem cover5_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover5_5 _)

/-- The region's proof data: the arrays as the region finds them; after the body each input's buffer at its block and
    the result's at the stored value of the blocks; nothing carried between points. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/-
  Region 6: the last layer's dense product: the t-th block of 5000 rows of the hidden features times the 64 x 1 weight column, stored as the t-th block of the one-column result.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's staging buffer holds its block at every point, whether that point fetches it or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in the result window's buffer: one value of the loaded blocks, stored whole. -/
def out6_2 (x0 : Vec F S5000x64 .f32) (x1 : Vec F S64x1 .f32) : Vec F S5000x1 .f32 :=
  View.canon [⟨(Rect.unit (s := S5000x1) ![0, 0] S5000x1.size inb_S5000x1_S5000x1_0_0), k6_pay1 (View.ld x0 (Rect.unit (s := S5000x64) ![0, 0] S5000x64.size inb_S5000x64_S5000x64_0_0)) (View.ld x1 (Rect.unit (s := S64x1) ![0, 0] S64x1.size inb_S64x1_S64x1_0_0))⟩]

theorem cover6_2 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole staging buffers: the inputs are read and left as they were, the result buffer ends at the stored value. -/
theorem sound_kernel6 (c : Dev nD) (E : Set ℕ) (i : grid6.Coords) (arg1 : Memref sig .tc .vmem S5000x64 .f32) (harg1 : arg1.IsWhole) (arg2 : Memref sig .tc .vmem S64x1 .f32) (harg2 : arg2.IsWhole) (arg3 : Memref sig .tc .vmem S5000x1 .f32) (harg3 : arg3.IsWhole)
    (x0 : Vec F S5000x64 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover6_2 _)

/-- The region's proof data: the arrays as the region finds them; after the body each input's buffer at its block and
    the result's at the stored value of the blocks; nothing carried between points. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
/-
  Region 7: the last layer's combination. At grid point t the body adds to the t-th block of the neighbour aggregate the block of the dense product scaled row by row by the squared inverse root degree, then the bias, and stores the one-column block whole.
  Stated at any contents V of the buffers when the region is entered and at any float instance.
-/
import proofs.«135780_j72241349919044_1_alg».proof.Proof.Gen.Kernel.Launch
import proofs.«135780_j72241349919044_1_alg».proof.Proof.Gen.Kernel.Skeleton
import proofs.«135780_j72241349919044_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's staging buffer holds its block at every point, whether that point fetches it or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- What the body leaves in the result window's buffer: one value of the loaded blocks, stored whole. -/
def out7_4 (x0 : Vec F S5000x1 .f32) (x1 : Vec F S5000x1 .f32) (x2 : Vec F S5000x1 .f32) (x3 : Vec F S1x1 .f32) : Vec F S5000x1 .f32 :=
  View.canon [⟨(Rect.unit (s := S5000x1) ![0, 0] S5000x1.size inb_S5000x1_S5000x1_0_0), k7_pay1 (View.ld x0 (Rect.unit (s := S5000x1) ![0, 0] S5000x1.size inb_S5000x1_S5000x1_0_0)) (View.ld x1 (Rect.unit (s := S5000x1) ![0, 0] S5000x1.size inb_S5000x1_S5000x1_0_0)) (View.ld x2 (Rect.unit (s := S5000x1) ![0, 0] S5000x1.size inb_S5000x1_S5000x1_0_0)) (View.ld x3 (Rect.unit (s := S1x1) ![0, 0] S1x1.size inb_S1x1_S1x1_0_0))⟩]

theorem cover7_4 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole staging buffers: the inputs are read and left as they were, the result buffer ends at the stored value. -/
theorem sound_kernel7 (c : Dev nD) (E : Set ℕ) (i : grid7.Coords) (arg1 : Memref sig .tc .vmem S5000x1 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S1x1 .f32) (harg4 : arg4.IsWhole) (arg5 : Memref sig .tc .vmem S5000x1 .f32) (harg5 : arg5.IsWhole)
    (x0 : Vec F S5000x1 .f32) (x1 : Vec F S5000x1 .f32) (x2 : Vec F S5000x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out7_4 x0 x1 x2 x3)) -∗ K ⟨⟩))
      ⊢ wp frame (wpE (defs₀ (F := F)) Variants.none c none) E (cc7__combine_only_kernel i arg1 harg1 arg2 harg2 arg3 harg3 arg4 harg4 arg5 harg5) K := by
  simp only [cc7__combine_only_kernel_eq_skeleton]; unfold cc7__combine_only_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover7_4 _)

/-- The region's proof data: the arrays as the region finds them; after the body each input's buffer at its block and
    the result's at the stored value of the blocks; nothing carried between points. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Chain.lean ====
/-
  The contents of every buffer at each boundary between two items of the main program, as a fold from the launch
  memory: a stretch of host operations applies its operations in order; a kernel region leaves each of its windows'
  arrays at what its write-backs make of the entry contents (an input array is never written) and every other buffer
  as entered. Each argument array is read back through the fold to its launch contents.
-/
import proofs.«135780_j72241349919044_1_alg».proof.Proof.K.Reg0
import proofs.«135780_j72241349919044_1_alg».proof.Proof.K.Reg1
import proofs.«135780_j72241349919044_1_alg».proof.Proof.K.Reg2
import proofs.«135780_j72241349919044_1_alg».proof.Proof.K.Reg3
import proofs.«135780_j72241349919044_1_alg».proof.Proof.K.Reg4
import proofs.«135780_j72241349919044_1_alg».proof.Proof.K.Reg5
import proofs.«135780_j72241349919044_1_alg».proof.Proof.K.Reg6
import proofs.«135780_j72241349919044_1_alg».proof.Proof.K.Reg7
import proofs.«135780_j72241349919044_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-- After the host stretch hostOps0. -/
abbrev W1 : Dev nD → Valuation τ sig (Elt F) := fun c => StableHlo.after hostOps0 (W0 m ρ c)
/-- The same contents read at the references of the core itself. -/
abbrev V1 : (c : Dev nD) → (b : Ref sig .tc) → Buf (Elt F) ((c : Thread nD τ).loc b) := fun c b => W1 m ρ c b
/-- A buffer that no operation of the stretch writes keeps its contents. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: each of its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the references of the core itself. -/
abbrev V2 : (c : Dev nD) → (b : Ref sig .tc) → Buf (Elt F) ((c : Thread nD τ).loc b) := fun c b => W2 m ρ c b
/-- At the exit each array of the region holds what the write-backs leave, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output array of the region keeps its contents: either no window has it, or an input window does
    and an input array is never written. -/
theorem W2_keep (c : Dev nD) (b : Ref sig .tc) (h : ∀ w, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b fun w e => hb ⟨w, e⟩

/-- After the host stretch hostOps1. -/
abbrev W3 : Dev nD → Valuation τ sig (Elt F) := fun c => StableHlo.after hostOps1 (W2 m ρ c)
/-- The same contents read at the references of the core itself. -/
abbrev V3 : (c : Dev nD) → (b : Ref sig .tc) → Buf (Elt F) ((c : Thread nD τ).loc b) := fun c b => W3 m ρ c b
/-- A buffer that no operation of the stretch writes keeps its contents. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: each of its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the references of the core itself. -/
abbrev V4 : (c : Dev nD) → (b : Ref sig .tc) → Buf (Elt F) ((c : Thread nD τ).loc b) := fun c b => W4 m ρ c b
/-- At the exit each array of the region holds what the write-backs leave, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no output array of the region keeps its contents: either no window has it, or an input window does
    and an input array is never written. -/
theorem W4_keep (c : Dev nD) (b : Ref sig .tc) (h : ∀ w, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w (h w rfl) _).trans (A_eq1 (V3 m ρ) c w))
  · exact W4_of_ne m ρ c b fun w e => hb ⟨w, e⟩

/-- After the host stretch hostOps2. -/
abbrev W5 : Dev nD → Valuation τ sig (Elt F) := fun c => StableHlo.after hostOps2 (W4 m ρ c)
/-- The same contents read at the references of the core itself. -/
abbrev V5 : (c : Dev nD) → (b : Ref sig .tc) → Buf (Elt F) ((c : Thread nD τ).loc b) := fun c b => W5 m ρ c b
/-- A buffer that no operation of the stretch writes keeps its contents. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: each of its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the references of the core itself. -/
abbrev V6 : (c : Dev nD) → (b : Ref sig .tc) → Buf (Elt F) ((c : Thread nD τ).loc b) := fun c b => W6 m ρ c b
/-- At the exit each array of the region holds what the write-backs leave, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no output array of the region keeps its contents: either no window has it, or an input window does
    and an input array is never written. -/
theorem W6_keep (c : Dev nD) (b : Ref sig .tc) (h : ∀ w, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w (h w rfl) _).trans (A_eq2 (V5 m ρ) c w))
  · exact W6_of_ne m ρ c b fun w e => hb ⟨w, e⟩

/-- At region 3's exit: each of its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the references of the core itself. -/
abbrev V7 : (c : Dev nD) → (b : Ref sig .tc) → Buf (Elt F) ((c : Thread nD τ).loc b) := fun c b => W7 m ρ c b
/-- At the exit each array of the region holds what the write-backs leave, and every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- A buffer that is no output array of the region keeps its contents: either no window has it, or an input window does
    and an input array is never written. -/
theorem W7_keep (c : Dev nD) (b : Ref sig .tc) (h : ∀ w, Pipeline.arrRef spec3 w = b → (cfg3.win w).isOut = false) :
    W7 m ρ c (Proc.devRef .tc b) = W6 m ρ c (Proc.devRef .tc b) := by
  by_cases hb : ∃ w, Pipeline.arrRef spec3 w = b
  · obtain ⟨w, rfl⟩ := hb
    exact (W7_arr m ρ c w).trans (((dat3 (V6 m ρ) c).arrAt_in w (h w rfl) _).trans (A_eq3 (V6 m ρ) c w))
  · exact W7_of_ne m ρ c b fun w e => hb ⟨w, e⟩

/-- After the host stretch hostOps4. -/
abbrev W8 : Dev nD → Valuation τ sig (Elt F) := fun c => StableHlo.after hostOps4 (W7 m ρ c)
/-- The same contents read at the references of the core itself. -/
abbrev V8 : (c : Dev nD) → (b : Ref sig .tc) → Buf (Elt F) ((c : Thread nD τ).loc b) := fun c b => W8 m ρ c b
/-- A buffer that no operation of the stretch writes keeps its contents. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- At region 4's exit: each of its arrays at what the write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same contents read at the references of the core itself. -/
abbrev V9 : (c : Dev nD) → (b : Ref sig .tc) → Buf (Elt F) ((c : Thread nD τ).loc b) := fun c b => W9 m ρ c b
/-- At the exit each array of the region holds what the write-backs leave, and every other buffer what it held at entry. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- A buffer that is no output array of the region keeps its contents: either no window has it, or an input window does
    and an input array is never written. -/
theorem W9_keep (c : Dev nD) (b : Ref sig .tc) (h : ∀ w, Pipeline.arrRef spec4 w = b → (cfg4.win w).isOut = false) :
    W9 m ρ c (Proc.devRef .tc b) = W8 m ρ c (Proc.devRef .tc b) := by
  by_cases hb : ∃ w, Pipeline.arrRef spec4 w = b
  · obtain ⟨w, rfl⟩ := hb
    exact (W9_arr m ρ c w).trans (((dat4 (V8 m ρ) c).arrAt_in w (h w rfl) _).trans (A_eq4 (V8 m ρ) c w))
  · exact W9_of_ne m ρ c b fun w e => hb ⟨w, e⟩

/-- After the host stretch hostOps5. -/
abbrev W10 : Dev nD → Valuation τ sig (Elt F) := fun c => StableHlo.after hostOps5 (W9 m ρ c)
/-- The same contents read at the references of the core itself. -/
abbrev V10 : (c : Dev nD) → (b : Ref sig .tc) → Buf (Elt F) ((c : Thread nD τ).loc b) := fun c b => W10 m ρ c b
/-- A buffer that no operation of the stretch writes keeps its contents. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- At region 5's exit: each of its arrays at what the write-backs leave, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same contents read at the references of the core itself. -/
abbrev V11 : (c : Dev nD) → (b : Ref sig .tc) → Buf (Elt F) ((c : Thread nD τ).loc b) := fun c b => W11 m ρ c b
/-- At the exit each array of the region holds what the write-backs leave, and every other buffer what it held at entry. -/
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- A buffer that is no output array of the region keeps its contents: either no window has it, or an input window does
    and an input array is never written. -/
theorem W11_keep (c : Dev nD) (b : Ref sig .tc) (h : ∀ w, Pipeline.arrRef spec5 w = b → (cfg5.win w).isOut = false) :
    W11 m ρ c (Proc.devRef .tc b) = W10 m ρ c (Proc.devRef .tc b) := by
  by_cases hb : ∃ w, Pipeline.arrRef spec5 w = b
  · obtain ⟨w, rfl⟩ := hb
    exact (W11_arr m ρ c w).trans (((dat5 (V10 m ρ) c).arrAt_in w (h w rfl) _).trans (A_eq5 (V10 m ρ) c w))
  · exact W11_of_ne m ρ c b fun w e => hb ⟨w, e⟩

/-- At region 6's exit: each of its arrays at what the write-backs leave, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- The same contents read at the references of the core itself. -/
abbrev V12 : (c : Dev nD) → (b : Ref sig .tc) → Buf (Elt F) ((c : Thread nD τ).loc b) := fun c b => W12 m ρ c b
/-- At the exit each array of the region holds what the write-backs leave, and every other buffer what it held at entry. -/
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- A buffer that is no output array of the region keeps its contents: either no window has it, or an input window does
    and an input array is never written. -/
theorem W12_keep (c : Dev nD) (b : Ref sig .tc) (h : ∀ w, Pipeline.arrRef spec6 w = b → (cfg6.win w).isOut = false) :
    W12 m ρ c (Proc.devRef .tc b) = W11 m ρ c (Proc.devRef .tc b) := by
  by_cases hb : ∃ w, Pipeline.arrRef spec6 w = b
  · obtain ⟨w, rfl⟩ := hb
    exact (W12_arr m ρ c w).trans (((dat6 (V11 m ρ) c).arrAt_in w (h w rfl) _).trans (A_eq6 (V11 m ρ) c w))
  · exact W12_of_ne m ρ c b fun w e => hb ⟨w, e⟩

/-- After the host stretch hostOps7. -/
abbrev W13 : Dev nD → Valuation τ sig (Elt F) := fun c => StableHlo.after hostOps7 (W12 m ρ c)
/-- The same contents read at the references of the core itself. -/
abbrev V13 : (c : Dev nD) → (b : Ref sig .tc) → Buf (Elt F) ((c : Thread nD τ).loc b) := fun c b => W13 m ρ c b
/-- A buffer that no operation of the stretch writes keeps its contents. -/
theorem W13_keep (c : Dev nD) (r : Ref sig .tc) (h : r ∉ hostOps7_W) :
    W13 m ρ c (Proc.devRef .tc r) = W12 m ρ c (Proc.devRef .tc r) :=
  StableHlo.after_of_writes_sub hostOps7 _ hostOps7_writes h

/-- At region 7's exit: each of its arrays at what the write-backs leave, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- The same contents read at the references of the core itself. -/
abbrev V14 : (c : Dev nD) → (b : Ref sig .tc) → Buf (Elt F) ((c : Thread nD τ).loc b) := fun c b => W14 m ρ c b
/-- At the exit each array of the region holds what the write-backs leave, and every other buffer what it held at entry. -/
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- A buffer that is no output array of the region keeps its contents: either no window has it, or an input window does
    and an input array is never written. -/
theorem W14_keep (c : Dev nD) (b : Ref sig .tc) (h : ∀ w, Pipeline.arrRef spec7 w = b → (cfg7.win w).isOut = false) :
    W14 m ρ c (Proc.devRef .tc b) = W13 m ρ c (Proc.devRef .tc b) := by
  by_cases hb : ∃ w, Pipeline.arrRef spec7 w = b
  · obtain ⟨w, rfl⟩ := hb
    exact (W14_arr m ρ c w).trans (((dat7 (V13 m ρ) c).arrAt_in w (h w rfl) _).trans (A_eq7 (V13 m ρ) c w))
  · exact W14_of_ne m ρ c b fun w e => hb ⟨w, e⟩

/-! The arguments end as launched: no host operation writes one, and a region has one at most as an input array. -/

theorem W14_main_arg0 (c : Dev nD) : W14 m ρ c (Proc.devRef .tc main_arg0) = m ((c : Thread nD τ).loc main_arg0) :=
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans <| rfl

theorem W14_main_arg1 (c : Dev nD) : W14 m ρ c (Proc.devRef .tc main_arg1) = m ((c : Thread nD τ).loc main_arg1) :=
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans <| rfl

theorem W14_main_arg2 (c : Dev nD) : W14 m ρ c (Proc.devRef .tc main_arg2) = m ((c : Thread nD τ).loc main_arg2) :=
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans <| rfl

theorem W14_main_arg3 (c : Dev nD) : W14 m ρ c (Proc.devRef .tc main_arg3) = m ((c : Thread nD τ).loc main_arg3) :=
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans <| rfl

theorem W14_main_arg4 (c : Dev nD) : W14 m ρ c (Proc.devRef .tc main_arg4) = m ((c : Thread nD τ).loc main_arg4) :=
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_keep m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans <| rfl

theorem W14_main_arg5 (c : Dev nD) : W14 m ρ c (Proc.devRef .tc main_arg5) = m ((c : Thread nD τ).loc main_arg5) :=
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans <| rfl

theorem W14_main_arg6 (c : Dev nD) : W14 m ρ c (Proc.devRef .tc main_arg6) = m ((c : Thread nD τ).loc main_arg6) :=
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans <| rfl

theorem W14_main_arg7 (c : Dev nD) : W14 m ρ c (Proc.devRef .tc main_arg7) = m ((c : Thread nD τ).loc main_arg7) :=
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans <| rfl

theorem W14_main_arg8 (c : Dev nD) : W14 m ρ c (Proc.devRef .tc main_arg8) = m ((c : Thread nD τ).loc main_arg8) :=
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans <| rfl

theorem W14_main_arg9 (c : Dev nD) : W14 m ρ c (Proc.devRef .tc main_arg9) = m ((c : Thread nD τ).loc main_arg9) :=
  (W14_keep m ρ c main_arg9 (by decide)).trans <|
  (W13_keep m ρ c main_arg9 (by decide)).trans <|
  (W12_keep m ρ c main_arg9 (by decide)).trans <|
  (W11_keep m ρ c main_arg9 (by decide)).trans <|
  (W10_keep m ρ c main_arg9 (by decide)).trans <|
  (W9_keep m ρ c main_arg9 (by decide)).trans <|
  (W8_keep m ρ c main_arg9 (by decide)).trans <|
  (W7_keep m ρ c main_arg9 (by decide)).trans <|
  (W6_keep m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans <| rfl

theorem W14_main_arg10 (c : Dev nD) : W14 m ρ c (Proc.devRef .tc main_arg10) = m ((c : Thread nD τ).loc main_arg10) :=
  (W14_keep m ρ c main_arg10 (by decide)).trans <|
  (W13_keep m ρ c main_arg10 (by decide)).trans <|
  (W12_keep m ρ c main_arg10 (by decide)).trans <|
  (W11_keep m ρ c main_arg10 (by decide)).trans <|
  (W10_keep m ρ c main_arg10 (by decide)).trans <|
  (W9_keep m ρ c main_arg10 (by decide)).trans <|
  (W8_keep m ρ c main_arg10 (by decide)).trans <|
  (W7_keep m ρ c main_arg10 (by decide)).trans <|
  (W6_keep m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans <| rfl

theorem W14_main_arg11 (c : Dev nD) : W14 m ρ c (Proc.devRef .tc main_arg11) = m ((c : Thread nD τ).loc main_arg11) :=
  (W14_keep m ρ c main_arg11 (by decide)).trans <|
  (W13_keep m ρ c main_arg11 (by decide)).trans <|
  (W12_keep m ρ c main_arg11 (by decide)).trans <|
  (W11_keep m ρ c main_arg11 (by decide)).trans <|
  (W10_keep m ρ c main_arg11 (by decide)).trans <|
  (W9_keep m ρ c main_arg11 (by decide)).trans <|
  (W8_keep m ρ c main_arg11 (by decide)).trans <|
  (W7_keep m ρ c main_arg11 (by decide)).trans <|
  (W6_keep m ρ c main_arg11 (by decide)).trans <|
  (W5_keep m ρ c main_arg11 (by decide)).trans <|
  (W4_keep m ρ c main_arg11 (by decide)).trans <|
  (W3_keep m ρ c main_arg11 (by decide)).trans <|
  (W2_keep m ρ c main_arg11 (by decide)).trans <|
  (W1_keep m ρ c main_arg11 (by decide)).trans <| rfl

/-- The last region's result array, window 4 of region 7, at the end. -/
theorem W14_out (c : Dev nD) : W14 m ρ c (Proc.devRef .tc main_v122) = (dat7 (V13 m ρ) c).arrAt 4 cfg7.N :=
  W14_arr m ρ c 4

end Cert.Kernel.Hand

end
-- ==== Proof.K.Data.lean ====
/-
  The proof data of all the regions as one family, and the thread state between two items of the main program:
  every unscoped buffer of the core at the boundary's contents, the generator register at some state, nothing owed.
-/
import proofs.«135780_j72241349919044_1_alg».proof.Proof.K.Chain
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The proof data family and the thread state -/

/-- Every region's proof data, each at its region's entry contents: a literal match, so that the family at a numeral
    reduces to the printed data. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
  | ⟨7, _⟩ => fun c => dat7 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents W, R riding along; it ends at those
    references after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W14 m ρ c) ∗ ∃ r, prngReg c r)

end Cert.Kernel.Hand

end
-- ==== Proof.K.SegsA.lean ====
/-
  The kernel regions 0, 1, 2, 3 as items of the main program over the thread state: at entry the region's arrays are split
  out of the unscoped buffers, at exit they are put back at what the write-backs leave.
-/
import proofs.«135780_j72241349919044_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification may
-- unfold plain definitions in a metavariable's type
set_option backward.isDefEq.respectTransparency.types false in
/-- Region 0 over the thread state: entered from every unscoped buffer at W1, left at W2. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at W3, left at W4. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2 over the thread state: entered from every unscoped buffer at W5, left at W6. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3 over the thread state: entered from every unscoped buffer at W6, left at W7. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.SegsB.lean ====
/-
  The kernel regions 4, 5, 6, 7 as items of the main program over the thread state: at entry the region's arrays are split
  out of the unscoped buffers, at exit they are put back at what the write-backs leave.
-/
import proofs.«135780_j72241349919044_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification may
-- unfold plain definitions in a metavariable's type
set_option backward.isDefEq.respectTransparency.types false in
/-- Region 4 over the thread state: entered from every unscoped buffer at W8, left at W9. Its arrays are split out
    of the unscoped buffers and put back at the exit contents; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from Phi4_zero (V8 m ρ) c]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from Phi4_last (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 5 over the thread state: entered from every unscoped buffer at W10, left at W11. Its arrays are split out
    of the unscoped buffers and put back at the exit contents; the generator register goes into the invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 6 over the thread state: entered from every unscoped buffer at W11, left at W12. Its arrays are split out
    of the unscoped buffers and put back at the exit contents; the generator register goes into the invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 7 over the thread state: entered from every unscoped buffer at W13, left at W14. Its arrays are split out
    of the unscoped buffers and put back at the exit contents; the generator register goes into the invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
/-
  The run of the main program: its fourteen items in order from the launch, each entered from the thread state the
  one before it leaves; at the end every unscoped buffer of every core is read off the last boundary's contents, and
  the argument arrays among them hold what they held at launch.
-/
import proofs.«135780_j72241349919044_1_alg».proof.Proof.K.SegsA
import proofs.«135780_j72241349919044_1_alg».proof.Proof.K.SegsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The main program's 14 items in order: a host item per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ) ]

/-- The main program is the run of the items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters every weakly fair execution of the main program terminates, nothing faulting, and
    every final memory satisfies any property that follows from: every unscoped buffer of every core holds the last
    boundary's contents. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W14 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := hQ)

/-- The run with every unscoped buffer read back: each final memory holds, on every core and at every unscoped buffer,
    the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  run_post m ρ fun _ h => h

/-- The frame claim at any float instance: the run terminates and every final memory has each argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_post m ρ fun s h c =>
    ⟨(h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c)⟩

end Cert.Kernel.Hand

end
-- ==== Proof.KI.Reg0.lean ====
/-
  Region 0: the first layer's dense product. At grid point t the body multiplies the t-th block of 5000 rows of the node features by the whole 64 x 64 weight matrix (one matrix product into a zero accumulator) and stores the 5000 x 64 product whole as the t-th block of the result.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, whether that point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the result window's buffer: one value of the loaded blocks, stored whole. -/
def out0_2 (x0 : Vec F S5000x64 .f32) (x1 : Vec F S64x64 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0))⟩]

theorem cover0_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover0_2 _)

/-- The region's proof data: the arrays as the region finds them; after the body each input's buffer at its block and
    the result's at the stored value of the blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
/-
  Region 1: a layer's combination and its column statistics. At grid point t the body forms the t-th block of 5000 rows of
  P = agg + H * d + b (d the squared inverse root degree of each row, b the bias row) and stores it as the t-th block of the
  first result; it also keeps two 1 x 64 accumulators in scratch buffers that live across the grid: both are zeroed at the
  first point, at every point the column sums of the block and of its entrywise square are added to them, and at the last
  point they are copied into the second and third results, which no other point stores into.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid, and where the two statistics windows are idle -/

/-- "This is the first point", as the body computes it from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is the last point". -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem idleAt1_6 : ∀ t : Fin cfg1.N, ¬cond1_1 (grid1.coords t) → cfg1.idle 6 (grid1.coords t) = true := by decide +kernel
theorem noFlush1_5 : ∀ t : Fin cfg1.N, ¬cond1_1 (grid1.coords t) → (cfg1.win 5).flush t = false := by decide +kernel
theorem noFlush1_6 : ∀ t : Fin cfg1.N, ¬cond1_1 (grid1.coords t) → (cfg1.win 6).flush t = false := by decide +kernel
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## The scratch accumulators -/

abbrev sc1_0 : Memref sig .tc .vmem S1x64 .f32 := Memref.whole cc1_scratch0
abbrev sc1_1 : Memref sig .tc .vmem S1x64 .f32 := Memref.whole cc1_scratch1

/-- The class invariant with the two accumulators split off the scoped buffers no window stages. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sc1_0, sc1_1, owns_whole]; try rfl

/-! ## The body's run, case by case -/

set_option maxHeartbeats 4000000 in
/-- THE FIRST POINT: both accumulators are zeroed and then added to; nothing is stored into the two statistics windows,
    whose buffers are handed back as found. The pieces each written buffer ends with are what the run finds. -/
noncomputable def kernelRun1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S5000x64 .f32) (x1 : Vec F S5000x64 .f32) (x2 : Vec F S5000x1 .f32) (x3 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__combine_stats_kernel_eq_skeleton]; unfold cc1__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A MIDDLE POINT: the accumulators, found at what the point before left (xs0, xs1), are added to; the two statistics
    windows are handed back as found. -/
noncomputable def kernelRun1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__combine_stats_kernel_eq_skeleton]; unfold cc1__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- THE LAST POINT: the accumulators are added to and then copied into the two statistics windows. -/
noncomputable def kernelRun1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (L5 : List (View.Piece (Elt F) S1x64 .f32)), Σ' (L6 : List (View.Piece (Elt F) S1x64 .f32)),
     Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Reg1.lean ====
/-
  Region 1, continued: what the written buffers hold after each point (by recursion on the point), the invariant that
  carries the two accumulators from one point to the next, the region's proof data and the body obligation at every point.
-/
import proofs.«135780_j72241349919044_1_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What the written buffers hold after each point -/

/-- Views through which a written buffer's contents are stated (which staging buffer is taken does not matter). -/
abbrev VO1_4 : View sig .tc .vmem S5000x64 .f32 := (Memref.whole cc1_stg4_0 : Memref sig .tc .vmem S5000x64 .f32).view
abbrev VO1_5 : View sig .tc .vmem S1x64 .f32 := (Memref.whole cc1_stg5_0 : Memref sig .tc .vmem S1x64 .f32).view
abbrev VO1_6 : View sig .tc .vmem S1x64 .f32 := (Memref.whole cc1_stg6_0 : Memref sig .tc .vmem S1x64 .f32).view
abbrev VS1_0 : View sig .tc .vmem S1x64 .f32 := sc1_0.view
abbrev VS1_1 : View sig .tc .vmem S1x64 .f32 := sc1_1.view
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The three runs at the memrefs and input blocks of point t. -/
abbrev runA1 (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) h0 h1 (iblk1 V c 0 t) (iblk1 V c 1 t) (iblk1 V c 2 t) (iblk1 V c 3 t)
abbrev runB1 (c : Dev nD) (t : Fin cfg1.N) (h0 : ¬cond1_0 (grid1.coords t)) (h1 : ¬cond1_1 (grid1.coords t)) (xs0 xs1 : Vec F S1x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) h0 h1 (iblk1 V c 0 t) (iblk1 V c 1 t) (iblk1 V c 2 t) (iblk1 V c 3 t) xs0 xs1
abbrev runC1 (c : Dev nD) (t : Fin cfg1.N) (h0 : ¬cond1_0 (grid1.coords t)) (h1 : cond1_1 (grid1.coords t)) (xs0 xs1 : Vec F S1x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) sc1_0 (Memref.isWhole_whole _) sc1_1 (Memref.isWhole_whole _) h0 h1 (iblk1 V c 0 t) (iblk1 V c 1 t) (iblk1 V c 2 t) (iblk1 V c 3 t) xs0 xs1

/-- Reading a list of pieces back over anything, through a fixed view. -/
abbrev rd1_4 (L : List (View.Piece (Elt F) S5000x64 .f32)) : Vec F S5000x64 .f32 := VO1_4.read (Elt F) (VO1_4.writes (Elt F) VO1_4.junk L)
abbrev rd1_5 (L : List (View.Piece (Elt F) S1x64 .f32)) : Vec F S1x64 .f32 := VO1_5.read (Elt F) (VO1_5.writes (Elt F) VO1_5.junk L)
abbrev rd1_6 (L : List (View.Piece (Elt F) S1x64 .f32)) : Vec F S1x64 .f32 := VO1_6.read (Elt F) (VO1_6.writes (Elt F) VO1_6.junk L)
abbrev rs1_0 (L : List (View.Piece (Elt F) S1x64 .f32)) : Vec F S1x64 .f32 := VS1_0.read (Elt F) (VS1_0.writes (Elt F) VS1_0.junk L)
abbrev rs1_1 (L : List (View.Piece (Elt F) S1x64 .f32)) : Vec F S1x64 .f32 := VS1_1.read (Elt F) (VS1_1.writes (Elt F) VS1_1.junk L)

/-- What one point's stores cover: each written buffer whole. -/
theorem coverA1_4 (c t h0 h1) (y : S5000x64.Idx) : ∃ pc ∈ (runA1 (F := F) V c t h0 h1).1, y ∈ pc.1.set :=
  View.cover_of_tiledL (runA1 (F := F) V c t h0 h1).1 S5000x64.size (by sl_kernel_rfl) y
theorem coverA1_s0 (c t h0 h1) (y : S1x64.Idx) : ∃ pc ∈ (runA1 (F := F) V c t h0 h1).2.1, y ∈ pc.1.set :=
  View.cover_of_tiledL (runA1 (F := F) V c t h0 h1).2.1 S1x64.size (by sl_kernel_rfl) y
theorem coverA1_s1 (c t h0 h1) (y : S1x64.Idx) : ∃ pc ∈ (runA1 (F := F) V c t h0 h1).2.2.1, y ∈ pc.1.set :=
  View.cover_of_tiledL (runA1 (F := F) V c t h0 h1).2.2.1 S1x64.size (by sl_kernel_rfl) y
theorem coverB1_4 (c t h0 h1 xs0 xs1) (y : S5000x64.Idx) : ∃ pc ∈ (runB1 (F := F) V c t h0 h1 xs0 xs1).1, y ∈ pc.1.set :=
  View.cover_of_tiledL (runB1 (F := F) V c t h0 h1 xs0 xs1).1 S5000x64.size (by sl_kernel_rfl) y
theorem coverB1_s0 (c t h0 h1 xs0 xs1) (y : S1x64.Idx) : ∃ pc ∈ (runB1 (F := F) V c t h0 h1 xs0 xs1).2.1, y ∈ pc.1.set :=
  View.cover_of_tiledL (runB1 (F := F) V c t h0 h1 xs0 xs1).2.1 S1x64.size (by sl_kernel_rfl) y
theorem coverB1_s1 (c t h0 h1 xs0 xs1) (y : S1x64.Idx) : ∃ pc ∈ (runB1 (F := F) V c t h0 h1 xs0 xs1).2.2.1, y ∈ pc.1.set :=
  View.cover_of_tiledL (runB1 (F := F) V c t h0 h1 xs0 xs1).2.2.1 S1x64.size (by sl_kernel_rfl) y
theorem coverC1_4 (c t h0 h1 xs0 xs1) (y : S5000x64.Idx) : ∃ pc ∈ (runC1 (F := F) V c t h0 h1 xs0 xs1).1, y ∈ pc.1.set :=
  View.cover_of_tiledL (runC1 (F := F) V c t h0 h1 xs0 xs1).1 S5000x64.size (by sl_kernel_rfl) y
theorem coverC1_5 (c t h0 h1 xs0 xs1) (y : S1x64.Idx) : ∃ pc ∈ (runC1 (F := F) V c t h0 h1 xs0 xs1).2.1, y ∈ pc.1.set :=
  View.cover_of_tiledL (runC1 (F := F) V c t h0 h1 xs0 xs1).2.1 S1x64.size (by sl_kernel_rfl) y
theorem coverC1_6 (c t h0 h1 xs0 xs1) (y : S1x64.Idx) : ∃ pc ∈ (runC1 (F := F) V c t h0 h1 xs0 xs1).2.2.1, y ∈ pc.1.set :=
  View.cover_of_tiledL (runC1 (F := F) V c t h0 h1 xs0 xs1).2.2.1 S1x64.size (by sl_kernel_rfl) y
theorem coverC1_s0 (c t h0 h1 xs0 xs1) (y : S1x64.Idx) : ∃ pc ∈ (runC1 (F := F) V c t h0 h1 xs0 xs1).2.2.2.1, y ∈ pc.1.set :=
  View.cover_of_tiledL (runC1 (F := F) V c t h0 h1 xs0 xs1).2.2.2.1 S1x64.size (by sl_kernel_rfl) y
theorem coverC1_s1 (c t h0 h1 xs0 xs1) (y : S1x64.Idx) : ∃ pc ∈ (runC1 (F := F) V c t h0 h1 xs0 xs1).2.2.2.2.1, y ∈ pc.1.set :=
  View.cover_of_tiledL (runC1 (F := F) V c t h0 h1 xs0 xs1).2.2.2.2.1 S1x64.size (by sl_kernel_rfl) y

/-! ## The accumulation -/

/-- What one point leaves, case by case: (the block of P, the two statistics windows' buffers, the two accumulators).
    A case that stores nothing into the statistics windows names no contents for them (they are idle there). -/
def stepA1 (c : Dev nD) (t : Fin cfg1.N) (h0 : cond1_0 (grid1.coords t)) (h1 : ¬cond1_1 (grid1.coords t)) : Vec F S5000x64 .f32 × Vec F S1x64 .f32 × Vec F S1x64 .f32 × Vec F S1x64 .f32 × Vec F S1x64 .f32 :=
  (rd1_4 (runA1 (F := F) V c t h0 h1).1, rd1_5 [], rd1_6 [], rs1_0 (runA1 (F := F) V c t h0 h1).2.1, rs1_1 (runA1 (F := F) V c t h0 h1).2.2.1)
def stepB1 (c : Dev nD) (t : Fin cfg1.N) (h0 : ¬cond1_0 (grid1.coords t)) (h1 : ¬cond1_1 (grid1.coords t)) (xs0 xs1 : Vec F S1x64 .f32) : Vec F S5000x64 .f32 × Vec F S1x64 .f32 × Vec F S1x64 .f32 × Vec F S1x64 .f32 × Vec F S1x64 .f32 :=
  (rd1_4 (runB1 (F := F) V c t h0 h1 xs0 xs1).1, rd1_5 [], rd1_6 [], rs1_0 (runB1 (F := F) V c t h0 h1 xs0 xs1).2.1, rs1_1 (runB1 (F := F) V c t h0 h1 xs0 xs1).2.2.1)
def stepC1 (c : Dev nD) (t : Fin cfg1.N) (h0 : ¬cond1_0 (grid1.coords t)) (h1 : cond1_1 (grid1.coords t)) (xs0 xs1 : Vec F S1x64 .f32) : Vec F S5000x64 .f32 × Vec F S1x64 .f32 × Vec F S1x64 .f32 × Vec F S1x64 .f32 × Vec F S1x64 .f32 :=
  (rd1_4 (runC1 (F := F) V c t h0 h1 xs0 xs1).1, rd1_5 (runC1 (F := F) V c t h0 h1 xs0 xs1).2.1, rd1_6 (runC1 (F := F) V c t h0 h1 xs0 xs1).2.2.1,
    rs1_0 (runC1 (F := F) V c t h0 h1 xs0 xs1).2.2.2.1, rs1_1 (runC1 (F := F) V c t h0 h1 xs0 xs1).2.2.2.2.1)

/-- THE ACCUMULATION, by recursion on the point: the first point starts the accumulators, every later one adds to what the
    point before left, the last one also copies them out. -/
def outsAt1 (c : Dev nD) : (n : ℕ) → n < cfg1.N → Vec F S5000x64 .f32 × Vec F S1x64 .f32 × Vec F S1x64 .f32 × Vec F S1x64 .f32 × Vec F S1x64 .f32
  | 0, hn => stepA1 V c ⟨0, hn⟩ ((hcond1_0 ⟨0, hn⟩).mpr rfl) (fun h => (fun h => by (try dsimp only at h); omega) ((hcond1_1 ⟨0, hn⟩).mp h))
  | n + 1, hn =>
    if h1 : n + 1 = 9 then
      stepC1 V c ⟨n + 1, hn⟩ (fun h => Nat.succ_ne_zero n ((hcond1_0 ⟨n + 1, hn⟩).mp h)) ((hcond1_1 ⟨n + 1, hn⟩).mpr h1)
        (outsAt1 c n (Nat.lt_of_succ_lt hn)).2.2.2.1 (outsAt1 c n (Nat.lt_of_succ_lt hn)).2.2.2.2
    else
      stepB1 V c ⟨n + 1, hn⟩ (fun h => Nat.succ_ne_zero n ((hcond1_0 ⟨n + 1, hn⟩).mp h)) (fun h => h1 ((hcond1_1 ⟨n + 1, hn⟩).mp h))
        (outsAt1 c n (Nat.lt_of_succ_lt hn)).2.2.2.1 (outsAt1 c n (Nat.lt_of_succ_lt hn)).2.2.2.2

theorem outsAt1_A (c : Dev nD) (t : Fin cfg1.N) (h0 : cond1_0 (grid1.coords t)) (h1 : ¬cond1_1 (grid1.coords t)) :
    outsAt1 V c t.val t.isLt = stepA1 V c t h0 h1 := by
  obtain ⟨n, hn⟩ := t
  cases n with
  | zero => exact rfl
  | succ n => exact absurd ((hcond1_0 ⟨n + 1, hn⟩).mp h0) (Nat.succ_ne_zero n)

theorem outsAt1_B (c : Dev nD) (t : Fin cfg1.N) (h0 : ¬cond1_0 (grid1.coords t)) (h1 : ¬cond1_1 (grid1.coords t)) :
    outsAt1 V c t.val t.isLt = stepB1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd ((hcond1_0 ⟨0, hn⟩).mpr rfl) h0
  | succ n => exact (dif_neg (fun h => h1 ((hcond1_1 ⟨n + 1, hn⟩).mpr h))).trans rfl

theorem outsAt1_C (c : Dev nD) (t : Fin cfg1.N) (h0 : ¬cond1_0 (grid1.coords t)) (h1 : cond1_1 (grid1.coords t)) :
    outsAt1 V c t.val t.isLt = stepC1 V c t h0 h1
      (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact absurd ((hcond1_0 ⟨0, hn⟩).mpr rfl) h0
  | succ n => exact (dif_pos ((hcond1_1 ⟨n + 1, hn⟩).mp h1)).trans rfl

/-! ## The invariant: the accumulators at what the point before left -/

def PhiS1 (c : Dev nD) : (n : ℕ) → n ≤ cfg1.N → sProp 𝕄
  | 0, _ => Pipeline.ΦA spec1 c
  | n + 1, hn => iprop(iprop(iprop(owns (c : Thread nD τ) sc1_0 fullShare (outsAt1 V c n hn).2.2.2.1 ∗ owns (c : Thread nD τ) sc1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) sc1_0 fullShare (outsAt1 V c n hn).2.2.2.1 ∗ owns (c : Thread nD τ) sc1_1 fullShare (outsAt1 V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl
theorem PhiS1_pos (c : Dev nD) (n : ℕ) (h : n ≤ cfg1.N) (hz : n ≠ 0) :
    PhiS1 V c n h = iprop(iprop(iprop(owns (c : Thread nD τ) sc1_0 fullShare (outsAt1 V c (n - 1) (by omega)).2.2.2.1 ∗ owns (c : Thread nD τ) sc1_1 fullShare (outsAt1 V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: which case the point is in is decided by the closed forms; the invariant hands the body the
    accumulators at what the point before left (at anything at the first point) and takes them back at this point's contents;
    the statistics windows are handed back as found except at the last point, where they take the accumulators' contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [show (dat1 V c).leavesExact 4 t = owns (c : Thread nD τ) (ms1_4 t) fullShare ((dat1 V c).after 4 t) from by
    unfold Dat.leavesExact; rw [liveAt1_4 t]]
  rw [after1_0, after1_1, after1_2, after1_3, after1_4]
  have hN : t.val < 10 := lt_of_lt_of_eq t.isLt (show cfg1.N = 10 from N_1)
  by_cases hz : t.val = 0
  · have h0 : cond1_0 (grid1.coords t) := (hcond1_0 t).mpr hz
    have h1 : ¬cond1_1 (grid1.coords t) := fun h => by have := (hcond1_1 t).mp h; omega
    rw [Dat.leavesExact_idle (dat1 V c) 5 t (idleAt1_5 t h1) (noFlush1_5 t h1),
      Dat.leavesExact_idle (dat1 V c) 6 t (idleAt1_6 t h1) (noFlush1_6 t h1)]
    rw [outsAt1_A V c t h0 h1]
    unfold stepA1; (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA1 (F := F) V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (coverA1_s0 V c t h0 h1)
          · unfold owns; iexists _; isplitr
            swap; · iexact HS1
            ipureintro; exact View.read_writes_of_cover _ _ _ _ _ (coverA1_s1 V c t h0 h1)
        · iexact Hrest
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA1_4 V c t h0 h1)
    isplitl [H5]; · iexists _; iexact H5
    iexists _; iexact H6
  · have h0 : ¬cond1_0 (grid1.coords t) := fun h => hz ((hcond1_0 t).mp h)
    by_cases h9 : t.val = 9
    · have h1 : cond1_1 (grid1.coords t) := (hcond1_1 t).mpr h9
      rw [show (dat1 V c).leavesExact 5 t = owns (c : Thread nD τ) (ms1_5 t) fullShare ((dat1 V c).after 5 t) from by
        unfold Dat.leavesExact; rw [liveAt1_5 t h1]]
      rw [show (dat1 V c).leavesExact 6 t = owns (c : Thread nD τ) (ms1_6 t) fullShare ((dat1 V c).after 6 t) from by
        unfold Dat.leavesExact; rw [liveAt1_6 t h1]]
      rw [after1_5, after1_6, outsAt1_C V c t h0 h1]
      unfold stepC1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runC1 (F := F) V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverC1_s0 V c t h0 h1 _ _)
            · unfold owns; iexists _; isplitr
              swap; · iexact HS1
              ipureintro; exact View.read_writes_of_cover _ _ _ _ _ (coverC1_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC1_4 V c t h0 h1 _ _)
      isplitl [H5]
      · unfold owns; iexists _; isplitr
        swap; · iexact H5
        ipureintro; exact View.read_writes_of_cover _ _ _ _ _ (coverC1_5 V c t h0 h1 _ _)
      unfold owns; iexists _; isplitr
      swap; · iexact H6
      ipureintro; exact View.read_writes_of_cover _ _ _ _ _ (coverC1_6 V c t h0 h1 _ _)
    · have h1 : ¬cond1_1 (grid1.coords t) := fun h => h9 ((hcond1_1 t).mp h)
      rw [Dat.leavesExact_idle (dat1 V c) 5 t (idleAt1_5 t h1) (noFlush1_5 t h1),
        Dat.leavesExact_idle (dat1 V c) 6 t (idleAt1_6 t h1) (noFlush1_6 t h1)]
      rw [outsAt1_B V c t h0 h1]
      unfold stepB1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runB1 (F := F) V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverB1_s0 V c t h0 h1 _ _)
            · unfold owns; iexists _; isplitr
              swap; · iexact HS1
              ipureintro; exact View.read_writes_of_cover _ _ _ _ _ (coverB1_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB1_4 V c t h0 h1 _ _)
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After the last point it gives the class's back: what the accumulators hold is forgotten. -/
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.KernelIdeal.Hand

end
-- ==== Proof.KI.Reg2.lean ====
/-
  Region 2: the first layer's normalisation. At grid point t the body takes the t-th block of 5000 rows of the pre-activations and the four rows mean, variance, scale and shift, forms scale * (x - mean) * rsqrt(variance + eps) + shift, clamps it below at zero and stores the block whole.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, whether that point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the result window's buffer: one value of the loaded blocks, stored whole. -/
def out2_5 (x0 : Vec F S5000x64 .f32) (x1 : Vec F S1x64 .f32) (x2 : Vec F S1x64 .f32) (x3 : Vec F S1x64 .f32) (x4 : Vec F S1x64 .f32) : Vec F S5000x64 .f32 :=
  View.canon [⟨(Rect.unit (s := S5000x64) ![0, 0] S5000x64.size inb_S5000x64_S5000x64_0_0), k2_pay1 (View.ld x2 (Rect.unit (s := S1x64) ![0, 0] S1x64.size inb_S1x64_S1x64_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S1x64) ![0, 0] S1x64.size inb_S1x64_S1x64_0_0)) (View.ld x4 (Rect.unit (s := S1x64) ![0, 0] S1x64.size inb_S1x64_S1x64_0_0))⟩]

theorem cover2_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover2_5 _)

/-- The region's proof data: the arrays as the region finds them; after the body each input's buffer at its block and
    the result's at the stored value of the blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3: the second layer's dense product, block of 5000 rows by block, as in the first layer.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's staging buffer holds its block at every point, whether that point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the result window's buffer: one value of the loaded blocks, stored whole. -/
def out3_2 (x0 : Vec F S5000x64 .f32) (x1 : Vec F S64x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S64x64) ![0, 0] S64x64.size inb_S64x64_S64x64_0_0))⟩]

theorem cover3_2 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover3_2 _)

/-- The region's proof data: the arrays as the region finds them; after the body each input's buffer at its block and
    the result's at the stored value of the blocks; nothing carried between points. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4Runs.lean ====
/-
  Region 4: a layer's combination and its column statistics. At grid point t the body forms the t-th block of 5000 rows of
  P = agg + H * d + b (d the squared inverse root degree of each row, b the bias row) and stores it as the t-th block of the
  first result; it also keeps two 1 x 64 accumulators in scratch buffers that live across the grid: both are zeroed at the
  first point, at every point the column sums of the block and of its entrywise square are added to them, and at the last
  point they are copied into the second and third results, which no other point stores into.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions over the grid, and where the two statistics windows are idle -/

/-- "This is the first point", as the body computes it from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- "This is the last point". -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, ¬cond4_1 (grid4.coords t) → cfg4.idle 5 (grid4.coords t) = true := by decide +kernel
theorem idleAt4_6 : ∀ t : Fin cfg4.N, ¬cond4_1 (grid4.coords t) → cfg4.idle 6 (grid4.coords t) = true := by decide +kernel
theorem noFlush4_5 : ∀ t : Fin cfg4.N, ¬cond4_1 (grid4.coords t) → (cfg4.win 5).flush t = false := by decide +kernel
theorem noFlush4_6 : ∀ t : Fin cfg4.N, ¬cond4_1 (grid4.coords t) → (cfg4.win 6).flush t = false := by decide +kernel
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

/-! ## The scratch accumulators -/

abbrev sc4_0 : Memref sig .tc .vmem S1x64 .f32 := Memref.whole cc4_scratch0
abbrev sc4_1 : Memref sig .tc .vmem S1x64 .f32 := Memref.whole cc4_scratch1

/-- The class invariant with the two accumulators split off the scoped buffers no window stages. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [sc4_0, sc4_1, owns_whole]; try rfl

/-! ## The body's run, case by case -/

set_option maxHeartbeats 4000000 in
/-- THE FIRST POINT: both accumulators are zeroed and then added to; nothing is stored into the two statistics windows,
    whose buffers are handed back as found. The pieces each written buffer ends with are what the run finds. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond4_0 i) (hc1 : ¬cond4_1 i)
    (x0 : Vec F S5000x64 .f32) (x1 : Vec F S5000x64 .f32) (x2 : Vec F S5000x1 .f32) (x3 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__combine_stats_kernel_eq_skeleton]; unfold cc4__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- A MIDDLE POINT: the accumulators, found at what the point before left (xs0, xs1), are added to; the two statistics
    windows are handed back as found. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : ¬cond4_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc4__combine_stats_kernel_eq_skeleton]; unfold cc4__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- THE LAST POINT: the accumulators are added to and then copied into the two statistics windows. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond4_0 i) (hc1 : cond4_1 i)
    (x0 : Vec F S5000x64 .f32) (x1 : Vec F S5000x64 .f32) (x2 : Vec F S5000x1 .f32) (x3 : Vec F S1x64 .f32) (xs0 xs1 : Vec F S1x64 .f32) :
    Σ' (L4 : List (View.Piece (Elt F) S5000x64 .f32)), Σ' (L5 : List (View.Piece (Elt F) S1x64 .f32)), Σ' (L6 : List (View.Piece (Elt F) S1x64 .f32)),
     Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc4__combine_stats_kernel_eq_skeleton]; unfold cc4__combine_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.Reg4.lean ====
/-
  Region 4, continued: what the written buffers hold after each point (by recursion on the point), the invariant that
  carries the two accumulators from one point to the next, the region's proof data and the body obligation at every point.
-/
import proofs.«135780_j72241349919044_1_alg».proof.Proof.KI.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What the written buffers hold after each point -/

/-- Views through which a written buffer's contents are stated (which staging buffer is taken does not matter). -/
abbrev VO4_4 : View sig .tc .vmem S5000x64 .f32 := (Memref.whole cc4_stg4_0 : Memref sig .tc .vmem S5000x64 .f32).view
abbrev VO4_5 : View sig .tc .vmem S1x64 .f32 := (Memref.whole cc4_stg5_0 : Memref sig .tc .vmem S1x64 .f32).view
abbrev VO4_6 : View sig .tc .vmem S1x64 .f32 := (Memref.whole cc4_stg6_0 : Memref sig .tc .vmem S1x64 .f32).view
abbrev VS4_0 : View sig .tc .vmem S1x64 .f32 := sc4_0.view
abbrev VS4_1 : View sig .tc .vmem S1x64 .f32 := sc4_1.view
abbrev ms4_0 (t : Fin cfg4.N) := win4_0.stage (cfg4.slots t 0)
abbrev hs4_0 (t : Fin cfg4.N) : (ms4_0 t).IsWhole := hstage4_0 ((cfg4.slots t 0).cast nbuf4_0)
abbrev ms4_1 (t : Fin cfg4.N) := win4_1.stage (cfg4.slots t 1)
abbrev hs4_1 (t : Fin cfg4.N) : (ms4_1 t).IsWhole := hstage4_1 ((cfg4.slots t 1).cast nbuf4_1)
abbrev ms4_2 (t : Fin cfg4.N) := win4_2.stage (cfg4.slots t 2)
abbrev hs4_2 (t : Fin cfg4.N) : (ms4_2 t).IsWhole := hstage4_2 ((cfg4.slots t 2).cast nbuf4_2)
abbrev ms4_3 (t : Fin cfg4.N) := win4_3.stage (cfg4.slots t 3)
abbrev hs4_3 (t : Fin cfg4.N) : (ms4_3 t).IsWhole := hstage4_3 ((cfg4.slots t 3).cast nbuf4_3)
abbrev ms4_4 (t : Fin cfg4.N) := win4_4.stage (cfg4.slots t 4)
abbrev hs4_4 (t : Fin cfg4.N) : (ms4_4 t).IsWhole := hstage4_4 ((cfg4.slots t 4).cast nbuf4_4)
abbrev ms4_5 (t : Fin cfg4.N) := win4_5.stage (cfg4.slots t 5)
abbrev hs4_5 (t : Fin cfg4.N) : (ms4_5 t).IsWhole := hstage4_5 ((cfg4.slots t 5).cast nbuf4_5)
abbrev ms4_6 (t : Fin cfg4.N) := win4_6.stage (cfg4.slots t 6)
abbrev hs4_6 (t : Fin cfg4.N) : (ms4_6 t).IsWhole := hstage4_6 ((cfg4.slots t 6).cast nbuf4_6)

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The three runs at the memrefs and input blocks of point t. -/
abbrev runA4 (c : Dev nD) (t : Fin cfg4.N) (h0 : cond4_0 (grid4.coords t)) (h1 : ¬cond4_1 (grid4.coords t)) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sc4_0 (Memref.isWhole_whole _) sc4_1 (Memref.isWhole_whole _) h0 h1 (iblk4 V c 0 t) (iblk4 V c 1 t) (iblk4 V c 2 t) (iblk4 V c 3 t)
abbrev runB4 (c : Dev nD) (t : Fin cfg4.N) (h0 : ¬cond4_0 (grid4.coords t)) (h1 : ¬cond4_1 (grid4.coords t)) (xs0 xs1 : Vec F S1x64 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sc4_0 (Memref.isWhole_whole _) sc4_1 (Memref.isWhole_whole _) h0 h1 (iblk4 V c 0 t) (iblk4 V c 1 t) (iblk4 V c 2 t) (iblk4 V c 3 t) xs0 xs1
abbrev runC4 (c : Dev nD) (t : Fin cfg4.N) (h0 : ¬cond4_0 (grid4.coords t)) (h1 : cond4_1 (grid4.coords t)) (xs0 xs1 : Vec F S1x64 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) sc4_0 (Memref.isWhole_whole _) sc4_1 (Memref.isWhole_whole _) h0 h1 (iblk4 V c 0 t) (iblk4 V c 1 t) (iblk4 V c 2 t) (iblk4 V c 3 t) xs0 xs1

/-- Reading a list of pieces back over anything, through a fixed view. -/
abbrev rd4_4 (L : List (View.Piece (Elt F) S5000x64 .f32)) : Vec F S5000x64 .f32 := VO4_4.read (Elt F) (VO4_4.writes (Elt F) VO4_4.junk L)
abbrev rd4_5 (L : List (View.Piece (Elt F) S1x64 .f32)) : Vec F S1x64 .f32 := VO4_5.read (Elt F) (VO4_5.writes (Elt F) VO4_5.junk L)
abbrev rd4_6 (L : List (View.Piece (Elt F) S1x64 .f32)) : Vec F S1x64 .f32 := VO4_6.read (Elt F) (VO4_6.writes (Elt F) VO4_6.junk L)
abbrev rs4_0 (L : List (View.Piece (Elt F) S1x64 .f32)) : Vec F S1x64 .f32 := VS4_0.read (Elt F) (VS4_0.writes (Elt F) VS4_0.junk L)
abbrev rs4_1 (L : List (View.Piece (Elt F) S1x64 .f32)) : Vec F S1x64 .f32 := VS4_1.read (Elt F) (VS4_1.writes (Elt F) VS4_1.junk L)

/-- What one point's stores cover: each written buffer whole. -/
theorem coverA4_4 (c t h0 h1) (y : S5000x64.Idx) : ∃ pc ∈ (runA4 (F := F) V c t h0 h1).1, y ∈ pc.1.set :=
  View.cover_of_tiledL (runA4 (F := F) V c t h0 h1).1 S5000x64.size (by sl_kernel_rfl) y
theorem coverA4_s0 (c t h0 h1) (y : S1x64.Idx) : ∃ pc ∈ (runA4 (F := F) V c t h0 h1).2.1, y ∈ pc.1.set :=
  View.cover_of_tiledL (runA4 (F := F) V c t h0 h1).2.1 S1x64.size (by sl_kernel_rfl) y
theorem coverA4_s1 (c t h0 h1) (y : S1x64.Idx) : ∃ pc ∈ (runA4 (F := F) V c t h0 h1).2.2.1, y ∈ pc.1.set :=
  View.cover_of_tiledL (runA4 (F := F) V c t h0 h1).2.2.1 S1x64.size (by sl_kernel_rfl) y
theorem coverB4_4 (c t h0 h1 xs0 xs1) (y : S5000x64.Idx) : ∃ pc ∈ (runB4 (F := F) V c t h0 h1 xs0 xs1).1, y ∈ pc.1.set :=
  View.cover_of_tiledL (runB4 (F := F) V c t h0 h1 xs0 xs1).1 S5000x64.size (by sl_kernel_rfl) y
theorem coverB4_s0 (c t h0 h1 xs0 xs1) (y : S1x64.Idx) : ∃ pc ∈ (runB4 (F := F) V c t h0 h1 xs0 xs1).2.1, y ∈ pc.1.set :=
  View.cover_of_tiledL (runB4 (F := F) V c t h0 h1 xs0 xs1).2.1 S1x64.size (by sl_kernel_rfl) y
theorem coverB4_s1 (c t h0 h1 xs0 xs1) (y : S1x64.Idx) : ∃ pc ∈ (runB4 (F := F) V c t h0 h1 xs0 xs1).2.2.1, y ∈ pc.1.set :=
  View.cover_of_tiledL (runB4 (F := F) V c t h0 h1 xs0 xs1).2.2.1 S1x64.size (by sl_kernel_rfl) y
theorem coverC4_4 (c t h0 h1 xs0 xs1) (y : S5000x64.Idx) : ∃ pc ∈ (runC4 (F := F) V c t h0 h1 xs0 xs1).1, y ∈ pc.1.set :=
  View.cover_of_tiledL (runC4 (F := F) V c t h0 h1 xs0 xs1).1 S5000x64.size (by sl_kernel_rfl) y
theorem coverC4_5 (c t h0 h1 xs0 xs1) (y : S1x64.Idx) : ∃ pc ∈ (runC4 (F := F) V c t h0 h1 xs0 xs1).2.1, y ∈ pc.1.set :=
  View.cover_of_tiledL (runC4 (F := F) V c t h0 h1 xs0 xs1).2.1 S1x64.size (by sl_kernel_rfl) y
theorem coverC4_6 (c t h0 h1 xs0 xs1) (y : S1x64.Idx) : ∃ pc ∈ (runC4 (F := F) V c t h0 h1 xs0 xs1).2.2.1, y ∈ pc.1.set :=
  View.cover_of_tiledL (runC4 (F := F) V c t h0 h1 xs0 xs1).2.2.1 S1x64.size (by sl_kernel_rfl) y
theorem coverC4_s0 (c t h0 h1 xs0 xs1) (y : S1x64.Idx) : ∃ pc ∈ (runC4 (F := F) V c t h0 h1 xs0 xs1).2.2.2.1, y ∈ pc.1.set :=
  View.cover_of_tiledL (runC4 (F := F) V c t h0 h1 xs0 xs1).2.2.2.1 S1x64.size (by sl_kernel_rfl) y
theorem coverC4_s1 (c t h0 h1 xs0 xs1) (y : S1x64.Idx) : ∃ pc ∈ (runC4 (F := F) V c t h0 h1 xs0 xs1).2.2.2.2.1, y ∈ pc.1.set :=
  View.cover_of_tiledL (runC4 (F := F) V c t h0 h1 xs0 xs1).2.2.2.2.1 S1x64.size (by sl_kernel_rfl) y

/-! ## The accumulation -/

/-- What one point leaves, case by case: (the block of P, the two statistics windows' buffers, the two accumulators).
    A case that stores nothing into the statistics windows names no contents for them (they are idle there). -/
def stepA4 (c : Dev nD) (t : Fin cfg4.N) (h0 : cond4_0 (grid4.coords t)) (h1 : ¬cond4_1 (grid4.coords t)) : Vec F S5000x64 .f32 × Vec F S1x64 .f32 × Vec F S1x64 .f32 × Vec F S1x64 .f32 × Vec F S1x64 .f32 :=
  (rd4_4 (runA4 (F := F) V c t h0 h1).1, rd4_5 [], rd4_6 [], rs4_0 (runA4 (F := F) V c t h0 h1).2.1, rs4_1 (runA4 (F := F) V c t h0 h1).2.2.1)
def stepB4 (c : Dev nD) (t : Fin cfg4.N) (h0 : ¬cond4_0 (grid4.coords t)) (h1 : ¬cond4_1 (grid4.coords t)) (xs0 xs1 : Vec F S1x64 .f32) : Vec F S5000x64 .f32 × Vec F S1x64 .f32 × Vec F S1x64 .f32 × Vec F S1x64 .f32 × Vec F S1x64 .f32 :=
  (rd4_4 (runB4 (F := F) V c t h0 h1 xs0 xs1).1, rd4_5 [], rd4_6 [], rs4_0 (runB4 (F := F) V c t h0 h1 xs0 xs1).2.1, rs4_1 (runB4 (F := F) V c t h0 h1 xs0 xs1).2.2.1)
def stepC4 (c : Dev nD) (t : Fin cfg4.N) (h0 : ¬cond4_0 (grid4.coords t)) (h1 : cond4_1 (grid4.coords t)) (xs0 xs1 : Vec F S1x64 .f32) : Vec F S5000x64 .f32 × Vec F S1x64 .f32 × Vec F S1x64 .f32 × Vec F S1x64 .f32 × Vec F S1x64 .f32 :=
  (rd4_4 (runC4 (F := F) V c t h0 h1 xs0 xs1).1, rd4_5 (runC4 (F := F) V c t h0 h1 xs0 xs1).2.1, rd4_6 (runC4 (F := F) V c t h0 h1 xs0 xs1).2.2.1,
    rs4_0 (runC4 (F := F) V c t h0 h1 xs0 xs1).2.2.2.1, rs4_1 (runC4 (F := F) V c t h0 h1 xs0 xs1).2.2.2.2.1)

/-- THE ACCUMULATION, by recursion on the point: the first point starts the accumulators, every later one adds to what the
    point before left, the last one also copies them out. -/
def outsAt4 (c : Dev nD) : (n : ℕ) → n < cfg4.N → Vec F S5000x64 .f32 × Vec F S1x64 .f32 × Vec F S1x64 .f32 × Vec F S1x64 .f32 × Vec F S1x64 .f32
  | 0, hn => stepA4 V c ⟨0, hn⟩ ((hcond4_0 ⟨0, hn⟩).mpr rfl) (fun h => (fun h => by (try dsimp only at h); omega) ((hcond4_1 ⟨0, hn⟩).mp h))
  | n + 1, hn =>
    if h1 : n + 1 = 9 then
      stepC4 V c ⟨n + 1, hn⟩ (fun h => Nat.succ_ne_zero n ((hcond4_0 ⟨n + 1, hn⟩).mp h)) ((hcond4_1 ⟨n + 1, hn⟩).mpr h1)
        (outsAt4 c n (Nat.lt_of_succ_lt hn)).2.2.2.1 (outsAt4 c n (Nat.lt_of_succ_lt hn)).2.2.2.2
    else
      stepB4 V c ⟨n + 1, hn⟩ (fun h => Nat.succ_ne_zero n ((hcond4_0 ⟨n + 1, hn⟩).mp h)) (fun h => h1 ((hcond4_1 ⟨n + 1, hn⟩).mp h))
        (outsAt4 c n (Nat.lt_of_succ_lt hn)).2.2.2.1 (outsAt4 c n (Nat.lt_of_succ_lt hn)).2.2.2.2

theorem outsAt4_A (c : Dev nD) (t : Fin cfg4.N) (h0 : cond4_0 (grid4.coords t)) (h1 : ¬cond4_1 (grid4.coords t)) :
    outsAt4 V c t.val t.isLt = stepA4 V c t h0 h1 := by
  obtain ⟨n, hn⟩ := t
  cases n with
  | zero => exact rfl
  | succ n => exact absurd ((hcond4_0 ⟨n + 1, hn⟩).mp h0) (Nat.succ_ne_zero n)

theorem outsAt4_B (c : Dev nD) (t : Fin cfg4.N) (h0 : ¬cond4_0 (grid4.coords t)) (h1 : ¬cond4_1 (grid4.coords t)) :
    outsAt4 V c t.val t.isLt = stepB4 V c t h0 h1
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd ((hcond4_0 ⟨0, hn⟩).mpr rfl) h0
  | succ n => exact (dif_neg (fun h => h1 ((hcond4_1 ⟨n + 1, hn⟩).mpr h))).trans rfl

theorem outsAt4_C (c : Dev nD) (t : Fin cfg4.N) (h0 : ¬cond4_0 (grid4.coords t)) (h1 : cond4_1 (grid4.coords t)) :
    outsAt4 V c t.val t.isLt = stepC4 V c t h0 h1
      (outsAt4 V c (t.val - 1) (Nat.lt_of_le_of_lt (Nat.sub_le _ _) t.isLt)).2.2.2.1
      (outsAt4 V c (t.val - 1) (Nat.lt_of_le_of_lt (Nat.sub_le _ _) t.isLt)).2.2.2.2 := by
  obtain ⟨n, hn⟩ := t
  cases n with
  | zero => exact absurd ((hcond4_0 ⟨0, hn⟩).mpr rfl) h0
  | succ n => exact (dif_pos ((hcond4_1 ⟨n + 1, hn⟩).mp h1)).trans rfl

/-! ## The invariant: the accumulators at what the point before left -/

def PhiS4 (c : Dev nD) : (n : ℕ) → n ≤ cfg4.N → sProp 𝕄
  | 0, _ => Pipeline.ΦA spec4 c
  | n + 1, hn => iprop(iprop(iprop(owns (c : Thread nD τ) sc4_0 fullShare (outsAt4 V c n hn).2.2.2.1 ∗ owns (c : Thread nD τ) sc4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) sc4_0 fullShare (outsAt4 V c n hn).2.2.2.1 ∗ owns (c : Thread nD τ) sc4_1 fullShare (outsAt4 V c n hn).2.2.2.2)
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) sc4_0 fullShare (outsAt4 V c (n - 1) (by omega)).2.2.2.1 ∗ owns (c : Thread nD τ) sc4_1 fullShare (outsAt4 V c (n - 1) (by omega)).2.2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: which case the point is in is decided by the closed forms; the invariant hands the body the
    accumulators at what the point before left (at anything at the first point) and takes them back at this point's contents;
    the statistics windows are handed back as found except at the last point, where they take the accumulators' contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t]]
  rw [show (dat4 V c).leavesExact 1 t = owns (c : Thread nD τ) (ms4_1 t) fullShare ((dat4 V c).after 1 t) from by
    unfold Dat.leavesExact; rw [liveAt4_1 t]]
  rw [show (dat4 V c).leavesExact 2 t = owns (c : Thread nD τ) (ms4_2 t) fullShare ((dat4 V c).after 2 t) from by
    unfold Dat.leavesExact; rw [liveAt4_2 t]]
  rw [show (dat4 V c).leavesExact 3 t = owns (c : Thread nD τ) (ms4_3 t) fullShare ((dat4 V c).after 3 t) from by
    unfold Dat.leavesExact; rw [liveAt4_3 t]]
  rw [show (dat4 V c).leavesExact 4 t = owns (c : Thread nD τ) (ms4_4 t) fullShare ((dat4 V c).after 4 t) from by
    unfold Dat.leavesExact; rw [liveAt4_4 t]]
  rw [after4_0, after4_1, after4_2, after4_3, after4_4]
  have hN : t.val < 10 := lt_of_lt_of_eq t.isLt (show cfg4.N = 10 from N_4)
  by_cases hz : t.val = 0
  · have h0 : cond4_0 (grid4.coords t) := (hcond4_0 t).mpr hz
    have h1 : ¬cond4_1 (grid4.coords t) := fun h => by have := (hcond4_1 t).mp h; omega
    rw [Dat.leavesExact_idle (dat4 V c) 5 t (idleAt4_5 t h1) (noFlush4_5 t h1),
      Dat.leavesExact_idle (dat4 V c) 6 t (idleAt4_6 t h1) (noFlush4_6 t h1)]
    rw [outsAt4_A V c t h0 h1]
    unfold stepA4; (try dsimp only)
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runA4 (F := F) V c t h0 h1).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (coverA4_s0 V c t h0 h1)
          · unfold owns; iexists _; isplitr
            swap; · iexact HS1
            ipureintro; exact View.read_writes_of_cover _ _ _ _ _ (coverA4_s1 V c t h0 h1)
        · iexact Hrest
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4_4 V c t h0 h1)
    isplitl [H5]; · iexists _; iexact H5
    iexists _; iexact H6
  · have h0 : ¬cond4_0 (grid4.coords t) := fun h => hz ((hcond4_0 t).mp h)
    by_cases h9 : t.val = 9
    · have h1 : cond4_1 (grid4.coords t) := (hcond4_1 t).mpr h9
      rw [show (dat4 V c).leavesExact 5 t = owns (c : Thread nD τ) (ms4_5 t) fullShare ((dat4 V c).after 5 t) from by
        unfold Dat.leavesExact; rw [liveAt4_5 t h1]]
      rw [show (dat4 V c).leavesExact 6 t = owns (c : Thread nD τ) (ms4_6 t) fullShare ((dat4 V c).after 6 t) from by
        unfold Dat.leavesExact; rw [liveAt4_6 t h1]]
      rw [after4_5, after4_6, outsAt4_C V c t h0 h1]
      unfold stepC4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runC4 (F := F) V c t h0 h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverC4_s0 V c t h0 h1 _ _)
            · unfold owns; iexists _; isplitr
              swap; · iexact HS1
              ipureintro; exact View.read_writes_of_cover _ _ _ _ _ (coverC4_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC4_4 V c t h0 h1 _ _)
      isplitl [H5]
      · unfold owns; iexists _; isplitr
        swap; · iexact H5
        ipureintro; exact View.read_writes_of_cover _ _ _ _ _ (coverC4_5 V c t h0 h1 _ _)
      unfold owns; iexists _; isplitr
      swap; · iexact H6
      ipureintro; exact View.read_writes_of_cover _ _ _ _ _ (coverC4_6 V c t h0 h1 _ _)
    · have h1 : ¬cond4_1 (grid4.coords t) := fun h => h9 ((hcond4_1 t).mp h)
      rw [Dat.leavesExact_idle (dat4 V c) 5 t (idleAt4_5 t h1) (noFlush4_5 t h1),
        Dat.leavesExact_idle (dat4 V c) 6 t (idleAt4_6 t h1) (noFlush4_6 t h1)]
      rw [outsAt4_B V c t h0 h1]
      unfold stepB4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runB4 (F := F) V c t h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (coverB4_s0 V c t h0 h1 _ _)
            · unfold owns; iexists _; isplitr
              swap; · iexact HS1
              ipureintro; exact View.read_writes_of_cover _ _ _ _ _ (coverB4_s1 V c t h0 h1 _ _)
          · iexact Hrest
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB4_4 V c t h0 h1 _ _)
      isplitl [H5]; · iexists _; iexact H5
      iexists _; iexact H6

theorem body_obligation4 (c : Dev nD) : BodyObligation (dat4 (F := F) V c) (defs₀ (F := F)) Variants.none () Set.univ := fun t => by
  rw [bigSep_W4, bigSep_W4]
  exact sound_body4 V c t

/-- Before the first point the invariant is the class's. -/
theorem Phi4_zero (c : Dev nD) : (dat4 V c).Φ 0 = Pipeline.ΦA spec4 c := by
  rw [show (dat4 V c).Φ 0 = PhiS4 V c 0 (Nat.zero_le _) from rfl, PhiS4_zero V c 0 _ rfl]

/-- After the last point it gives the class's back: what the accumulators hold is forgotten. -/
theorem Phi4_last (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.KernelIdeal.Hand

end
-- ==== Proof.KI.Reg5.lean ====
/-
  Region 5: the second layer's normalisation, block of 5000 rows by block, as in the first layer.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's staging buffer holds its block at every point, whether that point fetches it or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in the result window's buffer: one value of the loaded blocks, stored whole. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨(Rect.unit (s := S5000x64) ![0, 0] S5000x64.size inb_S5000x64_S5000x64_0_0), k5_pay1 (View.ld x2 (Rect.unit (s := S1x64) ![0, 0] S1x64.size inb_S1x64_S1x64_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S1x64) ![0, 0] S1x64.size inb_S1x64_S1x64_0_0)) (View.ld x4 (Rect.unit (s := S1x64) ![0, 0] S1x64.size inb_S1x64_S1x64_0_0))⟩]

theorem cover5_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers: the inputs are read and left as they were, the result buffer ends at the stored value. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover5_5 _)

/-- The region's proof data: the arrays as the region finds them; after the body each input's buffer at its block and
    the result's at the stored value of the blocks; nothing carried between points. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6: the last layer's dense product: the t-th block of 5000 rows of the hidden features times the 64 x 1 weight column, stored as the t-th block of the one-column result.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's staging buffer holds its block at every point, whether that point fetches it or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in the result window's buffer: one value of the loaded blocks, stored whole. -/
def out6_2 (x0 : Vec F S5000x64 .f32) (x1 : Vec F S64x1 .f32) : Vec F S5000x1 .f32 :=
  View.canon [⟨(Rect.unit (s := S5000x1) ![0, 0] S5000x1.size inb_S5000x1_S5000x1_0_0), k6_pay1 (View.ld x0 (Rect.unit (s := S5000x64) ![0, 0] S5000x64.size inb_S5000x64_S5000x64_0_0)) (View.ld x1 (Rect.unit (s := S64x1) ![0, 0] S64x1.size inb_S64x1_S64x1_0_0))⟩]

theorem cover6_2 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole staging buffers: the inputs are read and left as they were, the result buffer ends at the stored value. -/
theorem sound_kernel6 (c : Dev nD) (E : Set ℕ) (i : grid6.Coords) (arg1 : Memref sig .tc .vmem S5000x64 .f32) (harg1 : arg1.IsWhole) (arg2 : Memref sig .tc .vmem S64x1 .f32) (harg2 : arg2.IsWhole) (arg3 : Memref sig .tc .vmem S5000x1 .f32) (harg3 : arg3.IsWhole)
    (x0 : Vec F S5000x64 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%dO, %fO, -, HO⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover6_2 _)

/-- The region's proof data: the arrays as the region finds them; after the body each input's buffer at its block and
    the result's at the stored value of the blocks; nothing carried between points. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7: the last layer's combination. At grid point t the body adds to the t-th block of the neighbour aggregate the block of the dense product scaled row by row by the squared inverse root degree, then the bias, and stores the one-column block whole.
  Stated at any contents V of the buffers when the region is entered and at any float instance.
-/
import proofs.«135780_j72241349919044_1_alg».proof.Proof.Gen.KernelIdeal.Launch
import proofs.«135780_j72241349919044_1_alg».proof.Proof.Gen.KernelIdeal.Skeleton
import proofs.«135780_j72241349919044_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's staging buffer holds its block at every point, whether that point fetches it or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- What the body leaves in the result window's buffer: one value of the loaded blocks, stored whole. -/
def out7_4 (x0 : Vec F S5000x1 .f32) (x1 : Vec F S5000x1 .f32) (x2 : Vec F S5000x1 .f32) (x3 : Vec F S1x1 .f32) : Vec F S5000x1 .f32 :=
  View.canon [⟨(Rect.unit (s := S5000x1) ![0, 0] S5000x1.size inb_S5000x1_S5000x1_0_0), k7_pay1 (View.ld x0 (Rect.unit (s := S5000x1) ![0, 0] S5000x1.size inb_S5000x1_S5000x1_0_0)) (View.ld x1 (Rect.unit (s := S5000x1) ![0, 0] S5000x1.size inb_S5000x1_S5000x1_0_0)) (View.ld x2 (Rect.unit (s := S5000x1) ![0, 0] S5000x1.size inb_S5000x1_S5000x1_0_0)) (View.ld x3 (Rect.unit (s := S1x1) ![0, 0] S1x1.size inb_S1x1_S1x1_0_0))⟩]

theorem cover7_4 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole staging buffers: the inputs are read and left as they were, the result buffer ends at the stored value. -/
theorem sound_kernel7 (c : Dev nD) (E : Set ℕ) (i : grid7.Coords) (arg1 : Memref sig .tc .vmem S5000x1 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S1x1 .f32) (harg4 : arg4.IsWhole) (arg5 : Memref sig .tc .vmem S5000x1 .f32) (harg5 : arg5.IsWhole)
    (x0 : Vec F S5000x1 .f32) (x1 : Vec F S5000x1 .f32) (x2 : Vec F S5000x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out7_4 x0 x1 x2 x3)) -∗ K ⟨⟩))
      ⊢ wp frame (wpE (defs₀ (F := F)) Variants.none c none) E (cc7__combine_only_kernel i arg1 harg1 arg2 harg2 arg3 harg3 arg4 harg4 arg5 harg5) K := by
  simp only [cc7__combine_only_kernel_eq_skeleton]; unfold cc7__combine_only_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover7_4 _)

/-- The region's proof data: the arrays as the region finds them; after the body each input's buffer at its block and
    the result's at the stored value of the blocks; nothing carried between points. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Chain.lean ====
/-
  The contents of every buffer at each boundary between two items of the main program, as a fold from the launch
  memory: a stretch of host operations applies its operations in order; a kernel region leaves each of its windows'
  arrays at what its write-backs make of the entry contents (an input array is never written) and every other buffer
  as entered. Each argument array is read back through the fold to its launch contents.
-/
import proofs.«135780_j72241349919044_1_alg».proof.Proof.KI.Reg0
import proofs.«135780_j72241349919044_1_alg».proof.Proof.KI.Reg1
import proofs.«135780_j72241349919044_1_alg».proof.Proof.KI.Reg2
import proofs.«135780_j72241349919044_1_alg».proof.Proof.KI.Reg3
import proofs.«135780_j72241349919044_1_alg».proof.Proof.KI.Reg4
import proofs.«135780_j72241349919044_1_alg».proof.Proof.KI.Reg5
import proofs.«135780_j72241349919044_1_alg».proof.Proof.KI.Reg6
import proofs.«135780_j72241349919044_1_alg».proof.Proof.KI.Reg7
import proofs.«135780_j72241349919044_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)

/-- After the host stretch hostOps0. -/
abbrev W1 : Dev nD → Valuation τ sig (Elt F) := fun c => StableHlo.after hostOps0 (W0 m ρ c)
/-- The same contents read at the references of the core itself. -/
abbrev V1 : (c : Dev nD) → (b : Ref sig .tc) → Buf (Elt F) ((c : Thread nD τ).loc b) := fun c b => W1 m ρ c b
/-- A buffer that no operation of the stretch writes keeps its contents. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: each of its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the references of the core itself. -/
abbrev V2 : (c : Dev nD) → (b : Ref sig .tc) → Buf (Elt F) ((c : Thread nD τ).loc b) := fun c b => W2 m ρ c b
/-- At the exit each array of the region holds what the write-backs leave, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output array of the region keeps its contents: either no window has it, or an input window does
    and an input array is never written. -/
theorem W2_keep (c : Dev nD) (b : Ref sig .tc) (h : ∀ w, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b fun w e => hb ⟨w, e⟩

/-- After the host stretch hostOps1. -/
abbrev W3 : Dev nD → Valuation τ sig (Elt F) := fun c => StableHlo.after hostOps1 (W2 m ρ c)
/-- The same contents read at the references of the core itself. -/
abbrev V3 : (c : Dev nD) → (b : Ref sig .tc) → Buf (Elt F) ((c : Thread nD τ).loc b) := fun c b => W3 m ρ c b
/-- A buffer that no operation of the stretch writes keeps its contents. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: each of its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents read at the references of the core itself. -/
abbrev V4 : (c : Dev nD) → (b : Ref sig .tc) → Buf (Elt F) ((c : Thread nD τ).loc b) := fun c b => W4 m ρ c b
/-- At the exit each array of the region holds what the write-backs leave, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no output array of the region keeps its contents: either no window has it, or an input window does
    and an input array is never written. -/
theorem W4_keep (c : Dev nD) (b : Ref sig .tc) (h : ∀ w, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w (h w rfl) _).trans (A_eq1 (V3 m ρ) c w))
  · exact W4_of_ne m ρ c b fun w e => hb ⟨w, e⟩

/-- After the host stretch hostOps2. -/
abbrev W5 : Dev nD → Valuation τ sig (Elt F) := fun c => StableHlo.after hostOps2 (W4 m ρ c)
/-- The same contents read at the references of the core itself. -/
abbrev V5 : (c : Dev nD) → (b : Ref sig .tc) → Buf (Elt F) ((c : Thread nD τ).loc b) := fun c b => W5 m ρ c b
/-- A buffer that no operation of the stretch writes keeps its contents. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: each of its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents read at the references of the core itself. -/
abbrev V6 : (c : Dev nD) → (b : Ref sig .tc) → Buf (Elt F) ((c : Thread nD τ).loc b) := fun c b => W6 m ρ c b
/-- At the exit each array of the region holds what the write-backs leave, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no output array of the region keeps its contents: either no window has it, or an input window does
    and an input array is never written. -/
theorem W6_keep (c : Dev nD) (b : Ref sig .tc) (h : ∀ w, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w (h w rfl) _).trans (A_eq2 (V5 m ρ) c w))
  · exact W6_of_ne m ρ c b fun w e => hb ⟨w, e⟩

/-- At region 3's exit: each of its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same contents read at the references of the core itself. -/
abbrev V7 : (c : Dev nD) → (b : Ref sig .tc) → Buf (Elt F) ((c : Thread nD τ).loc b) := fun c b => W7 m ρ c b
/-- At the exit each array of the region holds what the write-backs leave, and every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- A buffer that is no output array of the region keeps its contents: either no window has it, or an input window does
    and an input array is never written. -/
theorem W7_keep (c : Dev nD) (b : Ref sig .tc) (h : ∀ w, Pipeline.arrRef spec3 w = b → (cfg3.win w).isOut = false) :
    W7 m ρ c (Proc.devRef .tc b) = W6 m ρ c (Proc.devRef .tc b) := by
  by_cases hb : ∃ w, Pipeline.arrRef spec3 w = b
  · obtain ⟨w, rfl⟩ := hb
    exact (W7_arr m ρ c w).trans (((dat3 (V6 m ρ) c).arrAt_in w (h w rfl) _).trans (A_eq3 (V6 m ρ) c w))
  · exact W7_of_ne m ρ c b fun w e => hb ⟨w, e⟩

/-- After the host stretch hostOps4. -/
abbrev W8 : Dev nD → Valuation τ sig (Elt F) := fun c => StableHlo.after hostOps4 (W7 m ρ c)
/-- The same contents read at the references of the core itself. -/
abbrev V8 : (c : Dev nD) → (b : Ref sig .tc) → Buf (Elt F) ((c : Thread nD τ).loc b) := fun c b => W8 m ρ c b
/-- A buffer that no operation of the stretch writes keeps its contents. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- At region 4's exit: each of its arrays at what the write-backs leave, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same contents read at the references of the core itself. -/
abbrev V9 : (c : Dev nD) → (b : Ref sig .tc) → Buf (Elt F) ((c : Thread nD τ).loc b) := fun c b => W9 m ρ c b
/-- At the exit each array of the region holds what the write-backs leave, and every other buffer what it held at entry. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- A buffer that is no output array of the region keeps its contents: either no window has it, or an input window does
    and an input array is never written. -/
theorem W9_keep (c : Dev nD) (b : Ref sig .tc) (h : ∀ w, Pipeline.arrRef spec4 w = b → (cfg4.win w).isOut = false) :
    W9 m ρ c (Proc.devRef .tc b) = W8 m ρ c (Proc.devRef .tc b) := by
  by_cases hb : ∃ w, Pipeline.arrRef spec4 w = b
  · obtain ⟨w, rfl⟩ := hb
    exact (W9_arr m ρ c w).trans (((dat4 (V8 m ρ) c).arrAt_in w (h w rfl) _).trans (A_eq4 (V8 m ρ) c w))
  · exact W9_of_ne m ρ c b fun w e => hb ⟨w, e⟩

/-- After the host stretch hostOps5. -/
abbrev W10 : Dev nD → Valuation τ sig (Elt F) := fun c => StableHlo.after hostOps5 (W9 m ρ c)
/-- The same contents read at the references of the core itself. -/
abbrev V10 : (c : Dev nD) → (b : Ref sig .tc) → Buf (Elt F) ((c : Thread nD τ).loc b) := fun c b => W10 m ρ c b
/-- A buffer that no operation of the stretch writes keeps its contents. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- At region 5's exit: each of its arrays at what the write-backs leave, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same contents read at the references of the core itself. -/
abbrev V11 : (c : Dev nD) → (b : Ref sig .tc) → Buf (Elt F) ((c : Thread nD τ).loc b) := fun c b => W11 m ρ c b
/-- At the exit each array of the region holds what the write-backs leave, and every other buffer what it held at entry. -/
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- A buffer that is no output array of the region keeps its contents: either no window has it, or an input window does
    and an input array is never written. -/
theorem W11_keep (c : Dev nD) (b : Ref sig .tc) (h : ∀ w, Pipeline.arrRef spec5 w = b → (cfg5.win w).isOut = false) :
    W11 m ρ c (Proc.devRef .tc b) = W10 m ρ c (Proc.devRef .tc b) := by
  by_cases hb : ∃ w, Pipeline.arrRef spec5 w = b
  · obtain ⟨w, rfl⟩ := hb
    exact (W11_arr m ρ c w).trans (((dat5 (V10 m ρ) c).arrAt_in w (h w rfl) _).trans (A_eq5 (V10 m ρ) c w))
  · exact W11_of_ne m ρ c b fun w e => hb ⟨w, e⟩

/-- At region 6's exit: each of its arrays at what the write-backs leave, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- The same contents read at the references of the core itself. -/
abbrev V12 : (c : Dev nD) → (b : Ref sig .tc) → Buf (Elt F) ((c : Thread nD τ).loc b) := fun c b => W12 m ρ c b
/-- At the exit each array of the region holds what the write-backs leave, and every other buffer what it held at entry. -/
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)
/-- A buffer that is no output array of the region keeps its contents: either no window has it, or an input window does
    and an input array is never written. -/
theorem W12_keep (c : Dev nD) (b : Ref sig .tc) (h : ∀ w, Pipeline.arrRef spec6 w = b → (cfg6.win w).isOut = false) :
    W12 m ρ c (Proc.devRef .tc b) = W11 m ρ c (Proc.devRef .tc b) := by
  by_cases hb : ∃ w, Pipeline.arrRef spec6 w = b
  · obtain ⟨w, rfl⟩ := hb
    exact (W12_arr m ρ c w).trans (((dat6 (V11 m ρ) c).arrAt_in w (h w rfl) _).trans (A_eq6 (V11 m ρ) c w))
  · exact W12_of_ne m ρ c b fun w e => hb ⟨w, e⟩

/-- After the host stretch hostOps7. -/
abbrev W13 : Dev nD → Valuation τ sig (Elt F) := fun c => StableHlo.after hostOps7 (W12 m ρ c)
/-- The same contents read at the references of the core itself. -/
abbrev V13 : (c : Dev nD) → (b : Ref sig .tc) → Buf (Elt F) ((c : Thread nD τ).loc b) := fun c b => W13 m ρ c b
/-- A buffer that no operation of the stretch writes keeps its contents. -/
theorem W13_keep (c : Dev nD) (r : Ref sig .tc) (h : r ∉ hostOps7_W) :
    W13 m ρ c (Proc.devRef .tc r) = W12 m ρ c (Proc.devRef .tc r) :=
  StableHlo.after_of_writes_sub hostOps7 _ hostOps7_writes h

/-- At region 7's exit: each of its arrays at what the write-backs leave, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- The same contents read at the references of the core itself. -/
abbrev V14 : (c : Dev nD) → (b : Ref sig .tc) → Buf (Elt F) ((c : Thread nD τ).loc b) := fun c b => W14 m ρ c b
/-- At the exit each array of the region holds what the write-backs leave, and every other buffer what it held at entry. -/
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- A buffer that is no output array of the region keeps its contents: either no window has it, or an input window does
    and an input array is never written. -/
theorem W14_keep (c : Dev nD) (b : Ref sig .tc) (h : ∀ w, Pipeline.arrRef spec7 w = b → (cfg7.win w).isOut = false) :
    W14 m ρ c (Proc.devRef .tc b) = W13 m ρ c (Proc.devRef .tc b) := by
  by_cases hb : ∃ w, Pipeline.arrRef spec7 w = b
  · obtain ⟨w, rfl⟩ := hb
    exact (W14_arr m ρ c w).trans (((dat7 (V13 m ρ) c).arrAt_in w (h w rfl) _).trans (A_eq7 (V13 m ρ) c w))
  · exact W14_of_ne m ρ c b fun w e => hb ⟨w, e⟩

/-! The arguments end as launched: no host operation writes one, and a region has one at most as an input array. -/

theorem W14_main_arg0 (c : Dev nD) : W14 m ρ c (Proc.devRef .tc main_arg0) = m ((c : Thread nD τ).loc main_arg0) :=
  (W14_keep m ρ c main_arg0 (by decide)).trans <|
  (W13_keep m ρ c main_arg0 (by decide)).trans <|
  (W12_keep m ρ c main_arg0 (by decide)).trans <|
  (W11_keep m ρ c main_arg0 (by decide)).trans <|
  (W10_keep m ρ c main_arg0 (by decide)).trans <|
  (W9_keep m ρ c main_arg0 (by decide)).trans <|
  (W8_keep m ρ c main_arg0 (by decide)).trans <|
  (W7_keep m ρ c main_arg0 (by decide)).trans <|
  (W6_keep m ρ c main_arg0 (by decide)).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans <| rfl

theorem W14_main_arg1 (c : Dev nD) : W14 m ρ c (Proc.devRef .tc main_arg1) = m ((c : Thread nD τ).loc main_arg1) :=
  (W14_keep m ρ c main_arg1 (by decide)).trans <|
  (W13_keep m ρ c main_arg1 (by decide)).trans <|
  (W12_keep m ρ c main_arg1 (by decide)).trans <|
  (W11_keep m ρ c main_arg1 (by decide)).trans <|
  (W10_keep m ρ c main_arg1 (by decide)).trans <|
  (W9_keep m ρ c main_arg1 (by decide)).trans <|
  (W8_keep m ρ c main_arg1 (by decide)).trans <|
  (W7_keep m ρ c main_arg1 (by decide)).trans <|
  (W6_keep m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans <| rfl

theorem W14_main_arg2 (c : Dev nD) : W14 m ρ c (Proc.devRef .tc main_arg2) = m ((c : Thread nD τ).loc main_arg2) :=
  (W14_keep m ρ c main_arg2 (by decide)).trans <|
  (W13_keep m ρ c main_arg2 (by decide)).trans <|
  (W12_keep m ρ c main_arg2 (by decide)).trans <|
  (W11_keep m ρ c main_arg2 (by decide)).trans <|
  (W10_keep m ρ c main_arg2 (by decide)).trans <|
  (W9_keep m ρ c main_arg2 (by decide)).trans <|
  (W8_keep m ρ c main_arg2 (by decide)).trans <|
  (W7_keep m ρ c main_arg2 (by decide)).trans <|
  (W6_keep m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans <| rfl

theorem W14_main_arg3 (c : Dev nD) : W14 m ρ c (Proc.devRef .tc main_arg3) = m ((c : Thread nD τ).loc main_arg3) :=
  (W14_keep m ρ c main_arg3 (by decide)).trans <|
  (W13_keep m ρ c main_arg3 (by decide)).trans <|
  (W12_keep m ρ c main_arg3 (by decide)).trans <|
  (W11_keep m ρ c main_arg3 (by decide)).trans <|
  (W10_keep m ρ c main_arg3 (by decide)).trans <|
  (W9_keep m ρ c main_arg3 (by decide)).trans <|
  (W8_keep m ρ c main_arg3 (by decide)).trans <|
  (W7_keep m ρ c main_arg3 (by decide)).trans <|
  (W6_keep m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans <| rfl

theorem W14_main_arg4 (c : Dev nD) : W14 m ρ c (Proc.devRef .tc main_arg4) = m ((c : Thread nD τ).loc main_arg4) :=
  (W14_keep m ρ c main_arg4 (by decide)).trans <|
  (W13_keep m ρ c main_arg4 (by decide)).trans <|
  (W12_keep m ρ c main_arg4 (by decide)).trans <|
  (W11_keep m ρ c main_arg4 (by decide)).trans <|
  (W10_keep m ρ c main_arg4 (by decide)).trans <|
  (W9_keep m ρ c main_arg4 (by decide)).trans <|
  (W8_keep m ρ c main_arg4 (by decide)).trans <|
  (W7_keep m ρ c main_arg4 (by decide)).trans <|
  (W6_keep m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans <| rfl

theorem W14_main_arg5 (c : Dev nD) : W14 m ρ c (Proc.devRef .tc main_arg5) = m ((c : Thread nD τ).loc main_arg5) :=
  (W14_keep m ρ c main_arg5 (by decide)).trans <|
  (W13_keep m ρ c main_arg5 (by decide)).trans <|
  (W12_keep m ρ c main_arg5 (by decide)).trans <|
  (W11_keep m ρ c main_arg5 (by decide)).trans <|
  (W10_keep m ρ c main_arg5 (by decide)).trans <|
  (W9_keep m ρ c main_arg5 (by decide)).trans <|
  (W8_keep m ρ c main_arg5 (by decide)).trans <|
  (W7_keep m ρ c main_arg5 (by decide)).trans <|
  (W6_keep m ρ c main_arg5 (by decide)).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans <| rfl

theorem W14_main_arg6 (c : Dev nD) : W14 m ρ c (Proc.devRef .tc main_arg6) = m ((c : Thread nD τ).loc main_arg6) :=
  (W14_keep m ρ c main_arg6 (by decide)).trans <|
  (W13_keep m ρ c main_arg6 (by decide)).trans <|
  (W12_keep m ρ c main_arg6 (by decide)).trans <|
  (W11_keep m ρ c main_arg6 (by decide)).trans <|
  (W10_keep m ρ c main_arg6 (by decide)).trans <|
  (W9_keep m ρ c main_arg6 (by decide)).trans <|
  (W8_keep m ρ c main_arg6 (by decide)).trans <|
  (W7_keep m ρ c main_arg6 (by decide)).trans <|
  (W6_keep m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans <| rfl

theorem W14_main_arg7 (c : Dev nD) : W14 m ρ c (Proc.devRef .tc main_arg7) = m ((c : Thread nD τ).loc main_arg7) :=
  (W14_keep m ρ c main_arg7 (by decide)).trans <|
  (W13_keep m ρ c main_arg7 (by decide)).trans <|
  (W12_keep m ρ c main_arg7 (by decide)).trans <|
  (W11_keep m ρ c main_arg7 (by decide)).trans <|
  (W10_keep m ρ c main_arg7 (by decide)).trans <|
  (W9_keep m ρ c main_arg7 (by decide)).trans <|
  (W8_keep m ρ c main_arg7 (by decide)).trans <|
  (W7_keep m ρ c main_arg7 (by decide)).trans <|
  (W6_keep m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans <| rfl

theorem W14_main_arg8 (c : Dev nD) : W14 m ρ c (Proc.devRef .tc main_arg8) = m ((c : Thread nD τ).loc main_arg8) :=
  (W14_keep m ρ c main_arg8 (by decide)).trans <|
  (W13_keep m ρ c main_arg8 (by decide)).trans <|
  (W12_keep m ρ c main_arg8 (by decide)).trans <|
  (W11_keep m ρ c main_arg8 (by decide)).trans <|
  (W10_keep m ρ c main_arg8 (by decide)).trans <|
  (W9_keep m ρ c main_arg8 (by decide)).trans <|
  (W8_keep m ρ c main_arg8 (by decide)).trans <|
  (W7_keep m ρ c main_arg8 (by decide)).trans <|
  (W6_keep m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans <| rfl

theorem W14_main_arg9 (c : Dev nD) : W14 m ρ c (Proc.devRef .tc main_arg9) = m ((c : Thread nD τ).loc main_arg9) :=
  (W14_keep m ρ c main_arg9 (by decide)).trans <|
  (W13_keep m ρ c main_arg9 (by decide)).trans <|
  (W12_keep m ρ c main_arg9 (by decide)).trans <|
  (W11_keep m ρ c main_arg9 (by decide)).trans <|
  (W10_keep m ρ c main_arg9 (by decide)).trans <|
  (W9_keep m ρ c main_arg9 (by decide)).trans <|
  (W8_keep m ρ c main_arg9 (by decide)).trans <|
  (W7_keep m ρ c main_arg9 (by decide)).trans <|
  (W6_keep m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans <| rfl

theorem W14_main_arg10 (c : Dev nD) : W14 m ρ c (Proc.devRef .tc main_arg10) = m ((c : Thread nD τ).loc main_arg10) :=
  (W14_keep m ρ c main_arg10 (by decide)).trans <|
  (W13_keep m ρ c main_arg10 (by decide)).trans <|
  (W12_keep m ρ c main_arg10 (by decide)).trans <|
  (W11_keep m ρ c main_arg10 (by decide)).trans <|
  (W10_keep m ρ c main_arg10 (by decide)).trans <|
  (W9_keep m ρ c main_arg10 (by decide)).trans <|
  (W8_keep m ρ c main_arg10 (by decide)).trans <|
  (W7_keep m ρ c main_arg10 (by decide)).trans <|
  (W6_keep m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans <| rfl

theorem W14_main_arg11 (c : Dev nD) : W14 m ρ c (Proc.devRef .tc main_arg11) = m ((c : Thread nD τ).loc main_arg11) :=
  (W14_keep m ρ c main_arg11 (by decide)).trans <|
  (W13_keep m ρ c main_arg11 (by decide)).trans <|
  (W12_keep m ρ c main_arg11 (by decide)).trans <|
  (W11_keep m ρ c main_arg11 (by decide)).trans <|
  (W10_keep m ρ c main_arg11 (by decide)).trans <|
  (W9_keep m ρ c main_arg11 (by decide)).trans <|
  (W8_keep m ρ c main_arg11 (by decide)).trans <|
  (W7_keep m ρ c main_arg11 (by decide)).trans <|
  (W6_keep m ρ c main_arg11 (by decide)).trans <|
  (W5_keep m ρ c main_arg11 (by decide)).trans <|
  (W4_keep m ρ c main_arg11 (by decide)).trans <|
  (W3_keep m ρ c main_arg11 (by decide)).trans <|
  (W2_keep m ρ c main_arg11 (by decide)).trans <|
  (W1_keep m ρ c main_arg11 (by decide)).trans <| rfl

/-- The last region's result array, window 4 of region 7, at the end. -/
theorem W14_out (c : Dev nD) : W14 m ρ c (Proc.devRef .tc main_v122) = (dat7 (V13 m ρ) c).arrAt 4 cfg7.N :=
  W14_arr m ρ c 4

end Cert.KernelIdeal.Hand

end
-- ==== Proof.KI.Data.lean ====
/-
  The proof data of all the regions as one family, and the thread state between two items of the main program:
  every unscoped buffer of the core at the boundary's contents, the generator register at some state, nothing owed.
-/
import proofs.«135780_j72241349919044_1_alg».proof.Proof.KI.Chain
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The proof data family and the thread state -/

/-- Every region's proof data, each at its region's entry contents: a literal match, so that the family at a numeral
    reduces to the printed data. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V11 m ρ) c
  | ⟨7, _⟩ => fun c => dat7 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents W, R riding along; it ends at those
    references after the stretch's operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W14 m ρ c) ∗ ∃ r, prngReg c r)

end Cert.KernelIdeal.Hand

end
-- ==== Proof.KI.SegsA.lean ====
/-
  The kernel regions 0, 1, 2, 3 as items of the main program over the thread state: at entry the region's arrays are split
  out of the unscoped buffers, at exit they are put back at what the write-backs leave.
-/
import proofs.«135780_j72241349919044_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification may
-- unfold plain definitions in a metavariable's type
set_option backward.isDefEq.respectTransparency.types false in
/-- Region 0 over the thread state: entered from every unscoped buffer at W1, left at W2. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at W3, left at W4. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 2 over the thread state: entered from every unscoped buffer at W5, left at W6. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 3 over the thread state: entered from every unscoped buffer at W6, left at W7. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.SegsB.lean ====
/-
  The kernel regions 4, 5, 6, 7 as items of the main program over the thread state: at entry the region's arrays are split
  out of the unscoped buffers, at exit they are put back at what the write-backs leave.
-/
import proofs.«135780_j72241349919044_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- applying a library lemma stated over the pinned configuration unifies with the printed one only when unification may
-- unfold plain definitions in a metavariable's type
set_option backward.isDefEq.respectTransparency.types false in
/-- Region 4 over the thread state: entered from every unscoped buffer at W8, left at W9. Its arrays are split out
    of the unscoped buffers and put back at the exit contents; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from Phi4_zero (V8 m ρ) c]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from Phi4_last (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 5 over the thread state: entered from every unscoped buffer at W10, left at W11. Its arrays are split out
    of the unscoped buffers and put back at the exit contents; the generator register goes into the invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 6 over the thread state: entered from every unscoped buffer at W11, left at W12. Its arrays are split out
    of the unscoped buffers and put back at the exit contents; the generator register goes into the invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 7 over the thread state: entered from every unscoped buffer at W13, left at W14. Its arrays are split out
    of the unscoped buffers and put back at the exit contents; the generator register goes into the invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/-
  The run of the main program: its fourteen items in order from the launch, each entered from the thread state the
  one before it leaves; at the end every unscoped buffer of every core is read off the last boundary's contents, and
  the argument arrays among them hold what they held at launch.
-/
import proofs.«135780_j72241349919044_1_alg».proof.Proof.KI.SegsA
import proofs.«135780_j72241349919044_1_alg».proof.Proof.KI.SegsB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The main program's 14 items in order: a host item per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ) ]

/-- The main program is the run of the items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters every weakly fair execution of the main program terminates, nothing faulting, and
    every final memory satisfies any property that follows from: every unscoped buffer of every core holds the last
    boundary's contents. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W14 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := hQ)

/-- The run with every unscoped buffer read back: each final memory holds, on every core and at every unscoped buffer,
    the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  run_post m ρ fun _ h => h

/-- The frame claim at any float instance: the run terminates and every final memory has each argument array as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_post m ρ fun s h c =>
    ⟨(h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c)⟩

end Cert.KernelIdeal.Hand

end
-- ==== Proof.RefOps.lean ====
/-
  The reference program's host operations as one list, in program order, each called function's operations standing in
  the place of its call over that call's own buffers; the program is the sequence of that list; every operation touches
  TensorCore buffers only; hence every weakly fair execution terminates with each buffer at the fold of the
  operations' results over the launch contents.
  The list is cut where the computation's stages end (a graph convolution, the column sums, a batch normalisation
  with its rectifier), and also where the program text's four windows end, so that each window is a concatenation of pieces.
-/
import proofs.«135780_j72241349919044_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first layer's graph convolution: rows 0 and 1 of the edge list, x·W1, the inverse square-root degrees, the normalised neighbour sum, the self-loop term and the bias. (operations 1 … 58 of 258.) -/
abbrev opsConv1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v4 main_v32 main_v33 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x64 ![0, 1] bcast_S800000x1_S800000x64_0_1 : (⟨S800000x1, .f32⟩ : BufTy).Contents (Elt F) → (⟨S800000x64, .f32⟩ : BufTy).Contents (Elt F)),
    binary main_v33 main_v35 main_v36 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v37 (broadcastInDim S50000x64 ![] bcast_S_S50000x64 : (⟨S_, .f32⟩ : BufTy).Contents (Elt F) → (⟨S50000x64, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x64 ![0, 1] bcast_S50000x1_S50000x64_0_1 : (⟨S50000x1, .f32⟩ : BufTy).Contents (Elt F) → (⟨S50000x64, .f32⟩ : BufTy).Contents (Elt F)),
    binary main_v4 main_v42 main_v43 (mulf : (⟨S50000x64, .f32⟩ : BufTy).Contents (Elt F) → (⟨S50000x64, .f32⟩ : BufTy).Contents (Elt F) → (⟨S50000x64, .f32⟩ : BufTy).Contents (Elt F)),
    binary main_v39 main_v43 main_v44 (addf : (⟨S50000x64, .f32⟩ : BufTy).Contents (Elt F) → (⟨S50000x64, .f32⟩ : BufTy).Contents (Elt F) → (⟨S50000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)) ]

/-- The column sums of the first layer's pre-activation (the numerator of its mean). (operations 59 … 60 of 258.) -/
abbrev opsSum1 : List (HloOp τ sig (Elt F)) :=
  [ nullary main_cst_8 (constant S_ .f32 0x00000000#32),
    binary main_v47 main_cst_8 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ]

/-- The first layer's batch normalisation (mean, biased variance, scale and shift) and its rectifier. (operations 61 … 105 of 258.) -/
abbrev opsNorm1 : List (HloOp τ sig (Elt F)) :=
  [ nullary main_cst_9 (constant S_ .f32 0x47435000#32),
    unary main_cst_9 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary (TRef.of (T := ⟨S_, .f32⟩) main_call0_cst) (constant S_ .f32 0x00000000#32),
    TRef.binary (TRef.of (T := ⟨S50000x64, .f32⟩) main_v47) (TRef.of (T := ⟨S_, .f32⟩) main_call0_cst) (TRef.of (T := ⟨S64, .f32⟩) main_call0_v0) (fun x v => Host.reduceAdd x v reducesTo_S50000x64_S64_d0 h_S_),
    TRef.unary (TRef.of (T := ⟨S64, .f32⟩) main_call0_v0) (TRef.of (T := ⟨S1x64, .f32⟩) main_call0_v1) (broadcastInDim S1x64 ![1] bcast_S64_S1x64_1),
    TRef.nullary (TRef.of (T := ⟨S_, .f32⟩) main_call0_cst_0) (constant S_ .f32 0x47435000#32),
    TRef.unary (TRef.of (T := ⟨S_, .f32⟩) main_call0_cst_0) (TRef.of (T := ⟨S1x64, .f32⟩) main_call0_v2) (broadcastInDim S1x64 ![] bcast_S_S1x64),
    TRef.binary (TRef.of (T := ⟨S1x64, .f32⟩) main_call0_v1) (TRef.of (T := ⟨S1x64, .f32⟩) main_call0_v2) (TRef.of (T := ⟨S1x64, .f32⟩) main_call0_v3) Host.divf,
    TRef.unary (TRef.of (T := ⟨S1x64, .f32⟩) main_call0_v3) (TRef.of (T := ⟨S50000x64, .f32⟩) main_call0_v4) (broadcastInDim S50000x64 ![0, 1] bcast_S1x64_S50000x64_0_1),
    TRef.binary (TRef.of (T := ⟨S50000x64, .f32⟩) main_v47) (TRef.of (T := ⟨S50000x64, .f32⟩) main_call0_v4) (TRef.of (T := ⟨S50000x64, .f32⟩) main_call0_v5) subf,
    TRef.binary (TRef.of (T := ⟨S50000x64, .f32⟩) main_call0_v5) (TRef.of (T := ⟨S50000x64, .f32⟩) main_call0_v5) (TRef.of (T := ⟨S50000x64, .f32⟩) main_call0_v6) mulf,
    TRef.unary (TRef.of (T := ⟨S_, .i32⟩) main_c_10) (TRef.of (T := ⟨S_, .f32⟩) main_call0_v7) (sitofp .f32),
    TRef.nullary (TRef.of (T := ⟨S_, .f32⟩) main_call0_cst_1) (constant S_ .f32 0x47435000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S50000x64, .f32⟩) main_call0_v6) (TRef.of (T := ⟨S_, .f32⟩) main_call0_cst_2) (TRef.of (T := ⟨S64, .f32⟩) main_call0_v9) (fun x v => Host.reduceAdd x v reducesTo_S50000x64_S64_d0 h_S_),
    TRef.unary (TRef.of (T := ⟨S_, .f32⟩) main_call0_v8) (TRef.of (T := ⟨S64, .f32⟩) main_call0_v10) (broadcastInDim S64 ![] bcast_S_S64),
    TRef.binary (TRef.of (T := ⟨S64, .f32⟩) main_call0_v9) (TRef.of (T := ⟨S64, .f32⟩) main_call0_v10) (TRef.of (T := ⟨S64, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S64, .f32⟩) main_call0_call0_v1) (broadcastInDim S64 ![] bcast_S_S64),
    TRef.ternary (TRef.of (T := ⟨S_, .i1⟩) main_call0_v12) (TRef.of (T := ⟨S64, .f32⟩) main_call0_v11) (TRef.of (T := ⟨S64, .f32⟩) main_call0_call0_v1) (TRef.of (T := ⟨S64, .f32⟩) main_v51) (fun p a b => select (broadcastInDim S64 ![] bcast_S_S64 p) a b),
    unary main_v50 main_v52 (broadcastInDim S1x64 ![1] bcast_S64_S1x64_1 : (⟨S64, .f32⟩ : BufTy).Contents (Elt F) → (⟨S1x64, .f32⟩ : BufTy).Contents (Elt F)),
    unary main_v52 main_v53 (broadcastInDim S50000x64 ![0, 1] bcast_S1x64_S50000x64_0_1 : (⟨S1x64, .f32⟩ : BufTy).Contents (Elt F) → (⟨S50000x64, .f32⟩ : BufTy).Contents (Elt F)),
    binary main_v47 main_v53 main_v54 (subf : (⟨S50000x64, .f32⟩ : BufTy).Contents (Elt F) → (⟨S50000x64, .f32⟩ : BufTy).Contents (Elt F) → (⟨S50000x64, .f32⟩ : BufTy).Contents (Elt F)),
    unary main_arg4 main_v55 (broadcastInDim S1x64 ![1] bcast_S64_S1x64_1 : (⟨S64, .f32⟩ : BufTy).Contents (Elt F) → (⟨S1x64, .f32⟩ : BufTy).Contents (Elt F)),
    unary main_v55 main_v56 (broadcastInDim S50000x64 ![0, 1] bcast_S1x64_S50000x64_0_1 : (⟨S1x64, .f32⟩ : BufTy).Contents (Elt F) → (⟨S50000x64, .f32⟩ : BufTy).Contents (Elt F)),
    binary main_v56 main_v54 main_v57 (mulf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v58 (broadcastInDim S64 ![] bcast_S_S64 : (⟨S_, .f32⟩ : BufTy).Contents (Elt F) → (⟨S64, .f32⟩ : BufTy).Contents (Elt F)),
    binary main_v51 main_v58 main_v59 (addf : (⟨S64, .f32⟩ : BufTy).Contents (Elt F) → (⟨S64, .f32⟩ : BufTy).Contents (Elt F) → (⟨S64, .f32⟩ : BufTy).Contents (Elt F)),
    unary main_v59 main_v60 (Host.rsqrt : (⟨S64, .f32⟩ : BufTy).Contents (Elt F) → (⟨S64, .f32⟩ : BufTy).Contents (Elt F)),
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v57 main_v62 main_v63 (mulf : (⟨S50000x64, .f32⟩ : BufTy).Contents (Elt F) → (⟨S50000x64, .f32⟩ : BufTy).Contents (Elt F) → (⟨S50000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v66) (TRef.of (T := ⟨S50000x64, .f32⟩) main_call1_v0) (TRef.of (T := ⟨S50000x64, .f32⟩) main_v67) maximumf ]

/-- The second layer's graph convolution, up to the wrapped source indices. (operations 106 … 143 of 258.) -/
abbrev opsConv2a : List (HloOp τ sig (Elt F)) :=
  [ binary main_v67 main_arg6 main_v68 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_12 (constant S_ .f32 0x3F800000#32),
    unary main_cst_12 main_v69 (broadcastInDim S800000 ![] bcast_S_S800000 : (⟨S_, .f32⟩ : BufTy).Contents (Elt F) → (⟨S800000, .f32⟩ : BufTy).Contents (Elt F)),
    nullary main_cst_13 (constant S_ .f32 0x00000000#32),
    unary main_cst_13 main_v70 (broadcastInDim S50000 ![] bcast_S_S50000 : (⟨S_, .f32⟩ : BufTy).Contents (Elt F) → (⟨S50000, .f32⟩ : BufTy).Contents (Elt F)),
    unary main_v3 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_14 (constant S_ .f32 0x3F800000#32),
    unary main_cst_14 main_v73 (broadcastInDim S50000 ![] bcast_S_S50000 : (⟨S_, .f32⟩ : BufTy).Contents (Elt F) → (⟨S50000, .f32⟩ : BufTy).Contents (Elt F)),
    binary main_v72 main_v73 main_v74 (addf : (⟨S50000, .f32⟩ : BufTy).Contents (Elt F) → (⟨S50000, .f32⟩ : BufTy).Contents (Elt F) → (⟨S50000, .f32⟩ : BufTy).Contents (Elt F)),
    unary main_v74 main_v75 (Host.rsqrt : (⟨S50000, .f32⟩ : BufTy).Contents (Elt F) → (⟨S50000, .f32⟩ : BufTy).Contents (Elt F)),
    nullary main_c_15 (constantI S_ 32 0#32),
    unary main_c_15 main_v76 (broadcastInDim S800000 ![] bcast_S_S800000 : (⟨S_, .i32⟩ : BufTy).Contents (Elt F) → (⟨S800000, .i32⟩ : BufTy).Contents (Elt F)),
    binary main_v1 main_v76 main_v77 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v78 (broadcastInDim S800000 ![] bcast_S_S800000 : (⟨S_, .i32⟩ : BufTy).Contents (Elt F) → (⟨S800000, .i32⟩ : BufTy).Contents (Elt F)),
    binary main_v1 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v75 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_17 (constantI S_ 32 0#32),
    unary main_c_17 main_v83 (broadcastInDim S800000 ![] bcast_S_S800000 : (⟨S_, .i32⟩ : BufTy).Contents (Elt F) → (⟨S800000, .i32⟩ : BufTy).Contents (Elt F)),
    binary main_v3 main_v83 main_v84 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v85 (broadcastInDim S800000 ![] bcast_S_S800000 : (⟨S_, .i32⟩ : BufTy).Contents (Elt F) → (⟨S800000, .i32⟩ : BufTy).Contents (Elt F)),
    binary main_v3 main_v85 main_v86 (addi : (⟨S800000, .i32⟩ : BufTy).Contents (Elt F) → (⟨S800000, .i32⟩ : BufTy).Contents (Elt F) → (⟨S800000, .i32⟩ : BufTy).Contents (Elt F)),
    ternary main_v84 main_v86 main_v3 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v87 main_v88 (broadcastInDim S800000x1 ![0] bcast_S800000_S800000x1_0 : (⟨S800000, .i32⟩ : BufTy).Contents (Elt F) → (⟨S800000x1, .i32⟩ : BufTy).Contents (Elt F)),
    binary main_v75 main_v88 main_v89 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v82 main_v89 main_v90 (mulf : (⟨S800000, .f32⟩ : BufTy).Contents (Elt F) → (⟨S800000, .f32⟩ : BufTy).Contents (Elt F) → (⟨S800000, .f32⟩ : BufTy).Contents (Elt F)),
    nullary main_c_19 (constantI S_ 32 0#32),
    unary main_c_19 main_v91 (broadcastInDim S800000 ![] bcast_S_S800000 : (⟨S_, .i32⟩ : BufTy).Contents (Elt F) → (⟨S800000, .i32⟩ : BufTy).Contents (Elt F)),
    binary main_v1 main_v91 main_v92 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v93 (broadcastInDim S800000 ![] bcast_S_S800000 : (⟨S_, .i32⟩ : BufTy).Contents (Elt F) → (⟨S800000, .i32⟩ : BufTy).Contents (Elt F)),
    binary main_v1 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)) ]

/-- The second layer's graph convolution, from the gather of the source rows to the bias. (operations 144 … 159 of 258.) -/
abbrev opsConv2b : List (HloOp τ sig (Elt F)) :=
  [ binary main_v68 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v90 main_v98 (broadcastInDim S800000x1 ![0] bcast_S800000_S800000x1_0 : (⟨S800000, .f32⟩ : BufTy).Contents (Elt F) → (⟨S800000x1, .f32⟩ : BufTy).Contents (Elt F)),
    unary main_v98 main_v99 (broadcastInDim S800000x64 ![0, 1] bcast_S800000x1_S800000x64_0_1 : (⟨S800000x1, .f32⟩ : BufTy).Contents (Elt F) → (⟨S800000x64, .f32⟩ : BufTy).Contents (Elt F)),
    binary main_v97 main_v99 main_v100 (mulf : (⟨S800000x64, .f32⟩ : BufTy).Contents (Elt F) → (⟨S800000x64, .f32⟩ : BufTy).Contents (Elt F) → (⟨S800000x64, .f32⟩ : BufTy).Contents (Elt F)),
    nullary main_cst_21 (constant S_ .f32 0x00000000#32),
    unary main_cst_21 main_v101 (broadcastInDim S50000x64 ![] bcast_S_S50000x64 : (⟨S_, .f32⟩ : BufTy).Contents (Elt F) → (⟨S50000x64, .f32⟩ : BufTy).Contents (Elt F)),
    unary main_v3 main_v102 (broadcastInDim S800000x1 ![0] bcast_S800000_S800000x1_0 : (⟨S800000, .i32⟩ : BufTy).Contents (Elt F) → (⟨S800000x1, .i32⟩ : BufTy).Contents (Elt F)),
    ternary main_v101 main_v102 main_v100 main_v103 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v75 main_v75 main_v104 (mulf : (⟨S50000, .f32⟩ : BufTy).Contents (Elt F) → (⟨S50000, .f32⟩ : BufTy).Contents (Elt F) → (⟨S50000, .f32⟩ : BufTy).Contents (Elt F)),
    unary main_v104 main_v105 (broadcastInDim S50000x1 ![0] bcast_S50000_S50000x1_0 : (⟨S50000, .f32⟩ : BufTy).Contents (Elt F) → (⟨S50000x1, .f32⟩ : BufTy).Contents (Elt F)),
    unary main_v105 main_v106 (broadcastInDim S50000x64 ![0, 1] bcast_S50000x1_S50000x64_0_1 : (⟨S50000x1, .f32⟩ : BufTy).Contents (Elt F) → (⟨S50000x64, .f32⟩ : BufTy).Contents (Elt F)),
    binary main_v68 main_v106 main_v107 (mulf : (⟨S50000x64, .f32⟩ : BufTy).Contents (Elt F) → (⟨S50000x64, .f32⟩ : BufTy).Contents (Elt F) → (⟨S50000x64, .f32⟩ : BufTy).Contents (Elt F)),
    binary main_v103 main_v107 main_v108 (addf : (⟨S50000x64, .f32⟩ : BufTy).Contents (Elt F) → (⟨S50000x64, .f32⟩ : BufTy).Contents (Elt F) → (⟨S50000x64, .f32⟩ : BufTy).Contents (Elt F)),
    unary main_arg7 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v108 main_v110 main_v111 (addf : (⟨S50000x64, .f32⟩ : BufTy).Contents (Elt F) → (⟨S50000x64, .f32⟩ : BufTy).Contents (Elt F) → (⟨S50000x64, .f32⟩ : BufTy).Contents (Elt F)) ]

/-- The second layer's batch normalisation and its rectifier. (operations 160 … 206 of 258.) -/
abbrev opsNorm2 : List (HloOp τ sig (Elt F)) :=
  [ nullary main_cst_22 (constant S_ .f32 0x00000000#32),
    binary main_v111 main_cst_22 main_v112 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_23 (constant S_ .f32 0x47435000#32),
    unary main_cst_23 main_v113 (broadcastInDim S64 ![] bcast_S_S64 : (⟨S_, .f32⟩ : BufTy).Contents (Elt F) → (⟨S64, .f32⟩ : BufTy).Contents (Elt F)),
    binary main_v112 main_v113 main_v114 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    TRef.nullary (TRef.of (T := ⟨S_, .f32⟩) main_call2_cst) (constant S_ .f32 0x00000000#32),
    TRef.binary (TRef.of (T := ⟨S50000x64, .f32⟩) main_v111) (TRef.of (T := ⟨S_, .f32⟩) main_call2_cst) (TRef.of (T := ⟨S64, .f32⟩) main_call2_v0) (fun x v => Host.reduceAdd x v reducesTo_S50000x64_S64_d0 h_S_),
    TRef.unary (TRef.of (T := ⟨S64, .f32⟩) main_call2_v0) (TRef.of (T := ⟨S1x64, .f32⟩) main_call2_v1) (broadcastInDim S1x64 ![1] bcast_S64_S1x64_1),
    TRef.nullary (TRef.of (T := ⟨S_, .f32⟩) main_call2_cst_0) (constant S_ .f32 0x47435000#32),
    TRef.unary (TRef.of (T := ⟨S_, .f32⟩) main_call2_cst_0) (TRef.of (T := ⟨S1x64, .f32⟩) main_call2_v2) (broadcastInDim S1x64 ![] bcast_S_S1x64),
    TRef.binary (TRef.of (T := ⟨S1x64, .f32⟩) main_call2_v1) (TRef.of (T := ⟨S1x64, .f32⟩) main_call2_v2) (TRef.of (T := ⟨S1x64, .f32⟩) main_call2_v3) Host.divf,
    TRef.unary (TRef.of (T := ⟨S1x64, .f32⟩) main_call2_v3) (TRef.of (T := ⟨S50000x64, .f32⟩) main_call2_v4) (broadcastInDim S50000x64 ![0, 1] bcast_S1x64_S50000x64_0_1),
    TRef.binary (TRef.of (T := ⟨S50000x64, .f32⟩) main_v111) (TRef.of (T := ⟨S50000x64, .f32⟩) main_call2_v4) (TRef.of (T := ⟨S50000x64, .f32⟩) main_call2_v5) subf,
    TRef.binary (TRef.of (T := ⟨S50000x64, .f32⟩) main_call2_v5) (TRef.of (T := ⟨S50000x64, .f32⟩) main_call2_v5) (TRef.of (T := ⟨S50000x64, .f32⟩) main_call2_v6) mulf,
    TRef.unary (TRef.of (T := ⟨S_, .i32⟩) main_c_24) (TRef.of (T := ⟨S_, .f32⟩) main_call2_v7) (sitofp .f32),
    TRef.nullary (TRef.of (T := ⟨S_, .f32⟩) main_call2_cst_1) (constant S_ .f32 0x47435000#32),
    TRef.binary (TRef.of (T := ⟨S_, .f32⟩) main_call2_cst_1) (TRef.of (T := ⟨S_, .f32⟩) main_call2_v7) (TRef.of (T := ⟨S_, .f32⟩) main_call2_v8) subf,
    TRef.nullary (TRef.of (T := ⟨S_, .f32⟩) main_call2_cst_2) (constant S_ .f32 0x00000000#32),
    TRef.binary (TRef.of (T := ⟨S50000x64, .f32⟩) main_call2_v6) (TRef.of (T := ⟨S_, .f32⟩) main_call2_cst_2) (TRef.of (T := ⟨S64, .f32⟩) main_call2_v9) (fun x v => Host.reduceAdd x v reducesTo_S50000x64_S64_d0 h_S_),
    TRef.unary (TRef.of (T := ⟨S_, .f32⟩) main_call2_v8) (TRef.of (T := ⟨S64, .f32⟩) main_call2_v10) (broadcastInDim S64 ![] bcast_S_S64),
    TRef.binary (TRef.of (T := ⟨S64, .f32⟩) main_call2_v9) (TRef.of (T := ⟨S64, .f32⟩) main_call2_v10) (TRef.of (T := ⟨S64, .f32⟩) main_call2_v11) Host.divf,
    TRef.nullary (TRef.of (T := ⟨S_, .f32⟩) main_call2_cst_3) (constant S_ .f32 0x00000000#32),
    TRef.binary (TRef.of (T := ⟨S_, .f32⟩) main_call2_v8) (TRef.of (T := ⟨S_, .f32⟩) main_call2_cst_3) (TRef.of (T := ⟨S_, .i1⟩) main_call2_v12) (cmpf .ogt),
    TRef.nullary (TRef.of (T := ⟨S_, .f32⟩) main_call2_cst_4) (constant S_ .f32 0x7FC00000#32),
    TRef.unary (TRef.of (T := ⟨S_, .f32⟩) main_call2_cst_4) (TRef.of (T := ⟨S_, .f32⟩) main_call2_call0_v0) id,
    TRef.unary (TRef.of (T := ⟨S_, .f32⟩) main_call2_call0_v0) (TRef.of (T := ⟨S64, .f32⟩) main_call2_call0_v1) (broadcastInDim S64 ![] bcast_S_S64),
    TRef.ternary (TRef.of (T := ⟨S_, .i1⟩) main_call2_v12) (TRef.of (T := ⟨S64, .f32⟩) main_call2_v11) (TRef.of (T := ⟨S64, .f32⟩) main_call2_call0_v1) (TRef.of (T := ⟨S64, .f32⟩) main_v115) (fun p a b => select (broadcastInDim S64 ![] bcast_S_S64 p) a b),
    unary main_v114 main_v116 (broadcastInDim S1x64 ![1] bcast_S64_S1x64_1 : (⟨S64, .f32⟩ : BufTy).Contents (Elt F) → (⟨S1x64, .f32⟩ : BufTy).Contents (Elt F)),
    unary main_v116 main_v117 (broadcastInDim S50000x64 ![0, 1] bcast_S1x64_S50000x64_0_1 : (⟨S1x64, .f32⟩ : BufTy).Contents (Elt F) → (⟨S50000x64, .f32⟩ : BufTy).Contents (Elt F)),
    binary main_v111 main_v117 main_v118 (subf : (⟨S50000x64, .f32⟩ : BufTy).Contents (Elt F) → (⟨S50000x64, .f32⟩ : BufTy).Contents (Elt F) → (⟨S50000x64, .f32⟩ : BufTy).Contents (Elt F)),
    unary main_arg8 main_v119 (broadcastInDim S1x64 ![1] bcast_S64_S1x64_1 : (⟨S64, .f32⟩ : BufTy).Contents (Elt F) → (⟨S1x64, .f32⟩ : BufTy).Contents (Elt F)),
    unary main_v119 main_v120 (broadcastInDim S50000x64 ![0, 1] bcast_S1x64_S50000x64_0_1 : (⟨S1x64, .f32⟩ : BufTy).Contents (Elt F) → (⟨S50000x64, .f32⟩ : BufTy).Contents (Elt F)),
    binary main_v120 main_v118 main_v121 (mulf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3727C5AC#32),
    unary main_cst_25 main_v122 (broadcastInDim S64 ![] bcast_S_S64 : (⟨S_, .f32⟩ : BufTy).Contents (Elt F) → (⟨S64, .f32⟩ : BufTy).Contents (Elt F)),
    binary main_v115 main_v122 main_v123 (addf : (⟨S64, .f32⟩ : BufTy).Contents (Elt F) → (⟨S64, .f32⟩ : BufTy).Contents (Elt F) → (⟨S64, .f32⟩ : BufTy).Contents (Elt F)),
    unary main_v123 main_v124 (Host.rsqrt : (⟨S64, .f32⟩ : BufTy).Contents (Elt F) → (⟨S64, .f32⟩ : BufTy).Contents (Elt F)),
    unary main_v124 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v121 main_v126 main_v127 (mulf : (⟨S50000x64, .f32⟩ : BufTy).Contents (Elt F) → (⟨S50000x64, .f32⟩ : BufTy).Contents (Elt F) → (⟨S50000x64, .f32⟩ : BufTy).Contents (Elt F)),
    unary main_arg9 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v130) (TRef.of (T := ⟨S50000x64, .f32⟩) main_call3_v0) (TRef.of (T := ⟨S50000x64, .f32⟩) main_v131) maximumf ]

/-- The output layer's graph convolution, up to the gather of the inverse square-root degrees at the sources. (operations 207 … 226 of 258.) -/
abbrev opsConv3a : List (HloOp τ sig (Elt F)) :=
  [ binary main_v131 main_arg10 main_v132 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    nullary main_cst_26 (constant S_ .f32 0x3F800000#32),
    unary main_cst_26 main_v133 (broadcastInDim S800000 ![] bcast_S_S800000 : (⟨S_, .f32⟩ : BufTy).Contents (Elt F) → (⟨S800000, .f32⟩ : BufTy).Contents (Elt F)),
    nullary main_cst_27 (constant S_ .f32 0x00000000#32),
    unary main_cst_27 main_v134 (broadcastInDim S50000 ![] bcast_S_S50000 : (⟨S_, .f32⟩ : BufTy).Contents (Elt F) → (⟨S50000, .f32⟩ : BufTy).Contents (Elt F)),
    unary main_v3 main_v135 (broadcastInDim S800000x1 ![0] bcast_S800000_S800000x1_0 : (⟨S800000, .i32⟩ : BufTy).Contents (Elt F) → (⟨S800000x1, .i32⟩ : BufTy).Contents (Elt F)),
    ternary main_v134 main_v135 main_v133 main_v136 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_28 (constant S_ .f32 0x3F800000#32),
    unary main_cst_28 main_v137 (broadcastInDim S50000 ![] bcast_S_S50000 : (⟨S_, .f32⟩ : BufTy).Contents (Elt F) → (⟨S50000, .f32⟩ : BufTy).Contents (Elt F)),
    binary main_v136 main_v137 main_v138 (addf : (⟨S50000, .f32⟩ : BufTy).Contents (Elt F) → (⟨S50000, .f32⟩ : BufTy).Contents (Elt F) → (⟨S50000, .f32⟩ : BufTy).Contents (Elt F)),
    unary main_v138 main_v139 (Host.rsqrt : (⟨S50000, .f32⟩ : BufTy).Contents (Elt F) → (⟨S50000, .f32⟩ : BufTy).Contents (Elt F)),
    nullary main_c_29 (constantI S_ 32 0#32),
    unary main_c_29 main_v140 (broadcastInDim S800000 ![] bcast_S_S800000 : (⟨S_, .i32⟩ : BufTy).Contents (Elt F) → (⟨S800000, .i32⟩ : BufTy).Contents (Elt F)),
    binary main_v1 main_v140 main_v141 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v142 (broadcastInDim S800000 ![] bcast_S_S800000 : (⟨S_, .i32⟩ : BufTy).Contents (Elt F) → (⟨S800000, .i32⟩ : BufTy).Contents (Elt F)),
    binary main_v1 main_v142 main_v143 (addi : (⟨S800000, .i32⟩ : BufTy).Contents (Elt F) → (⟨S800000, .i32⟩ : BufTy).Contents (Elt F) → (⟨S800000, .i32⟩ : BufTy).Contents (Elt F)),
    ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v144 main_v145 (broadcastInDim S800000x1 ![0] bcast_S800000_S800000x1_0 : (⟨S800000, .i32⟩ : BufTy).Contents (Elt F) → (⟨S800000x1, .i32⟩ : BufTy).Contents (Elt F)),
    binary main_v139 main_v145 main_v146 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) ]

/-- The output layer's graph convolution, from the destinations' wrap to the bias. (operations 227 … 258 of 258.) -/
abbrev opsConv3b : List (HloOp τ sig (Elt F)) :=
  [ nullary main_c_31 (constantI S_ 32 0#32),
    unary main_c_31 main_v147 (broadcastInDim S800000 ![] bcast_S_S800000 : (⟨S_, .i32⟩ : BufTy).Contents (Elt F) → (⟨S800000, .i32⟩ : BufTy).Contents (Elt F)),
    binary main_v3 main_v147 main_v148 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v149 (broadcastInDim S800000 ![] bcast_S_S800000 : (⟨S_, .i32⟩ : BufTy).Contents (Elt F) → (⟨S800000, .i32⟩ : BufTy).Contents (Elt F)),
    binary main_v3 main_v149 main_v150 (addi : (⟨S800000, .i32⟩ : BufTy).Contents (Elt F) → (⟨S800000, .i32⟩ : BufTy).Contents (Elt F) → (⟨S800000, .i32⟩ : BufTy).Contents (Elt F)),
    ternary main_v148 main_v150 main_v3 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v151 main_v152 (broadcastInDim S800000x1 ![0] bcast_S800000_S800000x1_0 : (⟨S800000, .i32⟩ : BufTy).Contents (Elt F) → (⟨S800000x1, .i32⟩ : BufTy).Contents (Elt F)),
    binary main_v139 main_v152 main_v153 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v146 main_v153 main_v154 (mulf : (⟨S800000, .f32⟩ : BufTy).Contents (Elt F) → (⟨S800000, .f32⟩ : BufTy).Contents (Elt F) → (⟨S800000, .f32⟩ : BufTy).Contents (Elt F)),
    nullary main_c_33 (constantI S_ 32 0#32),
    unary main_c_33 main_v155 (broadcastInDim S800000 ![] bcast_S_S800000 : (⟨S_, .i32⟩ : BufTy).Contents (Elt F) → (⟨S800000, .i32⟩ : BufTy).Contents (Elt F)),
    binary main_v1 main_v155 main_v156 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v157 (broadcastInDim S800000 ![] bcast_S_S800000 : (⟨S_, .i32⟩ : BufTy).Contents (Elt F) → (⟨S800000, .i32⟩ : BufTy).Contents (Elt F)),
    binary main_v1 main_v157 main_v158 (addi : (⟨S800000, .i32⟩ : BufTy).Contents (Elt F) → (⟨S800000, .i32⟩ : BufTy).Contents (Elt F) → (⟨S800000, .i32⟩ : BufTy).Contents (Elt F)),
    ternary main_v156 main_v158 main_v1 main_v159 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v159 main_v160 (broadcastInDim S800000x1 ![0] bcast_S800000_S800000x1_0 : (⟨S800000, .i32⟩ : BufTy).Contents (Elt F) → (⟨S800000x1, .i32⟩ : BufTy).Contents (Elt F)),
    binary main_v132 main_v160 main_v161 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    unary main_v154 main_v162 (broadcastInDim S800000x1 ![0] bcast_S800000_S800000x1_0 : (⟨S800000, .f32⟩ : BufTy).Contents (Elt F) → (⟨S800000x1, .f32⟩ : BufTy).Contents (Elt F)),
    binary main_v161 main_v162 main_v163 (mulf : (⟨S800000x1, .f32⟩ : BufTy).Contents (Elt F) → (⟨S800000x1, .f32⟩ : BufTy).Contents (Elt F) → (⟨S800000x1, .f32⟩ : BufTy).Contents (Elt F)),
    nullary main_cst_35 (constant S_ .f32 0x00000000#32),
    unary main_cst_35 main_v164 (broadcastInDim S50000x1 ![] bcast_S_S50000x1 : (⟨S_, .f32⟩ : BufTy).Contents (Elt F) → (⟨S50000x1, .f32⟩ : BufTy).Contents (Elt F)),
    unary main_v3 main_v165 (broadcastInDim S800000x1 ![0] bcast_S800000_S800000x1_0 : (⟨S800000, .i32⟩ : BufTy).Contents (Elt F) → (⟨S800000x1, .i32⟩ : BufTy).Contents (Elt F)),
    ternary main_v164 main_v165 main_v163 main_v166 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    binary main_v139 main_v139 main_v167 (mulf : (⟨S50000, .f32⟩ : BufTy).Contents (Elt F) → (⟨S50000, .f32⟩ : BufTy).Contents (Elt F) → (⟨S50000, .f32⟩ : BufTy).Contents (Elt F)),
    unary main_v167 main_v168 (broadcastInDim S50000x1 ![0] bcast_S50000_S50000x1_0 : (⟨S50000, .f32⟩ : BufTy).Contents (Elt F) → (⟨S50000x1, .f32⟩ : BufTy).Contents (Elt F)),
    binary main_v132 main_v168 main_v169 (mulf : (⟨S50000x1, .f32⟩ : BufTy).Contents (Elt F) → (⟨S50000x1, .f32⟩ : BufTy).Contents (Elt F) → (⟨S50000x1, .f32⟩ : BufTy).Contents (Elt F)),
    binary main_v166 main_v169 main_v170 (addf : (⟨S50000x1, .f32⟩ : BufTy).Contents (Elt F) → (⟨S50000x1, .f32⟩ : BufTy).Contents (Elt F) → (⟨S50000x1, .f32⟩ : BufTy).Contents (Elt F)),
    unary main_arg11 main_v171 (broadcastInDim S1x1 ![1] bcast_S1_S1x1_1 : (⟨S1, .f32⟩ : BufTy).Contents (Elt F) → (⟨S1x1, .f32⟩ : BufTy).Contents (Elt F)),
    unary main_v171 main_v172 (broadcastInDim S50000x1 ![0, 1] bcast_S1x1_S50000x1_0_1 : (⟨S1x1, .f32⟩ : BufTy).Contents (Elt F) → (⟨S50000x1, .f32⟩ : BufTy).Contents (Elt F)),
    binary main_v170 main_v172 main_v173 (addf : (⟨S50000x1, .f32⟩ : BufTy).Contents (Elt F) → (⟨S50000x1, .f32⟩ : BufTy).Contents (Elt F) → (⟨S50000x1, .f32⟩ : BufTy).Contents (Elt F)) ]

/-- All 258 operations, in order. -/
abbrev ops : List (HloOp τ sig (Elt F)) :=
  opsConv1 ++ (opsSum1 ++ (opsNorm1 ++ (opsConv2a ++ (opsConv2b ++ (opsNorm2 ++ (opsConv3a ++ (opsConv3b)))))))

set_option maxRecDepth 8192 in
set_option maxHeartbeats 4000000 in
/-- Window 0 of the program text is its pieces run in order (the called functions' bodies unfold at their calls). -/
theorem main_part0_eq (c : Dev nD) : main_part0 (F := F) c = seq (opsConv1 ++ (opsSum1)) := rfl

set_option maxRecDepth 8192 in
set_option maxHeartbeats 4000000 in
/-- Window 1 of the program text is its pieces run in order (the called functions' bodies unfold at their calls). -/
theorem main_part1_eq (c : Dev nD) : main_part1 (F := F) c = seq (opsNorm1 ++ (opsConv2a)) := rfl

set_option maxRecDepth 8192 in
set_option maxHeartbeats 4000000 in
/-- Window 2 of the program text is its pieces run in order (the called functions' bodies unfold at their calls). -/
theorem main_part2_eq (c : Dev nD) : main_part2 (F := F) c = seq (opsConv2b ++ (opsNorm2 ++ (opsConv3a))) := rfl

set_option maxRecDepth 8192 in
set_option maxHeartbeats 4000000 in
/-- Window 3 of the program text is its pieces run in order (the called functions' bodies unfold at their calls). -/
theorem main_part3_eq (c : Dev nD) : main_part3 (F := F) c = seq (opsConv3b) := rfl

/-- The program is the sequence of its operations: its four windows in turn, each the sequence of its pieces, and a
    sequence of a concatenation is the sequences in turn. -/
theorem main_eq (c : Dev nD) : main (F := F) c = seq ops := by
  simp only [main, main_part0_eq, main_part1_eq, main_part2_eq, main_part3_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsConv1_sub : (opsConv1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem opsConv1_fresh : (opsConv1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsSum1_sub : (opsSum1 : List (HloOp τ sig (Elt F))).Forall fun op => op.bufs ⊆ tcRefs τ sig :=
  ⟨nullary_bufs_sub .., binary_bufs_sub ..⟩
set_option maxRecDepth 8192 in
theorem opsSum1_fresh : (opsSum1 : List (HloOp τ sig (Elt F))).Forall fun op => op.fresh = ∅ :=
  ⟨rfl, rfl⟩

set_option maxRecDepth 8192 in
theorem opsNorm1_sub : (opsNorm1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsNorm1_fresh : (opsNorm1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsConv2a_sub : (opsConv2a : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 8192 in
theorem opsConv2a_fresh : (opsConv2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsConv2b_sub : (opsConv2b : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem opsConv2b_fresh : (opsConv2b : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem opsNorm2_sub : (opsNorm2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsNorm2_fresh : (opsNorm2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsConv3a_sub : (opsConv3a : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem opsConv3a_fresh : (opsConv3a : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem opsConv3b_sub : (opsConv3b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., binary_bufs_sub .., unary_bufs_sub .., unary_bufs_sub .., binary_bufs_sub ..⟩
set_option maxRecDepth 8192 in
theorem opsConv3b_fresh : (opsConv3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsConv1_sub op h, List.forall_iff_forall_mem.mp opsSum1_sub op h, List.forall_iff_forall_mem.mp opsNorm1_sub op h, List.forall_iff_forall_mem.mp opsConv2a_sub op h, List.forall_iff_forall_mem.mp opsConv2b_sub op h, List.forall_iff_forall_mem.mp opsNorm2_sub op h, List.forall_iff_forall_mem.mp opsConv3a_sub op h, List.forall_iff_forall_mem.mp opsConv3b_sub op h]

theorem ops_fresh : ∀ op ∈ (ops : List (HloOp τ sig (Elt F))), op.fresh = ∅ := fun op h => by
    simp only [ops, List.mem_append] at h
    rcases h with h | h | h | h | h | h | h | h
    exacts [List.forall_iff_forall_mem.mp opsConv1_fresh op h, List.forall_iff_forall_mem.mp opsSum1_fresh op h, List.forall_iff_forall_mem.mp opsNorm1_fresh op h, List.forall_iff_forall_mem.mp opsConv2a_fresh op h, List.forall_iff_forall_mem.mp opsConv2b_fresh op h, List.forall_iff_forall_mem.mp opsNorm2_fresh op h, List.forall_iff_forall_mem.mp opsConv3a_fresh op h, List.forall_iff_forall_mem.mp opsConv3b_fresh op h]

/-- On every device, for any float values, from any memory with zero counters: every weakly fair execution of the
    program terminates, and every TensorCore buffer ends at the fold of the operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefValue.lean ====
/-
  The reference function as a pure function of its twelve arguments, stage by stage: a three-layer graph convolution
  network with batch normalisation. Each definition's body is the host operations' own functions, composed in program order
  (a called function's operations in the place of its call); a stage that the program computes once per layer is one
  definition, used by every layer.
-/
import proofs.«135780_j72241349919044_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge list as a vector of 800000 node numbers: each edge's source. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list as a vector of 800000 node numbers: each edge's destination. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A vector of node numbers as a column of gather indices: a negative number `v` counts from the end (`v + 50000`), any other is itself. -/
def wrapIdx (v : (⟨S800000, .i32⟩ : BufTy).Contents (Elt F)) : (⟨S800000x1, .i32⟩ : BufTy).Contents (Elt F) :=
  broadcastInDim S800000x1 ![0] bcast_S800000_S800000x1_0 (select (cmpi .slt v (broadcastInDim S800000 ![] bcast_S_S800000 ((constantI S_ 32 0#32 : (⟨S_, .i32⟩ : BufTy).Contents (Elt F))))) (addi v (broadcastInDim S800000 ![] bcast_S_S800000 ((constantI S_ 32 50000#32 : (⟨S_, .i32⟩ : BufTy).Contents (Elt F))))) v)

/-- The inverse square root of each node's degree in the graph with a self loop at every node: one plus the number of edges that end at the node (ones summed into zeros at the destinations), under `rsqrt`. -/
def degInv (dst : (⟨S800000, .i32⟩ : BufTy).Contents (Elt F)) : (⟨S50000, .f32⟩ : BufTy).Contents (Elt F) :=
  Host.rsqrt (addf (Host.scatterAdd scatter_S50000_S800000x1_S800000_n_0_0_1 (broadcastInDim S50000 ![] bcast_S_S50000 ((constant S_ .f32 0x00000000#32 : (⟨S_, .f32⟩ : BufTy).Contents (Elt F)))) (broadcastInDim S800000x1 ![0] bcast_S800000_S800000x1_0 dst) (broadcastInDim S800000 ![] bcast_S_S800000 ((constant S_ .f32 0x3F800000#32 : (⟨S_, .f32⟩ : BufTy).Contents (Elt F))))) (broadcastInDim S50000 ![] bcast_S_S50000 ((constant S_ .f32 0x3F800000#32 : (⟨S_, .f32⟩ : BufTy).Contents (Elt F)))))

/-- Each edge's weight: the inverse square-root degree at its source times the one at its destination. -/
def edgeNorm (dinv : (⟨S50000, .f32⟩ : BufTy).Contents (Elt F)) (src : (⟨S800000, .i32⟩ : BufTy).Contents (Elt F)) (dst : (⟨S800000, .i32⟩ : BufTy).Contents (Elt F)) : (⟨S800000, .f32⟩ : BufTy).Contents (Elt F) :=
  mulf (Host.gather gather_S50000_S800000x1_S800000_n_0_n_n_0_1_1 dinv (wrapIdx src)) (Host.gather gather_S50000_S800000x1_S800000_n_0_n_n_0_1_1 dinv (wrapIdx dst))

/-- The node features times a 64×64 weight matrix. -/
def lin64 (h : (⟨S50000x64, .f32⟩ : BufTy).Contents (Elt F)) (W : (⟨S64x64, .f32⟩ : BufTy).Contents (Elt F)) : (⟨S50000x64, .f32⟩ : BufTy).Contents (Elt F) :=
  Host.dotGeneral dot_S50000x64_S64x64_S50000x64_1_0_0_1_n_n none h W

/-- The weighted neighbour sum of 64-wide rows: row `src e` of `hw` times edge `e`'s weight, summed into zeros at row `dst e`, over all edges `e`. -/
def agg64 (hw : (⟨S50000x64, .f32⟩ : BufTy).Contents (Elt F)) (src : (⟨S800000, .i32⟩ : BufTy).Contents (Elt F)) (dst : (⟨S800000, .i32⟩ : BufTy).Contents (Elt F)) (dinv : (⟨S50000, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 ((constant S_ .f32 0x00000000#32 : (⟨S_, .f32⟩ : BufTy).Contents (Elt F)))) (broadcastInDim S800000x1 ![0] bcast_S800000_S800000x1_0 dst) (mulf (Host.gather gather_S50000x64_S800000x1_S800000x64_1_0_n_n_0_1_164 hw (wrapIdx src)) (broadcastInDim S800000x64 ![0, 1] bcast_S800000x1_S800000x64_0_1 (broadcastInDim S800000x1 ![0] bcast_S800000_S800000x1_0 (edgeNorm dinv src dst))))

/-- A 64-wide graph convolution: the weighted neighbour sum of `h·W`, plus each node's own row of `h·W` times its squared inverse square-root degree (the self loop), plus the bias on every row. -/
def pre64 (h : (⟨S50000x64, .f32⟩ : BufTy).Contents (Elt F)) (W : (⟨S64x64, .f32⟩ : BufTy).Contents (Elt F)) (b : (⟨S64, .f32⟩ : BufTy).Contents (Elt F)) (src : (⟨S800000, .i32⟩ : BufTy).Contents (Elt F)) (dst : (⟨S800000, .i32⟩ : BufTy).Contents (Elt F)) (dinv : (⟨S50000, .f32⟩ : BufTy).Contents (Elt F)) : (⟨S50000x64, .f32⟩ : BufTy).Contents (Elt F) :=
  addf (addf (agg64 (lin64 h W) src dst dinv) (mulf (lin64 h W) (broadcastInDim S50000x64 ![0, 1] bcast_S50000x1_S50000x64_0_1 (broadcastInDim S50000x1 ![0] bcast_S50000_S50000x1_0 (mulf dinv dinv))))) (broadcastInDim S50000x64 ![0, 1] bcast_S1x64_S50000x64_0_1 (broadcastInDim S1x64 ![1] bcast_S64_S1x64_1 b))

/-- The mean of each of the 64 columns over the 50000 rows: the column sums from zero, divided by 50000. -/
def colMean (P : (⟨S50000x64, .f32⟩ : BufTy).Contents (Elt F)) : (⟨S64, .f32⟩ : BufTy).Contents (Elt F) :=
  Host.divf (Host.reduceAdd P ((constant S_ .f32 0x00000000#32 : (⟨S_, .f32⟩ : BufTy).Contents (Elt F))) reducesTo_S50000x64_S64_d0 h_S_) (broadcastInDim S64 ![] bcast_S_S64 ((constant S_ .f32 0x47435000#32 : (⟨S_, .f32⟩ : BufTy).Contents (Elt F))))

/-- The column means as the variance computes them, kept as one row: the column sums from zero as a 1×64 row, divided by 50000. -/
def varMean (P : (⟨S50000x64, .f32⟩ : BufTy).Contents (Elt F)) : (⟨S1x64, .f32⟩ : BufTy).Contents (Elt F) :=
  Host.divf (broadcastInDim S1x64 ![1] bcast_S64_S1x64_1 (Host.reduceAdd P ((constant S_ .f32 0x00000000#32 : (⟨S_, .f32⟩ : BufTy).Contents (Elt F))) reducesTo_S50000x64_S64_d0 h_S_)) (broadcastInDim S1x64 ![] bcast_S_S1x64 ((constant S_ .f32 0x47435000#32 : (⟨S_, .f32⟩ : BufTy).Contents (Elt F))))

/-- Every row minus the row of column means. -/
def centred (P : (⟨S50000x64, .f32⟩ : BufTy).Contents (Elt F)) : (⟨S50000x64, .f32⟩ : BufTy).Contents (Elt F) :=
  subf P (broadcastInDim S50000x64 ![0, 1] bcast_S1x64_S50000x64_0_1 (varMean P))

/-- The variance's divisor: 50000 minus the correction, which is 0 (the biased variance), converted from an integer. -/
def varDenom : (⟨S_, .f32⟩ : BufTy).Contents (Elt F) :=
  subf ((constant S_ .f32 0x47435000#32 : (⟨S_, .f32⟩ : BufTy).Contents (Elt F))) (sitofp .f32 ((constantI S_ 32 0#32 : (⟨S_, .i32⟩ : BufTy).Contents (Elt F))))

/-- The biased variance of each column: the sum over the rows of the squared centred entries from zero, divided by the divisor; where the divisor is not positive the result is the quiet NaN instead (it is 50000: the test keeps the quotient). -/
def colVar (P : (⟨S50000x64, .f32⟩ : BufTy).Contents (Elt F)) : (⟨S64, .f32⟩ : BufTy).Contents (Elt F) :=
  select (broadcastInDim S64 ![] bcast_S_S64 (cmpf .ogt ((varDenom (F := F))) ((constant S_ .f32 0x00000000#32 : (⟨S_, .f32⟩ : BufTy).Contents (Elt F))))) (Host.divf (Host.reduceAdd (mulf (centred P) (centred P)) ((constant S_ .f32 0x00000000#32 : (⟨S_, .f32⟩ : BufTy).Contents (Elt F))) reducesTo_S50000x64_S64_d0 h_S_) (broadcastInDim S64 ![] bcast_S_S64 ((varDenom (F := F))))) (broadcastInDim S64 ![] bcast_S_S64 (id ((constant S_ .f32 0x7FC00000#32 : (⟨S_, .f32⟩ : BufTy).Contents (Elt F)))))

/-- Batch normalisation with the given column means and variances, then the rectifier: `max (γ·(P − mean)·rsqrt(var + ε) + β) 0`, the four vectors of length 64 spread over the rows, `ε` the float `0x3727C5AC` (1e-5). -/
def bnRelu (P : (⟨S50000x64, .f32⟩ : BufTy).Contents (Elt F)) (mean : (⟨S64, .f32⟩ : BufTy).Contents (Elt F)) (var : (⟨S64, .f32⟩ : BufTy).Contents (Elt F)) (g : (⟨S64, .f32⟩ : BufTy).Contents (Elt F)) (be : (⟨S64, .f32⟩ : BufTy).Contents (Elt F)) : (⟨S50000x64, .f32⟩ : BufTy).Contents (Elt F) :=
  maximumf (addf (mulf (mulf (broadcastInDim S50000x64 ![0, 1] bcast_S1x64_S50000x64_0_1 (broadcastInDim S1x64 ![1] bcast_S64_S1x64_1 g)) (subf P (broadcastInDim S50000x64 ![0, 1] bcast_S1x64_S50000x64_0_1 (broadcastInDim S1x64 ![1] bcast_S64_S1x64_1 mean)))) (broadcastInDim S50000x64 ![0, 1] bcast_S1x64_S50000x64_0_1 (broadcastInDim S1x64 ![1] bcast_S64_S1x64_1 (Host.rsqrt (addf var (broadcastInDim S64 ![] bcast_S_S64 ((constant S_ .f32 0x3727C5AC#32 : (⟨S_, .f32⟩ : BufTy).Contents (Elt F))))))))) (broadcastInDim S50000x64 ![0, 1] bcast_S1x64_S50000x64_0_1 (broadcastInDim S1x64 ![1] bcast_S64_S1x64_1 be))) (broadcastInDim S50000x64 ![] bcast_S_S50000x64 ((constant S_ .f32 0x00000000#32 : (⟨S_, .f32⟩ : BufTy).Contents (Elt F))))

/-- The node features times a 64×1 weight matrix. -/
def lin1 (h : (⟨S50000x64, .f32⟩ : BufTy).Contents (Elt F)) (W : (⟨S64x1, .f32⟩ : BufTy).Contents (Elt F)) : (⟨S50000x1, .f32⟩ : BufTy).Contents (Elt F) :=
  Host.dotGeneral dot_S50000x64_S64x1_S50000x1_1_0_0_1_n_n none h W

/-- The weighted neighbour sum of 1-wide rows: as `agg64`, at width 1. -/
def agg1 (hw : (⟨S50000x1, .f32⟩ : BufTy).Contents (Elt F)) (src : (⟨S800000, .i32⟩ : BufTy).Contents (Elt F)) (dst : (⟨S800000, .i32⟩ : BufTy).Contents (Elt F)) (dinv : (⟨S50000, .f32⟩ : BufTy).Contents (Elt F)) : (⟨S50000x1, .f32⟩ : BufTy).Contents (Elt F) :=
  Host.scatterAdd scatter_S50000x1_S800000x1_S800000x1_1_0_0_1 (broadcastInDim S50000x1 ![] bcast_S_S50000x1 ((constant S_ .f32 0x00000000#32 : (⟨S_, .f32⟩ : BufTy).Contents (Elt F)))) (broadcastInDim S800000x1 ![0] bcast_S800000_S800000x1_0 dst) (mulf (Host.gather gather_S50000x1_S800000x1_S800000x1_1_0_n_n_0_1_11 hw (wrapIdx src)) (broadcastInDim S800000x1 ![0] bcast_S800000_S800000x1_0 (edgeNorm dinv src dst)))

/-- The 1-wide graph convolution of the output layer: as `pre64`, at width 1. -/
def pre1 (h : (⟨S50000x64, .f32⟩ : BufTy).Contents (Elt F)) (W : (⟨S64x1, .f32⟩ : BufTy).Contents (Elt F)) (b : (⟨S1, .f32⟩ : BufTy).Contents (Elt F)) (src : (⟨S800000, .i32⟩ : BufTy).Contents (Elt F)) (dst : (⟨S800000, .i32⟩ : BufTy).Contents (Elt F)) (dinv : (⟨S50000, .f32⟩ : BufTy).Contents (Elt F)) : (⟨S50000x1, .f32⟩ : BufTy).Contents (Elt F) :=
  addf (addf (agg1 (lin1 h W) src dst dinv) (mulf (lin1 h W) (broadcastInDim S50000x1 ![0] bcast_S50000_S50000x1_0 (mulf dinv dinv)))) (broadcastInDim S50000x1 ![0, 1] bcast_S1x1_S50000x1_0_1 (broadcastInDim S1x1 ![1] bcast_S1_S1x1_1 b))

/-- Batch normalisation of a 50000×64 array with its own column means and variances, then the rectifier. -/
def bn64 (P : (⟨S50000x64, .f32⟩ : BufTy).Contents (Elt F)) (g be : (⟨S64, .f32⟩ : BufTy).Contents (Elt F)) : (⟨S50000x64, .f32⟩ : BufTy).Contents (Elt F) :=
  bnRelu P (colMean P) (colVar P) g be

/-- One hidden layer: the graph convolution, batch-normalised with its own column means and variances, rectified. -/
def layer64 (h : (⟨S50000x64, .f32⟩ : BufTy).Contents (Elt F)) (W : (⟨S64x64, .f32⟩ : BufTy).Contents (Elt F)) (b g be : (⟨S64, .f32⟩ : BufTy).Contents (Elt F))
    (src dst : (⟨S800000, .i32⟩ : BufTy).Contents (Elt F)) (dinv : (⟨S50000, .f32⟩ : BufTy).Contents (Elt F)) : (⟨S50000x64, .f32⟩ : BufTy).Contents (Elt F) :=
  bn64 (pre64 h W b src dst dinv) g be

/-- The reference function: two hidden layers and the 1-wide output layer over one graph, the edge list's rows its
    sources and destinations, every layer normalised by the same inverse square-root degrees. -/
def refOut (x : (⟨S50000x64, .f32⟩ : BufTy).Contents (Elt F)) (e : (⟨S2x800000, .i32⟩ : BufTy).Contents (Elt F)) (W1 : (⟨S64x64, .f32⟩ : BufTy).Contents (Elt F)) (b1 g1 be1 : (⟨S64, .f32⟩ : BufTy).Contents (Elt F))
    (Wh : (⟨S64x64, .f32⟩ : BufTy).Contents (Elt F)) (bh gh beh : (⟨S64, .f32⟩ : BufTy).Contents (Elt F)) (Wo : (⟨S64x1, .f32⟩ : BufTy).Contents (Elt F)) (bo : (⟨S1, .f32⟩ : BufTy).Contents (Elt F)) : (⟨S50000x1, .f32⟩ : BufTy).Contents (Elt F) :=
  pre1 (layer64 (layer64 x W1 b1 g1 be1 (srcOf e) (dstOf e) (degInv (dstOf e))) Wh bh gh beh (srcOf e) (dstOf e) (degInv (dstOf e)))
    Wo bo (srcOf e) (dstOf e) (degInv (dstOf e))

end Cert.ReferenceIdeal.RefRun

end
-- ==== Proof.RefKeep.lean ====
/-
  Which buffers each piece of the operation list writes, and hence: a buffer that a piece does not write holds after
  the piece what it held before it.
-/
import proofs.«135780_j72241349919044_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that `opsConv1`'s operations write, in order. -/
abbrev opsConv1_W : List (Ref sig .tc) := [main_v0, main_v1, main_v2, main_v3, main_v4, main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47]
set_option maxRecDepth 8192 in
theorem opsConv1_writes : (opsConv1 : List (HloOp τ sig (Elt F))).Forall fun op => op.writes ⊆ (opsConv1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsConv1` does not write keeps its contents through it. -/
theorem opsConv1_keep (W : Valuation τ sig (Elt F)) (r : Ref sig .tc) (h : r ∉ opsConv1_W) :
    after opsConv1 W (no_index (Proc.devRef .tc r)) = W (Proc.devRef .tc r) :=
  after_of_writes_sub opsConv1 _ opsConv1_writes h

/-- The buffers that `opsSum1`'s operations write, in order. -/
abbrev opsSum1_W : List (Ref sig .tc) := [main_cst_8, main_v48]
set_option maxRecDepth 8192 in
theorem opsSum1_writes : (opsSum1 : List (HloOp τ sig (Elt F))).Forall fun op => op.writes ⊆ (opsSum1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsSum1` does not write keeps its contents through it. -/
theorem opsSum1_keep (W : Valuation τ sig (Elt F)) (r : Ref sig .tc) (h : r ∉ opsSum1_W) :
    after opsSum1 W (no_index (Proc.devRef .tc r)) = W (Proc.devRef .tc r) :=
  after_of_writes_sub opsSum1 _ opsSum1_writes h

/-- The buffers that `opsNorm1`'s operations write, in order. -/
abbrev opsNorm1_W : List (Ref sig .tc) := [main_cst_9, main_v49, main_v50, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51, main_v52, main_v53, main_v54, main_v55, main_v56, main_v57, main_cst_11, main_v58, main_v59, main_v60, main_v61, main_v62, main_v63, main_v64, main_v65, main_v66, main_call1_cst, main_call1_v0, main_v67]
set_option maxRecDepth 8192 in
theorem opsNorm1_writes : (opsNorm1 : List (HloOp τ sig (Elt F))).Forall fun op => op.writes ⊆ (opsNorm1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsNorm1` does not write keeps its contents through it. -/
theorem opsNorm1_keep (W : Valuation τ sig (Elt F)) (r : Ref sig .tc) (h : r ∉ opsNorm1_W) :
    after opsNorm1 W (no_index (Proc.devRef .tc r)) = W (Proc.devRef .tc r) :=
  after_of_writes_sub opsNorm1 _ opsNorm1_writes h

/-- The buffers that `opsConv2a`'s operations write, in order. -/
abbrev opsConv2a_W : List (Ref sig .tc) := [main_v68, main_cst_12, main_v69, main_cst_13, main_v70, main_v71, main_v72, main_cst_14, main_v73, main_v74, main_v75, main_c_15, main_v76, main_v77, main_c_16, main_v78, main_v79, main_v80, main_v81, main_v82, main_c_17, main_v83, main_v84, main_c_18, main_v85, main_v86, main_v87, main_v88, main_v89, main_v90, main_c_19, main_v91, main_v92, main_c_20, main_v93, main_v94, main_v95, main_v96]
set_option maxRecDepth 8192 in
theorem opsConv2a_writes : (opsConv2a : List (HloOp τ sig (Elt F))).Forall fun op => op.writes ⊆ (opsConv2a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsConv2a` does not write keeps its contents through it. -/
theorem opsConv2a_keep (W : Valuation τ sig (Elt F)) (r : Ref sig .tc) (h : r ∉ opsConv2a_W) :
    after opsConv2a W (no_index (Proc.devRef .tc r)) = W (Proc.devRef .tc r) :=
  after_of_writes_sub opsConv2a _ opsConv2a_writes h

/-- The buffers that `opsConv2b`'s operations write, in order. -/
abbrev opsConv2b_W : List (Ref sig .tc) := [main_v97, main_v98, main_v99, main_v100, main_cst_21, main_v101, main_v102, main_v103, main_v104, main_v105, main_v106, main_v107, main_v108, main_v109, main_v110, main_v111]
set_option maxRecDepth 8192 in
theorem opsConv2b_writes : (opsConv2b : List (HloOp τ sig (Elt F))).Forall fun op => op.writes ⊆ (opsConv2b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsConv2b` does not write keeps its contents through it. -/
theorem opsConv2b_keep (W : Valuation τ sig (Elt F)) (r : Ref sig .tc) (h : r ∉ opsConv2b_W) :
    after opsConv2b W (no_index (Proc.devRef .tc r)) = W (Proc.devRef .tc r) :=
  after_of_writes_sub opsConv2b _ opsConv2b_writes h

/-- The buffers that `opsNorm2`'s operations write, in order. -/
abbrev opsNorm2_W : List (Ref sig .tc) := [main_cst_22, main_v112, main_cst_23, main_v113, main_v114, main_c_24, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v115, main_v116, main_v117, main_v118, main_v119, main_v120, main_v121, main_cst_25, main_v122, main_v123, main_v124, main_v125, main_v126, main_v127, main_v128, main_v129, main_v130, main_call3_cst, main_call3_v0, main_v131]
set_option maxRecDepth 8192 in
theorem opsNorm2_writes : (opsNorm2 : List (HloOp τ sig (Elt F))).Forall fun op => op.writes ⊆ (opsNorm2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsNorm2` does not write keeps its contents through it. -/
theorem opsNorm2_keep (W : Valuation τ sig (Elt F)) (r : Ref sig .tc) (h : r ∉ opsNorm2_W) :
    after opsNorm2 W (no_index (Proc.devRef .tc r)) = W (Proc.devRef .tc r) :=
  after_of_writes_sub opsNorm2 _ opsNorm2_writes h

/-- The buffers that `opsConv3a`'s operations write, in order. -/
abbrev opsConv3a_W : List (Ref sig .tc) := [main_v132, main_cst_26, main_v133, main_cst_27, main_v134, main_v135, main_v136, main_cst_28, main_v137, main_v138, main_v139, main_c_29, main_v140, main_v141, main_c_30, main_v142, main_v143, main_v144, main_v145, main_v146]
set_option maxRecDepth 8192 in
theorem opsConv3a_writes : (opsConv3a : List (HloOp τ sig (Elt F))).Forall fun op => op.writes ⊆ (opsConv3a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsConv3a` does not write keeps its contents through it. -/
theorem opsConv3a_keep (W : Valuation τ sig (Elt F)) (r : Ref sig .tc) (h : r ∉ opsConv3a_W) :
    after opsConv3a W (no_index (Proc.devRef .tc r)) = W (Proc.devRef .tc r) :=
  after_of_writes_sub opsConv3a _ opsConv3a_writes h

/-- The buffers that `opsConv3b`'s operations write, in order. -/
abbrev opsConv3b_W : List (Ref sig .tc) := [main_c_31, main_v147, main_v148, main_c_32, main_v149, main_v150, main_v151, main_v152, main_v153, main_v154, main_c_33, main_v155, main_v156, main_c_34, main_v157, main_v158, main_v159, main_v160, main_v161, main_v162, main_v163, main_cst_35, main_v164, main_v165, main_v166, main_v167, main_v168, main_v169, main_v170, main_v171, main_v172, main_v173]
set_option maxRecDepth 8192 in
theorem opsConv3b_writes : (opsConv3b : List (HloOp τ sig (Elt F))).Forall fun op => op.writes ⊆ (opsConv3b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that `opsConv3b` does not write keeps its contents through it. -/
theorem opsConv3b_keep (W : Valuation τ sig (Elt F)) (r : Ref sig .tc) (h : r ∉ opsConv3b_W) :
    after opsConv3b W (no_index (Proc.devRef .tc r)) = W (Proc.devRef .tc r) :=
  after_of_writes_sub opsConv3b _ opsConv3b_writes h

end Cert.ReferenceIdeal.RefRun

end
-- ==== Proof.RefWin1.lean ====
/-
  The first layer's graph convolution read off its operations, from any contents of the buffers: the two rows of the edge list and the layer's pre-activation as the named functions of the arguments.
-/
import proofs.«135780_j72241349919044_1_alg».proof.Proof.RefOps
import proofs.«135780_j72241349919044_1_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- After the first piece the sources' buffer holds row 0 of the edge list. -/
theorem conv1_src (W : Valuation τ sig (Elt F)) :
    after opsConv1 W (no_index (Proc.devRef .tc main_v1))
      = srcOf (W (Proc.devRef .tc main_arg1)) := by
  simp only [opsConv1]
  after_results_simp
  rfl

set_option maxRecDepth 8192 in
set_option maxHeartbeats 400000 in
/-- After the first piece the destinations' buffer holds row 1 of the edge list. -/
theorem conv1_dst (W : Valuation τ sig (Elt F)) :
    after opsConv1 W (no_index (Proc.devRef .tc main_v3))
      = dstOf (W (Proc.devRef .tc main_arg1)) := by
  simp only [opsConv1]
  after_results_simp
  rfl

set_option maxRecDepth 8192 in
set_option maxHeartbeats 2000000 in
/-- After the first piece the pre-activation's buffer holds the 64-wide graph convolution of the features. -/
theorem conv1_pre (W : Valuation τ sig (Elt F)) :
    after opsConv1 W (no_index (Proc.devRef .tc main_v47))
      = pre64 (W (Proc.devRef .tc main_arg0)) (W (Proc.devRef .tc main_arg2)) (W (Proc.devRef .tc main_arg3)) (srcOf (W (Proc.devRef .tc main_arg1))) (dstOf (W (Proc.devRef .tc main_arg1))) (degInv (dstOf (W (Proc.devRef .tc main_arg1)))) := by
  simp only [opsConv1]
  after_results_simp
  rfl

end Cert.ReferenceIdeal.RefRun

end
-- ==== Proof.RefWin2.lean ====
/-
  The first layer's batch normalisation and rectifier read off its operations (the column sums, the mean, the called variance function with its own selection, the scale and shift, the called rectifier), from any contents of the buffers.
-/
import proofs.«135780_j72241349919044_1_alg».proof.Proof.RefOps
import proofs.«135780_j72241349919044_1_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- After the column sums and the normalisation piece, the first hidden layer's buffer holds the batch-normalised, rectified pre-activation. -/
theorem norm1_out (W : Valuation τ sig (Elt F)) :
    after opsNorm1 (after opsSum1 W) (no_index (Proc.devRef .tc main_v67))
      = bn64 (W (Proc.devRef .tc main_v47)) (W (Proc.devRef .tc main_arg4)) (W (Proc.devRef .tc main_arg5)) := by
  simp only [opsSum1, opsNorm1]
  after_results_simp
  rfl

end Cert.ReferenceIdeal.RefRun

end
-- ==== Proof.RefWin3.lean ====
/-
  The second layer's graph convolution read off its operations, from any contents of the buffers.
-/
import proofs.«135780_j72241349919044_1_alg».proof.Proof.RefOps
import proofs.«135780_j72241349919044_1_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- After the second convolution's two pieces the pre-activation's buffer holds the 64-wide graph convolution of the first hidden layer. -/
theorem conv2_pre (W : Valuation τ sig (Elt F)) :
    after opsConv2b (after opsConv2a W) (no_index (Proc.devRef .tc main_v111))
      = pre64 (W (Proc.devRef .tc main_v67)) (W (Proc.devRef .tc main_arg6)) (W (Proc.devRef .tc main_arg7)) (W (Proc.devRef .tc main_v1)) (W (Proc.devRef .tc main_v3)) (degInv (W (Proc.devRef .tc main_v3))) := by
  simp only [opsConv2a, opsConv2b]
  after_results_simp
  rfl

end Cert.ReferenceIdeal.RefRun

end
-- ==== Proof.RefWin4.lean ====
/-
  The second layer's batch normalisation and rectifier read off its operations, from any contents of the buffers.
-/
import proofs.«135780_j72241349919044_1_alg».proof.Proof.RefOps
import proofs.«135780_j72241349919044_1_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- After the normalisation piece the second hidden layer's buffer holds the batch-normalised, rectified pre-activation. -/
theorem norm2_out (W : Valuation τ sig (Elt F)) :
    after opsNorm2 W (no_index (Proc.devRef .tc main_v131))
      = bn64 (W (Proc.devRef .tc main_v111)) (W (Proc.devRef .tc main_arg8)) (W (Proc.devRef .tc main_arg9)) := by
  simp only [opsNorm2]
  after_results_simp
  rfl

end Cert.ReferenceIdeal.RefRun

end
-- ==== Proof.RefWin5.lean ====
/-
  The output layer's graph convolution read off its operations, from any contents of the buffers.
-/
import proofs.«135780_j72241349919044_1_alg».proof.Proof.RefOps
import proofs.«135780_j72241349919044_1_alg».proof.Proof.RefValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- After the output convolution's two pieces the result buffer holds the 1-wide graph convolution of the second hidden layer. -/
theorem conv3_out (W : Valuation τ sig (Elt F)) :
    after opsConv3b (after opsConv3a W) (no_index (Proc.devRef .tc main_v173))
      = pre1 (W (Proc.devRef .tc main_v131)) (W (Proc.devRef .tc main_arg10)) (W (Proc.devRef .tc main_arg11)) (W (Proc.devRef .tc main_v1)) (W (Proc.devRef .tc main_v3)) (degInv (W (Proc.devRef .tc main_v3))) := by
  simp only [opsConv3a, opsConv3b]
  after_results_simp
  rfl

end Cert.ReferenceIdeal.RefRun

end
-- ==== Proof.RefRun.lean ====
/-
  The reference program's run: every weakly fair execution terminates, the result buffer ends at the reference
  function of the twelve arguments' launch contents, and the arguments end unchanged. The fold of the whole operation
  list is the pieces' folds in turn; each stage's result is read off its own piece (from any contents), a buffer
  passes unchanged through the pieces that do not write it, and the stages compose to the reference function.
-/
import Idealize.ShloMosaic.Lib.Pipeline.Frame
import proofs.«135780_j72241349919044_1_alg».proof.Proof.RefOps
import proofs.«135780_j72241349919044_1_alg».proof.Proof.RefValue
import proofs.«135780_j72241349919044_1_alg».proof.Proof.RefKeep
import proofs.«135780_j72241349919044_1_alg».proof.Proof.RefWin1
import proofs.«135780_j72241349919044_1_alg».proof.Proof.RefWin2
import proofs.«135780_j72241349919044_1_alg».proof.Proof.RefWin3
import proofs.«135780_j72241349919044_1_alg».proof.Proof.RefWin4
import proofs.«135780_j72241349919044_1_alg».proof.Proof.RefWin5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of the whole list is the pieces' folds, in order. -/
theorem after_ops (V : Valuation τ sig (Elt F)) :
    after ops V = after opsConv3b (after opsConv3a (after opsNorm2 (after opsConv2b (after opsConv2a (after opsNorm1 (after opsSum1 (after opsConv1 (V)))))))) := by
  simp only [ops, after_append]

/-- A buffer that no piece writes holds at the end what it held at the start. -/
theorem ops_keep (V : Valuation τ sig (Elt F)) (r : Ref sig .tc)
    (h0 : r ∉ opsConv1_W) (h1 : r ∉ opsSum1_W) (h2 : r ∉ opsNorm1_W) (h3 : r ∉ opsConv2a_W) (h4 : r ∉ opsConv2b_W) (h5 : r ∉ opsNorm2_W) (h6 : r ∉ opsConv3a_W) (h7 : r ∉ opsConv3b_W) :
    after ops V (Proc.devRef .tc r) = V (Proc.devRef .tc r) := by
  rw [after_ops, opsConv3b_keep _ r h7, opsConv3a_keep _ r h6, opsNorm2_keep _ r h5, opsConv2b_keep _ r h4, opsConv2a_keep _ r h3, opsNorm1_keep _ r h2, opsSum1_keep _ r h1, opsConv1_keep _ r h0]

set_option maxRecDepth 8192 in
set_option maxHeartbeats 2000000 in
/-- At the end the result buffer holds the reference function of the arguments' contents at the start. -/
theorem out_eq (V : Valuation τ sig (Elt F)) :
    after ops V (Proc.devRef .tc main_v173)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]
  simp (disch := decide) only [conv3_out, norm2_out, conv2_pre, norm1_out, conv1_pre, conv1_src, conv1_dst,
    opsConv3b_keep, opsConv3a_keep, opsNorm2_keep, opsConv2b_keep, opsConv2a_keep, opsNorm1_keep, opsSum1_keep, opsConv1_keep]
  rfl

/-- On every device, for any float values, from any memory with zero counters: every weakly fair execution of the
    program terminates with the result buffer at the reference function of the arguments' launch contents and the
    twelve arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v173) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v173).trans (out_eq (launchContents m c)),
      (h c main_arg0).trans (ops_keep (launchContents m c) main_arg0 (by decide) (by decide) (by decide) (by decide) (by decide) (by decide) (by decide) (by decide)),
      (h c main_arg1).trans (ops_keep (launchContents m c) main_arg1 (by decide) (by decide) (by decide) (by decide) (by decide) (by decide) (by decide) (by decide)),
      (h c main_arg2).trans (ops_keep (launchContents m c) main_arg2 (by decide) (by decide) (by decide) (by decide) (by decide) (by decide) (by decide) (by decide)),
      (h c main_arg3).trans (ops_keep (launchContents m c) main_arg3 (by decide) (by decide) (by decide) (by decide) (by decide) (by decide) (by decide) (by decide)),
      (h c main_arg4).trans (ops_keep (launchContents m c) main_arg4 (by decide) (by decide) (by decide) (by decide) (by decide) (by decide) (by decide) (by decide)),
      (h c main_arg5).trans (ops_keep (launchContents m c) main_arg5 (by decide) (by decide) (by decide) (by decide) (by decide) (by decide) (by decide) (by decide)),
      (h c main_arg6).trans (ops_keep (launchContents m c) main_arg6 (by decide) (by decide) (by decide) (by decide) (by decide) (by decide) (by decide) (by decide)),
      (h c main_arg7).trans (ops_keep (launchContents m c) main_arg7 (by decide) (by decide) (by decide) (by decide) (by decide) (by decide) (by decide) (by decide)),
      (h c main_arg8).trans (ops_keep (launchContents m c) main_arg8 (by decide) (by decide) (by decide) (by decide) (by decide) (by decide) (by decide) (by decide)),
      (h c main_arg9).trans (ops_keep (launchContents m c) main_arg9 (by decide) (by decide) (by decide) (by decide) (by decide) (by decide) (by decide) (by decide)),
      (h c main_arg10).trans (ops_keep (launchContents m c) main_arg10 (by decide) (by decide) (by decide) (by decide) (by decide) (by decide) (by decide) (by decide)),
      (h c main_arg11).trans (ops_keep (launchContents m c) main_arg11 (by decide) (by decide) (by decide) (by decide) (by decide) (by decide) (by decide) (by decide))⟩)
    (run_all m ρ)

end Cert.ReferenceIdeal.RefRun

end
-- ==== Proof.KI.HostSpec.lean ====
/-
  The host-side stages of the idealized kernel program as pure functions, one definition per stage, each body the host
  operations' own functions composed in program order: the two rows of the edge list, the inverse square-root degrees
  and their squares as a column, the edges' weights, the weighted neighbour sums at widths 64 and 1, the reshaped bias
  and scale vectors, and the column means and variances from the sums and sums of squares.
-/
import proofs.«135780_j72241349919044_1_alg».proof.Proof.Gen.KernelIdeal

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-- Row 0 of the edge list as a vector of 800000 node numbers: each edge's source. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list as a vector of 800000 node numbers: each edge's destination. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A vector of node numbers as a column of gather indices: a negative number `v` counts from the end (`v + 50000`), any other is itself. -/
def wrapIdx (v : (⟨S800000, .i32⟩ : BufTy).Contents (Elt F)) : (⟨S800000x1, .i32⟩ : BufTy).Contents (Elt F) :=
  broadcastInDim S800000x1 ![0] bcast_S800000_S800000x1_0 (select (cmpi .slt v (broadcastInDim S800000 ![] bcast_S_S800000 ((constantI S_ 32 0#32 : (⟨S_, .i32⟩ : BufTy).Contents (Elt F))))) (addi v (broadcastInDim S800000 ![] bcast_S_S800000 ((constantI S_ 32 50000#32 : (⟨S_, .i32⟩ : BufTy).Contents (Elt F))))) v)

/-- The inverse square root of each node's degree in the graph with a self loop at every node: one plus the number of edges that end at the node (ones summed into zeros at the destinations), under `rsqrt`. -/
def degInv (dst : (⟨S800000, .i32⟩ : BufTy).Contents (Elt F)) : (⟨S50000, .f32⟩ : BufTy).Contents (Elt F) :=
  Host.rsqrt (addf (Host.scatterAdd scatter_S50000_S800000x1_S800000_n_0_0_1 (broadcastInDim S50000 ![] bcast_S_S50000 ((constant S_ .f32 0x00000000#32 : (⟨S_, .f32⟩ : BufTy).Contents (Elt F)))) (broadcastInDim S800000x1 ![0] bcast_S800000_S800000x1_0 dst) (broadcastInDim S800000 ![] bcast_S_S800000 ((constant S_ .f32 0x3F800000#32 : (⟨S_, .f32⟩ : BufTy).Contents (Elt F))))) (broadcastInDim S50000 ![] bcast_S_S50000 ((constant S_ .f32 0x3F800000#32 : (⟨S_, .f32⟩ : BufTy).Contents (Elt F)))))

/-- The squared inverse square-root degrees as a column: the vector times itself, its 50000 entries read as a 50000×1 array. -/
def dinv2col (dinv : (⟨S50000, .f32⟩ : BufTy).Contents (Elt F)) : (⟨S50000x1, .f32⟩ : BufTy).Contents (Elt F) :=
  shapeCast S50000x1 (mulf dinv dinv) shapeCasts_S50000_S50000x1

/-- Each edge's weight: the inverse square-root degree at its source times the one at its destination. -/
def edgeNorm (dinv : (⟨S50000, .f32⟩ : BufTy).Contents (Elt F)) (src : (⟨S800000, .i32⟩ : BufTy).Contents (Elt F)) (dst : (⟨S800000, .i32⟩ : BufTy).Contents (Elt F)) : (⟨S800000, .f32⟩ : BufTy).Contents (Elt F) :=
  mulf (Host.gather gather_S50000_S800000x1_S800000_n_0_n_n_0_1_1 dinv (wrapIdx src)) (Host.gather gather_S50000_S800000x1_S800000_n_0_n_n_0_1_1 dinv (wrapIdx dst))

/-- The weighted neighbour sum of 64-wide rows: row `src e` of `hw` times edge `e`'s weight, summed into zeros at row `dst e`, over all edges `e`. -/
def agg64 (hw : (⟨S50000x64, .f32⟩ : BufTy).Contents (Elt F)) (src : (⟨S800000, .i32⟩ : BufTy).Contents (Elt F)) (dst : (⟨S800000, .i32⟩ : BufTy).Contents (Elt F)) (dinv : (⟨S50000, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 ((constant S_ .f32 0x00000000#32 : (⟨S_, .f32⟩ : BufTy).Contents (Elt F)))) (broadcastInDim S800000x1 ![0] bcast_S800000_S800000x1_0 dst) (mulf (Host.gather gather_S50000x64_S800000x1_S800000x64_1_0_n_n_0_1_164 hw (wrapIdx src)) (broadcastInDim S800000x64 ![0, 1] bcast_S800000x1_S800000x64_0_1 (broadcastInDim S800000x1 ![0] bcast_S800000_S800000x1_0 (edgeNorm dinv src dst))))

/-- The weighted neighbour sum of 1-wide rows: as `agg64`, at width 1. -/
def agg1 (hw : (⟨S50000x1, .f32⟩ : BufTy).Contents (Elt F)) (src : (⟨S800000, .i32⟩ : BufTy).Contents (Elt F)) (dst : (⟨S800000, .i32⟩ : BufTy).Contents (Elt F)) (dinv : (⟨S50000, .f32⟩ : BufTy).Contents (Elt F)) : (⟨S50000x1, .f32⟩ : BufTy).Contents (Elt F) :=
  Host.scatterAdd scatter_S50000x1_S800000x1_S800000x1_1_0_0_1 (broadcastInDim S50000x1 ![] bcast_S_S50000x1 ((constant S_ .f32 0x00000000#32 : (⟨S_, .f32⟩ : BufTy).Contents (Elt F)))) (broadcastInDim S800000x1 ![0] bcast_S800000_S800000x1_0 dst) (mulf (Host.gather gather_S50000x1_S800000x1_S800000x1_1_0_n_n_0_1_11 hw (wrapIdx src)) (broadcastInDim S800000x1 ![0] bcast_S800000_S800000x1_0 (edgeNorm dinv src dst)))

/-- A vector of length 64 read as a 1×64 row. -/
def row64 (b : (⟨S64, .f32⟩ : BufTy).Contents (Elt F)) : (⟨S1x64, .f32⟩ : BufTy).Contents (Elt F) :=
  shapeCast S1x64 b shapeCasts_S64_S1x64

/-- A vector of length 1 read as a 1×1 array. -/
def row1 (b : (⟨S1, .f32⟩ : BufTy).Contents (Elt F)) : (⟨S1x1, .f32⟩ : BufTy).Contents (Elt F) :=
  shapeCast S1x1 b shapeCasts_S1_S1x1

/-- A row of 64 column sums divided by 50000: the column means. -/
def meanOf (s : (⟨S1x64, .f32⟩ : BufTy).Contents (Elt F)) : (⟨S1x64, .f32⟩ : BufTy).Contents (Elt F) :=
  Host.divf s (broadcastInDim S1x64 ![] bcast_S_S1x64 ((constant S_ .f32 0x47435000#32 : (⟨S_, .f32⟩ : BufTy).Contents (Elt F))))

/-- The biased column variances from the row of column sums of squares and the row of column means: the sums of squares divided by 50000, minus the squared means. -/
def varOf (sq : (⟨S1x64, .f32⟩ : BufTy).Contents (Elt F)) (mean : (⟨S1x64, .f32⟩ : BufTy).Contents (Elt F)) : (⟨S1x64, .f32⟩ : BufTy).Contents (Elt F) :=
  subf (Host.divf sq (broadcastInDim S1x64 ![] bcast_S_S1x64 ((constant S_ .f32 0x47435000#32 : (⟨S_, .f32⟩ : BufTy).Contents (Elt F))))) (mulf mean mean)

end Cert.KernelIdeal.HostRead

end
-- ==== Proof.KI.Host0.lean ====
/-
  The first host stretch of the idealized kernel program read off its operations, from any contents of the buffers: the two rows of the edge list, the inverse square-root degrees, and their squares as a column.
-/
import proofs.«135780_j72241349919044_1_alg».proof.Proof.Gen.KernelIdeal.Launch
import Idealize.ShloMosaic.Lib.StableHlo.Run
import proofs.«135780_j72241349919044_1_alg».proof.Proof.KI.HostSpec

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- After the stretch the sources' buffer holds row 0 of the edge list. -/
theorem host0_src (W : Valuation τ sig (Elt F)) :
    after hostOps0 W (no_index (Proc.devRef .tc main_v1))
      = srcOf (W (Proc.devRef .tc main_arg1)) := by
  simp only [hostOps0]
  after_results_simp
  rfl

set_option maxRecDepth 8192 in
set_option maxHeartbeats 400000 in
/-- After the stretch the destinations' buffer holds row 1 of the edge list. -/
theorem host0_dst (W : Valuation τ sig (Elt F)) :
    after hostOps0 W (no_index (Proc.devRef .tc main_v3))
      = dstOf (W (Proc.devRef .tc main_arg1)) := by
  simp only [hostOps0]
  after_results_simp
  rfl

set_option maxRecDepth 8192 in
set_option maxHeartbeats 400000 in
/-- After the stretch the degrees' buffer holds the inverse square-root degrees of the destinations. -/
theorem host0_dinv (W : Valuation τ sig (Elt F)) :
    after hostOps0 W (no_index (Proc.devRef .tc main_v10))
      = degInv (dstOf (W (Proc.devRef .tc main_arg1))) := by
  simp only [hostOps0]
  after_results_simp
  rfl

set_option maxRecDepth 8192 in
set_option maxHeartbeats 400000 in
/-- After the stretch the column buffer holds the squared inverse square-root degrees as a column. -/
theorem host0_dinv2 (W : Valuation τ sig (Elt F)) :
    after hostOps0 W (no_index (Proc.devRef .tc main_v12))
      = dinv2col (degInv (dstOf (W (Proc.devRef .tc main_arg1)))) := by
  simp only [hostOps0]
  after_results_simp
  rfl

end Cert.KernelIdeal.HostRead

end
-- ==== Proof.KI.Host1.lean ====
/-
  The second host stretch read off its operations, from any contents of the buffers: the weighted neighbour sum of the first layer's 64-wide rows, and the first bias as a row.
-/
import proofs.«135780_j72241349919044_1_alg».proof.Proof.Gen.KernelIdeal.Launch
import Idealize.ShloMosaic.Lib.StableHlo.Run
import proofs.«135780_j72241349919044_1_alg».proof.Proof.KI.HostSpec

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- After the stretch the sum's buffer holds the weighted neighbour sum of the rows the first region left. -/
theorem host1_agg (W : Valuation τ sig (Elt F)) :
    after hostOps1 W (no_index (Proc.devRef .tc main_v41))
      = agg64 (W (Proc.devRef .tc main_v13)) (W (Proc.devRef .tc main_v1)) (W (Proc.devRef .tc main_v3)) (W (Proc.devRef .tc main_v10)) := by
  simp only [hostOps1]
  after_results_simp
  rfl

set_option maxRecDepth 8192 in
set_option maxHeartbeats 400000 in
/-- After the stretch the row buffer holds the first bias as a 1×64 row. -/
theorem host1_bias (W : Valuation τ sig (Elt F)) :
    after hostOps1 W (no_index (Proc.devRef .tc main_v42))
      = row64 (W (Proc.devRef .tc main_arg3)) := by
  simp only [hostOps1]
  after_results_simp
  rfl

end Cert.KernelIdeal.HostRead

end
-- ==== Proof.KI.Host2.lean ====
/-
  The third host stretch read off its operations, from any contents of the buffers: the first layer's column means and variances from the sums and sums of squares, and its scale and shift as rows.
-/
import proofs.«135780_j72241349919044_1_alg».proof.Proof.Gen.KernelIdeal.Launch
import Idealize.ShloMosaic.Lib.StableHlo.Run
import proofs.«135780_j72241349919044_1_alg».proof.Proof.KI.HostSpec

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- After the stretch the means' buffer holds the column sums divided by 50000. -/
theorem host2_mean (W : Valuation τ sig (Elt F)) :
    after hostOps2 W (no_index (Proc.devRef .tc main_v45))
      = meanOf (W (Proc.devRef .tc main_v43_1)) := by
  simp only [hostOps2]
  after_results_simp
  rfl

set_option maxRecDepth 8192 in
set_option maxHeartbeats 400000 in
/-- After the stretch the variances' buffer holds the mean of squares minus the squared mean. -/
theorem host2_var (W : Valuation τ sig (Elt F)) :
    after hostOps2 W (no_index (Proc.devRef .tc main_v49))
      = varOf (W (Proc.devRef .tc main_v43_2)) (meanOf (W (Proc.devRef .tc main_v43_1))) := by
  simp only [hostOps2]
  after_results_simp
  rfl

set_option maxRecDepth 8192 in
set_option maxHeartbeats 400000 in
/-- After the stretch the scale's buffer holds the first scale vector as a row. -/
theorem host2_gamma (W : Valuation τ sig (Elt F)) :
    after hostOps2 W (no_index (Proc.devRef .tc main_v50))
      = row64 (W (Proc.devRef .tc main_arg4)) := by
  simp only [hostOps2]
  after_results_simp
  rfl

set_option maxRecDepth 8192 in
set_option maxHeartbeats 400000 in
/-- After the stretch the shift's buffer holds the first shift vector as a row. -/
theorem host2_beta (W : Valuation τ sig (Elt F)) :
    after hostOps2 W (no_index (Proc.devRef .tc main_v51))
      = row64 (W (Proc.devRef .tc main_arg5)) := by
  simp only [hostOps2]
  after_results_simp
  rfl

end Cert.KernelIdeal.HostRead

end
-- ==== Proof.KI.Host4.lean ====
/-
  The host stretch before the second layer's combining region read off its operations, from any contents of the buffers: the weighted neighbour sum of the second layer's 64-wide rows, and the second bias as a row.
-/
import proofs.«135780_j72241349919044_1_alg».proof.Proof.Gen.KernelIdeal.Launch
import Idealize.ShloMosaic.Lib.StableHlo.Run
import proofs.«135780_j72241349919044_1_alg».proof.Proof.KI.HostSpec

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- After the stretch the sum's buffer holds the weighted neighbour sum of the rows the region before left. -/
theorem host4_agg (W : Valuation τ sig (Elt F)) :
    after hostOps4 W (no_index (Proc.devRef .tc main_v81))
      = agg64 (W (Proc.devRef .tc main_v53)) (W (Proc.devRef .tc main_v1)) (W (Proc.devRef .tc main_v3)) (W (Proc.devRef .tc main_v10)) := by
  simp only [hostOps4]
  after_results_simp
  rfl

set_option maxRecDepth 8192 in
set_option maxHeartbeats 400000 in
/-- After the stretch the row buffer holds the second bias as a 1×64 row. -/
theorem host4_bias (W : Valuation τ sig (Elt F)) :
    after hostOps4 W (no_index (Proc.devRef .tc main_v82))
      = row64 (W (Proc.devRef .tc main_arg7)) := by
  simp only [hostOps4]
  after_results_simp
  rfl

end Cert.KernelIdeal.HostRead

end
-- ==== Proof.KI.Host5.lean ====
/-
  The host stretch after the second layer's statistics region read off its operations, from any contents of the buffers: the column means and variances, and the second scale and shift as rows.
-/
import proofs.«135780_j72241349919044_1_alg».proof.Proof.Gen.KernelIdeal.Launch
import Idealize.ShloMosaic.Lib.StableHlo.Run
import proofs.«135780_j72241349919044_1_alg».proof.Proof.KI.HostSpec

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- After the stretch the means' buffer holds the column sums divided by 50000. -/
theorem host5_mean (W : Valuation τ sig (Elt F)) :
    after hostOps5 W (no_index (Proc.devRef .tc main_v85))
      = meanOf (W (Proc.devRef .tc main_v83_1)) := by
  simp only [hostOps5]
  after_results_simp
  rfl

set_option maxRecDepth 8192 in
set_option maxHeartbeats 400000 in
/-- After the stretch the variances' buffer holds the mean of squares minus the squared mean. -/
theorem host5_var (W : Valuation τ sig (Elt F)) :
    after hostOps5 W (no_index (Proc.devRef .tc main_v89))
      = varOf (W (Proc.devRef .tc main_v83_2)) (meanOf (W (Proc.devRef .tc main_v83_1))) := by
  simp only [hostOps5]
  after_results_simp
  rfl

set_option maxRecDepth 8192 in
set_option maxHeartbeats 400000 in
/-- After the stretch the scale's buffer holds the second scale vector as a row. -/
theorem host5_gamma (W : Valuation τ sig (Elt F)) :
    after hostOps5 W (no_index (Proc.devRef .tc main_v90))
      = row64 (W (Proc.devRef .tc main_arg8)) := by
  simp only [hostOps5]
  after_results_simp
  rfl

set_option maxRecDepth 8192 in
set_option maxHeartbeats 400000 in
/-- After the stretch the shift's buffer holds the second shift vector as a row. -/
theorem host5_beta (W : Valuation τ sig (Elt F)) :
    after hostOps5 W (no_index (Proc.devRef .tc main_v91))
      = row64 (W (Proc.devRef .tc main_arg9)) := by
  simp only [hostOps5]
  after_results_simp
  rfl

end Cert.KernelIdeal.HostRead

end
-- ==== Proof.KI.Host7.lean ====
/-
  The last host stretch read off its operations, from any contents of the buffers: the weighted neighbour sum of the output layer's 1-wide rows, and the output bias as a 1×1 array.
-/
import proofs.«135780_j72241349919044_1_alg».proof.Proof.Gen.KernelIdeal.Launch
import Idealize.ShloMosaic.Lib.StableHlo.Run
import proofs.«135780_j72241349919044_1_alg».proof.Proof.KI.HostSpec

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- After the stretch the sum's buffer holds the weighted neighbour sum of the column the region before left. -/
theorem host7_agg (W : Valuation τ sig (Elt F)) :
    after hostOps7 W (no_index (Proc.devRef .tc main_v120))
      = agg1 (W (Proc.devRef .tc main_v93)) (W (Proc.devRef .tc main_v1)) (W (Proc.devRef .tc main_v3)) (W (Proc.devRef .tc main_v10)) := by
  simp only [hostOps7]
  after_results_simp
  rfl

set_option maxRecDepth 8192 in
set_option maxHeartbeats 400000 in
/-- After the stretch the bias buffer holds the output bias as a 1×1 array. -/
theorem host7_bias (W : Valuation τ sig (Elt F)) :
    after hostOps7 W (no_index (Proc.devRef .tc main_v121))
      = row1 (W (Proc.devRef .tc main_arg11)) := by
  simp only [hostOps7]
  after_results_simp
  rfl

end Cert.KernelIdeal.HostRead

end
-- ==== Proof.KI.KSpec.lean ====
/-
  The idealized kernel program's result as a pure function of its twelve arguments over the extended reals: the regions'
  results in closed form (matrix products, the combination of aggregate, self loop and bias, the column sums and sums of
  squares, the batch normalisation with the rectifier) composed with the host stretches' stages in program order.
-/
import proofs.«135780_j72241349919044_1_alg».proof.Proof.KI.HostSpec
import Idealize.ShloMosaic.PureOps.Ideal
import Idealize.ShloMosaic.Lib.ValueIdx

noncomputable section

namespace Cert.KernelIdeal.KVal

open Cert.KernelIdeal Idealize.ShloMosaic Idealize.ShloMosaic.ValueIdx
open scoped BigOperators

/-- Rows of 64 features times a 64×64 weight matrix, entry by entry. -/
def klin64 (X : S50000x64.Idx → EReal) (W : S64x64.Idx → EReal) : S50000x64.Idx → EReal :=
  fun i => ∑ k : Fin 64, X (ix2 (i 0 : Fin 50000) k) * W (ix2 k (i 1 : Fin 64))

/-- Rows of 64 features times a 64×1 weight column, entry by entry. -/
def klin1 (X : S50000x64.Idx → EReal) (W : S64x1.Idx → EReal) : S50000x1.Idx → EReal :=
  fun i => ∑ k : Fin 64, X (ix2 (i 0 : Fin 50000) k) * W (ix2 k (0 : Fin 1))

/-- The 64-wide combination: the aggregate, plus the node's own row times its squared inverse square-root degree, plus
    the bias of the column. -/
def kpre64 (A H : S50000x64.Idx → EReal) (D : S50000x1.Idx → EReal) (B : S1x64.Idx → EReal) : S50000x64.Idx → EReal :=
  fun i => A i + H i * D (ix2 (i 0 : Fin 50000) (0 : Fin 1)) + B (ix2 (0 : Fin 1) (i 1 : Fin 64))

/-- The 1-wide combination of the output layer. -/
def kpre1 (A H D : S50000x1.Idx → EReal) (B : S1x1.Idx → EReal) : S50000x1.Idx → EReal :=
  fun i => A i + H i * D i + B (ix2 (0 : Fin 1) (0 : Fin 1))

/-- The column sums over the 50000 rows, as a row. -/
def ksum64 (P : S50000x64.Idx → EReal) : S1x64.Idx → EReal :=
  fun j => ∑ r : Fin 50000, P (ix2 r (j 1 : Fin 64))

/-- The column sums of squares over the 50000 rows, as a row. -/
def ksq64 (P : S50000x64.Idx → EReal) : S1x64.Idx → EReal :=
  fun j => ∑ r : Fin 50000, P (ix2 r (j 1 : Fin 64)) * P (ix2 r (j 1 : Fin 64))

/-- Batch normalisation with the given rows of means, variances, scales and shifts, then the rectifier:
    `max (γ·(P − mean)·rsqrt(var + ε) + β) 0` at every entry, `ε` the float `0x3727C5AC`. -/
def kbn (P : S50000x64.Idx → EReal) (M S G B : S1x64.Idx → EReal) : S50000x64.Idx → EReal :=
  fun i => max (G (ix2 (0 : Fin 1) (i 1 : Fin 64)) * (P i - M (ix2 (0 : Fin 1) (i 1 : Fin 64)))
      * Ideal.rsqrt (S (ix2 (0 : Fin 1) (i 1 : Fin 64)) + Ideal.ofBits .f32 0x3727C5AC#32)
      + B (ix2 (0 : Fin 1) (i 1 : Fin 64))) 0

/-- A 64-wide layer's pre-activation: the product with the weights, its weighted neighbour sum, the self loop and the bias. -/
def kP64 (x : S50000x64.Idx → EReal) (W : S64x64.Idx → EReal) (b : S64.Idx → EReal)
    (src dst : (⟨S800000, .i32⟩ : BufTy).Contents (Elt Ideal)) (dinv : S50000.Idx → EReal) : S50000x64.Idx → EReal :=
  kpre64 (Cert.KernelIdeal.HostRead.agg64 (F := Ideal) (klin64 x W) src dst dinv) (klin64 x W) (Cert.KernelIdeal.HostRead.dinv2col (F := Ideal) dinv) (Cert.KernelIdeal.HostRead.row64 (F := Ideal) b)

/-- A pre-activation normalised with its own statistics — the column means from the column sums, the variances from
    the sums of squares and the means — scaled, shifted and rectified. -/
def kstatBn (P : S50000x64.Idx → EReal) (g be : S64.Idx → EReal) : S50000x64.Idx → EReal :=
  kbn P (Cert.KernelIdeal.HostRead.meanOf (F := Ideal) (ksum64 P)) (Cert.KernelIdeal.HostRead.varOf (F := Ideal) (ksq64 P) (Cert.KernelIdeal.HostRead.meanOf (F := Ideal) (ksum64 P)))
    (Cert.KernelIdeal.HostRead.row64 (F := Ideal) g) (Cert.KernelIdeal.HostRead.row64 (F := Ideal) be)

/-- One hidden layer of the kernel program. -/
def klayer64 (x : S50000x64.Idx → EReal) (W : S64x64.Idx → EReal) (b g be : S64.Idx → EReal)
    (src dst : (⟨S800000, .i32⟩ : BufTy).Contents (Elt Ideal)) (dinv : S50000.Idx → EReal) : S50000x64.Idx → EReal :=
  kstatBn (kP64 x W b src dst dinv) g be

/-- The output layer: the product with the weight column, its weighted neighbour sum, the self loop and the bias. -/
def kP1 (h : S50000x64.Idx → EReal) (W : S64x1.Idx → EReal) (b : S1.Idx → EReal)
    (src dst : (⟨S800000, .i32⟩ : BufTy).Contents (Elt Ideal)) (dinv : S50000.Idx → EReal) : S50000x1.Idx → EReal :=
  kpre1 (Cert.KernelIdeal.HostRead.agg1 (F := Ideal) (klin1 h W) src dst dinv) (klin1 h W) (Cert.KernelIdeal.HostRead.dinv2col (F := Ideal) dinv) (Cert.KernelIdeal.HostRead.row1 (F := Ideal) b)

/-- The kernel program's result: two hidden layers and the output layer over one graph, the edge list's rows its sources
    and destinations, every layer weighted by the same inverse square-root degrees. -/
def kernelOut (x : S50000x64.Idx → EReal) (e : (⟨S2x800000, .i32⟩ : BufTy).Contents (Elt Ideal)) (W1 : S64x64.Idx → EReal) (b1 g1 be1 : S64.Idx → EReal)
    (Wh : S64x64.Idx → EReal) (bh gh beh : S64.Idx → EReal) (Wo : S64x1.Idx → EReal) (bo : S1.Idx → EReal) : S50000x1.Idx → EReal :=
  kP1 (klayer64 (klayer64 x W1 b1 g1 be1 (Cert.KernelIdeal.HostRead.srcOf (F := Ideal) e) (Cert.KernelIdeal.HostRead.dstOf (F := Ideal) e) (Cert.KernelIdeal.HostRead.degInv (F := Ideal) (Cert.KernelIdeal.HostRead.dstOf (F := Ideal) e)))
      Wh bh gh beh (Cert.KernelIdeal.HostRead.srcOf (F := Ideal) e) (Cert.KernelIdeal.HostRead.dstOf (F := Ideal) e) (Cert.KernelIdeal.HostRead.degInv (F := Ideal) (Cert.KernelIdeal.HostRead.dstOf (F := Ideal) e)))
    Wo bo (Cert.KernelIdeal.HostRead.srcOf (F := Ideal) e) (Cert.KernelIdeal.HostRead.dstOf (F := Ideal) e) (Cert.KernelIdeal.HostRead.degInv (F := Ideal) (Cert.KernelIdeal.HostRead.dstOf (F := Ideal) e))

end Cert.KernelIdeal.KVal

end
-- ==== Proof.KI.Val0.lean ====
/-
  Region 0, from blocks to the whole array, at the ideal values (floats are extended reals, every operation exact).
  The result array after the region is the product of the node features with the 64 x 64 weight matrix: entry (r, q) is
  the sum over k of features (r, k) times weight (k, q). Grid point t computes and writes back rows 5000 t … 5000 t + 4999
  (the block's row p is the array's row 5000 t + p), and the ten blocks tile the array.
-/
import proofs.«135780_j72241349919044_1_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The left operand's index of the matrix product: the output's row on axis 0, the contraction's position on axis 1. -/
theorem lhs0_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs0_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contraction's position on axis 0, the output's column on axis 1. -/
theorem rhs0_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs0_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's value at row p, column q of the block: the sum over k of the block's entry (p, k) times the weight's
    entry (k, q). At the ideal values the two roundings to bf16 are the identity and the accumulator is zero. -/
theorem pay0_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]
  rfl

theorem hz : (![0, 0] : Fin 2 → Nat) = fun _ => 0 := funext fun a => by fin_cases a <;> rfl

/-- The printed index maps over the grid: point t takes block t of the features' rows and of the result's rows, and
    the whole weight matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The features' block at point t is rows 5000 t … 5000 t + 4999 of the features. -/
theorem iblk0_0_apply (c : Dev nD) (t : Fin cfg0.N) (y : S5000x64.Idx) (i : S50000x64.Idx)
    (hi0 : (i 0).val = 5000 * t.val + (y 0).val) (hi1 : (i 1).val = (y 1).val) :
    (Hand.iblk0 V c 0 t : Vec Ideal S5000x64 .f32) y = (V c (Pipeline.arrRef spec0 0) : S50000x64.Idx → EReal) i := by
  obtain ⟨e0, e1, -⟩ := idx_facts0 t
  unfold Hand.iblk0
  rw [View.read_apply]
  refine congrArg (V c (Pipeline.arrRef spec0 0) : S50000x64.Idx → EReal) (funext fun a => Fin.ext ?_)
  match a with
  | ⟨0, _⟩ => show win0_0.index t (0 : Fin 2) * 5000 + 1 * (y 0).val = (i 0).val; rw [e0, hi0]; omega
  | ⟨1, _⟩ => show win0_0.index t (1 : Fin 2) * 64 + 1 * (y 1).val = (i 1).val; rw [e1, hi1]; omega

/-- The weight's block at every point is the whole weight matrix. -/
theorem iblk0_1_apply (c : Dev nD) (t : Fin cfg0.N) (y : S64x64.Idx) :
    (Hand.iblk0 V c 1 t : Vec Ideal S64x64 .f32) y = (V c (Pipeline.arrRef spec0 1) : S64x64.Idx → EReal) y := by
  obtain ⟨-, -, e0, e1, -⟩ := idx_facts0 t
  unfold Hand.iblk0
  rw [View.read_apply]
  refine congrArg (V c (Pipeline.arrRef spec0 1) : S64x64.Idx → EReal) (funext fun a => Fin.ext ?_)
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The product of the features with the weight matrix, index by index. -/
abbrev prod0 (X : S50000x64.Idx → EReal) (W : S64x64.Idx → EReal) : S50000x64.Idx → EReal :=
  fun i => ∑ k : Fin 64, X (ix2 (i 0 : Fin 50000) k) * W (ix2 k (i 1 : Fin 64))

/-- The body's value at an index y of the block, when the loaded block's row (y 0) is row (i 0) of X, the loaded weight
    is W and y, i name the same column: the product's entry at i. -/
theorem pay0_at (x0 : Vec Ideal S5000x64 .f32) (x1 : Vec Ideal S64x64 .f32) (X : S50000x64.Idx → EReal) (W : S64x64.Idx → EReal)
    (y : S5000x64.Idx) (i : S50000x64.Idx)
    (h0 : ∀ k : Fin 64, x0 (ix2 (y 0 : Fin 5000) k) = X (ix2 (i 0 : Fin 50000) k)) (h1 : ∀ z, x1 z = W z) (hi1 : (i 1).val = (y 1).val) :
    k0_pay1 x0 x1 y = prod0 X W i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  rw [pay0_apply]
  show ∑ k : Fin 64, x0 (ix2 p k) * x1 (ix2 k s) = ∑ k : Fin 64, X (ix2 r k) * W (ix2 k s)
  refine Finset.sum_congr rfl fun k _ => ?_
  rw [h1]
  exact congrArg (· * W (ix2 k s)) (h0 k)

/-- What point t writes back is block t of the product of the features and the weight as the region finds them. -/
theorem flushed0_eq (c : Dev nD) (t : Fin cfg0.N) :
    (Hand.dat0 V c).flushed 2 t = ((cfg0.win 2).blk t).view.read (Elt Ideal) (prod0 (V c (Pipeline.arrRef spec0 0)) (V c (Pipeline.arrRef spec0 1))) := by
  show (cfg0.win 2).cut (grid0.coords t) ((Hand.dat0 V c).after 2 t) = _
  rw [Hand.after0_2]
  unfold Hand.out0_2
  rw [View.canon_unit_zero hz]
  simp only [View.ld_unit_zero (S := S5000x64) hz, View.ld_unit_zero (S := S64x64) hz]
  obtain ⟨-, -, -, -, e4, e5⟩ := idx_facts0 t
  funext j
  show k0_pay1 (Hand.iblk0 V c 0 t) (Hand.iblk0 V c 1 t) j = prod0 (V c (Pipeline.arrRef spec0 0)) (V c (Pipeline.arrRef spec0 1)) (((cfg0.win 2).blk t).view.emb j)
  refine pay0_at _ _ _ _ j _ (fun k => iblk0_0_apply V c t _ _ ?_ ?_) (fun z => iblk0_1_apply V c t z) ?_
  · show win0_2.index t (0 : Fin 2) * 5000 + 1 * (j 0).val = 5000 * t.val + (j 0).val
    rw [e4]; omega
  · rfl
  · show win0_2.index t (1 : Fin 2) * 64 + 1 * (j 1).val = (j 1).val
    rw [e5]; omega

/-- An index of the result is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v13).slice (win0_2.rect t)).set ↔ _
  rw [View.set_slice_whole, Rect.mem_set_unit]
  exact Iff.rfl

/-- Every index of the result is in the block of the point that handles its row: row r belongs to point r / 5000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- The features as the region finds them, read as a function of the index. -/
abbrev X0 (c : Dev nD) : S50000x64.Idx → EReal := V c (Pipeline.arrRef spec0 0)
/-- The weight matrix as the region finds it, read as a function of the index. -/
abbrev W0 (c : Dev nD) : S64x64.Idx → EReal := V c (Pipeline.arrRef spec0 1)

/-- The result array after the region: the features times the weight matrix, index by index, both as the region finds them. -/
theorem final0 (c : Dev nD) :
    (Hand.dat0 (F := Ideal) V c).arrAt 2 cfg0.N
      = (fun i => ∑ k : Fin 64, X0 V c (ix2 (i 0 : Fin 50000) k) * W0 V c (ix2 k (i 1 : Fin 64)) : S50000x64.Idx → EReal) :=
  (Hand.dat0 V c).arrAt_eq_of_cover 2 (prod0 (X0 V c) (W0 V c)) (fun t _ => flushed0_eq V c t) cover0

end Cert.KernelIdeal.HandValue

end
-- ==== Proof.KI.Val2.lean ====
/-
  Region 2, from blocks to the whole array, at the ideal values (floats are extended reals, every operation exact).
  The result array after the region is the first layer's pre-activation normalised column by column and rectified:
  entry (r, q) is max (scale q * (entry (r, q) - mean q) * rsqrt (variance q + constant) + shift q) 0. Grid point t computes
  and writes back rows 5000 t … 5000 t + 4999 (the block's row p is the array's row 5000 t + p); the ten blocks tile the array.
-/
import proofs.«135780_j72241349919044_1_alg».proof.Proof.KI.Reg2
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem hz : (![0, 0] : Fin 2 → Nat) = fun _ => 0 := funext fun a => by fin_cases a <;> rfl

/-- The body's value at row p, column q of the block: the scale of the column times the entry less the column's mean, times
    the reciprocal square root of the column's variance plus the constant, plus the column's shift, and 0 where that is
    negative. The casts of a block to its own shape are the identity; the four rows are spread over the block's rows. -/
theorem pay2_apply (xv xg : Vec Ideal S1x64 .f32) (xp : Vec Ideal S5000x64 .f32) (xm xb : Vec Ideal S1x64 .f32) (p : Fin 5000) (q : Fin 64) :
    k2_pay1 xv xg xp xm xb (ix2 p q)
      = max (xg (ix2 (0 : Fin 1) q) * (xp (ix2 p q) - xm (ix2 (0 : Fin 1) q)) * Ideal.rsqrt (xv (ix2 (0 : Fin 1) q) + Ideal.ofBits .f32 0x3727C5AC#32)
          + xb (ix2 (0 : Fin 1) q)) 0 := by
  unfold k2_pay1
  show max (broadcastTo S5000x64 (shapeCast S1x64 xg shapeCasts_S1x64_S1x64) broadcasts_S1x64_S5000x64 (ix2 p q)
        * (shapeCast S5000x64 xp shapeCasts_S5000x64_S5000x64 (ix2 p q)
            - broadcastTo S5000x64 (shapeCast S1x64 xm shapeCasts_S1x64_S1x64) broadcasts_S1x64_S5000x64 (ix2 p q))
        * broadcastTo S5000x64 (rsqrt (F := Ideal) (addf (F := Ideal) (shapeCast S1x64 xv shapeCasts_S1x64_S1x64) (broadcast S1x64 (Scalar.ofBits (F := Ideal) .f32 0x3727C5AC#32)))) broadcasts_S1x64_S5000x64 (ix2 p q)
        + broadcastTo S5000x64 (shapeCast S1x64 xb shapeCasts_S1x64_S1x64) broadcasts_S1x64_S5000x64 (ix2 p q))
      (Ideal.ofBits .f32 0x00000000#32) = _
  rw [shapeCast_self, shapeCast_self, shapeCast_self, shapeCast_self, shapeCast_self,
    broadcastTo_1b_ab_apply, broadcastTo_1b_ab_apply, broadcastTo_1b_ab_apply, broadcastTo_1b_ab_apply, Ideal.ofBits_zero_f32]
  rfl

/-- The printed index maps over the grid: point t takes block t of the pre-activation's and of the result's rows, and the
    whole of each of the four rows. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The pre-activation's block at point t is rows 5000 t … 5000 t + 4999 of the pre-activation. -/
theorem iblk2_0_apply (c : Dev nD) (t : Fin cfg2.N) (y : S5000x64.Idx) (i : S50000x64.Idx)
    (hi0 : (i 0).val = 5000 * t.val + (y 0).val) (hi1 : (i 1).val = (y 1).val) :
    (Hand.iblk2 V c 0 t : Vec Ideal S5000x64 .f32) y = (V c (Pipeline.arrRef spec2 0) : S50000x64.Idx → EReal) i := by
  obtain ⟨e0, e1, -⟩ := idx_facts2 t
  unfold Hand.iblk2
  rw [View.read_apply]
  refine congrArg (V c (Pipeline.arrRef spec2 0) : S50000x64.Idx → EReal) (funext fun a => Fin.ext ?_)
  match a with
  | ⟨0, _⟩ => show win2_0.index t (0 : Fin 2) * 5000 + 1 * (y 0).val = (i 0).val; rw [e0, hi0]; omega
  | ⟨1, _⟩ => show win2_0.index t (1 : Fin 2) * 64 + 1 * (y 1).val = (i 1).val; rw [e1, hi1]; omega

/-- The mean's block at every point is the whole row of column means. -/
theorem iblk2_1_apply (c : Dev nD) (t : Fin cfg2.N) (y : S1x64.Idx) :
    (Hand.iblk2 V c 1 t : Vec Ideal S1x64 .f32) y = (V c (Pipeline.arrRef spec2 1) : S1x64.Idx → EReal) y := by
  obtain ⟨-, -, e0, e1, -⟩ := idx_facts2 t
  unfold Hand.iblk2
  rw [View.read_apply]
  refine congrArg (V c (Pipeline.arrRef spec2 1) : S1x64.Idx → EReal) (funext fun a => Fin.ext ?_)
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- The variance's block at every point is the whole row of column variances. -/
theorem iblk2_2_apply (c : Dev nD) (t : Fin cfg2.N) (y : S1x64.Idx) :
    (Hand.iblk2 V c 2 t : Vec Ideal S1x64 .f32) y = (V c (Pipeline.arrRef spec2 2) : S1x64.Idx → EReal) y := by
  obtain ⟨-, -, -, -, e0, e1, -⟩ := idx_facts2 t
  unfold Hand.iblk2
  rw [View.read_apply]
  refine congrArg (V c (Pipeline.arrRef spec2 2) : S1x64.Idx → EReal) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The scale's block at every point is the whole row of column scales. -/
theorem iblk2_3_apply (c : Dev nD) (t : Fin cfg2.N) (y : S1x64.Idx) :
    (Hand.iblk2 V c 3 t : Vec Ideal S1x64 .f32) y = (V c (Pipeline.arrRef spec2 3) : S1x64.Idx → EReal) y := by
  obtain ⟨-, -, -, -, -, -, e0, e1, -⟩ := idx_facts2 t
  unfold Hand.iblk2
  rw [View.read_apply]
  refine congrArg (V c (Pipeline.arrRef spec2 3) : S1x64.Idx → EReal) (funext fun a => Fin.ext ?_)
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The shift's block at every point is the whole row of column shifts. -/
theorem iblk2_4_apply (c : Dev nD) (t : Fin cfg2.N) (y : S1x64.Idx) :
    (Hand.iblk2 V c 4 t : Vec Ideal S1x64 .f32) y = (V c (Pipeline.arrRef spec2 4) : S1x64.Idx → EReal) y := by
  obtain ⟨-, -, -, -, -, -, -, -, e0, e1, -⟩ := idx_facts2 t
  unfold Hand.iblk2
  rw [View.read_apply]
  refine congrArg (V c (Pipeline.arrRef spec2 4) : S1x64.Idx → EReal) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- The normalisation followed by the rectifier, index by index: the column's scale times the entry less the column's mean,
    times the reciprocal square root of the column's variance plus the constant, plus the column's shift; 0 where negative. -/
abbrev bn2 (P : S50000x64.Idx → EReal) (M S G B : S1x64.Idx → EReal) : S50000x64.Idx → EReal :=
  fun i => max (G (ix2 (0 : Fin 1) (i 1 : Fin 64)) * (P i - M (ix2 (0 : Fin 1) (i 1 : Fin 64)))
      * Ideal.rsqrt (S (ix2 (0 : Fin 1) (i 1 : Fin 64)) + Ideal.ofBits .f32 0x3727C5AC#32) + B (ix2 (0 : Fin 1) (i 1 : Fin 64))) 0

/-- The body's value at an index y of the block, when the loaded block at y is the array P at i, y and i name the same
    column, and the four loaded rows are M, S, G, B: the entry at i of the normalisation followed by the rectifier. -/
theorem pay2_at (xv xg : Vec Ideal S1x64 .f32) (xp : Vec Ideal S5000x64 .f32) (xm xb : Vec Ideal S1x64 .f32)
    (P : S50000x64.Idx → EReal) (M S G B : S1x64.Idx → EReal) (y : S5000x64.Idx) (i : S50000x64.Idx)
    (hp : xp y = P i) (hm : ∀ z, xm z = M z) (hv : ∀ z, xv z = S z) (hg : ∀ z, xg z = G z) (hb : ∀ z, xb z = B z)
    (hi1 : (i 1).val = (y 1).val) :
    k2_pay1 xv xg xp xm xb y = bn2 P M S G B i := by
  obtain ⟨p, q, rfl⟩ : ∃ (p : Fin 5000) (q : Fin 64), y = ix2 p q := ⟨y 0, y 1, eq_ix2 y⟩
  have hq : (i 1 : Fin 64) = q := Fin.ext hi1
  rw [pay2_apply, hp, hm, hv, hg, hb]
  show _ = max (G (ix2 (0 : Fin 1) (i 1 : Fin 64)) * (P i - M (ix2 (0 : Fin 1) (i 1 : Fin 64)))
      * Ideal.rsqrt (S (ix2 (0 : Fin 1) (i 1 : Fin 64)) + Ideal.ofBits .f32 0x3727C5AC#32) + B (ix2 (0 : Fin 1) (i 1 : Fin 64))) 0
  rw [hq]

/-- What point t writes back is block t of the normalisation followed by the rectifier of the five arrays as the region finds them. -/
theorem flushed2_eq (c : Dev nD) (t : Fin cfg2.N) :
    (Hand.dat2 V c).flushed 5 t = ((cfg2.win 5).blk t).view.read (Elt Ideal)
      (bn2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((Hand.dat2 V c).after 5 t) = _
  rw [Hand.after2_5]
  unfold Hand.out2_5
  rw [View.canon_unit_zero hz]
  simp only [View.ld_unit_zero (S := S5000x64) hz, View.ld_unit_zero (S := S1x64) hz]
  obtain ⟨-, -, -, -, -, -, -, -, -, -, e10, e11⟩ := idx_facts2 t
  funext j
  show k2_pay1 (Hand.iblk2 V c 2 t) (Hand.iblk2 V c 3 t) (Hand.iblk2 V c 0 t) (Hand.iblk2 V c 1 t) (Hand.iblk2 V c 4 t) j
    = bn2 (V c (Pipeline.arrRef spec2 0)) (V c (Pipeline.arrRef spec2 1)) (V c (Pipeline.arrRef spec2 2)) (V c (Pipeline.arrRef spec2 3)) (V c (Pipeline.arrRef spec2 4)) (((cfg2.win 5).blk t).view.emb j)
  have k0 : ((((cfg2.win 5).blk t).view.emb j : S50000x64.Idx) 0).val = 5000 * t.val + (j 0).val := by
    show win2_5.index t (0 : Fin 2) * 5000 + 1 * (j 0).val = 5000 * t.val + (j 0).val
    rw [e10]; omega
  have k1 : ((((cfg2.win 5).blk t).view.emb j : S50000x64.Idx) 1).val = (j 1).val := by
    show win2_5.index t (1 : Fin 2) * 64 + 1 * (j 1).val = (j 1).val
    rw [e11]; omega
  exact pay2_at _ _ _ _ _ _ _ _ _ _ j _ (iblk2_0_apply V c t _ _ k0 k1) (fun z => iblk2_1_apply V c t z) (fun z => iblk2_2_apply V c t z)
    (fun z => iblk2_3_apply V c t z) (fun z => iblk2_4_apply V c t z) k1

/-- An index of the result is in point t's block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v52).slice (win2_5.rect t)).set ↔ _
  rw [View.set_slice_whole, Rect.mem_set_unit]
  exact Iff.rfl

/-- Every index of the result is in the block of the point that handles its row: row r belongs to point r / 5000. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [show cfg2.N = 10 from N_2]; omega⟩, rfl⟩
  obtain ⟨-, -, -, -, -, -, -, -, -, -, e10, e11⟩ := idx_facts2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; rw [e10, ht]; omega
  | ⟨1, _⟩ => show win2_5.index t (1 : Fin 2) * 64 ≤ (i 1).val ∧ (i 1).val < win2_5.index t (1 : Fin 2) * 64 + 64; rw [e11]; omega

/-- The pre-activation and the rows of column means, variances, scales and shifts as the region finds them, read as
    functions of the index. -/
abbrev P2 (c : Dev nD) : S50000x64.Idx → EReal := V c (Pipeline.arrRef spec2 0)
abbrev M2 (c : Dev nD) : S1x64.Idx → EReal := V c (Pipeline.arrRef spec2 1)
abbrev S2 (c : Dev nD) : S1x64.Idx → EReal := V c (Pipeline.arrRef spec2 2)
abbrev G2 (c : Dev nD) : S1x64.Idx → EReal := V c (Pipeline.arrRef spec2 3)
abbrev B2 (c : Dev nD) : S1x64.Idx → EReal := V c (Pipeline.arrRef spec2 4)

/-- The result array after the region: the normalisation followed by the rectifier, index by index, of the five arrays as
    the region finds them. -/
theorem final2 (c : Dev nD) :
    (Hand.dat2 (F := Ideal) V c).arrAt 5 cfg2.N
      = (fun i => max (G2 V c (ix2 (0 : Fin 1) (i 1 : Fin 64)) * (P2 V c i - M2 V c (ix2 (0 : Fin 1) (i 1 : Fin 64)))
          * Ideal.rsqrt (S2 V c (ix2 (0 : Fin 1) (i 1 : Fin 64)) + Ideal.ofBits .f32 0x3727C5AC#32)
          + B2 V c (ix2 (0 : Fin 1) (i 1 : Fin 64))) 0 : S50000x64.Idx → EReal) :=
  (Hand.dat2 V c).arrAt_eq_of_cover 5 (bn2 (P2 V c) (M2 V c) (S2 V c) (G2 V c) (B2 V c)) (fun t _ => flushed2_eq V c t) cover2

end Cert.KernelIdeal.HandValue

end
-- ==== Proof.KI.Val3.lean ====
/-
  Region 3, from blocks to the whole array, at the ideal values (floats are extended reals, every operation exact).
  The result array after the region is the product of the first layer's activations with the second 64 x 64 weight matrix:
  entry (r, q) is the sum over k of activations (r, k) times weight (k, q). Grid point t computes and writes back rows
  5000 t … 5000 t + 4999 (the block's row p is the array's row 5000 t + p), and the ten blocks tile the array.
-/
import proofs.«135780_j72241349919044_1_alg».proof.Proof.KI.Reg3
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The left operand's index of the matrix product: the output's row on axis 0, the contraction's position on axis 1. -/
theorem lhs3_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs3_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contraction's position on axis 0, the output's column on axis 1. -/
theorem rhs3_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs3_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's value at row p, column q of the block: the sum over k of the block's entry (p, k) times the weight's
    entry (k, q). At the ideal values the two roundings to bf16 are the identity and the accumulator is zero. -/
theorem pay3_apply (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  unfold k3_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]
  show shapeCast S5000x64 x0 shapeCasts_S5000x64_S5000x64 (ix2 p k) * x1 (ix2 k q) = x0 (ix2 p k) * x1 (ix2 k q)
  rw [shapeCast_self]

theorem hz : (![0, 0] : Fin 2 → Nat) = fun _ => 0 := funext fun a => by fin_cases a <;> rfl

/-- The printed index maps over the grid: point t takes block t of the features' rows and of the result's rows, and
    the whole weight matrix. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The features' block at point t is rows 5000 t … 5000 t + 4999 of the features. -/
theorem iblk3_0_apply (c : Dev nD) (t : Fin cfg3.N) (y : S5000x64.Idx) (i : S50000x64.Idx)
    (hi0 : (i 0).val = 5000 * t.val + (y 0).val) (hi1 : (i 1).val = (y 1).val) :
    (Hand.iblk3 V c 0 t : Vec Ideal S5000x64 .f32) y = (V c (Pipeline.arrRef spec3 0) : S50000x64.Idx → EReal) i := by
  obtain ⟨e0, e1, -⟩ := idx_facts3 t
  unfold Hand.iblk3
  rw [View.read_apply]
  refine congrArg (V c (Pipeline.arrRef spec3 0) : S50000x64.Idx → EReal) (funext fun a => Fin.ext ?_)
  match a with
  | ⟨0, _⟩ => show win3_0.index t (0 : Fin 2) * 5000 + 1 * (y 0).val = (i 0).val; rw [e0, hi0]; omega
  | ⟨1, _⟩ => show win3_0.index t (1 : Fin 2) * 64 + 1 * (y 1).val = (i 1).val; rw [e1, hi1]; omega

/-- The weight's block at every point is the whole weight matrix. -/
theorem iblk3_1_apply (c : Dev nD) (t : Fin cfg3.N) (y : S64x64.Idx) :
    (Hand.iblk3 V c 1 t : Vec Ideal S64x64 .f32) y = (V c (Pipeline.arrRef spec3 1) : S64x64.Idx → EReal) y := by
  obtain ⟨-, -, e0, e1, -⟩ := idx_facts3 t
  unfold Hand.iblk3
  rw [View.read_apply]
  refine congrArg (V c (Pipeline.arrRef spec3 1) : S64x64.Idx → EReal) (funext fun a => Fin.ext ?_)
  match a with
  | ⟨0, _⟩ => show win3_1.index t (0 : Fin 2) * 64 + 1 * (y 0).val = (y 0).val; rw [e0]; omega
  | ⟨1, _⟩ => show win3_1.index t (1 : Fin 2) * 64 + 1 * (y 1).val = (y 1).val; rw [e1]; omega

/-- The product of the features with the weight matrix, index by index. -/
abbrev prod3 (X : S50000x64.Idx → EReal) (W : S64x64.Idx → EReal) : S50000x64.Idx → EReal :=
  fun i => ∑ k : Fin 64, X (ix2 (i 0 : Fin 50000) k) * W (ix2 k (i 1 : Fin 64))

/-- The body's value at an index y of the block, when the loaded block's row (y 0) is row (i 0) of X, the loaded weight
    is W and y, i name the same column: the product's entry at i. -/
theorem pay3_at (x0 : Vec Ideal S5000x64 .f32) (x1 : Vec Ideal S64x64 .f32) (X : S50000x64.Idx → EReal) (W : S64x64.Idx → EReal)
    (y : S5000x64.Idx) (i : S50000x64.Idx)
    (h0 : ∀ k : Fin 64, x0 (ix2 (y 0 : Fin 5000) k) = X (ix2 (i 0 : Fin 50000) k)) (h1 : ∀ z, x1 z = W z) (hi1 : (i 1).val = (y 1).val) :
    k3_pay1 x0 x1 y = prod3 X W i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  rw [pay3_apply]
  show ∑ k : Fin 64, x0 (ix2 p k) * x1 (ix2 k s) = ∑ k : Fin 64, X (ix2 r k) * W (ix2 k s)
  refine Finset.sum_congr rfl fun k _ => ?_
  rw [h1]
  exact congrArg (· * W (ix2 k s)) (h0 k)

/-- What point t writes back is block t of the product of the features and the weight as the region finds them. -/
theorem flushed3_eq (c : Dev nD) (t : Fin cfg3.N) :
    (Hand.dat3 V c).flushed 2 t = ((cfg3.win 2).blk t).view.read (Elt Ideal) (prod3 (V c (Pipeline.arrRef spec3 0)) (V c (Pipeline.arrRef spec3 1))) := by
  show (cfg3.win 2).cut (grid3.coords t) ((Hand.dat3 V c).after 2 t) = _
  rw [Hand.after3_2]
  unfold Hand.out3_2
  rw [View.canon_unit_zero hz]
  simp only [View.ld_unit_zero (S := S5000x64) hz, View.ld_unit_zero (S := S64x64) hz]
  obtain ⟨-, -, -, -, e4, e5⟩ := idx_facts3 t
  funext j
  show k3_pay1 (Hand.iblk3 V c 0 t) (Hand.iblk3 V c 1 t) j = prod3 (V c (Pipeline.arrRef spec3 0)) (V c (Pipeline.arrRef spec3 1)) (((cfg3.win 2).blk t).view.emb j)
  refine pay3_at _ _ _ _ j _ (fun k => iblk3_0_apply V c t _ _ ?_ ?_) (fun z => iblk3_1_apply V c t z) ?_
  · show win3_2.index t (0 : Fin 2) * 5000 + 1 * (j 0).val = 5000 * t.val + (j 0).val
    rw [e4]; omega
  · rfl
  · show win3_2.index t (1 : Fin 2) * 64 + 1 * (j 1).val = (j 1).val
    rw [e5]; omega

/-- An index of the result is in point t's block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v53).slice (win3_2.rect t)).set ↔ _
  rw [View.set_slice_whole, Rect.mem_set_unit]
  exact Iff.rfl

/-- Every index of the result is in the block of the point that handles its row: row r belongs to point r / 5000. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 := ⟨⟨(i 0).val / 5000, by rw [show cfg3.N = 10 from N_3]; omega⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- The features as the region finds them, read as a function of the index. -/
abbrev X3 (c : Dev nD) : S50000x64.Idx → EReal := V c (Pipeline.arrRef spec3 0)
/-- The weight matrix as the region finds it, read as a function of the index. -/
abbrev W3 (c : Dev nD) : S64x64.Idx → EReal := V c (Pipeline.arrRef spec3 1)

/-- The result array after the region: the features times the weight matrix, index by index, both as the region finds them. -/
theorem final3 (c : Dev nD) :
    (Hand.dat3 (F := Ideal) V c).arrAt 2 cfg3.N
      = (fun i => ∑ k : Fin 64, X3 V c (ix2 (i 0 : Fin 50000) k) * W3 V c (ix2 k (i 1 : Fin 64)) : S50000x64.Idx → EReal) :=
  (Hand.dat3 V c).arrAt_eq_of_cover 2 (prod3 (X3 V c) (W3 V c)) (fun t _ => flushed3_eq V c t) cover3

end Cert.KernelIdeal.HandValue

end
-- ==== Proof.KI.Val6.lean ====
/-
  Region 6, from blocks to the whole array, at the ideal values (floats are extended reals, every operation exact).
  The result array after the region is the product of the second layer's activations with the 64 x 1 weight column:
  entry (r, 0) is the sum over k of activations (r, k) times weight (k, 0). Grid point t computes and writes back rows
  5000 t … 5000 t + 4999 (the block's row p is the array's row 5000 t + p), and the ten blocks tile the array.
-/
import proofs.«135780_j72241349919044_1_alg».proof.Proof.KI.Reg6
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The left operand's index of the matrix product: the output's row on axis 0, the contraction's position on axis 1. -/
theorem lhs6_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs6_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
/-- The right operand's index: the contraction's position on axis 0, the output's column on axis 1. -/
theorem rhs6_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs6_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The body's value at row p, column q of the block: the sum over k of the block's entry (p, k) times the weight's
    entry (k, q). At the ideal values the two roundings to bf16 are the identity and the accumulator is zero. -/
theorem pay6_apply (x0 : Vec Ideal S5000x64 .f32) (x1 : Vec Ideal S64x1 .f32) (p : Fin 5000) (q : Fin 1) :
    k6_pay1 x0 x1 (ix2 p q) = ∑ k : Fin 64, x0 (ix2 p k) * x1 (ix2 k q) := by
  unfold k6_pay1
  refine (Ideal.matmul_constant_zero_apply dot_S5000x64_S64x1_S5000x1_1_0_0_1_n_n none _ _ (ix2 p q)).trans ?_
  rw [← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact lhs6_0 _ _
    | ⟨1, _⟩ => exact (lhs6_1 _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (rhs6_0 _ _).trans hk
    | ⟨1, _⟩ => exact rhs6_1 _ _)
  rw [el, er]
  show shapeCast S5000x64 x0 shapeCasts_S5000x64_S5000x64 (ix2 p k) * x1 (ix2 k q) = x0 (ix2 p k) * x1 (ix2 k q)
  rw [shapeCast_self]

theorem hz : (![0, 0] : Fin 2 → Nat) = fun _ => 0 := funext fun a => by fin_cases a <;> rfl

/-- The printed index maps over the grid: point t takes block t of the features' rows and of the result's rows, and
    the whole weight matrix. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- The features' block at point t is rows 5000 t … 5000 t + 4999 of the features. -/
theorem iblk6_0_apply (c : Dev nD) (t : Fin cfg6.N) (y : S5000x64.Idx) (i : S50000x64.Idx)
    (hi0 : (i 0).val = 5000 * t.val + (y 0).val) (hi1 : (i 1).val = (y 1).val) :
    (Hand.iblk6 V c 0 t : Vec Ideal S5000x64 .f32) y = (V c (Pipeline.arrRef spec6 0) : S50000x64.Idx → EReal) i := by
  obtain ⟨e0, e1, -⟩ := idx_facts6 t
  unfold Hand.iblk6
  rw [View.read_apply]
  refine congrArg (V c (Pipeline.arrRef spec6 0) : S50000x64.Idx → EReal) (funext fun a => Fin.ext ?_)
  match a with
  | ⟨0, _⟩ => show win6_0.index t (0 : Fin 2) * 5000 + 1 * (y 0).val = (i 0).val; rw [e0, hi0]; omega
  | ⟨1, _⟩ => show win6_0.index t (1 : Fin 2) * 64 + 1 * (y 1).val = (i 1).val; rw [e1, hi1]; omega

/-- The weight's block at every point is the whole weight column. -/
theorem iblk6_1_apply (c : Dev nD) (t : Fin cfg6.N) (y : S64x1.Idx) :
    (Hand.iblk6 V c 1 t : Vec Ideal S64x1 .f32) y = (V c (Pipeline.arrRef spec6 1) : S64x1.Idx → EReal) y := by
  obtain ⟨-, -, e0, e1, -⟩ := idx_facts6 t
  unfold Hand.iblk6
  rw [View.read_apply]
  refine congrArg (V c (Pipeline.arrRef spec6 1) : S64x1.Idx → EReal) (funext fun a => Fin.ext ?_)
  match a with
  | ⟨0, _⟩ => show win6_1.index t (0 : Fin 2) * 64 + 1 * (y 0).val = (y 0).val; rw [e0]; omega
  | ⟨1, _⟩ => show win6_1.index t (1 : Fin 2) * 1 + 1 * (y 1).val = (y 1).val; rw [e1]; omega

/-- The product of the activations with the weight column, index by index. -/
abbrev prod6 (X : S50000x64.Idx → EReal) (W : S64x1.Idx → EReal) : S50000x1.Idx → EReal :=
  fun i => ∑ k : Fin 64, X (ix2 (i 0 : Fin 50000) k) * W (ix2 k (0 : Fin 1))

/-- The body's value at an index y of the block, when the loaded block's row (y 0) is row (i 0) of X and the loaded
    weight is W: the product's entry at i. -/
theorem pay6_at (x0 : Vec Ideal S5000x64 .f32) (x1 : Vec Ideal S64x1 .f32) (X : S50000x64.Idx → EReal) (W : S64x1.Idx → EReal)
    (y : S5000x1.Idx) (i : S50000x1.Idx)
    (h0 : ∀ k : Fin 64, x0 (ix2 (y 0 : Fin 5000) k) = X (ix2 (i 0 : Fin 50000) k)) (h1 : ∀ z, x1 z = W z) :
    k6_pay1 x0 x1 y = prod6 X W i := by
  obtain ⟨p, q, rfl⟩ : ∃ (p : Fin 5000) (q : Fin 1), y = ix2 p q := ⟨y 0, y 1, eq_ix2 y⟩
  obtain ⟨r, s, rfl⟩ : ∃ (r : Fin 50000) (s : Fin 1), i = ix2 r s := ⟨i 0, i 1, eq_ix2 i⟩
  obtain rfl : q = 0 := Subsingleton.elim _ _
  rw [pay6_apply]
  show ∑ k : Fin 64, x0 (ix2 p k) * x1 (ix2 k 0) = ∑ k : Fin 64, X (ix2 r k) * W (ix2 k 0)
  refine Finset.sum_congr rfl fun k _ => ?_
  rw [h1]
  exact congrArg (· * W (ix2 k 0)) (h0 k)

/-- What point t writes back is block t of the product of the activations and the weight column as the region finds them. -/
theorem flushed6_eq (c : Dev nD) (t : Fin cfg6.N) :
    (Hand.dat6 V c).flushed 2 t = ((cfg6.win 2).blk t).view.read (Elt Ideal) (prod6 (V c (Pipeline.arrRef spec6 0)) (V c (Pipeline.arrRef spec6 1))) := by
  show (cfg6.win 2).cut (grid6.coords t) ((Hand.dat6 V c).after 2 t) = _
  rw [Hand.after6_2]
  unfold Hand.out6_2
  rw [View.canon_unit_zero hz]
  simp only [View.ld_unit_zero (S := S5000x64) hz, View.ld_unit_zero (S := S64x1) hz]
  obtain ⟨-, -, -, -, e4, e5⟩ := idx_facts6 t
  funext j
  show k6_pay1 (Hand.iblk6 V c 0 t) (Hand.iblk6 V c 1 t) j = prod6 (V c (Pipeline.arrRef spec6 0)) (V c (Pipeline.arrRef spec6 1)) (((cfg6.win 2).blk t).view.emb j)
  refine pay6_at _ _ _ _ j _ (fun k => iblk6_0_apply V c t _ _ ?_ ?_) (fun z => iblk6_1_apply V c t z)
  · show win6_2.index t (0 : Fin 2) * 5000 + 1 * (j 0).val = 5000 * t.val + (j 0).val
    rw [e4]; omega
  · rfl

/-- An index of the result is in point t's block iff each coordinate is in the block's range on its axis. -/
theorem mem_blk6 (t : Fin cfg6.N) (i : S50000x1.Idx) :
    i ∈ ((cfg6.win 2).blk t).view.set ↔ ∀ a : Fin 2, win6_2.index t a * S5000x1.size a ≤ (i a).val ∧ (i a).val < win6_2.index t a * S5000x1.size a + S5000x1.size a := by
  show i ∈ ((View.whole main_v93).slice (win6_2.rect t)).set ↔ _
  rw [View.set_slice_whole, Rect.mem_set_unit]
  exact Iff.rfl

/-- Every index of the result is in the block of the point that handles its row: row r belongs to point r / 5000. -/
theorem cover6 (i : S50000x1.Idx) : ∃ t : Fin cfg6.N, (cfg6.win 2).flush t = true ∧ i ∈ ((cfg6.win 2).blk t).view.set := by
  have hi0 : (i 0).val < 50000 := (i 0).isLt
  have hi1 : (i 1).val < 1 := (i 1).isLt
  obtain ⟨t, ht⟩ : ∃ t : Fin cfg6.N, t.val = (i 0).val / 5000 := ⟨⟨(i 0).val / 5000, by rw [show cfg6.N = 10 from N_6]; omega⟩, rfl⟩
  obtain ⟨-, -, -, -, e4, e5⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; rw [e4, ht]; omega
  | ⟨1, _⟩ => show win6_2.index t (1 : Fin 2) * 1 ≤ (i 1).val ∧ (i 1).val < win6_2.index t (1 : Fin 2) * 1 + 1; rw [e5]; omega

/-- The activations as the region finds them, read as a function of the index. -/
abbrev X6 (c : Dev nD) : S50000x64.Idx → EReal := V c (Pipeline.arrRef spec6 0)
/-- The weight column as the region finds it, read as a function of the index. -/
abbrev W6 (c : Dev nD) : S64x1.Idx → EReal := V c (Pipeline.arrRef spec6 1)

/-- The result array after the region: the activations times the weight column, index by index, both as the region finds them. -/
theorem final6 (c : Dev nD) :
    (Hand.dat6 (F := Ideal) V c).arrAt 2 cfg6.N
      = (fun i => ∑ k : Fin 64, X6 V c (ix2 (i 0 : Fin 50000) k) * W6 V c (ix2 k (0 : Fin 1)) : S50000x1.Idx → EReal) :=
  (Hand.dat6 V c).arrAt_eq_of_cover 2 (prod6 (X6 V c) (W6 V c)) (fun t _ => flushed6_eq V c t) cover6

end Cert.KernelIdeal.HandValue

end
-- ==== Proof.KI.Val7.lean ====
/-
  Region 7, from blocks to the whole array, at the ideal values (floats are extended reals, every operation exact).
  The result array after the region is, row by row, the aggregate plus the hidden value times the degree factor, plus the
  one bias entry. Grid point t computes and writes back rows 5000 t … 5000 t + 4999 (the block's row p is the array's
  row 5000 t + p), and the ten blocks tile the array.
-/
import proofs.«135780_j72241349919044_1_alg».proof.Proof.KI.Reg7
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem hz : (![0, 0] : Fin 2 → Nat) = fun _ => 0 := funext fun a => by fin_cases a <;> rfl

/-- The body's value at an index of the block: the aggregate plus the hidden value times the degree factor, plus the
    one bias entry. The casts of a block to its own shape are the identity; the bias is spread over the block. -/
theorem pay7_apply (x0 x1 x2 : Vec Ideal S5000x1 .f32) (x3 : Vec Ideal S1x1 .f32) (y : S5000x1.Idx) :
    k7_pay1 x0 x1 x2 x3 y = x0 y + x1 y * x2 y + x3 (ix2 (0 : Fin 1) (0 : Fin 1)) := by
  unfold k7_pay1
  show shapeCast S5000x1 x0 shapeCasts_S5000x1_S5000x1 y + shapeCast S5000x1 x1 shapeCasts_S5000x1_S5000x1 y * shapeCast S5000x1 x2 shapeCasts_S5000x1_S5000x1 y
      + broadcastTo S5000x1 (shapeCast S1x1 x3 shapeCasts_S1x1_S1x1) broadcasts_S1x1_S5000x1 y = _
  rw [shapeCast_self, shapeCast_self, shapeCast_self, shapeCast_self]
  refine congrArg (x0 y + x1 y * x2 y + ·) ?_
  refine broadcastTo_apply x3 broadcasts_S1x1_S5000x1 y (ix2 (0 : Fin 1) (0 : Fin 1)) (fun a => ?_)
  match a with
  | ⟨0, _⟩ => rfl
  | ⟨1, _⟩ => rfl

/-- The printed index maps over the grid: point t takes block t of the aggregate's, the hidden value's, the degree factor's
    and the result's rows, and the whole one-entry bias. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

variable (V : (c : Dev nD) → (b : Ref sig .tc) → Buf (Elt Ideal) ((c : Thread nD τ).loc b))

/-- The aggregate's block at point t is rows 5000 t … 5000 t + 4999 of the aggregate. -/
theorem iblk7_0_apply (c : Dev nD) (t : Fin cfg7.N) (y : S5000x1.Idx) (i : S50000x1.Idx)
    (hi0 : (i 0).val = 5000 * t.val + (y 0).val) (hi1 : (i 1).val = (y 1).val) :
    (Hand.iblk7 V c 0 t : Vec Ideal S5000x1 .f32) y = (V c (Pipeline.arrRef spec7 0) : S50000x1.Idx → EReal) i := by
  obtain ⟨e0, e1, -⟩ := idx_facts7 t
  unfold Hand.iblk7
  rw [View.read_apply]
  refine congrArg (V c (Pipeline.arrRef spec7 0) : S50000x1.Idx → EReal) (funext fun a => Fin.ext ?_)
  match a with
  | ⟨0, _⟩ => show win7_0.index t (0 : Fin 2) * 5000 + 1 * (y 0).val = (i 0).val; rw [e0, hi0]; omega
  | ⟨1, _⟩ => show win7_0.index t (1 : Fin 2) * 1 + 1 * (y 1).val = (i 1).val; rw [e1, hi1]; omega

/-- The hidden value's block at point t is rows 5000 t … 5000 t + 4999 of the hidden value. -/
theorem iblk7_1_apply (c : Dev nD) (t : Fin cfg7.N) (y : S5000x1.Idx) (i : S50000x1.Idx)
    (hi0 : (i 0).val = 5000 * t.val + (y 0).val) (hi1 : (i 1).val = (y 1).val) :
    (Hand.iblk7 V c 1 t : Vec Ideal S5000x1 .f32) y = (V c (Pipeline.arrRef spec7 1) : S50000x1.Idx → EReal) i := by
  obtain ⟨-, -, e0, e1, -⟩ := idx_facts7 t
  unfold Hand.iblk7
  rw [View.read_apply]
  refine congrArg (V c (Pipeline.arrRef spec7 1) : S50000x1.Idx → EReal) (funext fun a => Fin.ext ?_)
  match a with
  | ⟨0, _⟩ => show win7_1.index t (0 : Fin 2) * 5000 + 1 * (y 0).val = (i 0).val; rw [e0, hi0]; omega
  | ⟨1, _⟩ => show win7_1.index t (1 : Fin 2) * 1 + 1 * (y 1).val = (i 1).val; rw [e1, hi1]; omega

/-- The degree factor's block at point t is rows 5000 t … 5000 t + 4999 of the degree factor. -/
theorem iblk7_2_apply (c : Dev nD) (t : Fin cfg7.N) (y : S5000x1.Idx) (i : S50000x1.Idx)
    (hi0 : (i 0).val = 5000 * t.val + (y 0).val) (hi1 : (i 1).val = (y 1).val) :
    (Hand.iblk7 V c 2 t : Vec Ideal S5000x1 .f32) y = (V c (Pipeline.arrRef spec7 2) : S50000x1.Idx → EReal) i := by
  obtain ⟨-, -, -, -, e0, e1, -⟩ := idx_facts7 t
  unfold Hand.iblk7
  rw [View.read_apply]
  refine congrArg (V c (Pipeline.arrRef spec7 2) : S50000x1.Idx → EReal) (funext fun a => Fin.ext ?_)
  match a with
  | ⟨0, _⟩ => show win7_2.index t (0 : Fin 2) * 5000 + 1 * (y 0).val = (i 0).val; rw [e0, hi0]; omega
  | ⟨1, _⟩ => show win7_2.index t (1 : Fin 2) * 1 + 1 * (y 1).val = (i 1).val; rw [e1, hi1]; omega

/-- The bias's block at every point is the whole one-entry bias. -/
theorem iblk7_3_apply (c : Dev nD) (t : Fin cfg7.N) (y : S1x1.Idx) :
    (Hand.iblk7 V c 3 t : Vec Ideal S1x1 .f32) y = (V c (Pipeline.arrRef spec7 3) : S1x1.Idx → EReal) y := by
  obtain ⟨-, -, -, -, -, -, e0, e1, -⟩ := idx_facts7 t
  unfold Hand.iblk7
  rw [View.read_apply]
  refine congrArg (V c (Pipeline.arrRef spec7 3) : S1x1.Idx → EReal) (funext fun a => Fin.ext ?_)
  match a with
  | ⟨0, _⟩ => show win7_3.index t (0 : Fin 2) * 1 + 1 * (y 0).val = (y 0).val; rw [e0]; omega
  | ⟨1, _⟩ => show win7_3.index t (1 : Fin 2) * 1 + 1 * (y 1).val = (y 1).val; rw [e1]; omega

/-- The combination, index by index: aggregate plus hidden value times degree factor, plus the one bias entry. -/
abbrev comb7 (A H D : S50000x1.Idx → EReal) (B : S1x1.Idx → EReal) : S50000x1.Idx → EReal :=
  fun i => A i + H i * D i + B (ix2 (0 : Fin 1) (0 : Fin 1))

/-- The body's value at an index y of the block, when the three loaded blocks at y are the arrays A, H, D at i and the
    loaded bias is B: the combination's entry at i. -/
theorem pay7_at (x0 x1 x2 : Vec Ideal S5000x1 .f32) (x3 : Vec Ideal S1x1 .f32) (A H D : S50000x1.Idx → EReal) (B : S1x1.Idx → EReal)
    (y : S5000x1.Idx) (i : S50000x1.Idx)
    (h0 : x0 y = A i) (h1 : x1 y = H i) (h2 : x2 y = D i) (h3 : ∀ z, x3 z = B z) :
    k7_pay1 x0 x1 x2 x3 y = comb7 A H D B i := by
  rw [pay7_apply, h0, h1, h2, h3]

/-- What point t writes back is block t of the combination of the four arrays as the region finds them. -/
theorem flushed7_eq (c : Dev nD) (t : Fin cfg7.N) :
    (Hand.dat7 V c).flushed 4 t = ((cfg7.win 4).blk t).view.read (Elt Ideal)
      (comb7 (V c (Pipeline.arrRef spec7 0)) (V c (Pipeline.arrRef spec7 1)) (V c (Pipeline.arrRef spec7 2)) (V c (Pipeline.arrRef spec7 3))) := by
  show (cfg7.win 4).cut (grid7.coords t) ((Hand.dat7 V c).after 4 t) = _
  rw [Hand.after7_4]
  unfold Hand.out7_4
  rw [View.canon_unit_zero hz]
  simp only [View.ld_unit_zero (S := S5000x1) hz, View.ld_unit_zero (S := S1x1) hz]
  obtain ⟨-, -, -, -, -, -, -, -, e8, e9⟩ := idx_facts7 t
  funext j
  show k7_pay1 (Hand.iblk7 V c 0 t) (Hand.iblk7 V c 1 t) (Hand.iblk7 V c 2 t) (Hand.iblk7 V c 3 t) j
    = comb7 (V c (Pipeline.arrRef spec7 0)) (V c (Pipeline.arrRef spec7 1)) (V c (Pipeline.arrRef spec7 2)) (V c (Pipeline.arrRef spec7 3)) (((cfg7.win 4).blk t).view.emb j)
  have k0 : ((((cfg7.win 4).blk t).view.emb j : S50000x1.Idx) 0).val = 5000 * t.val + (j 0).val := by
    show win7_4.index t (0 : Fin 2) * 5000 + 1 * (j 0).val = 5000 * t.val + (j 0).val
    rw [e8]; omega
  have k1 : ((((cfg7.win 4).blk t).view.emb j : S50000x1.Idx) 1).val = (j 1).val := by
    show win7_4.index t (1 : Fin 2) * 1 + 1 * (j 1).val = (j 1).val
    rw [e9]; omega
  exact pay7_at _ _ _ _ _ _ _ _ j _ (iblk7_0_apply V c t _ _ k0 k1) (iblk7_1_apply V c t _ _ k0 k1) (iblk7_2_apply V c t _ _ k0 k1)
    (fun z => iblk7_3_apply V c t z)

/-- An index of the result is in point t's block iff each coordinate is in the block's range on its axis. -/
theorem mem_blk7 (t : Fin cfg7.N) (i : S50000x1.Idx) :
    i ∈ ((cfg7.win 4).blk t).view.set ↔ ∀ a : Fin 2, win7_4.index t a * S5000x1.size a ≤ (i a).val ∧ (i a).val < win7_4.index t a * S5000x1.size a + S5000x1.size a := by
  show i ∈ ((View.whole main_v122).slice (win7_4.rect t)).set ↔ _
  rw [View.set_slice_whole, Rect.mem_set_unit]
  exact Iff.rfl

/-- Every index of the result is in the block of the point that handles its row: row r belongs to point r / 5000. -/
theorem cover7 (i : S50000x1.Idx) : ∃ t : Fin cfg7.N, (cfg7.win 4).flush t = true ∧ i ∈ ((cfg7.win 4).blk t).view.set := by
  have hi0 : (i 0).val < 50000 := (i 0).isLt
  have hi1 : (i 1).val < 1 := (i 1).isLt
  obtain ⟨t, ht⟩ : ∃ t : Fin cfg7.N, t.val = (i 0).val / 5000 := ⟨⟨(i 0).val / 5000, by rw [show cfg7.N = 10 from N_7]; omega⟩, rfl⟩
  obtain ⟨-, -, -, -, -, -, -, -, e8, e9⟩ := idx_facts7 t
  refine ⟨t, flush7_4 t, ?_⟩
  rw [mem_blk7]
  intro a
  match a with
  | ⟨0, _⟩ => show win7_4.index t (0 : Fin 2) * 5000 ≤ (i 0).val ∧ (i 0).val < win7_4.index t (0 : Fin 2) * 5000 + 5000; rw [e8, ht]; omega
  | ⟨1, _⟩ => show win7_4.index t (1 : Fin 2) * 1 ≤ (i 1).val ∧ (i 1).val < win7_4.index t (1 : Fin 2) * 1 + 1; rw [e9]; omega

/-- The aggregate, the hidden value, the degree factor and the bias as the region finds them, read as functions of the index. -/
abbrev A7 (c : Dev nD) : S50000x1.Idx → EReal := V c (Pipeline.arrRef spec7 0)
abbrev H7 (c : Dev nD) : S50000x1.Idx → EReal := V c (Pipeline.arrRef spec7 1)
abbrev D7 (c : Dev nD) : S50000x1.Idx → EReal := V c (Pipeline.arrRef spec7 2)
abbrev B7 (c : Dev nD) : S1x1.Idx → EReal := V c (Pipeline.arrRef spec7 3)

/-- The result array after the region: aggregate plus hidden value times degree factor plus the bias entry, index by index,
    all four as the region finds them. -/
theorem final7 (c : Dev nD) :
    (Hand.dat7 (F := Ideal) V c).arrAt 4 cfg7.N
      = (fun i => A7 V c i + H7 V c i * D7 V c i + B7 V c (ix2 (0 : Fin 1) (0 : Fin 1)) : S50000x1.Idx → EReal) :=
  (Hand.dat7 V c).arrAt_eq_of_cover 4 (comb7 (A7 V c) (H7 V c) (D7 V c) (B7 V c)) (fun t _ => flushed7_eq V c t) cover7

end Cert.KernelIdeal.HandValue

end
-- ==== Proof.KI.Val1a.lean ====
/-
  Region 1: what each point's stores amount to. Every written buffer is stored whole, so what it holds afterwards is the
  last payload stored: the block of P is one value of the four loaded blocks; an accumulator ends at its update of what it
  held (of the zero row at the first point); at the last point the statistics windows take the accumulators' new contents.
-/
import proofs.«135780_j72241349919044_1_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := by funext a; fin_cases a <;> rfl

theorem stepA1_P (c : Dev nD) (t : Fin cfg1.N) (h0 : cond1_0 (grid1.coords t)) (h1 : ¬cond1_1 (grid1.coords t)) :
    (stepA1 (F := F) V c t h0 h1).1 = k1_pay3 (iblk1 V c 0 t) (iblk1 V c 1 t) (iblk1 V c 2 t) (iblk1 V c 3 t) := by
  unfold stepA1; dsimp only; unfold rd1_4
  rw [View.read_writes_eq_canon _ _ _ (coverA1_4 V c t h0 h1)]
  unfold runA1; unfold kernelRun1_A; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepA1_s0 (c : Dev nD) (t : Fin cfg1.N) (h0 : cond1_0 (grid1.coords t)) (h1 : ¬cond1_1 (grid1.coords t)) :
    (stepA1 (F := F) V c t h0 h1).2.2.2.1 = k1_pay4 (iblk1 V c 0 t) (iblk1 V c 1 t) (iblk1 V c 2 t) (iblk1 V c 3 t) (k1_pay1 (F := F)) := by
  unfold stepA1; dsimp only; unfold rs1_0
  rw [View.read_writes_eq_canon _ _ _ (coverA1_s0 V c t h0 h1)]
  unfold runA1; unfold kernelRun1_A; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepA1_s1 (c : Dev nD) (t : Fin cfg1.N) (h0 : cond1_0 (grid1.coords t)) (h1 : ¬cond1_1 (grid1.coords t)) :
    (stepA1 (F := F) V c t h0 h1).2.2.2.2 = k1_pay5 (iblk1 V c 0 t) (iblk1 V c 1 t) (iblk1 V c 2 t) (iblk1 V c 3 t) (k1_pay2 (F := F)) := by
  unfold stepA1; dsimp only; unfold rs1_1
  rw [View.read_writes_eq_canon _ _ _ (coverA1_s1 V c t h0 h1)]
  unfold runA1; unfold kernelRun1_A; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepB1_P (c : Dev nD) (t : Fin cfg1.N) (h0 : ¬cond1_0 (grid1.coords t)) (h1 : ¬cond1_1 (grid1.coords t)) (xs0 xs1 : Vec F S1x64 .f32) :
    (stepB1 (F := F) V c t h0 h1 xs0 xs1).1 = k1_pay3 (iblk1 V c 0 t) (iblk1 V c 1 t) (iblk1 V c 2 t) (iblk1 V c 3 t) := by
  unfold stepB1; dsimp only; unfold rd1_4
  rw [View.read_writes_eq_canon _ _ _ (coverB1_4 V c t h0 h1 xs0 xs1)]
  unfold runB1; unfold kernelRun1_B; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepB1_s0 (c : Dev nD) (t : Fin cfg1.N) (h0 : ¬cond1_0 (grid1.coords t)) (h1 : ¬cond1_1 (grid1.coords t)) (xs0 xs1 : Vec F S1x64 .f32) :
    (stepB1 (F := F) V c t h0 h1 xs0 xs1).2.2.2.1 = k1_pay4 (iblk1 V c 0 t) (iblk1 V c 1 t) (iblk1 V c 2 t) (iblk1 V c 3 t) xs0 := by
  unfold stepB1; dsimp only; unfold rs1_0
  rw [View.read_writes_eq_canon _ _ _ (coverB1_s0 V c t h0 h1 xs0 xs1)]
  unfold runB1; unfold kernelRun1_B; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepB1_s1 (c : Dev nD) (t : Fin cfg1.N) (h0 : ¬cond1_0 (grid1.coords t)) (h1 : ¬cond1_1 (grid1.coords t)) (xs0 xs1 : Vec F S1x64 .f32) :
    (stepB1 (F := F) V c t h0 h1 xs0 xs1).2.2.2.2 = k1_pay5 (iblk1 V c 0 t) (iblk1 V c 1 t) (iblk1 V c 2 t) (iblk1 V c 3 t) xs1 := by
  unfold stepB1; dsimp only; unfold rs1_1
  rw [View.read_writes_eq_canon _ _ _ (coverB1_s1 V c t h0 h1 xs0 xs1)]
  unfold runB1; unfold kernelRun1_B; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC1_P (c : Dev nD) (t : Fin cfg1.N) (h0 : ¬cond1_0 (grid1.coords t)) (h1 : cond1_1 (grid1.coords t)) (xs0 xs1 : Vec F S1x64 .f32) :
    (stepC1 (F := F) V c t h0 h1 xs0 xs1).1 = k1_pay3 (iblk1 V c 0 t) (iblk1 V c 1 t) (iblk1 V c 2 t) (iblk1 V c 3 t) := by
  unfold stepC1; dsimp only; unfold rd1_4
  rw [View.read_writes_eq_canon _ _ _ (coverC1_4 V c t h0 h1 xs0 xs1)]
  unfold runC1; unfold kernelRun1_C; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC1_o5 (c : Dev nD) (t : Fin cfg1.N) (h0 : ¬cond1_0 (grid1.coords t)) (h1 : cond1_1 (grid1.coords t)) (xs0 xs1 : Vec F S1x64 .f32) :
    (stepC1 (F := F) V c t h0 h1 xs0 xs1).2.1 = k1_pay4 (iblk1 V c 0 t) (iblk1 V c 1 t) (iblk1 V c 2 t) (iblk1 V c 3 t) xs0 := by
  unfold stepC1; dsimp only; unfold rd1_5
  rw [View.read_writes_eq_canon _ _ _ (coverC1_5 V c t h0 h1 xs0 xs1)]
  unfold runC1; unfold kernelRun1_C; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC1_o6 (c : Dev nD) (t : Fin cfg1.N) (h0 : ¬cond1_0 (grid1.coords t)) (h1 : cond1_1 (grid1.coords t)) (xs0 xs1 : Vec F S1x64 .f32) :
    (stepC1 (F := F) V c t h0 h1 xs0 xs1).2.2.1 = k1_pay5 (iblk1 V c 0 t) (iblk1 V c 1 t) (iblk1 V c 2 t) (iblk1 V c 3 t) xs1 := by
  unfold stepC1; dsimp only; unfold rd1_6
  rw [View.read_writes_eq_canon _ _ _ (coverC1_6 V c t h0 h1 xs0 xs1)]
  unfold runC1; unfold kernelRun1_C; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC1_s0 (c : Dev nD) (t : Fin cfg1.N) (h0 : ¬cond1_0 (grid1.coords t)) (h1 : cond1_1 (grid1.coords t)) (xs0 xs1 : Vec F S1x64 .f32) :
    (stepC1 (F := F) V c t h0 h1 xs0 xs1).2.2.2.1 = k1_pay4 (iblk1 V c 0 t) (iblk1 V c 1 t) (iblk1 V c 2 t) (iblk1 V c 3 t) xs0 := by
  unfold stepC1; dsimp only; unfold rs1_0
  rw [View.read_writes_eq_canon _ _ _ (coverC1_s0 V c t h0 h1 xs0 xs1)]
  unfold runC1; unfold kernelRun1_C; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC1_s1 (c : Dev nD) (t : Fin cfg1.N) (h0 : ¬cond1_0 (grid1.coords t)) (h1 : cond1_1 (grid1.coords t)) (xs0 xs1 : Vec F S1x64 .f32) :
    (stepC1 (F := F) V c t h0 h1 xs0 xs1).2.2.2.2 = k1_pay5 (iblk1 V c 0 t) (iblk1 V c 1 t) (iblk1 V c 2 t) (iblk1 V c 3 t) xs1 := by
  unfold stepC1; dsimp only; unfold rs1_1
  rw [View.read_writes_eq_canon _ _ _ (coverC1_s1 V c t h0 h1 xs0 xs1)]
  unfold runC1; unfold kernelRun1_C; dsimp only
  sl_unfold_words
  simp only [View.readAt_eq_ld, (hs1_0 t).read_unread, (hs1_1 t).read_unread, (hs1_2 t).read_unread, (hs1_3 t).read_unread,
    (Memref.isWhole_whole cc1_scratch0).read_unread, (Memref.isWhole_whole cc1_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

end Cert.KernelIdeal.Hand

end
-- ==== Proof.KI.Val1b.lean ====
/-
  Region 1: the accumulation in closed recursive form. After the body at point n the first accumulator holds
  acc_0 n = update (blocks of point n) (acc_0 (n - 1)), started from the zero row, and likewise the second; the block of P
  stored at point t is one value of that point's four blocks; at the last point the two statistics windows take the
  accumulators' final contents.
-/
import proofs.«135780_j72241349919044_1_alg».proof.Proof.KI.Val1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of P formed at point t. -/
abbrev pblk1 (c : Dev nD) (t : Fin cfg1.N) : Vec F S5000x64 .f32 := k1_pay3 (iblk1 V c 0 t) (iblk1 V c 1 t) (iblk1 V c 2 t) (iblk1 V c 3 t)

/-- The first accumulator after point n: the column sums of the blocks of P up to n, added one point after another to the zero row. -/
def acc1_0 (c : Dev nD) : (n : ℕ) → n < cfg1.N → Vec F S1x64 .f32
  | 0, hn => k1_pay4 (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (k1_pay1 (F := F))
  | n + 1, hn => k1_pay4 (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (acc1_0 c n (Nat.lt_of_succ_lt hn))
/-- The second accumulator after point n: the same for the entrywise squares. -/
def acc1_1 (c : Dev nD) : (n : ℕ) → n < cfg1.N → Vec F S1x64 .f32
  | 0, hn => k1_pay5 (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (k1_pay2 (F := F))
  | n + 1, hn => k1_pay5 (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (acc1_1 c n (Nat.lt_of_succ_lt hn))

theorem outsAt1_acc (c : Dev nD) (n : ℕ) : ∀ hn : n < cfg1.N,
    (outsAt1 (F := F) V c n hn).2.2.2.1 = acc1_0 V c n hn ∧ (outsAt1 (F := F) V c n hn).2.2.2.2 = acc1_1 V c n hn := by
  induction n with
  | zero =>
    intro hn
    exact ⟨stepA1_s0 V c ⟨0, hn⟩ _ _, stepA1_s1 V c ⟨0, hn⟩ _ _⟩
  | succ n ih =>
    intro hn
    obtain ⟨ih0, ih1⟩ := ih (Nat.lt_of_succ_lt hn)
    have h0 : ¬cond1_0 (grid1.coords ⟨n + 1, hn⟩) := fun h => Nat.succ_ne_zero n ((hcond1_0 ⟨n + 1, hn⟩).mp h)
    by_cases h9 : n + 1 = 9
    · have h1 : cond1_1 (grid1.coords ⟨n + 1, hn⟩) := (hcond1_1 ⟨n + 1, hn⟩).mpr h9
      have e : outsAt1 (F := F) V c (n + 1) hn = stepC1 V c ⟨n + 1, hn⟩ h0 h1
          (outsAt1 V c n (Nat.lt_of_succ_lt hn)).2.2.2.1 (outsAt1 V c n (Nat.lt_of_succ_lt hn)).2.2.2.2 := outsAt1_C V c ⟨n + 1, hn⟩ h0 h1
      rw [e, stepC1_s0, stepC1_s1, ih0, ih1]
      exact ⟨rfl, rfl⟩
    · have h1 : ¬cond1_1 (grid1.coords ⟨n + 1, hn⟩) := fun h => h9 ((hcond1_1 ⟨n + 1, hn⟩).mp h)
      have e : outsAt1 (F := F) V c (n + 1) hn = stepB1 V c ⟨n + 1, hn⟩ h0 h1
          (outsAt1 V c n (Nat.lt_of_succ_lt hn)).2.2.2.1 (outsAt1 V c n (Nat.lt_of_succ_lt hn)).2.2.2.2 := outsAt1_B V c ⟨n + 1, hn⟩ h0 h1
      rw [e, stepB1_s0, stepB1_s1, ih0, ih1]
      exact ⟨rfl, rfl⟩

/-- At every point the first result window's buffer ends at that point's block of P. -/
theorem after1_P (c : Dev nD) (t : Fin cfg1.N) : (dat1 (F := F) V c).after 4 t = pblk1 V c t := by
  rw [after1_4]
  by_cases hz : t.val = 0
  · have h0 : cond1_0 (grid1.coords t) := (hcond1_0 t).mpr hz
    have h1 : ¬cond1_1 (grid1.coords t) := fun h => by
      have hN : t.val < 10 := lt_of_lt_of_eq t.isLt (show cfg1.N = 10 from N_1)
      have := (hcond1_1 t).mp h; omega
    rw [outsAt1_A V c t h0 h1, stepA1_P]
  · have h0 : ¬cond1_0 (grid1.coords t) := fun h => hz ((hcond1_0 t).mp h)
    by_cases h9 : t.val = 9
    · rw [outsAt1_C V c t h0 ((hcond1_1 t).mpr h9), stepC1_P]
    · rw [outsAt1_B V c t h0 (fun h => h9 ((hcond1_1 t).mp h)), stepB1_P]

/-- At the last point the two statistics windows' buffers end at the accumulators' final contents. -/
theorem after1_stats (c : Dev nD) (t : Fin cfg1.N) (h9 : t.val = 9) :
    (dat1 (F := F) V c).after 5 t = acc1_0 V c t.val t.isLt ∧ (dat1 (F := F) V c).after 6 t = acc1_1 V c t.val t.isLt := by
  rw [after1_5, after1_6]
  obtain ⟨n, hn⟩ := t
  cases n with
  | zero => exfalso; (try dsimp only at h9); omega
  | succ n =>
    have h0 : ¬cond1_0 (grid1.coords ⟨n + 1, hn⟩) := fun h => Nat.succ_ne_zero n ((hcond1_0 ⟨n + 1, hn⟩).mp h)
    have h1 : cond1_1 (grid1.coords ⟨n + 1, hn⟩) := (hcond1_1 ⟨n + 1, hn⟩).mpr h9
    obtain ⟨ih0, ih1⟩ := outsAt1_acc V c n (Nat.lt_of_succ_lt hn)
    have e : outsAt1 (F := F) V c (n + 1) hn = stepC1 V c ⟨n + 1, hn⟩ h0 h1
        (outsAt1 V c n (Nat.lt_of_succ_lt hn)).2.2.2.1 (outsAt1 V c n (Nat.lt_of_succ_lt hn)).2.2.2.2 := outsAt1_C V c ⟨n + 1, hn⟩ h0 h1
    show (outsAt1 (F := F) V c (n + 1) hn).2.1 = acc1_0 V c (n + 1) hn ∧ (outsAt1 (F := F) V c (n + 1) hn).2.2.1 = acc1_1 V c (n + 1) hn
    rw [e, stepC1_o5, stepC1_o6, ih0, ih1]
    exact ⟨rfl, rfl⟩

end Cert.KernelIdeal.Hand

end
-- ==== Proof.KI.Val1P.lean ====
/-
  Region 1, the pre-activation's array from blocks to the whole array, at the ideal values (floats are extended reals, every
  operation exact). The first layer's pre-activation is, entry by entry, the aggregate plus the hidden value times the row's
  degree factor, plus the column's bias. Grid point t computes and writes back rows 5000 t … 5000 t + 4999 (the block's row p is
  the array's row 5000 t + p), and the ten blocks tile the array.
-/
import proofs.«135780_j72241349919044_1_alg».proof.Proof.KI.Val1b
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- A column [a, 1] spread over b columns reads, at (p, c), the column's entry in row p. -/
theorem colBroadcast1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pre-activation's value at row p, column q of the block: the aggregate's entry plus the hidden value's entry times
    the row's degree factor, plus the column's bias. The casts of a block to its own shape are the identity; the degree
    factor's column is spread over the columns and the bias's row over the rows. -/
theorem pay1_3_apply (x0 x1 : Vec Ideal S5000x64 .f32) (x2 : Vec Ideal S5000x1 .f32) (x3 : Vec Ideal S1x64 .f32) (p : Fin 5000) (q : Fin 64) :
    k1_pay3 x0 x1 x2 x3 (ix2 p q) = x0 (ix2 p q) + x1 (ix2 p q) * x2 (ix2 p (0 : Fin 1)) + x3 (ix2 (0 : Fin 1) q) := by
  unfold k1_pay3
  show shapeCast S5000x64 x0 shapeCasts_S5000x64_S5000x64 (ix2 p q)
      + shapeCast S5000x64 x1 shapeCasts_S5000x64_S5000x64 (ix2 p q)
        * broadcastTo S5000x64 (shapeCast S5000x1 x2 shapeCasts_S5000x1_S5000x1) broadcasts_S5000x1_S5000x64 (ix2 p q)
      + broadcastTo S5000x64 (shapeCast S1x64 x3 shapeCasts_S1x64_S1x64) broadcasts_S1x64_S5000x64 (ix2 p q) = _
  rw [shapeCast_self, shapeCast_self, shapeCast_self, shapeCast_self, colBroadcast1_apply, broadcastTo_1b_ab_apply]

/-- The printed index maps over the grid: point t takes block t of the aggregate's, the hidden value's, the degree factor's
    and the pre-activation's rows, and the whole bias row. -/
theorem idx_facts1_P : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The aggregate's block at point t is rows 5000 t … 5000 t + 4999 of the aggregate. -/
theorem iblk1_0_apply (c : Dev nD) (t : Fin cfg1.N) (y : S5000x64.Idx) (i : S50000x64.Idx)
    (hi0 : (i 0).val = 5000 * t.val + (y 0).val) (hi1 : (i 1).val = (y 1).val) :
    (Hand.iblk1 V c 0 t : Vec Ideal S5000x64 .f32) y = (V c (Pipeline.arrRef spec1 0) : S50000x64.Idx → EReal) i := by
  obtain ⟨e0, e1, -⟩ := idx_facts1_P t
  unfold Hand.iblk1
  rw [View.read_apply]
  refine congrArg (V c (Pipeline.arrRef spec1 0) : S50000x64.Idx → EReal) (funext fun a => Fin.ext ?_)
  match a with
  | ⟨0, _⟩ => show win1_0.index t (0 : Fin 2) * 5000 + 1 * (y 0).val = (i 0).val; rw [e0, hi0]; omega
  | ⟨1, _⟩ => show win1_0.index t (1 : Fin 2) * 64 + 1 * (y 1).val = (i 1).val; rw [e1, hi1]; omega

/-- The hidden value's block at point t is rows 5000 t … 5000 t + 4999 of the hidden value. -/
theorem iblk1_1_apply (c : Dev nD) (t : Fin cfg1.N) (y : S5000x64.Idx) (i : S50000x64.Idx)
    (hi0 : (i 0).val = 5000 * t.val + (y 0).val) (hi1 : (i 1).val = (y 1).val) :
    (Hand.iblk1 V c 1 t : Vec Ideal S5000x64 .f32) y = (V c (Pipeline.arrRef spec1 1) : S50000x64.Idx → EReal) i := by
  obtain ⟨-, -, e0, e1, -⟩ := idx_facts1_P t
  unfold Hand.iblk1
  rw [View.read_apply]
  refine congrArg (V c (Pipeline.arrRef spec1 1) : S50000x64.Idx → EReal) (funext fun a => Fin.ext ?_)
  match a with
  | ⟨0, _⟩ => show win1_1.index t (0 : Fin 2) * 5000 + 1 * (y 0).val = (i 0).val; rw [e0, hi0]; omega
  | ⟨1, _⟩ => show win1_1.index t (1 : Fin 2) * 64 + 1 * (y 1).val = (i 1).val; rw [e1, hi1]; omega

/-- The degree factor's block at point t is rows 5000 t … 5000 t + 4999 of the degree factor. -/
theorem iblk1_2_apply (c : Dev nD) (t : Fin cfg1.N) (y : S5000x1.Idx) (i : S50000x1.Idx)
    (hi0 : (i 0).val = 5000 * t.val + (y 0).val) (hi1 : (i 1).val = (y 1).val) :
    (Hand.iblk1 V c 2 t : Vec Ideal S5000x1 .f32) y = (V c (Pipeline.arrRef spec1 2) : S50000x1.Idx → EReal) i := by
  obtain ⟨-, -, -, -, e0, e1, -⟩ := idx_facts1_P t
  unfold Hand.iblk1
  rw [View.read_apply]
  refine congrArg (V c (Pipeline.arrRef spec1 2) : S50000x1.Idx → EReal) (funext fun a => Fin.ext ?_)
  match a with
  | ⟨0, _⟩ => show win1_2.index t (0 : Fin 2) * 5000 + 1 * (y 0).val = (i 0).val; rw [e0, hi0]; omega
  | ⟨1, _⟩ => show win1_2.index t (1 : Fin 2) * 1 + 1 * (y 1).val = (i 1).val; rw [e1, hi1]; omega

/-- The bias's block at every point is the whole bias row. -/
theorem iblk1_3_apply (c : Dev nD) (t : Fin cfg1.N) (y : S1x64.Idx) :
    (Hand.iblk1 V c 3 t : Vec Ideal S1x64 .f32) y = (V c (Pipeline.arrRef spec1 3) : S1x64.Idx → EReal) y := by
  obtain ⟨-, -, -, -, -, -, e0, e1, -⟩ := idx_facts1_P t
  unfold Hand.iblk1
  rw [View.read_apply]
  refine congrArg (V c (Pipeline.arrRef spec1 3) : S1x64.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The aggregate, the hidden value, the degree factor and the bias row as the region finds them, read as functions of the index. -/
abbrev A1 (c : Dev nD) : S50000x64.Idx → EReal := V c (Pipeline.arrRef spec1 0)
abbrev H1 (c : Dev nD) : S50000x64.Idx → EReal := V c (Pipeline.arrRef spec1 1)
abbrev D1 (c : Dev nD) : S50000x1.Idx → EReal := V c (Pipeline.arrRef spec1 2)
abbrev B1 (c : Dev nD) : S1x64.Idx → EReal := V c (Pipeline.arrRef spec1 3)

/-- The pre-activation, index by index: the aggregate plus the hidden value times the row's degree factor, plus the column's bias. -/
abbrev P1 (c : Dev nD) : S50000x64.Idx → EReal :=
  fun i => A1 V c i + H1 V c i * D1 V c (ix2 (i 0 : Fin 50000) (0 : Fin 1)) + B1 V c (ix2 (0 : Fin 1) (i 1 : Fin 64))

/-- The pre-activation's block at point t: its row p is row 5000 t + p of the pre-activation. -/
theorem pblk1_apply (c : Dev nD) (t : Fin cfg1.N) (p : Fin 5000) (q : Fin 64) (r : Fin 50000) (hr : r.val = 5000 * t.val + p.val) :
    (Hand.pblk1 (F := Ideal) V c t) (ix2 p q) = P1 V c (ix2 r q) := by
  show k1_pay3 (Hand.iblk1 V c 0 t) (Hand.iblk1 V c 1 t) (Hand.iblk1 V c 2 t) (Hand.iblk1 V c 3 t) (ix2 p q) = _
  rw [pay1_3_apply, iblk1_0_apply V c t (ix2 p q) (ix2 r q) hr rfl, iblk1_1_apply V c t (ix2 p q) (ix2 r q) hr rfl,
    iblk1_2_apply V c t (ix2 p (0 : Fin 1)) (ix2 r (0 : Fin 1)) hr rfl, iblk1_3_apply V c t (ix2 (0 : Fin 1) q)]

/-- The same at an index y of the block and an index i of the array with i's row 5000 t + y's row and the same column. -/
theorem blk_at1 (c : Dev nD) (t : Fin cfg1.N) (y : S5000x64.Idx) (i : S50000x64.Idx)
    (hi0 : (i 0).val = 5000 * t.val + (y 0).val) (hi1 : (i 1).val = (y 1).val) :
    (Hand.pblk1 (F := Ideal) V c t) y = P1 V c i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  exact pblk1_apply V c t p s r hi0

/-- What point t writes back to the pre-activation's array is block t of the pre-activation. -/
theorem flushed1_4_eq (c : Dev nD) (t : Fin cfg1.N) :
    (Hand.dat1 V c).flushed 4 t = ((cfg1.win 4).blk t).view.read (Elt Ideal) (P1 V c) := by
  show (cfg1.win 4).cut (grid1.coords t) ((Hand.dat1 V c).after 4 t) = _
  rw [Hand.after1_P]
  obtain ⟨-, -, -, -, -, -, -, -, e8, e9⟩ := idx_facts1_P t
  funext j
  show Hand.pblk1 (F := Ideal) V c t j = P1 V c (((cfg1.win 4).blk t).view.emb j)
  have k0 : ((((cfg1.win 4).blk t).view.emb j : S50000x64.Idx) 0).val = 5000 * t.val + (j 0).val := by
    show win1_4.index t (0 : Fin 2) * 5000 + 1 * (j 0).val = 5000 * t.val + (j 0).val
    rw [e8]; omega
  have k1 : ((((cfg1.win 4).blk t).view.emb j : S50000x64.Idx) 1).val = (j 1).val := by
    show win1_4.index t (1 : Fin 2) * 64 + 1 * (j 1).val = (j 1).val
    rw [e9]; omega
  exact blk_at1 V c t j _ k0 k1

/-- An index of the pre-activation's array is in point t's block iff each coordinate is in the block's range on its axis. -/
theorem mem_blk1_4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43_0).slice (win1_4.rect t)).set ↔ _
  rw [View.set_slice_whole, Rect.mem_set_unit]
  exact Iff.rfl

/-- Every index of the pre-activation's array is in the block of the point that handles its row: row r belongs to point r / 5000. -/
theorem cover1_4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, -, -, e8, e9⟩ := idx_facts1_P t
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; rw [e8, ht]; omega
  | ⟨1, _⟩ => show win1_4.index t (1 : Fin 2) * 64 ≤ (i 1).val ∧ (i 1).val < win1_4.index t (1 : Fin 2) * 64 + 64; rw [e9]; omega

/-- The pre-activation's array after the region is the pre-activation of the four arrays as the region finds them. -/
theorem final1_4 (c : Dev nD) : (Hand.dat1 (F := Ideal) V c).arrAt 4 cfg1.N = P1 V c :=
  (Hand.dat1 V c).arrAt_eq_of_cover 4 (P1 V c) (fun t _ => flushed1_4_eq V c t) cover1_4

end Cert.KernelIdeal.HandValue

end
-- ==== Proof.KI.Val4a.lean ====
/-
  Region 4: what each point's stores amount to. Every written buffer is stored whole, so what it holds afterwards is the
  last payload stored: the block of P is one value of the four loaded blocks; an accumulator ends at its update of what it
  held (of the zero row at the first point); at the last point the statistics windows take the accumulators' new contents.
-/
import proofs.«135780_j72241349919044_1_alg».proof.Proof.KI.Reg4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := by funext a; fin_cases a <;> rfl

theorem stepA4_P (c : Dev nD) (t : Fin cfg4.N) (h0 : cond4_0 (grid4.coords t)) (h1 : ¬cond4_1 (grid4.coords t)) :
    (stepA4 (F := F) V c t h0 h1).1 = k4_pay3 (iblk4 V c 0 t) (iblk4 V c 1 t) (iblk4 V c 2 t) (iblk4 V c 3 t) := by
  unfold stepA4; dsimp only; unfold rd4_4
  rw [View.read_writes_eq_canon _ _ _ (coverA4_4 V c t h0 h1)]
  unfold runA4; unfold kernelRun4_A; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepA4_s0 (c : Dev nD) (t : Fin cfg4.N) (h0 : cond4_0 (grid4.coords t)) (h1 : ¬cond4_1 (grid4.coords t)) :
    (stepA4 (F := F) V c t h0 h1).2.2.2.1 = k4_pay4 (iblk4 V c 0 t) (iblk4 V c 1 t) (iblk4 V c 2 t) (iblk4 V c 3 t) (k4_pay1 (F := F)) := by
  unfold stepA4; dsimp only; unfold rs4_0
  rw [View.read_writes_eq_canon _ _ _ (coverA4_s0 V c t h0 h1)]
  unfold runA4; unfold kernelRun4_A; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepA4_s1 (c : Dev nD) (t : Fin cfg4.N) (h0 : cond4_0 (grid4.coords t)) (h1 : ¬cond4_1 (grid4.coords t)) :
    (stepA4 (F := F) V c t h0 h1).2.2.2.2 = k4_pay5 (iblk4 V c 0 t) (iblk4 V c 1 t) (iblk4 V c 2 t) (iblk4 V c 3 t) (k4_pay2 (F := F)) := by
  unfold stepA4; dsimp only; unfold rs4_1
  rw [View.read_writes_eq_canon _ _ _ (coverA4_s1 V c t h0 h1)]
  unfold runA4; unfold kernelRun4_A; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepB4_P (c : Dev nD) (t : Fin cfg4.N) (h0 : ¬cond4_0 (grid4.coords t)) (h1 : ¬cond4_1 (grid4.coords t)) (xs0 xs1 : Vec F S1x64 .f32) :
    (stepB4 (F := F) V c t h0 h1 xs0 xs1).1 = k4_pay3 (iblk4 V c 0 t) (iblk4 V c 1 t) (iblk4 V c 2 t) (iblk4 V c 3 t) := by
  unfold stepB4; dsimp only; unfold rd4_4
  rw [View.read_writes_eq_canon _ _ _ (coverB4_4 V c t h0 h1 xs0 xs1)]
  unfold runB4; unfold kernelRun4_B; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepB4_s0 (c : Dev nD) (t : Fin cfg4.N) (h0 : ¬cond4_0 (grid4.coords t)) (h1 : ¬cond4_1 (grid4.coords t)) (xs0 xs1 : Vec F S1x64 .f32) :
    (stepB4 (F := F) V c t h0 h1 xs0 xs1).2.2.2.1 = k4_pay4 (iblk4 V c 0 t) (iblk4 V c 1 t) (iblk4 V c 2 t) (iblk4 V c 3 t) xs0 := by
  unfold stepB4; dsimp only; unfold rs4_0
  rw [View.read_writes_eq_canon _ _ _ (coverB4_s0 V c t h0 h1 xs0 xs1)]
  unfold runB4; unfold kernelRun4_B; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepB4_s1 (c : Dev nD) (t : Fin cfg4.N) (h0 : ¬cond4_0 (grid4.coords t)) (h1 : ¬cond4_1 (grid4.coords t)) (xs0 xs1 : Vec F S1x64 .f32) :
    (stepB4 (F := F) V c t h0 h1 xs0 xs1).2.2.2.2 = k4_pay5 (iblk4 V c 0 t) (iblk4 V c 1 t) (iblk4 V c 2 t) (iblk4 V c 3 t) xs1 := by
  unfold stepB4; dsimp only; unfold rs4_1
  rw [View.read_writes_eq_canon _ _ _ (coverB4_s1 V c t h0 h1 xs0 xs1)]
  unfold runB4; unfold kernelRun4_B; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC4_P (c : Dev nD) (t : Fin cfg4.N) (h0 : ¬cond4_0 (grid4.coords t)) (h1 : cond4_1 (grid4.coords t)) (xs0 xs1 : Vec F S1x64 .f32) :
    (stepC4 (F := F) V c t h0 h1 xs0 xs1).1 = k4_pay3 (iblk4 V c 0 t) (iblk4 V c 1 t) (iblk4 V c 2 t) (iblk4 V c 3 t) := by
  unfold stepC4; dsimp only; unfold rd4_4
  rw [View.read_writes_eq_canon _ _ _ (coverC4_4 V c t h0 h1 xs0 xs1)]
  unfold runC4; unfold kernelRun4_C; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC4_o5 (c : Dev nD) (t : Fin cfg4.N) (h0 : ¬cond4_0 (grid4.coords t)) (h1 : cond4_1 (grid4.coords t)) (xs0 xs1 : Vec F S1x64 .f32) :
    (stepC4 (F := F) V c t h0 h1 xs0 xs1).2.1 = k4_pay4 (iblk4 V c 0 t) (iblk4 V c 1 t) (iblk4 V c 2 t) (iblk4 V c 3 t) xs0 := by
  unfold stepC4; dsimp only; unfold rd4_5
  rw [View.read_writes_eq_canon _ _ _ (coverC4_5 V c t h0 h1 xs0 xs1)]
  unfold runC4; unfold kernelRun4_C; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC4_o6 (c : Dev nD) (t : Fin cfg4.N) (h0 : ¬cond4_0 (grid4.coords t)) (h1 : cond4_1 (grid4.coords t)) (xs0 xs1 : Vec F S1x64 .f32) :
    (stepC4 (F := F) V c t h0 h1 xs0 xs1).2.2.1 = k4_pay5 (iblk4 V c 0 t) (iblk4 V c 1 t) (iblk4 V c 2 t) (iblk4 V c 3 t) xs1 := by
  unfold stepC4; dsimp only; unfold rd4_6
  rw [View.read_writes_eq_canon _ _ _ (coverC4_6 V c t h0 h1 xs0 xs1)]
  unfold runC4; unfold kernelRun4_C; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC4_s0 (c : Dev nD) (t : Fin cfg4.N) (h0 : ¬cond4_0 (grid4.coords t)) (h1 : cond4_1 (grid4.coords t)) (xs0 xs1 : Vec F S1x64 .f32) :
    (stepC4 (F := F) V c t h0 h1 xs0 xs1).2.2.2.1 = k4_pay4 (iblk4 V c 0 t) (iblk4 V c 1 t) (iblk4 V c 2 t) (iblk4 V c 3 t) xs0 := by
  unfold stepC4; dsimp only; unfold rs4_0
  rw [View.read_writes_eq_canon _ _ _ (coverC4_s0 V c t h0 h1 xs0 xs1)]
  unfold runC4; unfold kernelRun4_C; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

theorem stepC4_s1 (c : Dev nD) (t : Fin cfg4.N) (h0 : ¬cond4_0 (grid4.coords t)) (h1 : cond4_1 (grid4.coords t)) (xs0 xs1 : Vec F S1x64 .f32) :
    (stepC4 (F := F) V c t h0 h1 xs0 xs1).2.2.2.2 = k4_pay5 (iblk4 V c 0 t) (iblk4 V c 1 t) (iblk4 V c 2 t) (iblk4 V c 3 t) xs1 := by
  unfold stepC4; dsimp only; unfold rs4_1
  rw [View.read_writes_eq_canon _ _ _ (coverC4_s1 V c t h0 h1 xs0 xs1)]
  unfold runC4; unfold kernelRun4_C; dsimp only
  sl_unfold_words
  simp only [View.readAt_eq_ld, (hs4_0 t).read_unread, (hs4_1 t).read_unread, (hs4_2 t).read_unread, (hs4_3 t).read_unread,
    (Memref.isWhole_whole cc4_scratch0).read_unread, (Memref.isWhole_whole cc4_scratch1).read_unread,
    View.ld_unit_zero (S := S5000x64) hz2, View.ld_unit_zero (S := S5000x1) hz2, View.ld_unit_zero (S := S1x64) hz2,
    View.readCov_unit_zero (S := S1x64) _ hz2, View.canon_cons_unit_zero (S := S1x64) hz2, View.canon_unit_zero (S := S1x64) hz2,
    View.canon_cons_unit_zero (S := S5000x64) hz2, View.canon_unit_zero (S := S5000x64) hz2]

end Cert.KernelIdeal.Hand

end
-- ==== Proof.KI.Val4b.lean ====
/-
  Region 4: the accumulation in closed recursive form. After the body at point n the first accumulator holds
  acc_0 n = update (blocks of point n) (acc_0 (n - 1)), started from the zero row, and likewise the second; the block of P
  stored at point t is one value of that point's four blocks; at the last point the two statistics windows take the
  accumulators' final contents.
-/
import proofs.«135780_j72241349919044_1_alg».proof.Proof.KI.Val4a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of P formed at point t. -/
abbrev pblk4 (c : Dev nD) (t : Fin cfg4.N) : Vec F S5000x64 .f32 := k4_pay3 (iblk4 V c 0 t) (iblk4 V c 1 t) (iblk4 V c 2 t) (iblk4 V c 3 t)

/-- The first accumulator after point n: the column sums of the blocks of P up to n, added one point after another to the zero row. -/
def acc4_0 (c : Dev nD) : (n : ℕ) → n < cfg4.N → Vec F S1x64 .f32
  | 0, hn => k4_pay4 (iblk4 V c 0 (⟨0, hn⟩ : Fin cfg4.N)) (iblk4 V c 1 (⟨0, hn⟩ : Fin cfg4.N)) (iblk4 V c 2 (⟨0, hn⟩ : Fin cfg4.N)) (iblk4 V c 3 (⟨0, hn⟩ : Fin cfg4.N)) (k4_pay1 (F := F))
  | n + 1, hn => k4_pay4 (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (acc4_0 c n (Nat.lt_of_succ_lt hn))
/-- The second accumulator after point n: the same for the entrywise squares. -/
def acc4_1 (c : Dev nD) : (n : ℕ) → n < cfg4.N → Vec F S1x64 .f32
  | 0, hn => k4_pay5 (iblk4 V c 0 (⟨0, hn⟩ : Fin cfg4.N)) (iblk4 V c 1 (⟨0, hn⟩ : Fin cfg4.N)) (iblk4 V c 2 (⟨0, hn⟩ : Fin cfg4.N)) (iblk4 V c 3 (⟨0, hn⟩ : Fin cfg4.N)) (k4_pay2 (F := F))
  | n + 1, hn => k4_pay5 (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (acc4_1 c n (Nat.lt_of_succ_lt hn))

theorem outsAt4_acc (c : Dev nD) (n : ℕ) : ∀ hn : n < cfg4.N,
    (outsAt4 (F := F) V c n hn).2.2.2.1 = acc4_0 V c n hn ∧ (outsAt4 (F := F) V c n hn).2.2.2.2 = acc4_1 V c n hn := by
  induction n with
  | zero =>
    intro hn
    exact ⟨stepA4_s0 V c ⟨0, hn⟩ _ _, stepA4_s1 V c ⟨0, hn⟩ _ _⟩
  | succ n ih =>
    intro hn
    obtain ⟨ih0, ih1⟩ := ih (Nat.lt_of_succ_lt hn)
    have h0 : ¬cond4_0 (grid4.coords ⟨n + 1, hn⟩) := fun h => Nat.succ_ne_zero n ((hcond4_0 ⟨n + 1, hn⟩).mp h)
    by_cases h9 : n + 1 = 9
    · have h1 : cond4_1 (grid4.coords ⟨n + 1, hn⟩) := (hcond4_1 ⟨n + 1, hn⟩).mpr h9
      have e : outsAt4 (F := F) V c (n + 1) hn = stepC4 V c ⟨n + 1, hn⟩ h0 h1
          (outsAt4 V c n (Nat.lt_of_succ_lt hn)).2.2.2.1 (outsAt4 V c n (Nat.lt_of_succ_lt hn)).2.2.2.2 := outsAt4_C V c ⟨n + 1, hn⟩ h0 h1
      rw [e, stepC4_s0, stepC4_s1, ih0, ih1]
      exact ⟨rfl, rfl⟩
    · have h1 : ¬cond4_1 (grid4.coords ⟨n + 1, hn⟩) := fun h => h9 ((hcond4_1 ⟨n + 1, hn⟩).mp h)
      have e : outsAt4 (F := F) V c (n + 1) hn = stepB4 V c ⟨n + 1, hn⟩ h0 h1
          (outsAt4 V c n (Nat.lt_of_succ_lt hn)).2.2.2.1 (outsAt4 V c n (Nat.lt_of_succ_lt hn)).2.2.2.2 := outsAt4_B V c ⟨n + 1, hn⟩ h0 h1
      rw [e, stepB4_s0, stepB4_s1, ih0, ih1]
      exact ⟨rfl, rfl⟩

/-- At every point the first result window's buffer ends at that point's block of P. -/
theorem after4_P (c : Dev nD) (t : Fin cfg4.N) : (dat4 (F := F) V c).after 4 t = pblk4 V c t := by
  rw [after4_4]
  by_cases hz : t.val = 0
  · have h0 : cond4_0 (grid4.coords t) := (hcond4_0 t).mpr hz
    have h1 : ¬cond4_1 (grid4.coords t) := fun h => by
      have hN : t.val < 10 := lt_of_lt_of_eq t.isLt (show cfg4.N = 10 from N_4)
      have := (hcond4_1 t).mp h; omega
    rw [outsAt4_A V c t h0 h1, stepA4_P]
  · have h0 : ¬cond4_0 (grid4.coords t) := fun h => hz ((hcond4_0 t).mp h)
    by_cases h9 : t.val = 9
    · rw [outsAt4_C V c t h0 ((hcond4_1 t).mpr h9), stepC4_P]
    · rw [outsAt4_B V c t h0 (fun h => h9 ((hcond4_1 t).mp h)), stepB4_P]

/-- At the last point the two statistics windows' buffers end at the accumulators' final contents. -/
theorem after4_stats (c : Dev nD) (t : Fin cfg4.N) (h9 : t.val = 9) :
    (dat4 (F := F) V c).after 5 t = acc4_0 V c t.val t.isLt ∧ (dat4 (F := F) V c).after 6 t = acc4_1 V c t.val t.isLt := by
  rw [after4_5, after4_6]
  obtain ⟨n, hn⟩ := t
  cases n with
  | zero => exfalso; (try dsimp only at h9); omega
  | succ n =>
    have h0 : ¬cond4_0 (grid4.coords ⟨n + 1, hn⟩) := fun h => Nat.succ_ne_zero n ((hcond4_0 ⟨n + 1, hn⟩).mp h)
    have h1 : cond4_1 (grid4.coords ⟨n + 1, hn⟩) := (hcond4_1 ⟨n + 1, hn⟩).mpr h9
    obtain ⟨ih0, ih1⟩ := outsAt4_acc V c n (Nat.lt_of_succ_lt hn)
    have e : outsAt4 (F := F) V c (n + 1) hn = stepC4 V c ⟨n + 1, hn⟩ h0 h1
        (outsAt4 V c n (Nat.lt_of_succ_lt hn)).2.2.2.1 (outsAt4 V c n (Nat.lt_of_succ_lt hn)).2.2.2.2 := outsAt4_C V c ⟨n + 1, hn⟩ h0 h1
    show (outsAt4 (F := F) V c (n + 1) hn).2.1 = acc4_0 V c (n + 1) hn ∧ (outsAt4 (F := F) V c (n + 1) hn).2.2.1 = acc4_1 V c (n + 1) hn
    rw [e, stepC4_o5, stepC4_o6, ih0, ih1]
    exact ⟨rfl, rfl⟩

end Cert.KernelIdeal.Hand

end
-- ==== Proof.KI.Val4P.lean ====
/-
  Region 4, the pre-activation's array from blocks to the whole array, at the ideal values (floats are extended reals, every
  operation exact). The second layer's pre-activation is, entry by entry, the aggregate plus the hidden value times the row's
  degree factor, plus the column's bias. Grid point t computes and writes back rows 5000 t … 5000 t + 4999 (the block's row p is
  the array's row 5000 t + p), and the ten blocks tile the array.
-/
import proofs.«135780_j72241349919044_1_alg».proof.Proof.KI.Val4b
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- A column [a, 1] spread over b columns reads, at (p, c), the column's entry in row p. -/
theorem colBroadcast4_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pre-activation's value at row p, column q of the block: the aggregate's entry plus the hidden value's entry times
    the row's degree factor, plus the column's bias. The casts of a block to its own shape are the identity; the degree
    factor's column is spread over the columns and the bias's row over the rows. -/
theorem pay4_3_apply (x0 x1 : Vec Ideal S5000x64 .f32) (x2 : Vec Ideal S5000x1 .f32) (x3 : Vec Ideal S1x64 .f32) (p : Fin 5000) (q : Fin 64) :
    k4_pay3 x0 x1 x2 x3 (ix2 p q) = x0 (ix2 p q) + x1 (ix2 p q) * x2 (ix2 p (0 : Fin 1)) + x3 (ix2 (0 : Fin 1) q) := by
  unfold k4_pay3
  show shapeCast S5000x64 x0 shapeCasts_S5000x64_S5000x64 (ix2 p q)
      + shapeCast S5000x64 x1 shapeCasts_S5000x64_S5000x64 (ix2 p q)
        * broadcastTo S5000x64 (shapeCast S5000x1 x2 shapeCasts_S5000x1_S5000x1) broadcasts_S5000x1_S5000x64 (ix2 p q)
      + broadcastTo S5000x64 (shapeCast S1x64 x3 shapeCasts_S1x64_S1x64) broadcasts_S1x64_S5000x64 (ix2 p q) = _
  rw [shapeCast_self, shapeCast_self, shapeCast_self, shapeCast_self, colBroadcast4_apply, broadcastTo_1b_ab_apply]

/-- The printed index maps over the grid: point t takes block t of the aggregate's, the hidden value's, the degree factor's
    and the pre-activation's rows, and the whole bias row. -/
theorem idx_facts4_P : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-- The aggregate's block at point t is rows 5000 t … 5000 t + 4999 of the aggregate. -/
theorem iblk4_0_apply (c : Dev nD) (t : Fin cfg4.N) (y : S5000x64.Idx) (i : S50000x64.Idx)
    (hi0 : (i 0).val = 5000 * t.val + (y 0).val) (hi1 : (i 1).val = (y 1).val) :
    (Hand.iblk4 V c 0 t : Vec Ideal S5000x64 .f32) y = (V c (Pipeline.arrRef spec4 0) : S50000x64.Idx → EReal) i := by
  obtain ⟨e0, e1, -⟩ := idx_facts4_P t
  unfold Hand.iblk4
  rw [View.read_apply]
  refine congrArg (V c (Pipeline.arrRef spec4 0) : S50000x64.Idx → EReal) (funext fun a => Fin.ext ?_)
  match a with
  | ⟨0, _⟩ => show win4_0.index t (0 : Fin 2) * 5000 + 1 * (y 0).val = (i 0).val; rw [e0, hi0]; omega
  | ⟨1, _⟩ => show win4_0.index t (1 : Fin 2) * 64 + 1 * (y 1).val = (i 1).val; rw [e1, hi1]; omega

/-- The hidden value's block at point t is rows 5000 t … 5000 t + 4999 of the hidden value. -/
theorem iblk4_1_apply (c : Dev nD) (t : Fin cfg4.N) (y : S5000x64.Idx) (i : S50000x64.Idx)
    (hi0 : (i 0).val = 5000 * t.val + (y 0).val) (hi1 : (i 1).val = (y 1).val) :
    (Hand.iblk4 V c 1 t : Vec Ideal S5000x64 .f32) y = (V c (Pipeline.arrRef spec4 1) : S50000x64.Idx → EReal) i := by
  obtain ⟨-, -, e0, e1, -⟩ := idx_facts4_P t
  unfold Hand.iblk4
  rw [View.read_apply]
  refine congrArg (V c (Pipeline.arrRef spec4 1) : S50000x64.Idx → EReal) (funext fun a => Fin.ext ?_)
  match a with
  | ⟨0, _⟩ => show win4_1.index t (0 : Fin 2) * 5000 + 1 * (y 0).val = (i 0).val; rw [e0, hi0]; omega
  | ⟨1, _⟩ => show win4_1.index t (1 : Fin 2) * 64 + 1 * (y 1).val = (i 1).val; rw [e1, hi1]; omega

/-- The degree factor's block at point t is rows 5000 t … 5000 t + 4999 of the degree factor. -/
theorem iblk4_2_apply (c : Dev nD) (t : Fin cfg4.N) (y : S5000x1.Idx) (i : S50000x1.Idx)
    (hi0 : (i 0).val = 5000 * t.val + (y 0).val) (hi1 : (i 1).val = (y 1).val) :
    (Hand.iblk4 V c 2 t : Vec Ideal S5000x1 .f32) y = (V c (Pipeline.arrRef spec4 2) : S50000x1.Idx → EReal) i := by
  obtain ⟨-, -, -, -, e0, e1, -⟩ := idx_facts4_P t
  unfold Hand.iblk4
  rw [View.read_apply]
  refine congrArg (V c (Pipeline.arrRef spec4 2) : S50000x1.Idx → EReal) (funext fun a => Fin.ext ?_)
  match a with
  | ⟨0, _⟩ => show win4_2.index t (0 : Fin 2) * 5000 + 1 * (y 0).val = (i 0).val; rw [e0, hi0]; omega
  | ⟨1, _⟩ => show win4_2.index t (1 : Fin 2) * 1 + 1 * (y 1).val = (i 1).val; rw [e1, hi1]; omega

/-- The bias's block at every point is the whole bias row. -/
theorem iblk4_3_apply (c : Dev nD) (t : Fin cfg4.N) (y : S1x64.Idx) :
    (Hand.iblk4 V c 3 t : Vec Ideal S1x64 .f32) y = (V c (Pipeline.arrRef spec4 3) : S1x64.Idx → EReal) y := by
  obtain ⟨-, -, -, -, -, -, e0, e1, -⟩ := idx_facts4_P t
  unfold Hand.iblk4
  rw [View.read_apply]
  refine congrArg (V c (Pipeline.arrRef spec4 3) : S1x64.Idx → EReal) (funext fun a => Fin.ext ?_)
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

/-- The aggregate, the hidden value, the degree factor and the bias row as the region finds them, read as functions of the index. -/
abbrev A4 (c : Dev nD) : S50000x64.Idx → EReal := V c (Pipeline.arrRef spec4 0)
abbrev H4 (c : Dev nD) : S50000x64.Idx → EReal := V c (Pipeline.arrRef spec4 1)
abbrev D4 (c : Dev nD) : S50000x1.Idx → EReal := V c (Pipeline.arrRef spec4 2)
abbrev B4 (c : Dev nD) : S1x64.Idx → EReal := V c (Pipeline.arrRef spec4 3)

/-- The pre-activation, index by index: the aggregate plus the hidden value times the row's degree factor, plus the column's bias. -/
abbrev P4 (c : Dev nD) : S50000x64.Idx → EReal :=
  fun i => A4 V c i + H4 V c i * D4 V c (ix2 (i 0 : Fin 50000) (0 : Fin 1)) + B4 V c (ix2 (0 : Fin 1) (i 1 : Fin 64))

/-- The pre-activation's block at point t: its row p is row 5000 t + p of the pre-activation. -/
theorem pblk4_apply (c : Dev nD) (t : Fin cfg4.N) (p : Fin 5000) (q : Fin 64) (r : Fin 50000) (hr : r.val = 5000 * t.val + p.val) :
    (Hand.pblk4 (F := Ideal) V c t) (ix2 p q) = P4 V c (ix2 r q) := by
  show k4_pay3 (Hand.iblk4 V c 0 t) (Hand.iblk4 V c 1 t) (Hand.iblk4 V c 2 t) (Hand.iblk4 V c 3 t) (ix2 p q) = _
  rw [pay4_3_apply, iblk4_0_apply V c t (ix2 p q) (ix2 r q) hr rfl, iblk4_1_apply V c t (ix2 p q) (ix2 r q) hr rfl,
    iblk4_2_apply V c t (ix2 p (0 : Fin 1)) (ix2 r (0 : Fin 1)) hr rfl, iblk4_3_apply V c t (ix2 (0 : Fin 1) q)]

/-- The same at an index y of the block and an index i of the array with i's row 5000 t + y's row and the same column. -/
theorem blk_at4 (c : Dev nD) (t : Fin cfg4.N) (y : S5000x64.Idx) (i : S50000x64.Idx)
    (hi0 : (i 0).val = 5000 * t.val + (y 0).val) (hi1 : (i 1).val = (y 1).val) :
    (Hand.pblk4 (F := Ideal) V c t) y = P4 V c i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  exact pblk4_apply V c t p s r hi0

/-- What point t writes back to the pre-activation's array is block t of the pre-activation. -/
theorem flushed4_4_eq (c : Dev nD) (t : Fin cfg4.N) :
    (Hand.dat4 V c).flushed 4 t = ((cfg4.win 4).blk t).view.read (Elt Ideal) (P4 V c) := by
  show (cfg4.win 4).cut (grid4.coords t) ((Hand.dat4 V c).after 4 t) = _
  rw [Hand.after4_P]
  obtain ⟨-, -, -, -, -, -, -, -, e8, e9⟩ := idx_facts4_P t
  funext j
  show Hand.pblk4 (F := Ideal) V c t j = P4 V c (((cfg4.win 4).blk t).view.emb j)
  have k0 : ((((cfg4.win 4).blk t).view.emb j : S50000x64.Idx) 0).val = 5000 * t.val + (j 0).val := by
    show win4_4.index t (0 : Fin 2) * 5000 + 1 * (j 0).val = 5000 * t.val + (j 0).val
    rw [e8]; omega
  have k1 : ((((cfg4.win 4).blk t).view.emb j : S50000x64.Idx) 1).val = (j 1).val := by
    show win4_4.index t (1 : Fin 2) * 64 + 1 * (j 1).val = (j 1).val
    rw [e9]; omega
  exact blk_at4 V c t j _ k0 k1

/-- An index of the pre-activation's array is in point t's block iff each coordinate is in the block's range on its axis. -/
theorem mem_blk4_4 (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v83_0).slice (win4_4.rect t)).set ↔ _
  rw [View.set_slice_whole, Rect.mem_set_unit]
  exact Iff.rfl

/-- Every index of the pre-activation's array is in the block of the point that handles its row: row r belongs to point r / 5000. -/
theorem cover4_4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  obtain ⟨t, ht⟩ : ∃ t : Fin cfg4.N, t.val = (i 0).val / 5000 := ⟨⟨(i 0).val / 5000, by rw [show cfg4.N = 10 from N_4]; omega⟩, rfl⟩
  obtain ⟨-, -, -, -, -, -, -, -, e8, e9⟩ := idx_facts4_P t
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; rw [e8, ht]; omega
  | ⟨1, _⟩ => show win4_4.index t (1 : Fin 2) * 64 ≤ (i 1).val ∧ (i 1).val < win4_4.index t (1 : Fin 2) * 64 + 64; rw [e9]; omega

/-- The pre-activation's array after the region is the pre-activation of the four arrays as the region finds them. -/
theorem final4_4 (c : Dev nD) : (Hand.dat4 (F := Ideal) V c).arrAt 4 cfg4.N = P4 V c :=
  (Hand.dat4 V c).arrAt_eq_of_cover 4 (P4 V c) (fun t _ => flushed4_4_eq V c t) cover4_4

end Cert.KernelIdeal.HandValue

end
-- ==== Proof.KI.Val1c.lean ====
/-
  Region 1 at the ideal values: the accumulators read at an index. The zero row is zero; one point's update adds to what an
  accumulator held, column by column, the sum over the block's 5000 rows of the block of P (for the second accumulator: of
  its entrywise square).
-/
import proofs.«135780_j72241349919044_1_alg».proof.Proof.KI.Val1b
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem pay1_1_apply (j : S1x64.Idx) : k1_pay1 (F := Ideal) j = 0 := by
  unfold k1_pay1
  refine (congrFun (shapeCast_self _ _) _).trans ?_
  exact Ideal.ofBits_zero_f32

theorem pay1_2_apply (j : S1x64.Idx) : k1_pay2 (F := Ideal) j = 0 := by
  unfold k1_pay2
  refine (congrFun (shapeCast_self _ _) _).trans ?_
  exact Ideal.ofBits_zero_f32

/-- The sum of a 5000 x 64 block over its rows, read at column q. -/
theorem lane_sum1_apply (P : FVec Ideal S5000x64 .f32) (hφ : FKind.Formats .f32) (hacc : (0x00000000#32 : BitVec 32) = FKind.add.neutral .f32 hφ) (q : Fin 64) :
    multiReduction .add [0] S64 P 0x00000000#32 reduces_S5000x64_S64 hφ hacc (ix1 q) = ∑ p : Fin 5000, P (ix2 p q) := by
  refine (Ideal.multiReduction_add_single P 0x00000000#32 reduces_S5000x64_S64 hφ hacc (ix1 q)).trans ?_
  exact Finset.sum_congr rfl fun r _ => congrArg P (funext fun a => by fin_cases a <;> exact Fin.ext rfl)

/-- A row accumulator's update, over ANY block P: column q of the new row is column q of the old row plus the sum over
    the block's 5000 rows of P's column q. -/
theorem colsum_row1_apply (P : FVec Ideal S5000x64 .f32) (s : FVec Ideal S1x64 .f32) (q : Fin 64) :
    shapeCast S1x64 (addf s (shapeCast S1x64 (multiReduction .add [0] S64 P 0x00000000#32 reduces_S5000x64_S64 (.inl rfl) rfl) shapeCasts_S64_S1x64)) shapeCasts_S1x64_S1x64 (ix2 (0 : Fin 1) q)
      = s (ix2 (0 : Fin 1) q) + ∑ p : Fin 5000, P (ix2 p q) := by
  rw [shapeCast_self]
  refine (addf_apply _ _ _).trans ?_
  refine congrArg (s (ix2 (0 : Fin 1) q) + ·) ?_
  refine (shapeCast_a_1a_apply _ shapeCasts_S64_S1x64 (0 : Fin 1) q).trans ?_
  exact lane_sum1_apply P _ _ q

theorem pay1_4_apply (x0 x1 : Vec Ideal S5000x64 .f32) (x2 : Vec Ideal S5000x1 .f32) (x3 : Vec Ideal S1x64 .f32) (s : Vec Ideal S1x64 .f32) (q : Fin 64) :
    k1_pay4 x0 x1 x2 x3 s (ix2 (0 : Fin 1) q) = s (ix2 (0 : Fin 1) q) + ∑ p : Fin 5000, k1_pay3 x0 x1 x2 x3 (ix2 p q) := by
  unfold k1_pay4
  exact colsum_row1_apply (k1_pay3 x0 x1 x2 x3) s q

theorem pay1_5_apply (x0 x1 : Vec Ideal S5000x64 .f32) (x2 : Vec Ideal S5000x1 .f32) (x3 : Vec Ideal S1x64 .f32) (s : Vec Ideal S1x64 .f32) (q : Fin 64) :
    k1_pay5 x0 x1 x2 x3 s (ix2 (0 : Fin 1) q)
      = s (ix2 (0 : Fin 1) q) + ∑ p : Fin 5000, k1_pay3 x0 x1 x2 x3 (ix2 p q) * k1_pay3 x0 x1 x2 x3 (ix2 p q) := by
  unfold k1_pay5
  exact colsum_row1_apply (mulf (k1_pay3 x0 x1 x2 x3) (k1_pay3 x0 x1 x2 x3)) s q

end Cert.KernelIdeal.HandValue

end
-- ==== Proof.LibBlockSum.lean ====
import Mathlib.Algebra.BigOperators.Fin
import Mathlib.Tactic

/-!
# A sum over a*b rows, block by block

In any additive commutative monoid (no finiteness of the summands is needed: the extended reals are
one), a sum over the a*b rows 0, …, a*b-1 is the sum over the a blocks t = 0, …, a-1 of the sums over
the b rows t*b, …, t*b + b-1 of the block. And the block sums s 0, …, s (a-1), added one after the
other onto a zero, ((0 + s 0) + s 1) + … + s (a-1), give the sum of all the block sums; the partial
result after k blocks is the sum of the first k block sums. The instance a = 10, b = 5000 (50000 rows)
is stated with literal extents.
-/

namespace Cert.Lib

open scoped BigOperators

/-- Row r of block t, of a blocks of b rows, is one of the a*b rows. -/
theorem block_row_lt {a b : ℕ} (t : Fin a) (r : Fin b) : t.val * b + r.val < a * b :=
  calc t.val * b + r.val < t.val * b + b := Nat.add_lt_add_left r.isLt _
    _ = (t.val + 1) * b := by ring
    _ ≤ a * b := Nat.mul_le_mul_right b t.isLt

/-- The same with the block offset written b*t. -/
theorem block_row_lt' {a b : ℕ} (t : Fin a) (r : Fin b) : b * t.val + r.val < a * b := by
  rw [Nat.mul_comm b]; exact block_row_lt t r

/-- **Regrouping into blocks.** A sum over a*b rows is the sum over the a blocks of the sums over
each block's b rows, row r of block t being row t*b + r. -/
theorem sum_fin_mul_blocks {M : Type*} [AddCommMonoid M] (a b : ℕ) (f : Fin (a * b) → M) :
    ∑ i : Fin (a * b), f i = ∑ t : Fin a, ∑ r : Fin b, f ⟨t.val * b + r.val, block_row_lt t r⟩ := by
  rw [← Equiv.sum_comp finProdFinEquiv f, Fintype.sum_prod_type]
  refine Finset.sum_congr rfl fun t _ => Finset.sum_congr rfl fun r _ => congrArg f (Fin.ext ?_)
  show r.val + b * t.val = t.val * b + r.val
  ring

/-- The same with the block offset written b*t. -/
theorem sum_fin_mul_blocks' {M : Type*} [AddCommMonoid M] (a b : ℕ) (f : Fin (a * b) → M) :
    ∑ i : Fin (a * b), f i = ∑ t : Fin a, ∑ r : Fin b, f ⟨b * t.val + r.val, block_row_lt' t r⟩ := by
  rw [sum_fin_mul_blocks]
  exact Finset.sum_congr rfl fun t _ => Finset.sum_congr rfl fun r _ =>
    congrArg f (Fin.ext (by show t.val * b + r.val = b * t.val + r.val; ring))

/-- The literal instance: 50000 rows as 10 blocks of 5000. -/
theorem sum_fin_50000_blocks {M : Type*} [AddCommMonoid M] (f : Fin 50000 → M) :
    ∑ i : Fin 50000, f i
      = ∑ t : Fin 10, ∑ r : Fin 5000, f ⟨t.val * 5000 + r.val, by have := t.isLt; have := r.isLt; omega⟩ :=
  sum_fin_mul_blocks 10 5000 f

/-- The literal instance with the block offset written 5000*t. -/
theorem sum_fin_50000_blocks' {M : Type*} [AddCommMonoid M] (f : Fin 50000 → M) :
    ∑ i : Fin 50000, f i
      = ∑ t : Fin 10, ∑ r : Fin 5000, f ⟨5000 * t.val + r.val, by have := t.isLt; have := r.isLt; omega⟩ :=
  sum_fin_mul_blocks' 10 5000 f

/-! ## Adding the block sums one after the other -/

/-- The running total after k blocks: block sums s 0, …, s (k-1) added in this order onto zero,
(((0 + s 0) + s 1) + …) + s (k-1). Blocks past the last (k > a) add nothing. -/
def runningSum {M : Type*} [AddCommMonoid M] {a : ℕ} (s : Fin a → M) : ℕ → M
  | 0 => 0
  | k + 1 => runningSum s k + (if h : k < a then s ⟨k, h⟩ else 0)

/-- Before any block the running total is zero. -/
@[simp] theorem runningSum_zero {M : Type*} [AddCommMonoid M] {a : ℕ} (s : Fin a → M) :
    runningSum s 0 = 0 := rfl

/-- One more block adds its block sum to the running total. -/
theorem runningSum_succ {M : Type*} [AddCommMonoid M] {a : ℕ} (s : Fin a → M) (k : ℕ) (h : k < a) :
    runningSum s (k + 1) = runningSum s k + s ⟨k, h⟩ := by
  rw [runningSum, dif_pos h]

/-- The running total after k blocks is the sum of the block sums of the blocks before k. -/
theorem runningSum_eq_sum_filter {M : Type*} [AddCommMonoid M] {a : ℕ} (s : Fin a → M) (k : ℕ) :
    runningSum s k = ∑ t ∈ Finset.univ.filter (fun t : Fin a => t.val < k), s t := by
  induction k with
  | zero => simp
  | succ k ih =>
    rw [runningSum, ih]
    by_cases h : k < a
    · rw [dif_pos h]
      have hsplit : Finset.univ.filter (fun t : Fin a => t.val < k + 1)
          = insert (⟨k, h⟩ : Fin a) (Finset.univ.filter (fun t : Fin a => t.val < k)) := by
        ext t
        simp only [Finset.mem_filter, Finset.mem_univ, true_and, Finset.mem_insert, Fin.ext_iff]
        omega
      rw [hsplit, Finset.sum_insert (by simp), add_comm]
    · rw [dif_neg h, add_zero]
      refine Finset.sum_congr ?_ fun _ _ => rfl
      ext t
      simp only [Finset.mem_filter, Finset.mem_univ, true_and]
      have := t.isLt
      omega

/-- **After all a blocks the running total is the sum of all the block sums.** -/
theorem runningSum_all {M : Type*} [AddCommMonoid M] {a : ℕ} (s : Fin a → M) :
    runningSum s a = ∑ t : Fin a, s t := by
  rw [runningSum_eq_sum_filter]
  exact Finset.sum_congr (Finset.filter_true_of_mem fun t _ => t.isLt) fun _ _ => rfl

/-- The left fold of addition over the blocks in order, from zero, is the sum of the block sums. -/
theorem foldl_add_finRange {M : Type*} [AddCommMonoid M] {a : ℕ} (s : Fin a → M) :
    (List.finRange a).foldl (fun acc t => acc + s t) 0 = ∑ t : Fin a, s t := by
  have h : ∀ (l : List (Fin a)) (z : M), l.foldl (fun acc t => acc + s t) z = z + (l.map s).sum := by
    intro l
    induction l with
    | nil => intro z; simp
    | cons x l ih => intro z; rw [List.foldl_cons, ih, List.map_cons, List.sum_cons, add_assoc]
  rw [h, zero_add, ← List.ofFn_eq_map, List.sum_ofFn]

/-- The literal instance: ten block sums added one after the other onto zero. -/
theorem sum_ten_left_nested {M : Type*} [AddCommMonoid M] (s : Fin 10 → M) :
    0 + s 0 + s 1 + s 2 + s 3 + s 4 + s 5 + s 6 + s 7 + s 8 + s 9 = ∑ t : Fin 10, s t := by
  have h := runningSum_all s
  simp only [runningSum] at h
  rw [← h]
  simp

/-- **The unit's shape**: the sum over 50000 rows is the ten sums over the blocks of 5000 rows, added
one after the other onto zero. -/
theorem sum_fin_50000_left_nested {M : Type*} [AddCommMonoid M] (f : Fin 50000 → M) :
    ∑ i : Fin 50000, f i
      = runningSum (fun t : Fin 10 =>
          ∑ r : Fin 5000, f ⟨t.val * 5000 + r.val, by have := t.isLt; have := r.isLt; omega⟩) 10 := by
  rw [runningSum_all, sum_fin_50000_blocks]

end Cert.Lib
-- ==== Proof.KI.Val1d.lean ====
/-
  Region 1 at the ideal values: the two statistics arrays. After point n an accumulator holds, column by column, the sum
  over the blocks 0 … n of the block's column sum; the ten blocks tile the 50000 rows, so at the last point it holds the sum
  over all 50000 rows of P's column (of its square's column), and that is what the last point's write-back — the only one of
  these two windows — leaves in the array.
-/
import proofs.«135780_j72241349919044_1_alg».proof.Proof.KI.Val1c
import proofs.«135780_j72241349919044_1_alg».proof.Proof.KI.Val1P
import proofs.«135780_j72241349919044_1_alg».proof.Proof.LibBlockSum

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The column sum of the block of P formed at point t, and of its entrywise square. -/
def bsum1 (c : Dev nD) (q : Fin 64) (t : Fin cfg1.N) : EReal := ∑ p : Fin 5000, Hand.pblk1 (F := Ideal) V c t (ix2 p q)
def bsq1 (c : Dev nD) (q : Fin 64) (t : Fin cfg1.N) : EReal :=
  ∑ p : Fin 5000, Hand.pblk1 (F := Ideal) V c t (ix2 p q) * Hand.pblk1 (F := Ideal) V c t (ix2 p q)

theorem acc1_0_apply (c : Dev nD) (q : Fin 64) (n : ℕ) : ∀ hn : n < cfg1.N,
    Hand.acc1_0 (F := Ideal) V c n hn (ix2 (0 : Fin 1) q) = Cert.Lib.runningSum (bsum1 V c q) (n + 1) := by
  induction n with
  | zero =>
    intro hn
    refine (pay1_4_apply _ _ _ _ _ q).trans ?_
    rw [pay1_1_apply, Cert.Lib.runningSum_succ _ 0 hn, Cert.Lib.runningSum_zero]
    rfl
  | succ n ih =>
    intro hn
    refine (pay1_4_apply _ _ _ _ _ q).trans ?_
    rw [ih (Nat.lt_of_succ_lt hn), Cert.Lib.runningSum_succ _ (n + 1) hn]
    rfl

theorem acc1_1_apply (c : Dev nD) (q : Fin 64) (n : ℕ) : ∀ hn : n < cfg1.N,
    Hand.acc1_1 (F := Ideal) V c n hn (ix2 (0 : Fin 1) q) = Cert.Lib.runningSum (bsq1 V c q) (n + 1) := by
  induction n with
  | zero =>
    intro hn
    refine (pay1_5_apply _ _ _ _ _ q).trans ?_
    rw [pay1_2_apply, Cert.Lib.runningSum_succ _ 0 hn, Cert.Lib.runningSum_zero]
    rfl
  | succ n ih =>
    intro hn
    refine (pay1_5_apply _ _ _ _ _ q).trans ?_
    rw [ih (Nat.lt_of_succ_lt hn), Cert.Lib.runningSum_succ _ (n + 1) hn]
    rfl

/-- The ten blocks tile the rows: the sum over the points of the blocks' column sums is the column sum of P. -/
theorem sum_bsum1 (c : Dev nD) (q : Fin 64) :
    ∑ t : Fin cfg1.N, bsum1 V c q t = ∑ r : Fin 50000, P1 V c (ix2 r q) := by
  rw [Cert.Lib.sum_fin_50000_blocks' (fun r : Fin 50000 => P1 V c (ix2 r q))]
  show ∑ t : Fin 10, bsum1 V c q t = _
  refine Finset.sum_congr rfl fun t _ => ?_
  unfold bsum1
  exact Finset.sum_congr rfl fun p _ => pblk1_apply V c t p q _ rfl

theorem sum_bsq1 (c : Dev nD) (q : Fin 64) :
    ∑ t : Fin cfg1.N, bsq1 V c q t = ∑ r : Fin 50000, P1 V c (ix2 r q) * P1 V c (ix2 r q) := by
  rw [Cert.Lib.sum_fin_50000_blocks' (fun r : Fin 50000 => P1 V c (ix2 r q) * P1 V c (ix2 r q))]
  show ∑ t : Fin 10, bsq1 V c q t = _
  refine Finset.sum_congr rfl fun t _ => ?_
  unfold bsq1
  refine Finset.sum_congr rfl fun p _ => ?_
  have e := pblk1_apply V c t p q ⟨5000 * t.val + p.val, by have := t.isLt; have := p.isLt; omega⟩ rfl
  exact congrArg₂ (fun a b : EReal => a * b) e e

/-- At the last point the accumulators hold the column sums over all 50000 rows. -/
theorem acc1_0_last (c : Dev nD) (q : Fin 64) (t : Fin cfg1.N) (h9 : t.val = 9) :
    Hand.acc1_0 (F := Ideal) V c t.val t.isLt (ix2 (0 : Fin 1) q) = ∑ r : Fin 50000, P1 V c (ix2 r q) := by
  rw [acc1_0_apply, ← sum_bsum1, ← Cert.Lib.runningSum_all]
  exact congrArg _ (by rw [h9]; exact (N_1).symm)
theorem acc1_1_last (c : Dev nD) (q : Fin 64) (t : Fin cfg1.N) (h9 : t.val = 9) :
    Hand.acc1_1 (F := Ideal) V c t.val t.isLt (ix2 (0 : Fin 1) q) = ∑ r : Fin 50000, P1 V c (ix2 r q) * P1 V c (ix2 r q) := by
  rw [acc1_1_apply, ← sum_bsq1, ← Cert.Lib.runningSum_all]
  exact congrArg _ (by rw [h9]; exact (N_1).symm)

/-- The two statistics windows take the whole 1 x 64 array at every point. -/
theorem idx_facts1_S : ∀ t : Fin cfg1.N, win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

def colsum1 (c : Dev nD) : S1x64.Idx → EReal := fun j => ∑ r : Fin 50000, P1 V c (ix2 r (j 1 : Fin 64))
def colsq1 (c : Dev nD) : S1x64.Idx → EReal := fun j => ∑ r : Fin 50000, P1 V c (ix2 r (j 1 : Fin 64)) * P1 V c (ix2 r (j 1 : Fin 64))

/-- A statistics window's write-back of a row: if the buffer holds, column by column, the row G, then what is written back is
    the block of G (the window takes the whole 1 x 64 array). Stated over ANY row G. -/
theorem cut_row1_5 (G : S1x64.Idx → EReal) (accv : Vec Ideal S1x64 .f32) (t : Fin cfg1.N)
    (e0 : win1_5.index t (0 : Fin 2) = 0) (e1 : win1_5.index t (1 : Fin 2) = 0)
    (h : ∀ q : Fin 64, accv (ix2 (0 : Fin 1) q) = G (ix2 (0 : Fin 1) q)) :
    (cfg1.win 5).cut (grid1.coords t) accv = ((cfg1.win 5).blk t).view.read (Elt Ideal) G := by
  funext j
  obtain ⟨u, q, rfl⟩ : ∃ (u : Fin 1) (q : Fin 64), j = ix2 u q := ⟨j 0, j 1, eq_ix2 j⟩
  obtain rfl : u = 0 := Subsingleton.elim _ _
  show accv (ix2 (0 : Fin 1) q) = G (((cfg1.win 5).blk t).view.emb (ix2 (0 : Fin 1) q))
  rw [h q]
  refine congrArg G (funext fun a => Fin.ext ?_)
  match a with
  | ⟨0, _⟩ => show (0 : ℕ) = win1_5.index t (0 : Fin 2) * 1 + 1 * 0; rw [e0]
  | ⟨1, _⟩ => show q.val = win1_5.index t (1 : Fin 2) * 64 + 1 * q.val; rw [e1]; omega

/-- A statistics window's write-back of a row: if the buffer holds, column by column, the row G, then what is written back is
    the block of G (the window takes the whole 1 x 64 array). Stated over ANY row G. -/
theorem cut_row1_6 (G : S1x64.Idx → EReal) (accv : Vec Ideal S1x64 .f32) (t : Fin cfg1.N)
    (e0 : win1_6.index t (0 : Fin 2) = 0) (e1 : win1_6.index t (1 : Fin 2) = 0)
    (h : ∀ q : Fin 64, accv (ix2 (0 : Fin 1) q) = G (ix2 (0 : Fin 1) q)) :
    (cfg1.win 6).cut (grid1.coords t) accv = ((cfg1.win 6).blk t).view.read (Elt Ideal) G := by
  funext j
  obtain ⟨u, q, rfl⟩ : ∃ (u : Fin 1) (q : Fin 64), j = ix2 u q := ⟨j 0, j 1, eq_ix2 j⟩
  obtain rfl : u = 0 := Subsingleton.elim _ _
  show accv (ix2 (0 : Fin 1) q) = G (((cfg1.win 6).blk t).view.emb (ix2 (0 : Fin 1) q))
  rw [h q]
  refine congrArg G (funext fun a => Fin.ext ?_)
  match a with
  | ⟨0, _⟩ => show (0 : ℕ) = win1_6.index t (0 : Fin 2) * 1 + 1 * 0; rw [e0]
  | ⟨1, _⟩ => show q.val = win1_6.index t (1 : Fin 2) * 64 + 1 * q.val; rw [e1]; omega

theorem flushed1_5_eq (c : Dev nD) (t : Fin cfg1.N) (ht : (cfg1.win 5).flush t = true) :
    (Hand.dat1 V c).flushed 5 t = ((cfg1.win 5).blk t).view.read (Elt Ideal) (colsum1 V c) := by
  have hN : t.val < 10 := lt_of_lt_of_eq t.isLt (show cfg1.N = 10 from N_1)
  have h9 : t.val = 9 := by have := (flush1_5 t).mp ht; omega
  show (cfg1.win 5).cut (grid1.coords t) ((Hand.dat1 V c).after 5 t) = _
  rw [(Hand.after1_stats V c t h9).1]
  obtain ⟨e0, e1, -, -⟩ := idx_facts1_S t
  exact cut_row1_5 (colsum1 V c) _ t e0 e1 (fun q => acc1_0_last V c q t h9)

theorem flushed1_6_eq (c : Dev nD) (t : Fin cfg1.N) (ht : (cfg1.win 6).flush t = true) :
    (Hand.dat1 V c).flushed 6 t = ((cfg1.win 6).blk t).view.read (Elt Ideal) (colsq1 V c) := by
  have hN : t.val < 10 := lt_of_lt_of_eq t.isLt (show cfg1.N = 10 from N_1)
  have h9 : t.val = 9 := by have := (flush1_6 t).mp ht; omega
  show (cfg1.win 6).cut (grid1.coords t) ((Hand.dat1 V c).after 6 t) = _
  rw [(Hand.after1_stats V c t h9).2]
  obtain ⟨-, -, e0, e1⟩ := idx_facts1_S t
  exact cut_row1_6 (colsq1 V c) _ t e0 e1 (fun q => acc1_1_last V c q t h9)

theorem mem_blk1_5 (t : Fin cfg1.N) (i : S1x64.Idx) :
    i ∈ ((cfg1.win 5).blk t).view.set ↔ ∀ a : Fin 2, win1_5.index t a * S1x64.size a ≤ (i a).val ∧ (i a).val < win1_5.index t a * S1x64.size a + S1x64.size a := by
  show i ∈ ((View.whole main_v43_1).slice (win1_5.rect t)).set ↔ _
  rw [View.set_slice_whole, Rect.mem_set_unit]
  exact Iff.rfl
theorem mem_blk1_6 (t : Fin cfg1.N) (i : S1x64.Idx) :
    i ∈ ((cfg1.win 6).blk t).view.set ↔ ∀ a : Fin 2, win1_6.index t a * S1x64.size a ≤ (i a).val ∧ (i a).val < win1_6.index t a * S1x64.size a + S1x64.size a := by
  show i ∈ ((View.whole main_v43_2).slice (win1_6.rect t)).set ↔ _
  rw [View.set_slice_whole, Rect.mem_set_unit]
  exact Iff.rfl

/-- The last point's write-back covers the whole 1 x 64 array. -/
theorem cover1_5 (i : S1x64.Idx) : ∃ t : Fin cfg1.N, (cfg1.win 5).flush t = true ∧ i ∈ ((cfg1.win 5).blk t).view.set := by
  have hi0 : (i 0).val < 1 := (i 0).isLt
  have hi1 : (i 1).val < 64 := (i 1).isLt
  obtain ⟨t, ht⟩ : ∃ t : Fin cfg1.N, t.val = 9 := ⟨⟨9, by rw [show cfg1.N = 10 from N_1]; omega⟩, rfl⟩
  obtain ⟨e0, e1, -, -⟩ := idx_facts1_S t
  refine ⟨t, (flush1_5 t).mpr (by rw [ht]), ?_⟩
  rw [mem_blk1_5]
  intro a
  match a with
  | ⟨0, _⟩ => show win1_5.index t (0 : Fin 2) * 1 ≤ (i 0).val ∧ (i 0).val < win1_5.index t (0 : Fin 2) * 1 + 1; rw [e0]; omega
  | ⟨1, _⟩ => show win1_5.index t (1 : Fin 2) * 64 ≤ (i 1).val ∧ (i 1).val < win1_5.index t (1 : Fin 2) * 64 + 64; rw [e1]; omega
theorem cover1_6 (i : S1x64.Idx) : ∃ t : Fin cfg1.N, (cfg1.win 6).flush t = true ∧ i ∈ ((cfg1.win 6).blk t).view.set := by
  have hi0 : (i 0).val < 1 := (i 0).isLt
  have hi1 : (i 1).val < 64 := (i 1).isLt
  obtain ⟨t, ht⟩ : ∃ t : Fin cfg1.N, t.val = 9 := ⟨⟨9, by rw [show cfg1.N = 10 from N_1]; omega⟩, rfl⟩
  obtain ⟨-, -, e0, e1⟩ := idx_facts1_S t
  refine ⟨t, (flush1_6 t).mpr (by rw [ht]), ?_⟩
  rw [mem_blk1_6]
  intro a
  match a with
  | ⟨0, _⟩ => show win1_6.index t (0 : Fin 2) * 1 ≤ (i 0).val ∧ (i 0).val < win1_6.index t (0 : Fin 2) * 1 + 1; rw [e0]; omega
  | ⟨1, _⟩ => show win1_6.index t (1 : Fin 2) * 64 ≤ (i 1).val ∧ (i 1).val < win1_6.index t (1 : Fin 2) * 64 + 64; rw [e1]; omega

/-- The column sums of P over all 50000 rows, and of its entrywise square: what the region leaves in its second and third results. -/
theorem final1_5 (c : Dev nD) :
    (Hand.dat1 (F := Ideal) V c).arrAt 5 cfg1.N
      = (fun j => ∑ r : Fin 50000, P1 V c (ix2 r (j 1 : Fin 64)) : S1x64.Idx → EReal) :=
  (Hand.dat1 V c).arrAt_eq_of_cover 5 (colsum1 V c) (fun t ht => flushed1_5_eq V c t ht) cover1_5
theorem final1_6 (c : Dev nD) :
    (Hand.dat1 (F := Ideal) V c).arrAt 6 cfg1.N
      = (fun j => ∑ r : Fin 50000, P1 V c (ix2 r (j 1 : Fin 64)) * P1 V c (ix2 r (j 1 : Fin 64)) : S1x64.Idx → EReal) :=
  (Hand.dat1 V c).arrAt_eq_of_cover 6 (colsq1 V c) (fun t ht => flushed1_6_eq V c t ht) cover1_6

end Cert.KernelIdeal.HandValue

end
-- ==== Proof.KI.Val4c.lean ====
/-
  Region 4 at the ideal values: the accumulators read at an index. The zero row is zero; one point's update adds to what an
  accumulator held, column by column, the sum over the block's 5000 rows of the block of P (for the second accumulator: of
  its entrywise square).
-/
import proofs.«135780_j72241349919044_1_alg».proof.Proof.KI.Val4b
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem pay4_1_apply (j : S1x64.Idx) : k4_pay1 (F := Ideal) j = 0 := by
  unfold k4_pay1
  refine (congrFun (shapeCast_self _ _) _).trans ?_
  exact Ideal.ofBits_zero_f32

theorem pay4_2_apply (j : S1x64.Idx) : k4_pay2 (F := Ideal) j = 0 := by
  unfold k4_pay2
  refine (congrFun (shapeCast_self _ _) _).trans ?_
  exact Ideal.ofBits_zero_f32

/-- The sum of a 5000 x 64 block over its rows, read at column q. -/
theorem lane_sum4_apply (P : FVec Ideal S5000x64 .f32) (hφ : FKind.Formats .f32) (hacc : (0x00000000#32 : BitVec 32) = FKind.add.neutral .f32 hφ) (q : Fin 64) :
    multiReduction .add [0] S64 P 0x00000000#32 reduces_S5000x64_S64 hφ hacc (ix1 q) = ∑ p : Fin 5000, P (ix2 p q) := by
  refine (Ideal.multiReduction_add_single P 0x00000000#32 reduces_S5000x64_S64 hφ hacc (ix1 q)).trans ?_
  exact Finset.sum_congr rfl fun r _ => congrArg P (funext fun a => by fin_cases a <;> exact Fin.ext rfl)

/-- A row accumulator's update, over ANY block P: column q of the new row is column q of the old row plus the sum over
    the block's 5000 rows of P's column q. -/
theorem colsum_row4_apply (P : FVec Ideal S5000x64 .f32) (s : FVec Ideal S1x64 .f32) (q : Fin 64) :
    shapeCast S1x64 (addf s (shapeCast S1x64 (multiReduction .add [0] S64 P 0x00000000#32 reduces_S5000x64_S64 (.inl rfl) rfl) shapeCasts_S64_S1x64)) shapeCasts_S1x64_S1x64 (ix2 (0 : Fin 1) q)
      = s (ix2 (0 : Fin 1) q) + ∑ p : Fin 5000, P (ix2 p q) := by
  rw [shapeCast_self]
  refine (addf_apply _ _ _).trans ?_
  refine congrArg (s (ix2 (0 : Fin 1) q) + ·) ?_
  refine (shapeCast_a_1a_apply _ shapeCasts_S64_S1x64 (0 : Fin 1) q).trans ?_
  exact lane_sum4_apply P _ _ q

theorem pay4_4_apply (x0 x1 : Vec Ideal S5000x64 .f32) (x2 : Vec Ideal S5000x1 .f32) (x3 : Vec Ideal S1x64 .f32) (s : Vec Ideal S1x64 .f32) (q : Fin 64) :
    k4_pay4 x0 x1 x2 x3 s (ix2 (0 : Fin 1) q) = s (ix2 (0 : Fin 1) q) + ∑ p : Fin 5000, k4_pay3 x0 x1 x2 x3 (ix2 p q) := by
  unfold k4_pay4
  exact colsum_row4_apply (k4_pay3 x0 x1 x2 x3) s q

theorem pay4_5_apply (x0 x1 : Vec Ideal S5000x64 .f32) (x2 : Vec Ideal S5000x1 .f32) (x3 : Vec Ideal S1x64 .f32) (s : Vec Ideal S1x64 .f32) (q : Fin 64) :
    k4_pay5 x0 x1 x2 x3 s (ix2 (0 : Fin 1) q)
      = s (ix2 (0 : Fin 1) q) + ∑ p : Fin 5000, k4_pay3 x0 x1 x2 x3 (ix2 p q) * k4_pay3 x0 x1 x2 x3 (ix2 p q) := by
  unfold k4_pay5
  exact colsum_row4_apply (mulf (k4_pay3 x0 x1 x2 x3) (k4_pay3 x0 x1 x2 x3)) s q

end Cert.KernelIdeal.HandValue

end
-- ==== Proof.KI.Val4d.lean ====
/-
  Region 4 at the ideal values: the two statistics arrays. After point n an accumulator holds, column by column, the sum
  over the blocks 0 … n of the block's column sum; the ten blocks tile the 50000 rows, so at the last point it holds the sum
  over all 50000 rows of P's column (of its square's column), and that is what the last point's write-back — the only one of
  these two windows — leaves in the array.
-/
import proofs.«135780_j72241349919044_1_alg».proof.Proof.KI.Val4c
import proofs.«135780_j72241349919044_1_alg».proof.Proof.KI.Val4P
import proofs.«135780_j72241349919044_1_alg».proof.Proof.LibBlockSum

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The column sum of the block of P formed at point t, and of its entrywise square. -/
def bsum4 (c : Dev nD) (q : Fin 64) (t : Fin cfg4.N) : EReal := ∑ p : Fin 5000, Hand.pblk4 (F := Ideal) V c t (ix2 p q)
def bsq4 (c : Dev nD) (q : Fin 64) (t : Fin cfg4.N) : EReal :=
  ∑ p : Fin 5000, Hand.pblk4 (F := Ideal) V c t (ix2 p q) * Hand.pblk4 (F := Ideal) V c t (ix2 p q)

theorem acc4_0_apply (c : Dev nD) (q : Fin 64) (n : ℕ) : ∀ hn : n < cfg4.N,
    Hand.acc4_0 (F := Ideal) V c n hn (ix2 (0 : Fin 1) q) = Cert.Lib.runningSum (bsum4 V c q) (n + 1) := by
  induction n with
  | zero =>
    intro hn
    refine (pay4_4_apply _ _ _ _ _ q).trans ?_
    rw [pay4_1_apply, Cert.Lib.runningSum_succ _ 0 hn, Cert.Lib.runningSum_zero]
    rfl
  | succ n ih =>
    intro hn
    refine (pay4_4_apply _ _ _ _ _ q).trans ?_
    rw [ih (Nat.lt_of_succ_lt hn), Cert.Lib.runningSum_succ _ (n + 1) hn]
    rfl

theorem acc4_1_apply (c : Dev nD) (q : Fin 64) (n : ℕ) : ∀ hn : n < cfg4.N,
    Hand.acc4_1 (F := Ideal) V c n hn (ix2 (0 : Fin 1) q) = Cert.Lib.runningSum (bsq4 V c q) (n + 1) := by
  induction n with
  | zero =>
    intro hn
    refine (pay4_5_apply _ _ _ _ _ q).trans ?_
    rw [pay4_2_apply, Cert.Lib.runningSum_succ _ 0 hn, Cert.Lib.runningSum_zero]
    rfl
  | succ n ih =>
    intro hn
    refine (pay4_5_apply _ _ _ _ _ q).trans ?_
    rw [ih (Nat.lt_of_succ_lt hn), Cert.Lib.runningSum_succ _ (n + 1) hn]
    rfl

/-- The ten blocks tile the rows: the sum over the points of the blocks' column sums is the column sum of P. -/
theorem sum_bsum4 (c : Dev nD) (q : Fin 64) :
    ∑ t : Fin cfg4.N, bsum4 V c q t = ∑ r : Fin 50000, P4 V c (ix2 r q) := by
  rw [Cert.Lib.sum_fin_50000_blocks' (fun r : Fin 50000 => P4 V c (ix2 r q))]
  show ∑ t : Fin 10, bsum4 V c q t = _
  refine Finset.sum_congr rfl fun t _ => ?_
  unfold bsum4
  exact Finset.sum_congr rfl fun p _ => pblk4_apply V c t p q _ rfl

theorem sum_bsq4 (c : Dev nD) (q : Fin 64) :
    ∑ t : Fin cfg4.N, bsq4 V c q t = ∑ r : Fin 50000, P4 V c (ix2 r q) * P4 V c (ix2 r q) := by
  rw [Cert.Lib.sum_fin_50000_blocks' (fun r : Fin 50000 => P4 V c (ix2 r q) * P4 V c (ix2 r q))]
  show ∑ t : Fin 10, bsq4 V c q t = _
  refine Finset.sum_congr rfl fun t _ => ?_
  unfold bsq4
  refine Finset.sum_congr rfl fun p _ => ?_
  have e := pblk4_apply V c t p q ⟨5000 * t.val + p.val, by have := t.isLt; have := p.isLt; omega⟩ rfl
  exact congrArg₂ (fun a b : EReal => a * b) e e

/-- At the last point the accumulators hold the column sums over all 50000 rows. -/
theorem acc4_0_last (c : Dev nD) (q : Fin 64) (t : Fin cfg4.N) (h9 : t.val = 9) :
    Hand.acc4_0 (F := Ideal) V c t.val t.isLt (ix2 (0 : Fin 1) q) = ∑ r : Fin 50000, P4 V c (ix2 r q) := by
  rw [acc4_0_apply, ← sum_bsum4, ← Cert.Lib.runningSum_all]
  exact congrArg _ (by rw [h9]; exact (N_4).symm)
theorem acc4_1_last (c : Dev nD) (q : Fin 64) (t : Fin cfg4.N) (h9 : t.val = 9) :
    Hand.acc4_1 (F := Ideal) V c t.val t.isLt (ix2 (0 : Fin 1) q) = ∑ r : Fin 50000, P4 V c (ix2 r q) * P4 V c (ix2 r q) := by
  rw [acc4_1_apply, ← sum_bsq4, ← Cert.Lib.runningSum_all]
  exact congrArg _ (by rw [h9]; exact (N_4).symm)

/-- The two statistics windows take the whole 1 x 64 array at every point. -/
theorem idx_facts4_S : ∀ t : Fin cfg4.N, win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

def colsum4 (c : Dev nD) : S1x64.Idx → EReal := fun j => ∑ r : Fin 50000, P4 V c (ix2 r (j 1 : Fin 64))
def colsq4 (c : Dev nD) : S1x64.Idx → EReal := fun j => ∑ r : Fin 50000, P4 V c (ix2 r (j 1 : Fin 64)) * P4 V c (ix2 r (j 1 : Fin 64))

/-- A statistics window's write-back of a row: if the buffer holds, column by column, the row G, then what is written back is
    the block of G (the window takes the whole 1 x 64 array). Stated over ANY row G. -/
theorem cut_row4_5 (G : S1x64.Idx → EReal) (accv : Vec Ideal S1x64 .f32) (t : Fin cfg4.N)
    (e0 : win4_5.index t (0 : Fin 2) = 0) (e1 : win4_5.index t (1 : Fin 2) = 0)
    (h : ∀ q : Fin 64, accv (ix2 (0 : Fin 1) q) = G (ix2 (0 : Fin 1) q)) :
    (cfg4.win 5).cut (grid4.coords t) accv = ((cfg4.win 5).blk t).view.read (Elt Ideal) G := by
  funext j
  obtain ⟨u, q, rfl⟩ : ∃ (u : Fin 1) (q : Fin 64), j = ix2 u q := ⟨j 0, j 1, eq_ix2 j⟩
  obtain rfl : u = 0 := Subsingleton.elim _ _
  show accv (ix2 (0 : Fin 1) q) = G (((cfg4.win 5).blk t).view.emb (ix2 (0 : Fin 1) q))
  rw [h q]
  refine congrArg G (funext fun a => Fin.ext ?_)
  match a with
  | ⟨0, _⟩ => show (0 : ℕ) = win4_5.index t (0 : Fin 2) * 1 + 1 * 0; rw [e0]
  | ⟨1, _⟩ => show q.val = win4_5.index t (1 : Fin 2) * 64 + 1 * q.val; rw [e1]; omega

/-- A statistics window's write-back of a row: if the buffer holds, column by column, the row G, then what is written back is
    the block of G (the window takes the whole 1 x 64 array). Stated over ANY row G. -/
theorem cut_row4_6 (G : S1x64.Idx → EReal) (accv : Vec Ideal S1x64 .f32) (t : Fin cfg4.N)
    (e0 : win4_6.index t (0 : Fin 2) = 0) (e1 : win4_6.index t (1 : Fin 2) = 0)
    (h : ∀ q : Fin 64, accv (ix2 (0 : Fin 1) q) = G (ix2 (0 : Fin 1) q)) :
    (cfg4.win 6).cut (grid4.coords t) accv = ((cfg4.win 6).blk t).view.read (Elt Ideal) G := by
  funext j
  obtain ⟨u, q, rfl⟩ : ∃ (u : Fin 1) (q : Fin 64), j = ix2 u q := ⟨j 0, j 1, eq_ix2 j⟩
  obtain rfl : u = 0 := Subsingleton.elim _ _
  show accv (ix2 (0 : Fin 1) q) = G (((cfg4.win 6).blk t).view.emb (ix2 (0 : Fin 1) q))
  rw [h q]
  refine congrArg G (funext fun a => Fin.ext ?_)
  match a with
  | ⟨0, _⟩ => show (0 : ℕ) = win4_6.index t (0 : Fin 2) * 1 + 1 * 0; rw [e0]
  | ⟨1, _⟩ => show q.val = win4_6.index t (1 : Fin 2) * 64 + 1 * q.val; rw [e1]; omega

theorem flushed4_5_eq (c : Dev nD) (t : Fin cfg4.N) (ht : (cfg4.win 5).flush t = true) :
    (Hand.dat4 V c).flushed 5 t = ((cfg4.win 5).blk t).view.read (Elt Ideal) (colsum4 V c) := by
  have hN : t.val < 10 := lt_of_lt_of_eq t.isLt (show cfg4.N = 10 from N_4)
  have h9 : t.val = 9 := by have := (flush4_5 t).mp ht; omega
  show (cfg4.win 5).cut (grid4.coords t) ((Hand.dat4 V c).after 5 t) = _
  rw [(Hand.after4_stats V c t h9).1]
  obtain ⟨e0, e1, -, -⟩ := idx_facts4_S t
  exact cut_row4_5 (colsum4 V c) _ t e0 e1 (fun q => acc4_0_last V c q t h9)

theorem flushed4_6_eq (c : Dev nD) (t : Fin cfg4.N) (ht : (cfg4.win 6).flush t = true) :
    (Hand.dat4 V c).flushed 6 t = ((cfg4.win 6).blk t).view.read (Elt Ideal) (colsq4 V c) := by
  have hN : t.val < 10 := lt_of_lt_of_eq t.isLt (show cfg4.N = 10 from N_4)
  have h9 : t.val = 9 := by have := (flush4_6 t).mp ht; omega
  show (cfg4.win 6).cut (grid4.coords t) ((Hand.dat4 V c).after 6 t) = _
  rw [(Hand.after4_stats V c t h9).2]
  obtain ⟨-, -, e0, e1⟩ := idx_facts4_S t
  exact cut_row4_6 (colsq4 V c) _ t e0 e1 (fun q => acc4_1_last V c q t h9)

theorem mem_blk4_5 (t : Fin cfg4.N) (i : S1x64.Idx) :
    i ∈ ((cfg4.win 5).blk t).view.set ↔ ∀ a : Fin 2, win4_5.index t a * S1x64.size a ≤ (i a).val ∧ (i a).val < win4_5.index t a * S1x64.size a + S1x64.size a := by
  show i ∈ ((View.whole main_v83_1).slice (win4_5.rect t)).set ↔ _
  rw [View.set_slice_whole, Rect.mem_set_unit]
  exact Iff.rfl
theorem mem_blk4_6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v83_2).slice (win4_6.rect t)).set ↔ _
  rw [View.set_slice_whole, Rect.mem_set_unit]
  exact Iff.rfl

/-- The last point's write-back covers the whole 1 x 64 array. -/
theorem cover4_5 (i : S1x64.Idx) : ∃ t : Fin cfg4.N, (cfg4.win 5).flush t = true ∧ i ∈ ((cfg4.win 5).blk t).view.set := by
  have hi0 : (i 0).val < 1 := (i 0).isLt
  have hi1 : (i 1).val < 64 := (i 1).isLt
  obtain ⟨t, ht⟩ : ∃ t : Fin cfg4.N, t.val = 9 := ⟨⟨9, by rw [show cfg4.N = 10 from N_4]; omega⟩, rfl⟩
  obtain ⟨e0, e1, -, -⟩ := idx_facts4_S t
  refine ⟨t, (flush4_5 t).mpr (by rw [ht]), ?_⟩
  rw [mem_blk4_5]
  intro a
  match a with
  | ⟨0, _⟩ => show win4_5.index t (0 : Fin 2) * 1 ≤ (i 0).val ∧ (i 0).val < win4_5.index t (0 : Fin 2) * 1 + 1; rw [e0]; omega
  | ⟨1, _⟩ => show win4_5.index t (1 : Fin 2) * 64 ≤ (i 1).val ∧ (i 1).val < win4_5.index t (1 : Fin 2) * 64 + 64; rw [e1]; omega
theorem cover4_6 (i : S1x64.Idx) : ∃ t : Fin cfg4.N, (cfg4.win 6).flush t = true ∧ i ∈ ((cfg4.win 6).blk t).view.set := by
  have hi0 : (i 0).val < 1 := (i 0).isLt
  have hi1 : (i 1).val < 64 := (i 1).isLt
  obtain ⟨t, ht⟩ : ∃ t : Fin cfg4.N, t.val = 9 := ⟨⟨9, by rw [show cfg4.N = 10 from N_4]; omega⟩, rfl⟩
  obtain ⟨-, -, e0, e1⟩ := idx_facts4_S t
  refine ⟨t, (flush4_6 t).mpr (by rw [ht]), ?_⟩
  rw [mem_blk4_6]
  intro a
  match a with
  | ⟨0, _⟩ => show win4_6.index t (0 : Fin 2) * 1 ≤ (i 0).val ∧ (i 0).val < win4_6.index t (0 : Fin 2) * 1 + 1; rw [e0]; omega
  | ⟨1, _⟩ => show win4_6.index t (1 : Fin 2) * 64 ≤ (i 1).val ∧ (i 1).val < win4_6.index t (1 : Fin 2) * 64 + 64; rw [e1]; omega

/-- The column sums of P over all 50000 rows, and of its entrywise square: what the region leaves in its second and third results. -/
theorem final4_5 (c : Dev nD) :
    (Hand.dat4 (F := Ideal) V c).arrAt 5 cfg4.N
      = (fun j => ∑ r : Fin 50000, P4 V c (ix2 r (j 1 : Fin 64)) : S1x64.Idx → EReal) :=
  (Hand.dat4 V c).arrAt_eq_of_cover 5 (colsum4 V c) (fun t ht => flushed4_5_eq V c t ht) cover4_5
theorem final4_6 (c : Dev nD) :
    (Hand.dat4 (F := Ideal) V c).arrAt 6 cfg4.N
      = (fun j => ∑ r : Fin 50000, P4 V c (ix2 r (j 1 : Fin 64)) * P4 V c (ix2 r (j 1 : Fin 64)) : S1x64.Idx → EReal) :=
  (Hand.dat4 V c).arrAt_eq_of_cover 6 (colsq4 V c) (fun t ht => flushed4_6_eq V c t ht) cover4_6

end Cert.KernelIdeal.HandValue

end
-- ==== Proof.KI.Val5.lean ====
/-
  Region 5, from blocks to the whole array, at the ideal values (floats are extended reals, every operation exact).
  The result array after the region is the second layer's pre-activation normalised column by column and rectified:
  entry (r, q) is max (scale q * (entry (r, q) - mean q) * rsqrt (variance q + constant) + shift q) 0. Grid point t computes
  and writes back rows 5000 t … 5000 t + 4999 (the block's row p is the array's row 5000 t + p); the ten blocks tile the array.
-/
import proofs.«135780_j72241349919044_1_alg».proof.Proof.KI.Reg5
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem hz : (![0, 0] : Fin 2 → Nat) = fun _ => 0 := funext fun a => by fin_cases a <;> rfl

/-- The body's value at row p, column q of the block: the scale of the column times the entry less the column's mean, times
    the reciprocal square root of the column's variance plus the constant, plus the column's shift, and 0 where that is
    negative. The casts of a block to its own shape are the identity; the four rows are spread over the block's rows. -/
theorem pay5_apply (xv xg : Vec Ideal S1x64 .f32) (xp : Vec Ideal S5000x64 .f32) (xm xb : Vec Ideal S1x64 .f32) (p : Fin 5000) (q : Fin 64) :
    k5_pay1 xv xg xp xm xb (ix2 p q)
      = max (xg (ix2 (0 : Fin 1) q) * (xp (ix2 p q) - xm (ix2 (0 : Fin 1) q)) * Ideal.rsqrt (xv (ix2 (0 : Fin 1) q) + Ideal.ofBits .f32 0x3727C5AC#32)
          + xb (ix2 (0 : Fin 1) q)) 0 := by
  unfold k5_pay1
  show max (broadcastTo S5000x64 (shapeCast S1x64 xg shapeCasts_S1x64_S1x64) broadcasts_S1x64_S5000x64 (ix2 p q)
        * (shapeCast S5000x64 xp shapeCasts_S5000x64_S5000x64 (ix2 p q)
            - broadcastTo S5000x64 (shapeCast S1x64 xm shapeCasts_S1x64_S1x64) broadcasts_S1x64_S5000x64 (ix2 p q))
        * broadcastTo S5000x64 (rsqrt (F := Ideal) (addf (F := Ideal) (shapeCast S1x64 xv shapeCasts_S1x64_S1x64) (broadcast S1x64 (Scalar.ofBits (F := Ideal) .f32 0x3727C5AC#32)))) broadcasts_S1x64_S5000x64 (ix2 p q)
        + broadcastTo S5000x64 (shapeCast S1x64 xb shapeCasts_S1x64_S1x64) broadcasts_S1x64_S5000x64 (ix2 p q))
      (Ideal.ofBits .f32 0x00000000#32) = _
  rw [shapeCast_self, shapeCast_self, shapeCast_self, shapeCast_self, shapeCast_self,
    broadcastTo_1b_ab_apply, broadcastTo_1b_ab_apply, broadcastTo_1b_ab_apply, broadcastTo_1b_ab_apply, Ideal.ofBits_zero_f32]
  rfl

/-- The printed index maps over the grid: point t takes block t of the pre-activation's and of the result's rows, and the
    whole of each of the four rows. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- The pre-activation's block at point t is rows 5000 t … 5000 t + 4999 of the pre-activation. -/
theorem iblk5_0_apply (c : Dev nD) (t : Fin cfg5.N) (y : S5000x64.Idx) (i : S50000x64.Idx)
    (hi0 : (i 0).val = 5000 * t.val + (y 0).val) (hi1 : (i 1).val = (y 1).val) :
    (Hand.iblk5 V c 0 t : Vec Ideal S5000x64 .f32) y = (V c (Pipeline.arrRef spec5 0) : S50000x64.Idx → EReal) i := by
  obtain ⟨e0, e1, -⟩ := idx_facts5 t
  unfold Hand.iblk5
  rw [View.read_apply]
  refine congrArg (V c (Pipeline.arrRef spec5 0) : S50000x64.Idx → EReal) (funext fun a => Fin.ext ?_)
  match a with
  | ⟨0, _⟩ => show win5_0.index t (0 : Fin 2) * 5000 + 1 * (y 0).val = (i 0).val; rw [e0, hi0]; omega
  | ⟨1, _⟩ => show win5_0.index t (1 : Fin 2) * 64 + 1 * (y 1).val = (i 1).val; rw [e1, hi1]; omega

/-- The mean's block at every point is the whole row of column means. -/
theorem iblk5_1_apply (c : Dev nD) (t : Fin cfg5.N) (y : S1x64.Idx) :
    (Hand.iblk5 V c 1 t : Vec Ideal S1x64 .f32) y = (V c (Pipeline.arrRef spec5 1) : S1x64.Idx → EReal) y := by
  obtain ⟨-, -, e0, e1, -⟩ := idx_facts5 t
  unfold Hand.iblk5
  rw [View.read_apply]
  refine congrArg (V c (Pipeline.arrRef spec5 1) : S1x64.Idx → EReal) (funext fun a => Fin.ext ?_)
  match a with
  | ⟨0, _⟩ => show win5_1.index t (0 : Fin 2) * 1 + 1 * (y 0).val = (y 0).val; rw [e0]; omega
  | ⟨1, _⟩ => show win5_1.index t (1 : Fin 2) * 64 + 1 * (y 1).val = (y 1).val; rw [e1]; omega

/-- The variance's block at every point is the whole row of column variances. -/
theorem iblk5_2_apply (c : Dev nD) (t : Fin cfg5.N) (y : S1x64.Idx) :
    (Hand.iblk5 V c 2 t : Vec Ideal S1x64 .f32) y = (V c (Pipeline.arrRef spec5 2) : S1x64.Idx → EReal) y := by
  obtain ⟨-, -, -, -, e0, e1, -⟩ := idx_facts5 t
  unfold Hand.iblk5
  rw [View.read_apply]
  refine congrArg (V c (Pipeline.arrRef spec5 2) : S1x64.Idx → EReal) (funext fun a => Fin.ext ?_)
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- The scale's block at every point is the whole row of column scales. -/
theorem iblk5_3_apply (c : Dev nD) (t : Fin cfg5.N) (y : S1x64.Idx) :
    (Hand.iblk5 V c 3 t : Vec Ideal S1x64 .f32) y = (V c (Pipeline.arrRef spec5 3) : S1x64.Idx → EReal) y := by
  obtain ⟨-, -, -, -, -, -, e0, e1, -⟩ := idx_facts5 t
  unfold Hand.iblk5
  rw [View.read_apply]
  refine congrArg (V c (Pipeline.arrRef spec5 3) : S1x64.Idx → EReal) (funext fun a => Fin.ext ?_)
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-- The shift's block at every point is the whole row of column shifts. -/
theorem iblk5_4_apply (c : Dev nD) (t : Fin cfg5.N) (y : S1x64.Idx) :
    (Hand.iblk5 V c 4 t : Vec Ideal S1x64 .f32) y = (V c (Pipeline.arrRef spec5 4) : S1x64.Idx → EReal) y := by
  obtain ⟨-, -, -, -, -, -, -, -, e0, e1, -⟩ := idx_facts5 t
  unfold Hand.iblk5
  rw [View.read_apply]
  refine congrArg (V c (Pipeline.arrRef spec5 4) : S1x64.Idx → EReal) (funext fun a => Fin.ext ?_)
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- The normalisation followed by the rectifier, index by index: the column's scale times the entry less the column's mean,
    times the reciprocal square root of the column's variance plus the constant, plus the column's shift; 0 where negative. -/
abbrev bn5 (P : S50000x64.Idx → EReal) (M S G B : S1x64.Idx → EReal) : S50000x64.Idx → EReal :=
  fun i => max (G (ix2 (0 : Fin 1) (i 1 : Fin 64)) * (P i - M (ix2 (0 : Fin 1) (i 1 : Fin 64)))
      * Ideal.rsqrt (S (ix2 (0 : Fin 1) (i 1 : Fin 64)) + Ideal.ofBits .f32 0x3727C5AC#32) + B (ix2 (0 : Fin 1) (i 1 : Fin 64))) 0

/-- The body's value at an index y of the block, when the loaded block at y is the array P at i, y and i name the same
    column, and the four loaded rows are M, S, G, B: the entry at i of the normalisation followed by the rectifier. -/
theorem pay5_at (xv xg : Vec Ideal S1x64 .f32) (xp : Vec Ideal S5000x64 .f32) (xm xb : Vec Ideal S1x64 .f32)
    (P : S50000x64.Idx → EReal) (M S G B : S1x64.Idx → EReal) (y : S5000x64.Idx) (i : S50000x64.Idx)
    (hp : xp y = P i) (hm : ∀ z, xm z = M z) (hv : ∀ z, xv z = S z) (hg : ∀ z, xg z = G z) (hb : ∀ z, xb z = B z)
    (hi1 : (i 1).val = (y 1).val) :
    k5_pay1 xv xg xp xm xb y = bn5 P M S G B i := by
  obtain ⟨p, q, rfl⟩ : ∃ (p : Fin 5000) (q : Fin 64), y = ix2 p q := ⟨y 0, y 1, eq_ix2 y⟩
  have hq : (i 1 : Fin 64) = q := Fin.ext hi1
  rw [pay5_apply, hp, hm, hv, hg, hb]
  show _ = max (G (ix2 (0 : Fin 1) (i 1 : Fin 64)) * (P i - M (ix2 (0 : Fin 1) (i 1 : Fin 64)))
      * Ideal.rsqrt (S (ix2 (0 : Fin 1) (i 1 : Fin 64)) + Ideal.ofBits .f32 0x3727C5AC#32) + B (ix2 (0 : Fin 1) (i 1 : Fin 64))) 0
  rw [hq]

/-- What point t writes back is block t of the normalisation followed by the rectifier of the five arrays as the region finds them. -/
theorem flushed5_eq (c : Dev nD) (t : Fin cfg5.N) :
    (Hand.dat5 V c).flushed 5 t = ((cfg5.win 5).blk t).view.read (Elt Ideal)
      (bn5 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((Hand.dat5 V c).after 5 t) = _
  rw [Hand.after5_5]
  unfold Hand.out5_5
  rw [View.canon_unit_zero hz]
  simp only [View.ld_unit_zero (S := S5000x64) hz, View.ld_unit_zero (S := S1x64) hz]
  obtain ⟨-, -, -, -, -, -, -, -, -, -, e10, e11⟩ := idx_facts5 t
  funext j
  show k5_pay1 (Hand.iblk5 V c 2 t) (Hand.iblk5 V c 3 t) (Hand.iblk5 V c 0 t) (Hand.iblk5 V c 1 t) (Hand.iblk5 V c 4 t) j
    = bn5 (V c (Pipeline.arrRef spec5 0)) (V c (Pipeline.arrRef spec5 1)) (V c (Pipeline.arrRef spec5 2)) (V c (Pipeline.arrRef spec5 3)) (V c (Pipeline.arrRef spec5 4)) (((cfg5.win 5).blk t).view.emb j)
  have k0 : ((((cfg5.win 5).blk t).view.emb j : S50000x64.Idx) 0).val = 5000 * t.val + (j 0).val := by
    show win5_5.index t (0 : Fin 2) * 5000 + 1 * (j 0).val = 5000 * t.val + (j 0).val
    rw [e10]; omega
  have k1 : ((((cfg5.win 5).blk t).view.emb j : S50000x64.Idx) 1).val = (j 1).val := by
    show win5_5.index t (1 : Fin 2) * 64 + 1 * (j 1).val = (j 1).val
    rw [e11]; omega
  exact pay5_at _ _ _ _ _ _ _ _ _ _ j _ (iblk5_0_apply V c t _ _ k0 k1) (fun z => iblk5_1_apply V c t z) (fun z => iblk5_2_apply V c t z)
    (fun z => iblk5_3_apply V c t z) (fun z => iblk5_4_apply V c t z) k1

/-- An index of the result is in point t's block iff each coordinate is in the block's range on its axis. -/
theorem mem_blk5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v92).slice (win5_5.rect t)).set ↔ _
  rw [View.set_slice_whole, Rect.mem_set_unit]
  exact Iff.rfl

/-- Every index of the result is in the block of the point that handles its row: row r belongs to point r / 5000. -/
theorem cover5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, ht⟩ : ∃ t : Fin cfg5.N, t.val = (i 0).val / 5000 := ⟨⟨(i 0).val / 5000, by rw [show cfg5.N = 10 from N_5]; omega⟩, rfl⟩
  obtain ⟨-, -, -, -, -, -, -, -, -, -, e10, e11⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; rw [e10, ht]; omega
  | ⟨1, _⟩ => show win5_5.index t (1 : Fin 2) * 64 ≤ (i 1).val ∧ (i 1).val < win5_5.index t (1 : Fin 2) * 64 + 64; rw [e11]; omega

/-- The pre-activation and the rows of column means, variances, scales and shifts as the region finds them, read as
    functions of the index. -/
abbrev P5 (c : Dev nD) : S50000x64.Idx → EReal := V c (Pipeline.arrRef spec5 0)
abbrev M5 (c : Dev nD) : S1x64.Idx → EReal := V c (Pipeline.arrRef spec5 1)
abbrev S5 (c : Dev nD) : S1x64.Idx → EReal := V c (Pipeline.arrRef spec5 2)
abbrev G5 (c : Dev nD) : S1x64.Idx → EReal := V c (Pipeline.arrRef spec5 3)
abbrev B5 (c : Dev nD) : S1x64.Idx → EReal := V c (Pipeline.arrRef spec5 4)

/-- The result array after the region: the normalisation followed by the rectifier, index by index, of the five arrays as
    the region finds them. -/
theorem final5 (c : Dev nD) :
    (Hand.dat5 (F := Ideal) V c).arrAt 5 cfg5.N
      = (fun i => max (G5 V c (ix2 (0 : Fin 1) (i 1 : Fin 64)) * (P5 V c i - M5 V c (ix2 (0 : Fin 1) (i 1 : Fin 64)))
          * Ideal.rsqrt (S5 V c (ix2 (0 : Fin 1) (i 1 : Fin 64)) + Ideal.ofBits .f32 0x3727C5AC#32)
          + B5 V c (ix2 (0 : Fin 1) (i 1 : Fin 64))) 0 : S50000x64.Idx → EReal) :=
  (Hand.dat5 V c).arrAt_eq_of_cover 5 (bn5 (P5 V c) (M5 V c) (S5 V c) (G5 V c) (B5 V c)) (fun t _ => flushed5_eq V c t) cover5

end Cert.KernelIdeal.HandValue

end
-- ==== Proof.KI.KVal.lean ====
/-
  The idealized kernel program's result buffer at the end of the run is the kernel function of the twelve arguments at
  launch. The chain of boundary contents is walked one item at a time: a host stretch's results are read off its
  operations from the contents before it, a region's result arrays are its closed forms over the arrays it finds, a
  buffer an item does not write passes through it, and every intermediate array is named by its specification.
-/
import proofs.«135780_j72241349919044_1_alg».proof.Proof.KI.Run
import proofs.«135780_j72241349919044_1_alg».proof.Proof.KI.Host0
import proofs.«135780_j72241349919044_1_alg».proof.Proof.KI.Host1
import proofs.«135780_j72241349919044_1_alg».proof.Proof.KI.Host2
import proofs.«135780_j72241349919044_1_alg».proof.Proof.KI.Host4
import proofs.«135780_j72241349919044_1_alg».proof.Proof.KI.Host5
import proofs.«135780_j72241349919044_1_alg».proof.Proof.KI.Host7
import proofs.«135780_j72241349919044_1_alg».proof.Proof.KI.KSpec
import proofs.«135780_j72241349919044_1_alg».proof.Proof.KI.Val0
import proofs.«135780_j72241349919044_1_alg».proof.Proof.KI.Val2
import proofs.«135780_j72241349919044_1_alg».proof.Proof.KI.Val3
import proofs.«135780_j72241349919044_1_alg».proof.Proof.KI.Val6
import proofs.«135780_j72241349919044_1_alg».proof.Proof.KI.Val7
import proofs.«135780_j72241349919044_1_alg».proof.Proof.KI.Val1P
import proofs.«135780_j72241349919044_1_alg».proof.Proof.KI.Val4P
import proofs.«135780_j72241349919044_1_alg».proof.Proof.KI.Val1d
import proofs.«135780_j72241349919044_1_alg».proof.Proof.KI.Val4d
import proofs.«135780_j72241349919044_1_alg».proof.Proof.KI.Val5

noncomputable section

namespace Cert.KernelIdeal.KVal

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg) (c : Dev nD)

/-- Argument 0 at launch. -/
def a0 : S50000x64.Idx → EReal := m ((c : Thread nD τ).loc main_arg0)
/-- Argument 1 at launch. -/
def a1 : (⟨S2x800000, .i32⟩ : BufTy).Contents (Elt Ideal) := m ((c : Thread nD τ).loc main_arg1)
/-- Argument 2 at launch. -/
def a2 : S64x64.Idx → EReal := m ((c : Thread nD τ).loc main_arg2)
/-- Argument 3 at launch. -/
def a3 : S64.Idx → EReal := m ((c : Thread nD τ).loc main_arg3)
/-- Argument 4 at launch. -/
def a4 : S64.Idx → EReal := m ((c : Thread nD τ).loc main_arg4)
/-- Argument 5 at launch. -/
def a5 : S64.Idx → EReal := m ((c : Thread nD τ).loc main_arg5)
/-- Argument 6 at launch. -/
def a6 : S64x64.Idx → EReal := m ((c : Thread nD τ).loc main_arg6)
/-- Argument 7 at launch. -/
def a7 : S64.Idx → EReal := m ((c : Thread nD τ).loc main_arg7)
/-- Argument 8 at launch. -/
def a8 : S64.Idx → EReal := m ((c : Thread nD τ).loc main_arg8)
/-- Argument 9 at launch. -/
def a9 : S64.Idx → EReal := m ((c : Thread nD τ).loc main_arg9)
/-- Argument 10 at launch. -/
def a10 : S64x1.Idx → EReal := m ((c : Thread nD τ).loc main_arg10)
/-- Argument 11 at launch. -/
def a11 : S1.Idx → EReal := m ((c : Thread nD τ).loc main_arg11)
/-- The edges' sources. -/
def sSrc : (⟨S800000, .i32⟩ : BufTy).Contents (Elt Ideal) := Cert.KernelIdeal.HostRead.srcOf (F := Ideal) (a1 m c)
/-- The edges' destinations. -/
def sDst : (⟨S800000, .i32⟩ : BufTy).Contents (Elt Ideal) := Cert.KernelIdeal.HostRead.dstOf (F := Ideal) (a1 m c)
/-- The inverse square-root degrees. -/
def sDinv : S50000.Idx → EReal := Cert.KernelIdeal.HostRead.degInv (F := Ideal) (sDst m c)
/-- Their squares as a column. -/
def sD : S50000x1.Idx → EReal := Cert.KernelIdeal.HostRead.dinv2col (F := Ideal) (sDinv m c)
/-- Layer 1: the product with the weights. -/
def sH1 : S50000x64.Idx → EReal := klin64 (a0 m c) (a2 m c)
/-- Layer 1: the weighted neighbour sum. -/
def sA1 : S50000x64.Idx → EReal := Cert.KernelIdeal.HostRead.agg64 (F := Ideal) (sH1 m c) (sSrc m c) (sDst m c) (sDinv m c)
/-- Layer 1: the bias as a row. -/
def sB1 : S1x64.Idx → EReal := Cert.KernelIdeal.HostRead.row64 (F := Ideal) (a3 m c)
/-- Layer 1: the pre-activation. -/
def sP1 : S50000x64.Idx → EReal := kP64 (a0 m c) (a2 m c) (a3 m c) (sSrc m c) (sDst m c) (sDinv m c)
/-- Layer 1: the column sums. -/
def sSum1 : S1x64.Idx → EReal := ksum64 (sP1 m c)
/-- Layer 1: the column sums of squares. -/
def sSq1 : S1x64.Idx → EReal := ksq64 (sP1 m c)
/-- Layer 1: the column means. -/
def sM1 : S1x64.Idx → EReal := Cert.KernelIdeal.HostRead.meanOf (F := Ideal) (sSum1 m c)
/-- Layer 1: the column variances. -/
def sS1 : S1x64.Idx → EReal := Cert.KernelIdeal.HostRead.varOf (F := Ideal) (sSq1 m c) (sM1 m c)
/-- Layer 1: the scale as a row. -/
def sG1 : S1x64.Idx → EReal := Cert.KernelIdeal.HostRead.row64 (F := Ideal) (a4 m c)
/-- Layer 1: the shift as a row. -/
def sBe1 : S1x64.Idx → EReal := Cert.KernelIdeal.HostRead.row64 (F := Ideal) (a5 m c)
/-- Layer 1: the hidden activations. -/
def sh1 : S50000x64.Idx → EReal := klayer64 (a0 m c) (a2 m c) (a3 m c) (a4 m c) (a5 m c) (sSrc m c) (sDst m c) (sDinv m c)
/-- Layer 2: the product with the weights. -/
def sH2 : S50000x64.Idx → EReal := klin64 (sh1 m c) (a6 m c)
/-- Layer 2: the weighted neighbour sum. -/
def sA2 : S50000x64.Idx → EReal := Cert.KernelIdeal.HostRead.agg64 (F := Ideal) (sH2 m c) (sSrc m c) (sDst m c) (sDinv m c)
/-- Layer 2: the bias as a row. -/
def sB2 : S1x64.Idx → EReal := Cert.KernelIdeal.HostRead.row64 (F := Ideal) (a7 m c)
/-- Layer 2: the pre-activation. -/
def sP2 : S50000x64.Idx → EReal := kP64 (sh1 m c) (a6 m c) (a7 m c) (sSrc m c) (sDst m c) (sDinv m c)
/-- Layer 2: the column sums. -/
def sSum2 : S1x64.Idx → EReal := ksum64 (sP2 m c)
/-- Layer 2: the column sums of squares. -/
def sSq2 : S1x64.Idx → EReal := ksq64 (sP2 m c)
/-- Layer 2: the column means. -/
def sM2 : S1x64.Idx → EReal := Cert.KernelIdeal.HostRead.meanOf (F := Ideal) (sSum2 m c)
/-- Layer 2: the column variances. -/
def sS2 : S1x64.Idx → EReal := Cert.KernelIdeal.HostRead.varOf (F := Ideal) (sSq2 m c) (sM2 m c)
/-- Layer 2: the scale as a row. -/
def sG2 : S1x64.Idx → EReal := Cert.KernelIdeal.HostRead.row64 (F := Ideal) (a8 m c)
/-- Layer 2: the shift as a row. -/
def sBe2 : S1x64.Idx → EReal := Cert.KernelIdeal.HostRead.row64 (F := Ideal) (a9 m c)
/-- Layer 2: the hidden activations. -/
def sh2 : S50000x64.Idx → EReal := klayer64 (sh1 m c) (a6 m c) (a7 m c) (a8 m c) (a9 m c) (sSrc m c) (sDst m c) (sDinv m c)
/-- The output layer: the product with the weight column. -/
def sH3 : S50000x1.Idx → EReal := klin1 (sh2 m c) (a10 m c)
/-- The output layer: the weighted neighbour sum. -/
def sA3 : S50000x1.Idx → EReal := Cert.KernelIdeal.HostRead.agg1 (F := Ideal) (sH3 m c) (sSrc m c) (sDst m c) (sDinv m c)
/-- The output layer: the bias as a 1×1 array. -/
def sB3 : S1x1.Idx → EReal := Cert.KernelIdeal.HostRead.row1 (F := Ideal) (a11 m c)
/-- The result. -/
def sOut : S50000x1.Idx → EReal := kP1 (sh2 m c) (a10 m c) (a11 m c) (sSrc m c) (sDst m c) (sDinv m c)

/-! ## The arguments at launch -/

theorem W0_arg0 : W0 m ρ c (Proc.devRef .tc main_arg0) = a0 m c := rfl
theorem W0_arg1 : W0 m ρ c (Proc.devRef .tc main_arg1) = a1 m c := rfl
theorem W0_arg2 : W0 m ρ c (Proc.devRef .tc main_arg2) = a2 m c := rfl
theorem W0_arg3 : W0 m ρ c (Proc.devRef .tc main_arg3) = a3 m c := rfl
theorem W0_arg4 : W0 m ρ c (Proc.devRef .tc main_arg4) = a4 m c := rfl
theorem W0_arg5 : W0 m ρ c (Proc.devRef .tc main_arg5) = a5 m c := rfl
theorem W0_arg6 : W0 m ρ c (Proc.devRef .tc main_arg6) = a6 m c := rfl
theorem W0_arg7 : W0 m ρ c (Proc.devRef .tc main_arg7) = a7 m c := rfl
theorem W0_arg8 : W0 m ρ c (Proc.devRef .tc main_arg8) = a8 m c := rfl
theorem W0_arg9 : W0 m ρ c (Proc.devRef .tc main_arg9) = a9 m c := rfl
theorem W0_arg10 : W0 m ρ c (Proc.devRef .tc main_arg10) = a10 m c := rfl
theorem W0_arg11 : W0 m ρ c (Proc.devRef .tc main_arg11) = a11 m c := rfl

/-! ## Item 1: the first host stretch -/

theorem W1_v1 : W1 m ρ c (Proc.devRef .tc main_v1) = sSrc m c := by
  have h := Cert.KernelIdeal.HostRead.host0_src (W0 m ρ c)
  rw [W0_arg1 m ρ c] at h
  exact h
theorem W1_v3 : W1 m ρ c (Proc.devRef .tc main_v3) = sDst m c := by
  have h := Cert.KernelIdeal.HostRead.host0_dst (W0 m ρ c)
  rw [W0_arg1 m ρ c] at h
  exact h
theorem W1_v10 : W1 m ρ c (Proc.devRef .tc main_v10) = sDinv m c := by
  have h := Cert.KernelIdeal.HostRead.host0_dinv (W0 m ρ c)
  rw [W0_arg1 m ρ c] at h
  exact h
theorem W1_v12 : W1 m ρ c (Proc.devRef .tc main_v12) = sD m c := by
  have h := Cert.KernelIdeal.HostRead.host0_dinv2 (W0 m ρ c)
  rw [W0_arg1 m ρ c] at h
  exact h
theorem W1_arg0 : W1 m ρ c (Proc.devRef .tc main_arg0) = a0 m c :=
  (W1_keep m ρ c main_arg0 (by decide)).trans (W0_arg0 m ρ c)
theorem W1_arg2 : W1 m ρ c (Proc.devRef .tc main_arg2) = a2 m c :=
  (W1_keep m ρ c main_arg2 (by decide)).trans (W0_arg2 m ρ c)

/-! ## Item 2: the first product -/

theorem W2_v13 : W2 m ρ c (Proc.devRef .tc main_v13) = sH1 m c := by
  have h := (W2_arr m ρ c 2).trans (Cert.KernelIdeal.HandValue.final0 (V1 m ρ) c)
  have hX0 : Cert.KernelIdeal.HandValue.X0 (V1 m ρ) c = a0 m c := W1_arg0 m ρ c
  have hW0 : Cert.KernelIdeal.HandValue.W0 (V1 m ρ) c = a2 m c := W1_arg2 m ρ c
  rw [hX0, hW0] at h
  exact h
theorem W2_v1 : W2 m ρ c (Proc.devRef .tc main_v1) = sSrc m c :=
  (W2_keep m ρ c main_v1 (by decide)).trans (W1_v1 m ρ c)
theorem W2_v3 : W2 m ρ c (Proc.devRef .tc main_v3) = sDst m c :=
  (W2_keep m ρ c main_v3 (by decide)).trans (W1_v3 m ρ c)
theorem W2_v10 : W2 m ρ c (Proc.devRef .tc main_v10) = sDinv m c :=
  (W2_keep m ρ c main_v10 (by decide)).trans (W1_v10 m ρ c)
theorem W1_arg3 : W1 m ρ c (Proc.devRef .tc main_arg3) = a3 m c :=
  (W1_keep m ρ c main_arg3 (by decide)).trans (W0_arg3 m ρ c)
theorem W2_arg3 : W2 m ρ c (Proc.devRef .tc main_arg3) = a3 m c :=
  (W2_keep m ρ c main_arg3 (by decide)).trans (W1_arg3 m ρ c)

/-! ## Item 3: the first weighted neighbour sum -/

theorem W3_v41 : W3 m ρ c (Proc.devRef .tc main_v41) = sA1 m c := by
  have h := Cert.KernelIdeal.HostRead.host1_agg (W2 m ρ c)
  rw [W2_v13 m ρ c, W2_v1 m ρ c, W2_v3 m ρ c, W2_v10 m ρ c] at h
  exact h
theorem W3_v42 : W3 m ρ c (Proc.devRef .tc main_v42) = sB1 m c := by
  have h := Cert.KernelIdeal.HostRead.host1_bias (W2 m ρ c)
  rw [W2_arg3 m ρ c] at h
  exact h
theorem W3_v13 : W3 m ρ c (Proc.devRef .tc main_v13) = sH1 m c :=
  (W3_keep m ρ c main_v13 (by decide)).trans (W2_v13 m ρ c)
theorem W2_v12 : W2 m ρ c (Proc.devRef .tc main_v12) = sD m c :=
  (W2_keep m ρ c main_v12 (by decide)).trans (W1_v12 m ρ c)
theorem W3_v12 : W3 m ρ c (Proc.devRef .tc main_v12) = sD m c :=
  (W3_keep m ρ c main_v12 (by decide)).trans (W2_v12 m ρ c)

/-! ## Item 4: the first combination with its column sums and sums of squares -/

/-- The pre-activation the region computes is the specification's. -/
theorem reg1_P : Cert.KernelIdeal.HandValue.P1 (V3 m ρ) c = sP1 m c := by
  have hA1 : Cert.KernelIdeal.HandValue.A1 (V3 m ρ) c = sA1 m c := W3_v41 m ρ c
  have hH1 : Cert.KernelIdeal.HandValue.H1 (V3 m ρ) c = sH1 m c := W3_v13 m ρ c
  have hD1 : Cert.KernelIdeal.HandValue.D1 (V3 m ρ) c = sD m c := W3_v12 m ρ c
  have hB1 : Cert.KernelIdeal.HandValue.B1 (V3 m ρ) c = sB1 m c := W3_v42 m ρ c
  show (fun i => Cert.KernelIdeal.HandValue.A1 (V3 m ρ) c i + Cert.KernelIdeal.HandValue.H1 (V3 m ρ) c i * Cert.KernelIdeal.HandValue.D1 (V3 m ρ) c (ix2 (i 0 : Fin 50000) (0 : Fin 1))
      + Cert.KernelIdeal.HandValue.B1 (V3 m ρ) c (ix2 (0 : Fin 1) (i 1 : Fin 64))) = _
  rw [hA1, hH1, hD1, hB1]
  rfl
theorem W4_v43_0 : W4 m ρ c (Proc.devRef .tc main_v43_0) = sP1 m c := by
  have h := (W4_arr m ρ c 4).trans (Cert.KernelIdeal.HandValue.final1_4 (V3 m ρ) c)
  rw [reg1_P m ρ c] at h
  exact h
theorem W4_v43_1 : W4 m ρ c (Proc.devRef .tc main_v43_1) = sSum1 m c := by
  have h := (W4_arr m ρ c 5).trans (Cert.KernelIdeal.HandValue.final1_5 (V3 m ρ) c)
  rw [reg1_P m ρ c] at h
  exact h
theorem W4_v43_2 : W4 m ρ c (Proc.devRef .tc main_v43_2) = sSq1 m c := by
  have h := (W4_arr m ρ c 6).trans (Cert.KernelIdeal.HandValue.final1_6 (V3 m ρ) c)
  rw [reg1_P m ρ c] at h
  exact h
theorem W1_arg4 : W1 m ρ c (Proc.devRef .tc main_arg4) = a4 m c :=
  (W1_keep m ρ c main_arg4 (by decide)).trans (W0_arg4 m ρ c)
theorem W2_arg4 : W2 m ρ c (Proc.devRef .tc main_arg4) = a4 m c :=
  (W2_keep m ρ c main_arg4 (by decide)).trans (W1_arg4 m ρ c)
theorem W3_arg4 : W3 m ρ c (Proc.devRef .tc main_arg4) = a4 m c :=
  (W3_keep m ρ c main_arg4 (by decide)).trans (W2_arg4 m ρ c)
theorem W4_arg4 : W4 m ρ c (Proc.devRef .tc main_arg4) = a4 m c :=
  (W4_keep m ρ c main_arg4 (by decide)).trans (W3_arg4 m ρ c)
theorem W1_arg5 : W1 m ρ c (Proc.devRef .tc main_arg5) = a5 m c :=
  (W1_keep m ρ c main_arg5 (by decide)).trans (W0_arg5 m ρ c)
theorem W2_arg5 : W2 m ρ c (Proc.devRef .tc main_arg5) = a5 m c :=
  (W2_keep m ρ c main_arg5 (by decide)).trans (W1_arg5 m ρ c)
theorem W3_arg5 : W3 m ρ c (Proc.devRef .tc main_arg5) = a5 m c :=
  (W3_keep m ρ c main_arg5 (by decide)).trans (W2_arg5 m ρ c)
theorem W4_arg5 : W4 m ρ c (Proc.devRef .tc main_arg5) = a5 m c :=
  (W4_keep m ρ c main_arg5 (by decide)).trans (W3_arg5 m ρ c)

/-! ## Item 5: the first statistics -/

theorem W5_v45 : W5 m ρ c (Proc.devRef .tc main_v45) = sM1 m c := by
  have h := Cert.KernelIdeal.HostRead.host2_mean (W4 m ρ c)
  rw [W4_v43_1 m ρ c] at h
  exact h
theorem W5_v49 : W5 m ρ c (Proc.devRef .tc main_v49) = sS1 m c := by
  have h := Cert.KernelIdeal.HostRead.host2_var (W4 m ρ c)
  rw [W4_v43_2 m ρ c, W4_v43_1 m ρ c] at h
  exact h
theorem W5_v50 : W5 m ρ c (Proc.devRef .tc main_v50) = sG1 m c := by
  have h := Cert.KernelIdeal.HostRead.host2_gamma (W4 m ρ c)
  rw [W4_arg4 m ρ c] at h
  exact h
theorem W5_v51 : W5 m ρ c (Proc.devRef .tc main_v51) = sBe1 m c := by
  have h := Cert.KernelIdeal.HostRead.host2_beta (W4 m ρ c)
  rw [W4_arg5 m ρ c] at h
  exact h
theorem W5_v43_0 : W5 m ρ c (Proc.devRef .tc main_v43_0) = sP1 m c :=
  (W5_keep m ρ c main_v43_0 (by decide)).trans (W4_v43_0 m ρ c)

/-! ## Item 6: the first normalisation -/

theorem W6_v52 : W6 m ρ c (Proc.devRef .tc main_v52) = sh1 m c := by
  have h := (W6_arr m ρ c 5).trans (Cert.KernelIdeal.HandValue.final2 (V5 m ρ) c)
  have hP2 : Cert.KernelIdeal.HandValue.P2 (V5 m ρ) c = sP1 m c := W5_v43_0 m ρ c
  have hM2 : Cert.KernelIdeal.HandValue.M2 (V5 m ρ) c = sM1 m c := W5_v45 m ρ c
  have hS2 : Cert.KernelIdeal.HandValue.S2 (V5 m ρ) c = sS1 m c := W5_v49 m ρ c
  have hG2 : Cert.KernelIdeal.HandValue.G2 (V5 m ρ) c = sG1 m c := W5_v50 m ρ c
  have hB2 : Cert.KernelIdeal.HandValue.B2 (V5 m ρ) c = sBe1 m c := W5_v51 m ρ c
  rw [hP2, hM2, hS2, hG2, hB2] at h
  exact h
theorem W1_arg6 : W1 m ρ c (Proc.devRef .tc main_arg6) = a6 m c :=
  (W1_keep m ρ c main_arg6 (by decide)).trans (W0_arg6 m ρ c)
theorem W2_arg6 : W2 m ρ c (Proc.devRef .tc main_arg6) = a6 m c :=
  (W2_keep m ρ c main_arg6 (by decide)).trans (W1_arg6 m ρ c)
theorem W3_arg6 : W3 m ρ c (Proc.devRef .tc main_arg6) = a6 m c :=
  (W3_keep m ρ c main_arg6 (by decide)).trans (W2_arg6 m ρ c)
theorem W4_arg6 : W4 m ρ c (Proc.devRef .tc main_arg6) = a6 m c :=
  (W4_keep m ρ c main_arg6 (by decide)).trans (W3_arg6 m ρ c)
theorem W5_arg6 : W5 m ρ c (Proc.devRef .tc main_arg6) = a6 m c :=
  (W5_keep m ρ c main_arg6 (by decide)).trans (W4_arg6 m ρ c)
theorem W6_arg6 : W6 m ρ c (Proc.devRef .tc main_arg6) = a6 m c :=
  (W6_keep m ρ c main_arg6 (by decide)).trans (W5_arg6 m ρ c)

/-! ## Item 7: the second product -/

theorem W7_v53 : W7 m ρ c (Proc.devRef .tc main_v53) = sH2 m c := by
  have h := (W7_arr m ρ c 2).trans (Cert.KernelIdeal.HandValue.final3 (V6 m ρ) c)
  have hX3 : Cert.KernelIdeal.HandValue.X3 (V6 m ρ) c = sh1 m c := W6_v52 m ρ c
  have hW3 : Cert.KernelIdeal.HandValue.W3 (V6 m ρ) c = a6 m c := W6_arg6 m ρ c
  rw [hX3, hW3] at h
  exact h
theorem W3_v1 : W3 m ρ c (Proc.devRef .tc main_v1) = sSrc m c :=
  (W3_keep m ρ c main_v1 (by decide)).trans (W2_v1 m ρ c)
theorem W4_v1 : W4 m ρ c (Proc.devRef .tc main_v1) = sSrc m c :=
  (W4_keep m ρ c main_v1 (by decide)).trans (W3_v1 m ρ c)
theorem W5_v1 : W5 m ρ c (Proc.devRef .tc main_v1) = sSrc m c :=
  (W5_keep m ρ c main_v1 (by decide)).trans (W4_v1 m ρ c)
theorem W6_v1 : W6 m ρ c (Proc.devRef .tc main_v1) = sSrc m c :=
  (W6_keep m ρ c main_v1 (by decide)).trans (W5_v1 m ρ c)
theorem W7_v1 : W7 m ρ c (Proc.devRef .tc main_v1) = sSrc m c :=
  (W7_keep m ρ c main_v1 (by decide)).trans (W6_v1 m ρ c)
theorem W3_v3 : W3 m ρ c (Proc.devRef .tc main_v3) = sDst m c :=
  (W3_keep m ρ c main_v3 (by decide)).trans (W2_v3 m ρ c)
theorem W4_v3 : W4 m ρ c (Proc.devRef .tc main_v3) = sDst m c :=
  (W4_keep m ρ c main_v3 (by decide)).trans (W3_v3 m ρ c)
theorem W5_v3 : W5 m ρ c (Proc.devRef .tc main_v3) = sDst m c :=
  (W5_keep m ρ c main_v3 (by decide)).trans (W4_v3 m ρ c)
theorem W6_v3 : W6 m ρ c (Proc.devRef .tc main_v3) = sDst m c :=
  (W6_keep m ρ c main_v3 (by decide)).trans (W5_v3 m ρ c)
theorem W7_v3 : W7 m ρ c (Proc.devRef .tc main_v3) = sDst m c :=
  (W7_keep m ρ c main_v3 (by decide)).trans (W6_v3 m ρ c)
theorem W3_v10 : W3 m ρ c (Proc.devRef .tc main_v10) = sDinv m c :=
  (W3_keep m ρ c main_v10 (by decide)).trans (W2_v10 m ρ c)
theorem W4_v10 : W4 m ρ c (Proc.devRef .tc main_v10) = sDinv m c :=
  (W4_keep m ρ c main_v10 (by decide)).trans (W3_v10 m ρ c)
theorem W5_v10 : W5 m ρ c (Proc.devRef .tc main_v10) = sDinv m c :=
  (W5_keep m ρ c main_v10 (by decide)).trans (W4_v10 m ρ c)
theorem W6_v10 : W6 m ρ c (Proc.devRef .tc main_v10) = sDinv m c :=
  (W6_keep m ρ c main_v10 (by decide)).trans (W5_v10 m ρ c)
theorem W7_v10 : W7 m ρ c (Proc.devRef .tc main_v10) = sDinv m c :=
  (W7_keep m ρ c main_v10 (by decide)).trans (W6_v10 m ρ c)
theorem W1_arg7 : W1 m ρ c (Proc.devRef .tc main_arg7) = a7 m c :=
  (W1_keep m ρ c main_arg7 (by decide)).trans (W0_arg7 m ρ c)
theorem W2_arg7 : W2 m ρ c (Proc.devRef .tc main_arg7) = a7 m c :=
  (W2_keep m ρ c main_arg7 (by decide)).trans (W1_arg7 m ρ c)
theorem W3_arg7 : W3 m ρ c (Proc.devRef .tc main_arg7) = a7 m c :=
  (W3_keep m ρ c main_arg7 (by decide)).trans (W2_arg7 m ρ c)
theorem W4_arg7 : W4 m ρ c (Proc.devRef .tc main_arg7) = a7 m c :=
  (W4_keep m ρ c main_arg7 (by decide)).trans (W3_arg7 m ρ c)
theorem W5_arg7 : W5 m ρ c (Proc.devRef .tc main_arg7) = a7 m c :=
  (W5_keep m ρ c main_arg7 (by decide)).trans (W4_arg7 m ρ c)
theorem W6_arg7 : W6 m ρ c (Proc.devRef .tc main_arg7) = a7 m c :=
  (W6_keep m ρ c main_arg7 (by decide)).trans (W5_arg7 m ρ c)
theorem W7_arg7 : W7 m ρ c (Proc.devRef .tc main_arg7) = a7 m c :=
  (W7_keep m ρ c main_arg7 (by decide)).trans (W6_arg7 m ρ c)

/-! ## Item 8: the second weighted neighbour sum -/

theorem W8_v81 : W8 m ρ c (Proc.devRef .tc main_v81) = sA2 m c := by
  have h := Cert.KernelIdeal.HostRead.host4_agg (W7 m ρ c)
  rw [W7_v53 m ρ c, W7_v1 m ρ c, W7_v3 m ρ c, W7_v10 m ρ c] at h
  exact h
theorem W8_v82 : W8 m ρ c (Proc.devRef .tc main_v82) = sB2 m c := by
  have h := Cert.KernelIdeal.HostRead.host4_bias (W7 m ρ c)
  rw [W7_arg7 m ρ c] at h
  exact h
theorem W8_v53 : W8 m ρ c (Proc.devRef .tc main_v53) = sH2 m c :=
  (W8_keep m ρ c main_v53 (by decide)).trans (W7_v53 m ρ c)
theorem W4_v12 : W4 m ρ c (Proc.devRef .tc main_v12) = sD m c :=
  (W4_keep m ρ c main_v12 (by decide)).trans (W3_v12 m ρ c)
theorem W5_v12 : W5 m ρ c (Proc.devRef .tc main_v12) = sD m c :=
  (W5_keep m ρ c main_v12 (by decide)).trans (W4_v12 m ρ c)
theorem W6_v12 : W6 m ρ c (Proc.devRef .tc main_v12) = sD m c :=
  (W6_keep m ρ c main_v12 (by decide)).trans (W5_v12 m ρ c)
theorem W7_v12 : W7 m ρ c (Proc.devRef .tc main_v12) = sD m c :=
  (W7_keep m ρ c main_v12 (by decide)).trans (W6_v12 m ρ c)
theorem W8_v12 : W8 m ρ c (Proc.devRef .tc main_v12) = sD m c :=
  (W8_keep m ρ c main_v12 (by decide)).trans (W7_v12 m ρ c)

/-! ## Item 9: the second combination with its column sums and sums of squares -/

/-- The pre-activation the region computes is the specification's. -/
theorem reg4_P : Cert.KernelIdeal.HandValue.P4 (V8 m ρ) c = sP2 m c := by
  have hA4 : Cert.KernelIdeal.HandValue.A4 (V8 m ρ) c = sA2 m c := W8_v81 m ρ c
  have hH4 : Cert.KernelIdeal.HandValue.H4 (V8 m ρ) c = sH2 m c := W8_v53 m ρ c
  have hD4 : Cert.KernelIdeal.HandValue.D4 (V8 m ρ) c = sD m c := W8_v12 m ρ c
  have hB4 : Cert.KernelIdeal.HandValue.B4 (V8 m ρ) c = sB2 m c := W8_v82 m ρ c
  show (fun i => Cert.KernelIdeal.HandValue.A4 (V8 m ρ) c i + Cert.KernelIdeal.HandValue.H4 (V8 m ρ) c i * Cert.KernelIdeal.HandValue.D4 (V8 m ρ) c (ix2 (i 0 : Fin 50000) (0 : Fin 1))
      + Cert.KernelIdeal.HandValue.B4 (V8 m ρ) c (ix2 (0 : Fin 1) (i 1 : Fin 64))) = _
  rw [hA4, hH4, hD4, hB4]
  rfl
theorem W9_v83_0 : W9 m ρ c (Proc.devRef .tc main_v83_0) = sP2 m c := by
  have h := (W9_arr m ρ c 4).trans (Cert.KernelIdeal.HandValue.final4_4 (V8 m ρ) c)
  rw [reg4_P m ρ c] at h
  exact h
theorem W9_v83_1 : W9 m ρ c (Proc.devRef .tc main_v83_1) = sSum2 m c := by
  have h := (W9_arr m ρ c 5).trans (Cert.KernelIdeal.HandValue.final4_5 (V8 m ρ) c)
  rw [reg4_P m ρ c] at h
  exact h
theorem W9_v83_2 : W9 m ρ c (Proc.devRef .tc main_v83_2) = sSq2 m c := by
  have h := (W9_arr m ρ c 6).trans (Cert.KernelIdeal.HandValue.final4_6 (V8 m ρ) c)
  rw [reg4_P m ρ c] at h
  exact h
theorem W1_arg8 : W1 m ρ c (Proc.devRef .tc main_arg8) = a8 m c :=
  (W1_keep m ρ c main_arg8 (by decide)).trans (W0_arg8 m ρ c)
theorem W2_arg8 : W2 m ρ c (Proc.devRef .tc main_arg8) = a8 m c :=
  (W2_keep m ρ c main_arg8 (by decide)).trans (W1_arg8 m ρ c)
theorem W3_arg8 : W3 m ρ c (Proc.devRef .tc main_arg8) = a8 m c :=
  (W3_keep m ρ c main_arg8 (by decide)).trans (W2_arg8 m ρ c)
theorem W4_arg8 : W4 m ρ c (Proc.devRef .tc main_arg8) = a8 m c :=
  (W4_keep m ρ c main_arg8 (by decide)).trans (W3_arg8 m ρ c)
theorem W5_arg8 : W5 m ρ c (Proc.devRef .tc main_arg8) = a8 m c :=
  (W5_keep m ρ c main_arg8 (by decide)).trans (W4_arg8 m ρ c)
theorem W6_arg8 : W6 m ρ c (Proc.devRef .tc main_arg8) = a8 m c :=
  (W6_keep m ρ c main_arg8 (by decide)).trans (W5_arg8 m ρ c)
theorem W7_arg8 : W7 m ρ c (Proc.devRef .tc main_arg8) = a8 m c :=
  (W7_keep m ρ c main_arg8 (by decide)).trans (W6_arg8 m ρ c)
theorem W8_arg8 : W8 m ρ c (Proc.devRef .tc main_arg8) = a8 m c :=
  (W8_keep m ρ c main_arg8 (by decide)).trans (W7_arg8 m ρ c)
theorem W9_arg8 : W9 m ρ c (Proc.devRef .tc main_arg8) = a8 m c :=
  (W9_keep m ρ c main_arg8 (by decide)).trans (W8_arg8 m ρ c)
theorem W1_arg9 : W1 m ρ c (Proc.devRef .tc main_arg9) = a9 m c :=
  (W1_keep m ρ c main_arg9 (by decide)).trans (W0_arg9 m ρ c)
theorem W2_arg9 : W2 m ρ c (Proc.devRef .tc main_arg9) = a9 m c :=
  (W2_keep m ρ c main_arg9 (by decide)).trans (W1_arg9 m ρ c)
theorem W3_arg9 : W3 m ρ c (Proc.devRef .tc main_arg9) = a9 m c :=
  (W3_keep m ρ c main_arg9 (by decide)).trans (W2_arg9 m ρ c)
theorem W4_arg9 : W4 m ρ c (Proc.devRef .tc main_arg9) = a9 m c :=
  (W4_keep m ρ c main_arg9 (by decide)).trans (W3_arg9 m ρ c)
theorem W5_arg9 : W5 m ρ c (Proc.devRef .tc main_arg9) = a9 m c :=
  (W5_keep m ρ c main_arg9 (by decide)).trans (W4_arg9 m ρ c)
theorem W6_arg9 : W6 m ρ c (Proc.devRef .tc main_arg9) = a9 m c :=
  (W6_keep m ρ c main_arg9 (by decide)).trans (W5_arg9 m ρ c)
theorem W7_arg9 : W7 m ρ c (Proc.devRef .tc main_arg9) = a9 m c :=
  (W7_keep m ρ c main_arg9 (by decide)).trans (W6_arg9 m ρ c)
theorem W8_arg9 : W8 m ρ c (Proc.devRef .tc main_arg9) = a9 m c :=
  (W8_keep m ρ c main_arg9 (by decide)).trans (W7_arg9 m ρ c)
theorem W9_arg9 : W9 m ρ c (Proc.devRef .tc main_arg9) = a9 m c :=
  (W9_keep m ρ c main_arg9 (by decide)).trans (W8_arg9 m ρ c)

/-! ## Item 10: the second statistics -/

theorem W10_v85 : W10 m ρ c (Proc.devRef .tc main_v85) = sM2 m c := by
  have h := Cert.KernelIdeal.HostRead.host5_mean (W9 m ρ c)
  rw [W9_v83_1 m ρ c] at h
  exact h
theorem W10_v89 : W10 m ρ c (Proc.devRef .tc main_v89) = sS2 m c := by
  have h := Cert.KernelIdeal.HostRead.host5_var (W9 m ρ c)
  rw [W9_v83_2 m ρ c, W9_v83_1 m ρ c] at h
  exact h
theorem W10_v90 : W10 m ρ c (Proc.devRef .tc main_v90) = sG2 m c := by
  have h := Cert.KernelIdeal.HostRead.host5_gamma (W9 m ρ c)
  rw [W9_arg8 m ρ c] at h
  exact h
theorem W10_v91 : W10 m ρ c (Proc.devRef .tc main_v91) = sBe2 m c := by
  have h := Cert.KernelIdeal.HostRead.host5_beta (W9 m ρ c)
  rw [W9_arg9 m ρ c] at h
  exact h
theorem W10_v83_0 : W10 m ρ c (Proc.devRef .tc main_v83_0) = sP2 m c :=
  (W10_keep m ρ c main_v83_0 (by decide)).trans (W9_v83_0 m ρ c)

/-! ## Item 11: the second normalisation -/

theorem W11_v92 : W11 m ρ c (Proc.devRef .tc main_v92) = sh2 m c := by
  have h := (W11_arr m ρ c 5).trans (Cert.KernelIdeal.HandValue.final5 (V10 m ρ) c)
  have hP5 : Cert.KernelIdeal.HandValue.P5 (V10 m ρ) c = sP2 m c := W10_v83_0 m ρ c
  have hM5 : Cert.KernelIdeal.HandValue.M5 (V10 m ρ) c = sM2 m c := W10_v85 m ρ c
  have hS5 : Cert.KernelIdeal.HandValue.S5 (V10 m ρ) c = sS2 m c := W10_v89 m ρ c
  have hG5 : Cert.KernelIdeal.HandValue.G5 (V10 m ρ) c = sG2 m c := W10_v90 m ρ c
  have hB5 : Cert.KernelIdeal.HandValue.B5 (V10 m ρ) c = sBe2 m c := W10_v91 m ρ c
  rw [hP5, hM5, hS5, hG5, hB5] at h
  exact h
theorem W1_arg10 : W1 m ρ c (Proc.devRef .tc main_arg10) = a10 m c :=
  (W1_keep m ρ c main_arg10 (by decide)).trans (W0_arg10 m ρ c)
theorem W2_arg10 : W2 m ρ c (Proc.devRef .tc main_arg10) = a10 m c :=
  (W2_keep m ρ c main_arg10 (by decide)).trans (W1_arg10 m ρ c)
theorem W3_arg10 : W3 m ρ c (Proc.devRef .tc main_arg10) = a10 m c :=
  (W3_keep m ρ c main_arg10 (by decide)).trans (W2_arg10 m ρ c)
theorem W4_arg10 : W4 m ρ c (Proc.devRef .tc main_arg10) = a10 m c :=
  (W4_keep m ρ c main_arg10 (by decide)).trans (W3_arg10 m ρ c)
theorem W5_arg10 : W5 m ρ c (Proc.devRef .tc main_arg10) = a10 m c :=
  (W5_keep m ρ c main_arg10 (by decide)).trans (W4_arg10 m ρ c)
theorem W6_arg10 : W6 m ρ c (Proc.devRef .tc main_arg10) = a10 m c :=
  (W6_keep m ρ c main_arg10 (by decide)).trans (W5_arg10 m ρ c)
theorem W7_arg10 : W7 m ρ c (Proc.devRef .tc main_arg10) = a10 m c :=
  (W7_keep m ρ c main_arg10 (by decide)).trans (W6_arg10 m ρ c)
theorem W8_arg10 : W8 m ρ c (Proc.devRef .tc main_arg10) = a10 m c :=
  (W8_keep m ρ c main_arg10 (by decide)).trans (W7_arg10 m ρ c)
theorem W9_arg10 : W9 m ρ c (Proc.devRef .tc main_arg10) = a10 m c :=
  (W9_keep m ρ c main_arg10 (by decide)).trans (W8_arg10 m ρ c)
theorem W10_arg10 : W10 m ρ c (Proc.devRef .tc main_arg10) = a10 m c :=
  (W10_keep m ρ c main_arg10 (by decide)).trans (W9_arg10 m ρ c)
theorem W11_arg10 : W11 m ρ c (Proc.devRef .tc main_arg10) = a10 m c :=
  (W11_keep m ρ c main_arg10 (by decide)).trans (W10_arg10 m ρ c)

/-! ## Item 12: the output product -/

theorem W12_v93 : W12 m ρ c (Proc.devRef .tc main_v93) = sH3 m c := by
  have h := (W12_arr m ρ c 2).trans (Cert.KernelIdeal.HandValue.final6 (V11 m ρ) c)
  have hX6 : Cert.KernelIdeal.HandValue.X6 (V11 m ρ) c = sh2 m c := W11_v92 m ρ c
  have hW6 : Cert.KernelIdeal.HandValue.W6 (V11 m ρ) c = a10 m c := W11_arg10 m ρ c
  rw [hX6, hW6] at h
  exact h
theorem W8_v1 : W8 m ρ c (Proc.devRef .tc main_v1) = sSrc m c :=
  (W8_keep m ρ c main_v1 (by decide)).trans (W7_v1 m ρ c)
theorem W9_v1 : W9 m ρ c (Proc.devRef .tc main_v1) = sSrc m c :=
  (W9_keep m ρ c main_v1 (by decide)).trans (W8_v1 m ρ c)
theorem W10_v1 : W10 m ρ c (Proc.devRef .tc main_v1) = sSrc m c :=
  (W10_keep m ρ c main_v1 (by decide)).trans (W9_v1 m ρ c)
theorem W11_v1 : W11 m ρ c (Proc.devRef .tc main_v1) = sSrc m c :=
  (W11_keep m ρ c main_v1 (by decide)).trans (W10_v1 m ρ c)
theorem W12_v1 : W12 m ρ c (Proc.devRef .tc main_v1) = sSrc m c :=
  (W12_keep m ρ c main_v1 (by decide)).trans (W11_v1 m ρ c)
theorem W8_v3 : W8 m ρ c (Proc.devRef .tc main_v3) = sDst m c :=
  (W8_keep m ρ c main_v3 (by decide)).trans (W7_v3 m ρ c)
theorem W9_v3 : W9 m ρ c (Proc.devRef .tc main_v3) = sDst m c :=
  (W9_keep m ρ c main_v3 (by decide)).trans (W8_v3 m ρ c)
theorem W10_v3 : W10 m ρ c (Proc.devRef .tc main_v3) = sDst m c :=
  (W10_keep m ρ c main_v3 (by decide)).trans (W9_v3 m ρ c)
theorem W11_v3 : W11 m ρ c (Proc.devRef .tc main_v3) = sDst m c :=
  (W11_keep m ρ c main_v3 (by decide)).trans (W10_v3 m ρ c)
theorem W12_v3 : W12 m ρ c (Proc.devRef .tc main_v3) = sDst m c :=
  (W12_keep m ρ c main_v3 (by decide)).trans (W11_v3 m ρ c)
theorem W8_v10 : W8 m ρ c (Proc.devRef .tc main_v10) = sDinv m c :=
  (W8_keep m ρ c main_v10 (by decide)).trans (W7_v10 m ρ c)
theorem W9_v10 : W9 m ρ c (Proc.devRef .tc main_v10) = sDinv m c :=
  (W9_keep m ρ c main_v10 (by decide)).trans (W8_v10 m ρ c)
theorem W10_v10 : W10 m ρ c (Proc.devRef .tc main_v10) = sDinv m c :=
  (W10_keep m ρ c main_v10 (by decide)).trans (W9_v10 m ρ c)
theorem W11_v10 : W11 m ρ c (Proc.devRef .tc main_v10) = sDinv m c :=
  (W11_keep m ρ c main_v10 (by decide)).trans (W10_v10 m ρ c)
theorem W12_v10 : W12 m ρ c (Proc.devRef .tc main_v10) = sDinv m c :=
  (W12_keep m ρ c main_v10 (by decide)).trans (W11_v10 m ρ c)
theorem W1_arg11 : W1 m ρ c (Proc.devRef .tc main_arg11) = a11 m c :=
  (W1_keep m ρ c main_arg11 (by decide)).trans (W0_arg11 m ρ c)
theorem W2_arg11 : W2 m ρ c (Proc.devRef .tc main_arg11) = a11 m c :=
  (W2_keep m ρ c main_arg11 (by decide)).trans (W1_arg11 m ρ c)
theorem W3_arg11 : W3 m ρ c (Proc.devRef .tc main_arg11) = a11 m c :=
  (W3_keep m ρ c main_arg11 (by decide)).trans (W2_arg11 m ρ c)
theorem W4_arg11 : W4 m ρ c (Proc.devRef .tc main_arg11) = a11 m c :=
  (W4_keep m ρ c main_arg11 (by decide)).trans (W3_arg11 m ρ c)
theorem W5_arg11 : W5 m ρ c (Proc.devRef .tc main_arg11) = a11 m c :=
  (W5_keep m ρ c main_arg11 (by decide)).trans (W4_arg11 m ρ c)
theorem W6_arg11 : W6 m ρ c (Proc.devRef .tc main_arg11) = a11 m c :=
  (W6_keep m ρ c main_arg11 (by decide)).trans (W5_arg11 m ρ c)
theorem W7_arg11 : W7 m ρ c (Proc.devRef .tc main_arg11) = a11 m c :=
  (W7_keep m ρ c main_arg11 (by decide)).trans (W6_arg11 m ρ c)
theorem W8_arg11 : W8 m ρ c (Proc.devRef .tc main_arg11) = a11 m c :=
  (W8_keep m ρ c main_arg11 (by decide)).trans (W7_arg11 m ρ c)
theorem W9_arg11 : W9 m ρ c (Proc.devRef .tc main_arg11) = a11 m c :=
  (W9_keep m ρ c main_arg11 (by decide)).trans (W8_arg11 m ρ c)
theorem W10_arg11 : W10 m ρ c (Proc.devRef .tc main_arg11) = a11 m c :=
  (W10_keep m ρ c main_arg11 (by decide)).trans (W9_arg11 m ρ c)
theorem W11_arg11 : W11 m ρ c (Proc.devRef .tc main_arg11) = a11 m c :=
  (W11_keep m ρ c main_arg11 (by decide)).trans (W10_arg11 m ρ c)
theorem W12_arg11 : W12 m ρ c (Proc.devRef .tc main_arg11) = a11 m c :=
  (W12_keep m ρ c main_arg11 (by decide)).trans (W11_arg11 m ρ c)

/-! ## Item 13: the output layer's weighted neighbour sum -/

theorem W13_v120 : W13 m ρ c (Proc.devRef .tc main_v120) = sA3 m c := by
  have h := Cert.KernelIdeal.HostRead.host7_agg (W12 m ρ c)
  rw [W12_v93 m ρ c, W12_v1 m ρ c, W12_v3 m ρ c, W12_v10 m ρ c] at h
  exact h
theorem W13_v121 : W13 m ρ c (Proc.devRef .tc main_v121) = sB3 m c := by
  have h := Cert.KernelIdeal.HostRead.host7_bias (W12 m ρ c)
  rw [W12_arg11 m ρ c] at h
  exact h
theorem W13_v93 : W13 m ρ c (Proc.devRef .tc main_v93) = sH3 m c :=
  (W13_keep m ρ c main_v93 (by decide)).trans (W12_v93 m ρ c)
theorem W9_v12 : W9 m ρ c (Proc.devRef .tc main_v12) = sD m c :=
  (W9_keep m ρ c main_v12 (by decide)).trans (W8_v12 m ρ c)
theorem W10_v12 : W10 m ρ c (Proc.devRef .tc main_v12) = sD m c :=
  (W10_keep m ρ c main_v12 (by decide)).trans (W9_v12 m ρ c)
theorem W11_v12 : W11 m ρ c (Proc.devRef .tc main_v12) = sD m c :=
  (W11_keep m ρ c main_v12 (by decide)).trans (W10_v12 m ρ c)
theorem W12_v12 : W12 m ρ c (Proc.devRef .tc main_v12) = sD m c :=
  (W12_keep m ρ c main_v12 (by decide)).trans (W11_v12 m ρ c)
theorem W13_v12 : W13 m ρ c (Proc.devRef .tc main_v12) = sD m c :=
  (W13_keep m ρ c main_v12 (by decide)).trans (W12_v12 m ρ c)

/-! ## Item 14: the output combination -/

theorem W14_v122 : W14 m ρ c (Proc.devRef .tc main_v122) = sOut m c := by
  have h := (W14_arr m ρ c 4).trans (Cert.KernelIdeal.HandValue.final7 (V13 m ρ) c)
  have hA7 : Cert.KernelIdeal.HandValue.A7 (V13 m ρ) c = sA3 m c := W13_v120 m ρ c
  have hH7 : Cert.KernelIdeal.HandValue.H7 (V13 m ρ) c = sH3 m c := W13_v93 m ρ c
  have hD7 : Cert.KernelIdeal.HandValue.D7 (V13 m ρ) c = sD m c := W13_v12 m ρ c
  have hB7 : Cert.KernelIdeal.HandValue.B7 (V13 m ρ) c = sB3 m c := W13_v121 m ρ c
  rw [hA7, hH7, hD7, hB7] at h
  exact h

/-! ## The result -/

/-- The named result is the kernel function of the arguments. -/
theorem sOut_eq : sOut m c = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

/-- At the end of the run the result buffer holds the kernel function of the twelve arguments at launch. -/
theorem kval : W14 m ρ c (Proc.devRef .tc main_v122) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W14_v122 m ρ c).trans (sOut_eq m c)

/-- From any memory with zero counters every weakly fair execution of the idealized kernel program terminates, the
    result buffer ends at the kernel function of the arguments' launch contents, and the twelve arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v122) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_post m ρ fun s h c =>
    ⟨(h c _ (mem_uc main_v122 (by decide))).trans (kval m ρ c),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c)⟩

end Cert.KernelIdeal.KVal

end
-- ==== Proof.LibRealClosed.lean ====
import Idealize.ShloMosaic.Lib.IdealHost
import Mathlib.Tactic

/-!
# Extended reals that are real numbers, and operations that keep them so

An extended real is REAL when it is the coercion of a real number, equivalently when it is neither
of the two infinities. Sums, differences, products, quotients by a nonzero real, finite sums, maxima
and minima of reals are real; the reciprocal square root of a positive real is a positive real. The
same is then said of ARRAYS (functions from an index type to the extended reals) every entry of which
is real: the pointwise operations, a matrix product (a finite sum of products), a sum along axes (a
finite sum, plus the initial value on the host), a gather (a re-indexing) and an accumulating scatter
(each entry plus a finite sum of updates) of all-real arrays are all-real, and an accumulating scatter
of nonnegative arrays is nonnegative. Last, the four f32 bit patterns 0.0, 1.0, 50000.0 and 1e-5 are
read as extended reals: 0, 1, 50000 exactly, and a positive real.
-/

namespace Cert.Lib

open Idealize.ShloMosaic
open scoped BigOperators

/-! ## One extended real -/

/-- An extended real is REAL when it is the coercion of a real number. -/
def IsReal (x : EReal) : Prop := ∃ r : ℝ, x = (r : EReal)

/-- The coercion of a real number is real. -/
theorem isReal_coe (r : ℝ) : IsReal (r : EReal) := ⟨r, rfl⟩

/-- A real extended real is not the top element. -/
theorem IsReal.ne_top {x : EReal} (h : IsReal x) : x ≠ ⊤ := by
  obtain ⟨r, rfl⟩ := h; exact EReal.coe_ne_top r

/-- A real extended real is not the bottom element. -/
theorem IsReal.ne_bot {x : EReal} (h : IsReal x) : x ≠ ⊥ := by
  obtain ⟨r, rfl⟩ := h; exact EReal.coe_ne_bot r

/-- Real means: neither infinity. -/
theorem isReal_iff_ne (x : EReal) : IsReal x ↔ x ≠ ⊤ ∧ x ≠ ⊥ :=
  ⟨fun h => ⟨h.ne_top, h.ne_bot⟩, fun ⟨ht, hb⟩ => ⟨x.toReal, (EReal.coe_toReal ht hb).symm⟩⟩

/-- A real extended real is the coercion of its real part. -/
theorem IsReal.coe_toReal {x : EReal} (h : IsReal x) : ((x.toReal : ℝ) : EReal) = x :=
  EReal.coe_toReal h.ne_top h.ne_bot

/-- Zero is real. -/
theorem isReal_zero : IsReal (0 : EReal) := ⟨0, EReal.coe_zero.symm⟩
/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The maximum of two reals is real: it is one of them. -/
theorem IsReal.max {x y : EReal} (hx : IsReal x) (hy : IsReal y) : IsReal (max x y) := by
  rcases max_choice x y with h | h <;> rw [h] <;> assumption

/-- The minimum of two reals is real: it is one of them. -/
theorem IsReal.min {x y : EReal} (hx : IsReal x) (hy : IsReal y) : IsReal (min x y) := by
  rcases min_choice x y with h | h <;> rw [h] <;> assumption

/-- The quotient of two reals, the divisor nonzero, is the real quotient. -/
theorem div_coe_coe (a n : ℝ) (hn : n ≠ 0) :
    Ideal.div (a : EReal) (n : EReal) = ((a / n : ℝ) : EReal) := by
  have h0 : (n : EReal) ≠ 0 := by
    intro h; exact hn (by exact_mod_cast h)
  rw [Ideal.div, if_neg h0, ← EReal.coe_inv, ← EReal.coe_mul, div_eq_mul_inv]

/-- The quotient of a real by a nonzero real number is real. -/
theorem IsReal.div_coe {x : EReal} (hx : IsReal x) {n : ℝ} (hn : n ≠ 0) :
    IsReal (Ideal.div x (n : EReal)) := by
  obtain ⟨a, rfl⟩ := hx; exact ⟨a / n, div_coe_coe a n hn⟩

/-- The quotient of a real by a real extended real other than zero is real. -/
theorem IsReal.div {x y : EReal} (hx : IsReal x) (hy : IsReal y) (hy0 : y ≠ 0) :
    IsReal (Ideal.div x y) := by
  obtain ⟨b, rfl⟩ := hy
  exact hx.div_coe (fun h => hy0 (by rw [h, EReal.coe_zero]))

/-- A finite sum of reals is real. -/
theorem isReal_sum {ι : Type*} (s : Finset ι) (f : ι → EReal) (h : ∀ i ∈ s, IsReal (f i)) :
    IsReal (∑ i ∈ s, f i) :=
  Finset.sum_induction f IsReal (fun _ _ => IsReal.add) isReal_zero h

/-- Coercion of reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real: the real (√r)⁻¹, which is positive. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal of the square root of a positive real number is positive. -/
theorem inv_sqrt_pos {r : ℝ} (hr : 0 < r) : 0 < (Real.sqrt r)⁻¹ :=
  inv_pos.mpr (Real.sqrt_pos.mpr hr)

/-- The reciprocal square root of a positive real extended real is a positive real. -/
theorem IsReal.rsqrt_pos {x : EReal} (hx : IsReal x) (hpos : 0 < x) :
    ∃ r : ℝ, 0 < r ∧ Ideal.rsqrt x = (r : EReal) := by
  obtain ⟨a, rfl⟩ := hx
  have ha : 0 < a := EReal.coe_pos.mp hpos
  exact ⟨(Real.sqrt a)⁻¹, inv_sqrt_pos ha, rsqrt_coe_of_pos ha⟩

/-- The reciprocal square root of a positive real extended real is real. -/
theorem IsReal.rsqrt {x : EReal} (hx : IsReal x) (hpos : 0 < x) : IsReal (Ideal.rsqrt x) := by
  obtain ⟨r, _, h⟩ := hx.rsqrt_pos hpos; exact ⟨r, h⟩

/-- The reciprocal square root of a positive real extended real is positive. -/
theorem rsqrt_pos_of_isReal {x : EReal} (hx : IsReal x) (hpos : 0 < x) : 0 < Ideal.rsqrt x := by
  obtain ⟨r, hr, h⟩ := hx.rsqrt_pos hpos; rw [h]; exact EReal.coe_pos.mpr hr

/-- A nonnegative extended real plus one is positive (a degree count plus the self loop). -/
theorem pos_of_nonneg_add_one {x : EReal} (h : 0 ≤ x) : 0 < x + 1 :=
  lt_of_lt_of_le (by exact_mod_cast zero_lt_one) (le_add_of_nonneg_left h)

/-- A nonnegative real plus a positive real is positive, and the reciprocal square root of the sum
is a positive real (a variance plus the stabilising constant). -/
theorem rsqrt_add_pos {v e : ℝ} (hv : 0 ≤ v) (he : 0 < e) :
    Ideal.rsqrt ((v : EReal) + (e : EReal)) = (((Real.sqrt (v + e))⁻¹ : ℝ) : EReal)
      ∧ 0 < (Real.sqrt (v + e))⁻¹ := by
  have h : 0 < v + e := add_pos_of_nonneg_of_pos hv he
  rw [← EReal.coe_add]
  exact ⟨rsqrt_coe_of_pos h, inv_sqrt_pos h⟩

/-! ## Arrays -/

/-- Every entry of the array is real. -/
def AllReal {ι : Type*} (x : ι → EReal) : Prop := ∀ i, IsReal (x i)

/-- An all-real array is the coercion of an array of reals. -/
theorem AllReal.exists_real {ι : Type*} {x : ι → EReal} (h : AllReal x) :
    ∃ r : ι → ℝ, x = fun i => (r i : EReal) := by
  choose r hr using h; exact ⟨r, funext hr⟩

/-- Re-indexing (a gather, a broadcast, a reshape, a slice, a transpose) keeps an array all-real. -/
theorem AllReal.comp {ι κ : Type*} {x : ι → EReal} (h : AllReal x) (f : κ → ι) :
    AllReal (fun k => x (f k)) := fun k => h (f k)

/-- A constant array with a real value is all-real. -/
theorem allReal_const {ι : Type*} {c : EReal} (h : IsReal c) : AllReal (fun _ : ι => c) := fun _ => h

section Pointwise
variable {s : Shape} {φ : FTy}

/-- The pointwise sum of all-real arrays is all-real. -/
theorem allReal_addf {x y : FVec Ideal s φ} (hx : AllReal x) (hy : AllReal y) : AllReal (addf x y) :=
  fun i => show IsReal (x i + y i) from (hx i).add (hy i)

/-- The pointwise difference of all-real arrays is all-real. -/
theorem allReal_subf {x y : FVec Ideal s φ} (hx : AllReal x) (hy : AllReal y) : AllReal (subf x y) :=
  fun i => show IsReal (x i - y i) from (hx i).sub (hy i)

/-- The pointwise product of all-real arrays is all-real. -/
theorem allReal_mulf {x y : FVec Ideal s φ} (hx : AllReal x) (hy : AllReal y) : AllReal (mulf x y) :=
  fun i => show IsReal (x i * y i) from (hx i).mul (hy i)

/-- The pointwise maximum of all-real arrays is all-real. -/
theorem allReal_maximumf {x y : FVec Ideal s φ} (hx : AllReal x) (hy : AllReal y) :
    AllReal (maximumf x y) :=
  fun i => show IsReal (max (x i) (y i)) from (hx i).max (hy i)

/-- Pointwise quotient by an array of nonzero reals (the kernel's divf and the host's). -/
theorem allReal_divf {x y : FVec Ideal s φ} (hx : AllReal x) (hy : AllReal y) (hy0 : ∀ i, y i ≠ 0) :
    AllReal (divf x y) :=
  fun i => show IsReal (Ideal.div (x i) (y i)) from (hx i).div (hy i) (hy0 i)

/-- The same for the host's quotient. -/
theorem allReal_host_divf {x y : FVec Ideal s φ} (hx : AllReal x) (hy : AllReal y)
    (hy0 : ∀ i, y i ≠ 0) : AllReal (Host.divf x y) :=
  fun i => show IsReal (Ideal.div (x i) (y i)) from (hx i).div (hy i) (hy0 i)

/-- Pointwise reciprocal square root of an array of positive reals (the kernel's rsqrt). -/
theorem allReal_rsqrt {x : FVec Ideal s φ} (hx : AllReal x) (hpos : ∀ i, 0 < x i) :
    AllReal (rsqrt x) :=
  fun i => show IsReal (Ideal.rsqrt (x i)) from (hx i).rsqrt (hpos i)

/-- The same for the host's rsqrt. -/
theorem allReal_host_rsqrt {x : FVec Ideal s φ} (hx : AllReal x) (hpos : ∀ i, 0 < x i) :
    AllReal (Host.rsqrt x) :=
  fun i => show IsReal (Ideal.rsqrt (x i)) from (hx i).rsqrt (hpos i)

/-- The host's pointwise reciprocal square root of an array of positive reals is positive at every index. -/
theorem host_rsqrt_pos {x : FVec Ideal s φ} (hx : AllReal x) (hpos : ∀ i, 0 < x i) (i : s.Idx) :
    0 < Host.rsqrt x i :=
  show 0 < Ideal.rsqrt (x i) from rsqrt_pos_of_isReal (hx i) (hpos i)

/-- A splat of a bit pattern that denotes a real. -/
theorem allReal_constant {b : BitVec φ.bits} (h : IsReal (Ideal.ofBits φ b)) :
    AllReal (constant (F := Ideal) s φ b) := fun _ => h

end Pointwise

/-! ## Products and sums -/

section Contractions
variable {sl sr so : Shape} {φ₁ φ₂ : FTy}

/-- The host's matrix product of all-real arrays is all-real: each entry is a finite sum of
products. -/
theorem allReal_host_dotGeneral (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact isReal_sum _ _ fun k _ => (hl _).mul (hr _)

/-- A kernel's matrix product accumulated onto an all-real accumulator is all-real. -/
theorem allReal_matmul (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (matmul d prec lhs rhs acc) := fun j => by
  show IsReal (FloatOps.matmul d prec lhs rhs acc j)
  rw [Ideal.matmul_apply]
  exact (ha j).add (isReal_sum _ _ fun k _ => (hl _).mul (hr _))

/-- A kernel's matrix product onto the zero splat is all-real. -/
theorem allReal_matmul_zero (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) := fun j => by
  show IsReal (FloatOps.matmul d prec lhs rhs (constant so .f32 0x00000000#32) j)
  rw [Ideal.matmul_constant_zero_apply]
  exact isReal_sum _ _ fun k _ => (hl _).mul (hr _)

end Contractions

section Reductions
variable {s t u : Shape} {φ : FTy} {axes : List (Fin s.rank)}

/-- The host's sum along axes of an all-real array from a real initial value is all-real. -/
theorem allReal_host_reduceAdd {x : FVec Ideal s φ} {init : u.Idx → Ideal φ} (hx : AllReal x)
    (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (isReal_sum _ _ fun i _ => hx i)

/-- A kernel's add-reduction along axes of an all-real vector is all-real. -/
theorem allReal_multiReduction_add {src : FVec Ideal s φ} (hx : AllReal src) (acc : BitVec φ.bits)
    (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hx i

end Reductions

/-! ## Gather and accumulating scatter -/

section GatherScatter
variable {s si su t : Shape} {φ : FTy} {w : Nat}

/-- A gather only re-indexes its operand. -/
theorem allReal_host_gather (d : GatherDims s si t) {x : FVec Ideal s φ} (hx : AllReal x)
    (idx : IVec si w) : AllReal (Host.gather d x idx) := fun j => hx _

/-- What the host's accumulating scatter is at an index: the operand there plus the sum of the updates
that land there. -/
theorem host_scatterAdd_apply (d : ScatterDims s si su) (x : FVec Ideal s φ) (idx : IVec si w)
    (upd : FVec Ideal su φ) (i : s.Idx) :
    Host.scatterAdd d x idx upd i
      = x i + ∑ j ∈ Finset.univ.filter (fun j => d.resultIdx? j idx = some i), upd j := rfl

/-- An accumulating scatter of all-real updates into an all-real operand is all-real, whatever the
indices (an update that lands outside contributes nothing, one that lands inside adds a real). -/
theorem allReal_host_scatterAdd (d : ScatterDims s si su) {x : FVec Ideal s φ} (idx : IVec si w)
    {upd : FVec Ideal su φ} (hx : AllReal x) (hu : AllReal upd) :
    AllReal (Host.scatterAdd d x idx upd) := fun i => by
  rw [host_scatterAdd_apply]
  exact (hx i).add (isReal_sum _ _ fun j _ => hu j)

/-- An accumulating scatter of nonnegative updates into a nonnegative operand is nonnegative. -/
theorem host_scatterAdd_nonneg (d : ScatterDims s si su) {x : FVec Ideal s φ} (idx : IVec si w)
    {upd : FVec Ideal su φ} (hx : ∀ i, 0 ≤ x i) (hu : ∀ j, 0 ≤ upd j) (i : s.Idx) :
    0 ≤ Host.scatterAdd d x idx upd i := by
  rw [host_scatterAdd_apply]
  exact add_nonneg (hx i) (Finset.sum_nonneg fun j _ => hu j)

/-- It is also at least the operand: the updates only add. -/
theorem host_scatterAdd_ge (d : ScatterDims s si su) {x : FVec Ideal s φ} (idx : IVec si w)
    {upd : FVec Ideal su φ} (hu : ∀ j, 0 ≤ upd j) (i : s.Idx) :
    x i ≤ Host.scatterAdd d x idx upd i := by
  rw [host_scatterAdd_apply]
  exact le_add_of_nonneg_right (Finset.sum_nonneg fun j _ => hu j)

end GatherScatter

/-! ## Four f32 bit patterns -/

/-- 0.0 -/
theorem ofBits_f32_zero : Ideal.ofBits .f32 0x00000000#32 = 0 := Ideal.ofBits_zero_f32

/-- 1.0 -/
theorem ofBits_f32_one : Ideal.ofBits .f32 0x3F800000#32 = 1 := Ideal.ofBits_one_f32

/-- 50000.0: exponent field 142, fraction field 4411392, so (2^23 + 4411392) · 2^(142-127-23)
= 12800000 / 256 = 50000. -/
theorem ofBits_f32_50000 : Ideal.ofBits .f32 0x47435000#32 = ((50000 : ℝ) : EReal) := by
  simp [Ideal.ofBits, Ideal.ieee, -EReal.coe_mul]; norm_num

/-- The real the f32 nearest to 1e-5 denotes: exponent field 110, fraction field 2606508, so
(2^23 + 2606508) · 2^(110-127-23) = 10995116 / 2^40. -/
noncomputable def epsF32 : ℝ := 10995116 / 1099511627776

/-- That real is positive. -/
theorem epsF32_pos : 0 < epsF32 := by unfold epsF32; norm_num

/-- The f32 pattern 0x3727C5AC denotes that real. -/
theorem ofBits_f32_eps : Ideal.ofBits .f32 0x3727C5AC#32 = ((epsF32 : ℝ) : EReal) := by
  unfold epsF32
  simp [Ideal.ofBits, Ideal.ieee, -EReal.coe_mul]; norm_num

/-- The pattern of 0.0 denotes a real. -/
theorem isReal_ofBits_f32_zero : IsReal (Ideal.ofBits .f32 0x00000000#32) :=
  ofBits_f32_zero ▸ isReal_zero
/-- The pattern of 1.0 denotes a real. -/
theorem isReal_ofBits_f32_one : IsReal (Ideal.ofBits .f32 0x3F800000#32) :=
  ofBits_f32_one ▸ isReal_one
/-- The pattern of 50000.0 denotes a real. -/
theorem isReal_ofBits_f32_50000 : IsReal (Ideal.ofBits .f32 0x47435000#32) :=
  ⟨50000, ofBits_f32_50000⟩
/-- The pattern of the f32 nearest to 1e-5 denotes a real. -/
theorem isReal_ofBits_f32_eps : IsReal (Ideal.ofBits .f32 0x3727C5AC#32) :=
  ⟨epsF32, ofBits_f32_eps⟩

end Cert.Lib
-- ==== Proof.LibFiniteInput.lean ====
import Idealize.ShloMosaic.Lib.ReduceAll
import Idealize.ShloMosaic.Lib.IdealHost
import Mathlib.Tactic

/-!
# "Every entry is finite", read back

A finiteness test of an array of extended reals compares the absolute value max x (-x) of each entry
with the f32 pattern of +infinity, which denotes the top element, and reduces the comparisons by
"and". If the reduction is 1 then every entry is strictly between the two infinities, that is, the
coercion of a real number.
-/

namespace Cert.Lib

open Idealize.ShloMosaic

/-- The f32 pattern 0x7F800000 (+infinity) denotes the top extended real. -/
theorem ofBits_f32_inf : Ideal.ofBits .f32 0x7F800000#32 = (⊤ : EReal) := by
  simp [Ideal.ofBits, Ideal.ieee]

/-- An extended real whose absolute value is below the top is a real. -/
theorem exists_real_of_abs_lt_top {x : EReal} (h : max x (-x) < ⊤) : ∃ r : ℝ, x = (r : EReal) := by
  induction x using EReal.rec with
  | bot => simp at h
  | top => simp at h
  | coe r => exact ⟨r, rfl⟩

/-- The comparison "absolute value < +infinity" being 1 says the entry is a real. -/
theorem exists_real_of_cmp_abs_olt_inf {x : EReal}
    (h : Ideal.cmp .olt (max x (-x)) (Ideal.ofBits .f32 0x7F800000#32) = 1#1) :
    ∃ r : ℝ, x = (r : EReal) := by
  rw [ofBits_f32_inf] at h
  apply exists_real_of_abs_lt_top
  by_contra hn
  simp [Ideal.cmp, hn] at h

/-- The array form: where the pointwise comparison of the host's absolute value with an array that is
+infinity everywhere is 1, the entry is a real. -/
theorem exists_real_of_cmpf_absf {s : Shape} (x c : FVec Ideal s .f32)
    (hc : ∀ i, c i = Ideal.ofBits .f32 0x7F800000#32) (i : s.Idx)
    (h : cmpf .olt (Host.absf x) c i = 1#1) : ∃ r : ℝ, x i = (r : EReal) := by
  apply exists_real_of_cmp_abs_olt_inf
  rw [← hc i]
  exact h

/-- **The whole test**: an "and"-reduction, into a result of one index, of the pointwise test
"absolute value < +infinity" that is 1 says every entry of the array is a real. -/
theorem forall_real_of_reduce_andi {s t u : Shape} {axes : List (Fin s.rank)} [Subsingleton t.Idx]
    (x c : FVec Ideal s .f32) (hc : ∀ i, c i = Ideal.ofBits .f32 0x7F800000#32)
    (init : u.Idx → BitVec 1) (h : s.ReducesTo axes t) (hu : 0 < u.numel) (j : t.Idx)
    (e : Host.reduce IntOp.andi (cmpf .olt (Host.absf x) c) init h hu j = 1#1) :
    ∀ i, ∃ r : ℝ, x i = (r : EReal) := fun i =>
  exists_real_of_cmpf_absf x c hc i (Host.reduce_andi_all _ init h hu j e i)

/-- A conjunction of two one-bit words that is 1 has both words 1 (a vector "and" read at an index). -/
theorem andi_apply_eq_one {s : Shape} (a b : IVec s 1) (i : s.Idx) (h : andi a b i = 1#1) :
    a i = 1#1 ∧ b i = 1#1 :=
  IntOp.andi_eq_one.1 h

end Cert.Lib
-- ==== Proof.FiniteInputs.lean ====
import proofs.«135780_j72241349919044_1_alg».proof.Defs
import proofs.«135780_j72241349919044_1_alg».proof.Proof.Gen.Pre_finite_inputs
import proofs.«135780_j72241349919044_1_alg».proof.Proof.LibRealClosed
import proofs.«135780_j72241349919044_1_alg».proof.Proof.LibFiniteInput

/-!
# The precondition says every float argument is an array of reals

The precondition tests, argument by argument, that the absolute value of every entry is below
+infinity, reduces each test by "and" and conjoins the eleven results. If the conjunction is 1 then
each of the eleven float arguments is an array of (coercions of) real numbers.
-/

namespace Cert.FiniteInputs

open Idealize.ShloMosaic Cert.Lib Cert.Pre_finite_inputs

/-- The rank-zero shape has one index. -/
instance subsingleton_S_ : Subsingleton S_.Idx := ⟨fun _ _ => funext fun d => d.elim0⟩

/-- One argument's test: an "and"-reduction to rank zero of "absolute value < +infinity" that is 1
says the array is all-real. -/
theorem allReal_of_test {s : Shape} {axes : List (Fin s.rank)} (x : FVec Ideal s .f32)
    (hb : S_.BroadcastsInDim s (![] : Fin 0 → Fin s.rank)) (hr : s.ReducesTo axes S_)
    (hu : 0 < S_.numel)
    (e : Host.reduce IntOp.andi
        (cmpf .olt (Host.absf x) (broadcastInDim s ![] hb (constant S_ .f32 0x7F800000#32)))
        (constantI S_ 1 1#1) hr hu ValueIdx.ix0 = 1#1) :
    AllReal x :=
  forall_real_of_reduce_andi x _ (fun _ => rfl) _ hr hu _ e

/-- **The precondition's function at the extended reals**, all ones, makes every float argument
all-real. -/
theorem fn_allReal [Facts] (a0 : FVec Ideal S50000x64 .f32) (a1 : IVec S2x800000 32)
    (a2 : FVec Ideal S64x64 .f32) (a3 a4 a5 : FVec Ideal S64 .f32) (a6 : FVec Ideal S64x64 .f32)
    (a7 a8 a9 : FVec Ideal S64 .f32) (a10 : FVec Ideal S64x1 .f32) (a11 : FVec Ideal S1 .f32)
    (h : fn (F := Ideal) a0 a1 a2 a3 a4 a5 a6 a7 a8 a9 a10 a11 = fun _ => 1#1) :
    AllReal a0 ∧ AllReal a2 ∧ AllReal a3 ∧ AllReal a4 ∧ AllReal a5 ∧ AllReal a6 ∧ AllReal a7
      ∧ AllReal a8 ∧ AllReal a9 ∧ AllReal a10 ∧ AllReal a11 := by
  have h0 := congrFun h ValueIdx.ix0
  dsimp only [fn, fn_part1, fn_part2, fn_part3] at h0
  obtain ⟨h48, h52⟩ := andi_apply_eq_one _ _ _ h0
  obtain ⟨h43, h47⟩ := andi_apply_eq_one _ _ _ h48
  obtain ⟨h38, h42⟩ := andi_apply_eq_one _ _ _ h43
  obtain ⟨h33, h37⟩ := andi_apply_eq_one _ _ _ h38
  obtain ⟨h28, h32⟩ := andi_apply_eq_one _ _ _ h33
  obtain ⟨h23, h27⟩ := andi_apply_eq_one _ _ _ h28
  obtain ⟨h18, h22⟩ := andi_apply_eq_one _ _ _ h23
  obtain ⟨h13, h17⟩ := andi_apply_eq_one _ _ _ h18
  obtain ⟨h8, h12⟩ := andi_apply_eq_one _ _ _ h13
  obtain ⟨h3, h7⟩ := andi_apply_eq_one _ _ _ h8
  exact ⟨allReal_of_test _ _ _ _ h3, allReal_of_test _ _ _ _ h7, allReal_of_test _ _ _ _ h12,
    allReal_of_test _ _ _ _ h17, allReal_of_test _ _ _ _ h22, allReal_of_test _ _ _ _ h27,
    allReal_of_test _ _ _ _ h32, allReal_of_test _ _ _ _ h37, allReal_of_test _ _ _ _ h42,
    allReal_of_test _ _ _ _ h47, allReal_of_test _ _ _ _ h52⟩

open Idealize.SL.Sem

/-- The precondition of KernelIdeal, read back: on every device each float argument array is all-real. -/
theorem pre_KernelIdeal_allReal [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : FVec Ideal S50000x64 .f32)
      ∧ AllReal (m ((c.tc : Thread Cert.KernelIdeal.nD Cert.KernelIdeal.τ).loc Cert.KernelIdeal.main_arg2) : FVec Ideal S64x64 .f32)
      ∧ AllReal (m ((c.tc : Thread Cert.KernelIdeal.nD Cert.KernelIdeal.τ).loc Cert.KernelIdeal.main_arg3) : FVec Ideal S64 .f32)
      ∧ AllReal (m ((c.tc : Thread Cert.KernelIdeal.nD Cert.KernelIdeal.τ).loc Cert.KernelIdeal.main_arg4) : FVec Ideal S64 .f32)
      ∧ AllReal (m ((c.tc : Thread Cert.KernelIdeal.nD Cert.KernelIdeal.τ).loc Cert.KernelIdeal.main_arg5) : FVec Ideal S64 .f32)
      ∧ AllReal (m ((c.tc : Thread Cert.KernelIdeal.nD Cert.KernelIdeal.τ).loc Cert.KernelIdeal.main_arg6) : FVec Ideal S64x64 .f32)
      ∧ AllReal (m ((c.tc : Thread Cert.KernelIdeal.nD Cert.KernelIdeal.τ).loc Cert.KernelIdeal.main_arg7) : FVec Ideal S64 .f32)
      ∧ AllReal (m ((c.tc : Thread Cert.KernelIdeal.nD Cert.KernelIdeal.τ).loc Cert.KernelIdeal.main_arg8) : FVec Ideal S64 .f32)
      ∧ AllReal (m ((c.tc : Thread Cert.KernelIdeal.nD Cert.KernelIdeal.τ).loc Cert.KernelIdeal.main_arg9) : FVec Ideal S64 .f32)
      ∧ AllReal (m ((c.tc : Thread Cert.KernelIdeal.nD Cert.KernelIdeal.τ).loc Cert.KernelIdeal.main_arg10) : FVec Ideal S64x1 .f32)
      ∧ AllReal (m ((c.tc : Thread Cert.KernelIdeal.nD Cert.KernelIdeal.τ).loc Cert.KernelIdeal.main_arg11) : FVec Ideal S1 .f32) :=
  fn_allReal _ _ _ _ _ _ _ _ _ _ _ _ (h c)

/-- The precondition of ReferenceIdeal, read back: on every device each float argument array is all-real. -/
theorem pre_ReferenceIdeal_allReal [Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    AllReal (m ((c.tc : Thread Cert.ReferenceIdeal.nD Cert.ReferenceIdeal.τ).loc Cert.ReferenceIdeal.main_arg0) : FVec Ideal S50000x64 .f32)
      ∧ AllReal (m ((c.tc : Thread Cert.ReferenceIdeal.nD Cert.ReferenceIdeal.τ).loc Cert.ReferenceIdeal.main_arg2) : FVec Ideal S64x64 .f32)
      ∧ AllReal (m ((c.tc : Thread Cert.ReferenceIdeal.nD Cert.ReferenceIdeal.τ).loc Cert.ReferenceIdeal.main_arg3) : FVec Ideal S64 .f32)
      ∧ AllReal (m ((c.tc : Thread Cert.ReferenceIdeal.nD Cert.ReferenceIdeal.τ).loc Cert.ReferenceIdeal.main_arg4) : FVec Ideal S64 .f32)
      ∧ AllReal (m ((c.tc : Thread Cert.ReferenceIdeal.nD Cert.ReferenceIdeal.τ).loc Cert.ReferenceIdeal.main_arg5) : FVec Ideal S64 .f32)
      ∧ AllReal (m ((c.tc : Thread Cert.ReferenceIdeal.nD Cert.ReferenceIdeal.τ).loc Cert.ReferenceIdeal.main_arg6) : FVec Ideal S64x64 .f32)
      ∧ AllReal (m ((c.tc : Thread Cert.ReferenceIdeal.nD Cert.ReferenceIdeal.τ).loc Cert.ReferenceIdeal.main_arg7) : FVec Ideal S64 .f32)
      ∧ AllReal (m ((c.tc : Thread Cert.ReferenceIdeal.nD Cert.ReferenceIdeal.τ).loc Cert.ReferenceIdeal.main_arg8) : FVec Ideal S64 .f32)
      ∧ AllReal (m ((c.tc : Thread Cert.ReferenceIdeal.nD Cert.ReferenceIdeal.τ).loc Cert.ReferenceIdeal.main_arg9) : FVec Ideal S64 .f32)
      ∧ AllReal (m ((c.tc : Thread Cert.ReferenceIdeal.nD Cert.ReferenceIdeal.τ).loc Cert.ReferenceIdeal.main_arg10) : FVec Ideal S64x1 .f32)
      ∧ AllReal (m ((c.tc : Thread Cert.ReferenceIdeal.nD Cert.ReferenceIdeal.τ).loc Cert.ReferenceIdeal.main_arg11) : FVec Ideal S1 .f32) :=
  fn_allReal _ _ _ _ _ _ _ _ _ _ _ _ (h c)

end Cert.FiniteInputs
-- ==== Proof.LibVariance.lean ====
import Idealize.ShloMosaic.PureOps.Ideal
import Mathlib.Tactic

/-!
# The two formulas for the (biased) variance agree

For a finite family of REAL numbers x i, i : ι, with n = card ι ≠ 0, the "mean of squares
minus square of the mean" and the "mean of squared deviations" are the same real number, and that
number is ≥ 0. The same statement is then given over the extended reals, in the exact operations
+, -, * of EReal and the quotient Ideal.div, for a family every entry of which is (the
coercion of) a real: over the extended reals the identity is FALSE in general (one infinite entry
makes both sides junk values that differ), so the finiteness hypothesis is needed.
-/

namespace Cert.Lib

open Idealize.ShloMosaic
open scoped BigOperators

/-- Coercion of reals into the extended reals commutes with finite sums. -/
theorem coe_sum_ereal {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor nonzero, computed by Ideal.div on their coercions, is
the coercion of the real quotient. -/
theorem ideal_div_coe (a n : ℝ) (hn : n ≠ 0) :
    Ideal.div (a : EReal) (n : EReal) = ((a / n : ℝ) : EReal) := by
  have h0 : (n : EReal) ≠ 0 := by
    intro h; exact hn (by exact_mod_cast h)
  rw [Ideal.div, if_neg h0, ← EReal.coe_inv, ← EReal.coe_mul, div_eq_mul_inv]

/-- **Variance identity over the reals.** With n = card ι ≠ 0:
(∑ xᵢ²)/n − ((∑ xᵢ)/n)² = (∑ (xᵢ − (∑ x)/n)²)/n. -/
theorem real_variance_identity {ι : Type*} [Fintype ι] (x : ι → ℝ) (n : ℝ) (hn : n ≠ 0)
    (hcard : n = (Fintype.card ι : ℝ)) :
    (∑ i, x i * x i) / n - ((∑ i, x i) / n) * ((∑ i, x i) / n)
      = (∑ i, (x i - (∑ j, x j) / n) * (x i - (∑ j, x j) / n)) / n := by
  set S : ℝ := ∑ i, x i with hS
  have hexp : ∑ i, (x i - S / n) * (x i - S / n)
      = (∑ i, x i * x i) - 2 * (S / n) * S + n * ((S / n) * (S / n)) := by
    have : ∀ i, (x i - S / n) * (x i - S / n)
        = x i * x i - 2 * (S / n) * x i + (S / n) * (S / n) := fun i => by ring
    simp only [this, Finset.sum_add_distrib, Finset.sum_sub_distrib, ← Finset.mul_sum,
      Finset.sum_const, Finset.card_univ, nsmul_eq_mul, ← hcard, ← hS]
    ring
  rw [hexp]
  field_simp
  ring

/-- The mean of squared deviations of a real family is nonnegative when n > 0. -/
theorem real_variance_nonneg {ι : Type*} [Fintype ι] (x : ι → ℝ) (m n : ℝ) (hn : 0 < n) :
    0 ≤ (∑ i, (x i - m) * (x i - m)) / n :=
  div_nonneg (Finset.sum_nonneg fun i _ => mul_self_nonneg _) hn.le

/-- **Variance identity over the extended reals**, in the operations +, -, * of EReal
and the quotient Ideal.div. For a family x of extended reals each of which is a real, with
n = card ι ≠ 0 and M := Ideal.div (∑ x) n the mean: there is a real v ≥ 0 with

* Ideal.div (∑ xᵢ·xᵢ) n − M·M = v (mean of squares minus square of mean) and
* Ideal.div (∑ (xᵢ − M)·(xᵢ − M)) n = v (mean of squared deviations). -/
theorem ereal_variance_identity {ι : Type*} [Fintype ι] (x : ι → EReal)
    (hx : ∀ i, ∃ r : ℝ, x i = (r : EReal)) (n : ℝ) (hn : n ≠ 0)
    (hcard : n = (Fintype.card ι : ℝ)) :
    ∃ v : ℝ, 0 ≤ v ∧
      Ideal.div (∑ i, x i * x i) (n : EReal)
          - Ideal.div (∑ i, x i) (n : EReal) * Ideal.div (∑ i, x i) (n : EReal) = (v : EReal) ∧
      Ideal.div (∑ i, (x i - Ideal.div (∑ j, x j) (n : EReal))
          * (x i - Ideal.div (∑ j, x j) (n : EReal))) (n : EReal) = (v : EReal) := by
  choose r hr using hx
  have hx' : x = fun i => (r i : EReal) := funext hr
  subst hx'
  have hnpos : 0 < n := by
    rcases lt_or_gt_of_ne hn with h | h
    · exfalso; rw [hcard] at h; exact absurd h (not_lt.mpr (Nat.cast_nonneg _))
    · exact h
  have hsum : (∑ i, (r i : EReal)) = ((∑ i, r i : ℝ) : EReal) := (coe_sum_ereal _ _).symm
  have hsq : (∑ i, (r i : EReal) * (r i : EReal)) = ((∑ i, r i * r i : ℝ) : EReal) := by
    rw [coe_sum_ereal]; exact Finset.sum_congr rfl fun i _ => (EReal.coe_mul _ _).symm
  have hM : Ideal.div (∑ i, (r i : EReal)) (n : EReal) = (((∑ i, r i) / n : ℝ) : EReal) := by
    rw [hsum, ideal_div_coe _ _ hn]
  have hdev : (∑ i, ((r i : EReal) - (((∑ j, r j) / n : ℝ) : EReal))
        * ((r i : EReal) - (((∑ j, r j) / n : ℝ) : EReal)))
      = ((∑ i, (r i - (∑ j, r j) / n) * (r i - (∑ j, r j) / n) : ℝ) : EReal) := by
    rw [coe_sum_ereal]
    exact Finset.sum_congr rfl fun i _ => by rw [← EReal.coe_sub, ← EReal.coe_mul]
  refine ⟨(∑ i, (r i - (∑ j, r j) / n) * (r i - (∑ j, r j) / n)) / n,
    real_variance_nonneg _ _ _ hnpos, ?_, ?_⟩
  · rw [hM, hsq, ideal_div_coe _ _ hn, ← EReal.coe_mul, ← EReal.coe_sub,
      real_variance_identity r n hn hcard]
  · rw [hM, hdev, ideal_div_coe _ _ hn]

/-- The two variance formulas over the extended reals are equal (the existential of
ereal_variance_identity eliminated). -/
theorem ereal_variance_eq {ι : Type*} [Fintype ι] (x : ι → EReal)
    (hx : ∀ i, ∃ r : ℝ, x i = (r : EReal)) (n : ℝ) (hn : n ≠ 0)
    (hcard : n = (Fintype.card ι : ℝ)) :
    Ideal.div (∑ i, x i * x i) (n : EReal)
        - Ideal.div (∑ i, x i) (n : EReal) * Ideal.div (∑ i, x i) (n : EReal)
      = Ideal.div (∑ i, (x i - Ideal.div (∑ j, x j) (n : EReal))
          * (x i - Ideal.div (∑ j, x j) (n : EReal))) (n : EReal) := by
  obtain ⟨v, _, h1, h2⟩ := ereal_variance_identity x hx n hn hcard
  rw [h1, h2]

/-- Subtracting the extended real zero from a real changes nothing: the divisor n − 0 of a
variance with zero "degrees of freedom" correction is n. -/
theorem coe_sub_zero_ereal (n : ℝ) : (n : EReal) - (0 : EReal) = (n : EReal) := by
  rw [← EReal.coe_zero, ← EReal.coe_sub, sub_zero]

/-- ereal_variance_identity with the second divisor written n − 0. -/
theorem ereal_variance_identity_sub_zero {ι : Type*} [Fintype ι] (x : ι → EReal)
    (hx : ∀ i, ∃ r : ℝ, x i = (r : EReal)) (n : ℝ) (hn : n ≠ 0)
    (hcard : n = (Fintype.card ι : ℝ)) :
    ∃ v : ℝ, 0 ≤ v ∧
      Ideal.div (∑ i, x i * x i) (n : EReal)
          - Ideal.div (∑ i, x i) (n : EReal) * Ideal.div (∑ i, x i) (n : EReal) = (v : EReal) ∧
      Ideal.div (∑ i, (x i - Ideal.div (∑ j, x j) (n : EReal))
          * (x i - Ideal.div (∑ j, x j) (n : EReal))) ((n : EReal) - (0 : EReal)) = (v : EReal) := by
  rw [coe_sub_zero_ereal]
  exact ereal_variance_identity x hx n hn hcard

/-- The literal instance: 50000 rows. -/
theorem ereal_variance_identity_50000 (x : Fin 50000 → EReal)
    (hx : ∀ i, ∃ r : ℝ, x i = (r : EReal)) :
    ∃ v : ℝ, 0 ≤ v ∧
      Ideal.div (∑ i, x i * x i) ((50000 : ℝ) : EReal)
          - Ideal.div (∑ i, x i) ((50000 : ℝ) : EReal) * Ideal.div (∑ i, x i) ((50000 : ℝ) : EReal)
        = (v : EReal) ∧
      Ideal.div (∑ i, (x i - Ideal.div (∑ j, x j) ((50000 : ℝ) : EReal))
          * (x i - Ideal.div (∑ j, x j) ((50000 : ℝ) : EReal)))
          (((50000 : ℝ) : EReal) - (0 : EReal)) = (v : EReal) :=
  ereal_variance_identity_sub_zero x hx 50000 (by norm_num) (by simp)

end Cert.Lib
-- ==== Proof.RefClosed.lean ====
import proofs.«135780_j72241349919044_1_alg».proof.Proof.RefValue
import proofs.«135780_j72241349919044_1_alg».proof.Proof.LibRealClosed
import proofs.«135780_j72241349919044_1_alg».proof.Proof.LibVariance
import Idealize.ShloMosaic.Lib.IdealHost
import Idealize.ShloMosaic.Lib.Pipeline.Value

/-!
# The reference's stages over the extended reals, read at an index

Each stage of the reference (a matrix product, the column means and variances over the 50000 rows,
the batch normalisation with its rectifier, the graph convolution's combination) is read at an index
as an expression in sums, products and quotients of extended reals. The column variance, which the
reference computes as the mean of the squared deviations from the column mean, is shown equal to the
mean of the squares minus the square of the mean whenever every entry of the array is a real; and
"every entry is a real" is carried from the arguments through every stage.
-/

noncomputable section

namespace Cert.ReferenceIdeal.RefRun

open Cert.ReferenceIdeal Cert.ReferenceIdeal.Gen Idealize.ShloMosaic Idealize.ShloMosaic.ValueIdx Cert.Lib
open scoped BigOperators

/-! ## Broadcasts read at an index -/

/-- A row of 64 spread over the 50000 rows reads its own column. -/
theorem bcast_row_apply {α : Type} (X : S1x64.Idx → α) (r : Fin 50000) (c : Fin 64) :
    broadcastInDim S50000x64 ![0, 1] bcast_S1x64_S50000x64_0_1 X (ix2 r c) = X (ix2 (0 : Fin 1) c) :=
  broadcastInDim_apply _ _ X _ _ fun a => by fin_cases a <;> rfl

/-- A vector of 64 as a 1×64 row. -/
theorem bcast_vec_row_apply {α : Type} (v : S64.Idx → α) (c : Fin 64) :
    broadcastInDim S1x64 ![1] bcast_S64_S1x64_1 v (ix2 (0 : Fin 1) c) = v (ix1 c) :=
  broadcastInDim_apply _ _ v _ _ fun a => by fin_cases a; rfl

/-- A vector of 64 spread over the 50000 rows reads its own column. -/
theorem bcast_vec_rows_apply {α : Type} (v : S64.Idx → α) (r : Fin 50000) (c : Fin 64) :
    broadcastInDim S50000x64 ![0, 1] bcast_S1x64_S50000x64_0_1
      (broadcastInDim S1x64 ![1] bcast_S64_S1x64_1 v) (ix2 r c) = v (ix1 c) := by
  rw [bcast_row_apply, bcast_vec_row_apply]

/-- A vector of 50000 as a column, spread over the 64 columns, reads its own row. -/
theorem bcast_col_apply {α : Type} (v : S50000.Idx → α) (r : Fin 50000) (c : Fin 64) :
    broadcastInDim S50000x64 ![0, 1] bcast_S50000x1_S50000x64_0_1
      (broadcastInDim S50000x1 ![0] bcast_S50000_S50000x1_0 v) (ix2 r c) = v (ix1 r) := by
  refine (broadcastInDim_apply _ _ _ _ (ix2 r (0 : Fin 1)) fun a => by fin_cases a <;> rfl).trans ?_
  exact broadcastInDim_apply _ _ v _ _ fun a => by fin_cases a; rfl

/-! ## Column sums, means and variances -/

/-- The sum over the 50000 rows, from the zero constant, read at column c. -/
theorem reduceAdd_rows_apply (P : FVec Ideal S50000x64 .f32) (c : Fin 64) :
    Host.reduceAdd P (constant (F := Ideal) S_ .f32 0x00000000#32) reducesTo_S50000x64_S64_d0 h_S_ (ix1 c)
      = ∑ r : Fin 50000, P (ix2 r c) := by
  have hR : S50000x64.Reduces [0] S64 := by decide
  refine (Ideal.hostReduceAdd_single reducesTo_S50000x64_S64_d0 hR P _ (ix1 c)).trans ?_
  refine (congrArg (· + _) Ideal.ofBits_zero_f32).trans ((zero_add _).trans ?_)
  exact Finset.sum_congr rfl fun r _ => congrArg P (funext fun a => by fin_cases a <;> exact Fin.ext rfl)

/-- The column mean read at column c: the column sum over 50000. -/
theorem colMean_apply (P : FVec Ideal S50000x64 .f32) (c : Fin 64) :
    colMean (F := Ideal) P (ix1 c) = Ideal.div (∑ r : Fin 50000, P (ix2 r c)) ((50000 : ℝ) : EReal) :=
  congrArg₂ Ideal.div (reduceAdd_rows_apply P c) ofBits_f32_50000

/-- The column means as the variance computes them (a 1×64 row), read at column c. -/
theorem varMean_apply (P : FVec Ideal S50000x64 .f32) (c : Fin 64) :
    varMean (F := Ideal) P (ix2 (0 : Fin 1) c)
      = Ideal.div (∑ r : Fin 50000, P (ix2 r c)) ((50000 : ℝ) : EReal) :=
  congrArg₂ Ideal.div ((bcast_vec_row_apply _ c).trans (reduceAdd_rows_apply P c)) ofBits_f32_50000

/-- It is the column mean. -/
theorem varMean_eq_colMean (P : FVec Ideal S50000x64 .f32) (c : Fin 64) :
    varMean (F := Ideal) P (ix2 (0 : Fin 1) c) = colMean (F := Ideal) P (ix1 c) :=
  (varMean_apply P c).trans (colMean_apply P c).symm

/-- An entry minus its column's mean. -/
theorem centred_apply (P : FVec Ideal S50000x64 .f32) (r : Fin 50000) (c : Fin 64) :
    centred (F := Ideal) P (ix2 r c)
      = P (ix2 r c) - Ideal.div (∑ r' : Fin 50000, P (ix2 r' c)) ((50000 : ℝ) : EReal) :=
  congrArg (P (ix2 r c) - ·) ((bcast_row_apply _ r c).trans (varMean_apply P c))

/-- The variance's divisor, 50000 minus the integer 0 converted, is 50000. -/
theorem varDenom_eq (j : S_.Idx) : varDenom (F := Ideal) j = ((50000 : ℝ) : EReal) := by
  show Ideal.ofBits .f32 0x47435000#32 - ((((0#32 : BitVec 32).toInt : ℝ)) : EReal) = _
  rw [ofBits_f32_50000, show (0#32 : BitVec 32).toInt = 0 from rfl, Int.cast_zero, EReal.coe_zero,
    coe_sub_zero_ereal]

/-- The divisor is positive: the test that guards the quotient answers 1. -/
theorem varDenom_test (j : S_.Idx) :
    cmpf .ogt (varDenom (F := Ideal)) (constant (F := Ideal) S_ .f32 0x00000000#32) j = 1#1 := by
  show Ideal.cmp .ogt (varDenom (F := Ideal) j) (Ideal.ofBits .f32 0x00000000#32) = 1#1
  rw [varDenom_eq, Ideal.ofBits_zero_f32]
  have h : (0 : EReal) < ((50000 : ℝ) : EReal) := EReal.coe_pos.mpr (by norm_num)
  simp [Ideal.cmp, h]

/-- **The column variance as the reference computes it**, read at column c: the sum over the rows of the
squared deviations from the column mean, over 50000 (the guard decided). -/
theorem colVar_apply (P : FVec Ideal S50000x64 .f32) (c : Fin 64) :
    colVar (F := Ideal) P (ix1 c)
      = Ideal.div (∑ r : Fin 50000,
            (P (ix2 r c) - Ideal.div (∑ r' : Fin 50000, P (ix2 r' c)) ((50000 : ℝ) : EReal))
              * (P (ix2 r c) - Ideal.div (∑ r' : Fin 50000, P (ix2 r' c)) ((50000 : ℝ) : EReal)))
          ((50000 : ℝ) : EReal) := by
  unfold colVar
  rw [select_apply, broadcastInDim_scalar_apply, varDenom_test, select_one]
  refine congrArg₂ Ideal.div ((reduceAdd_rows_apply _ c).trans (Finset.sum_congr rfl fun r _ => ?_))
    ((broadcastInDim_scalar_apply _ _ _).trans (varDenom_eq _))
  rw [mulf_apply, centred_apply]

/-- **The variance identity at the reference's column variance**: when every entry of P is a real, the
reference's column variance is the mean of the squares minus the square of the column mean. -/
theorem colVar_eq_meanSq_sub_sqMean (P : FVec Ideal S50000x64 .f32) (hP : AllReal P) (c : Fin 64) :
    colVar (F := Ideal) P (ix1 c)
      = Ideal.div (∑ r : Fin 50000, P (ix2 r c) * P (ix2 r c)) ((50000 : ℝ) : EReal)
          - colMean (F := Ideal) P (ix1 c) * colMean (F := Ideal) P (ix1 c) := by
  rw [colVar_apply, colMean_apply]
  exact (ereal_variance_eq (fun r : Fin 50000 => P (ix2 r c)) (fun r => hP (ix2 r c)) 50000
    (by norm_num) (by simp)).symm

/-- When every entry of P is a real, the column variance is a nonnegative real. -/
theorem colVar_real_nonneg (P : FVec Ideal S50000x64 .f32) (hP : AllReal P) (c : Fin 64) :
    ∃ v : ℝ, 0 ≤ v ∧ colVar (F := Ideal) P (ix1 c) = (v : EReal) := by
  obtain ⟨v, hv, _, h2⟩ := ereal_variance_identity (fun r : Fin 50000 => P (ix2 r c))
    (fun r => hP (ix2 r c)) 50000 (by norm_num) (by simp)
  exact ⟨v, hv, (colVar_apply P c).trans h2⟩

/-- When every entry of P is a real, so is every column mean. -/
theorem colMean_real (P : FVec Ideal S50000x64 .f32) (hP : AllReal P) (c : Fin 64) :
    IsReal (colMean (F := Ideal) P (ix1 c)) := by
  rw [colMean_apply]
  exact (isReal_sum _ _ fun r _ => hP (ix2 r c)).div_coe (by norm_num)

/-! ## "Every entry is a real", stage by stage -/

/-- A broadcast only re-indexes. -/
theorem allReal_bcast {s t : Shape} (dims : Fin s.rank → Fin t.rank) (h : s.BroadcastsInDim t dims)
    {x : s.Idx → EReal} (hx : AllReal x) : AllReal (broadcastInDim t dims h x) := fun _ => hx _

/-- The zero splat at any shape reads zero. -/
theorem zeros_apply {t : Shape} (h : S_.BroadcastsInDim t ![]) (i : t.Idx) :
    broadcastInDim t ![] h (constant (F := Ideal) S_ .f32 0x00000000#32) i = 0 :=
  (broadcastInDim_scalar_apply h _ i).trans ((constant_apply _ _).trans Ideal.ofBits_zero_f32)

/-- The one splat at any shape reads one. -/
theorem ones_apply {t : Shape} (h : S_.BroadcastsInDim t ![]) (i : t.Idx) :
    broadcastInDim t ![] h (constant (F := Ideal) S_ .f32 0x3F800000#32) i = 1 :=
  (broadcastInDim_scalar_apply h _ i).trans ((constant_apply _ _).trans Ideal.ofBits_one_f32)

/-- The zero splat at any shape is all-real. -/
theorem allReal_zeros {t : Shape} (h : S_.BroadcastsInDim t ![]) :
    AllReal (broadcastInDim t ![] h (constant (F := Ideal) S_ .f32 0x00000000#32)) :=
  fun i => (zeros_apply h i).symm ▸ isReal_zero

/-- The one splat at any shape is all-real. -/
theorem allReal_ones {t : Shape} (h : S_.BroadcastsInDim t ![]) :
    AllReal (broadcastInDim t ![] h (constant (F := Ideal) S_ .f32 0x3F800000#32)) :=
  fun i => (ones_apply h i).symm ▸ isReal_one

/-- The number of edges ending at each node: ones summed into zeros at the destinations. -/
def degCount (dst : (⟨S800000, .i32⟩ : BufTy).Contents (Elt Ideal)) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The degree with the self loop: the count plus one. -/
def degPlusOne (dst : (⟨S800000, .i32⟩ : BufTy).Contents (Elt Ideal)) : FVec Ideal S50000 .f32 :=
  addf (degCount dst)
    (broadcastInDim S50000 ![] bcast_S_S50000 (constant (F := Ideal) S_ .f32 0x3F800000#32))

theorem degInv_eq (dst : (⟨S800000, .i32⟩ : BufTy).Contents (Elt Ideal)) :
    degInv (F := Ideal) dst = Host.rsqrt (degPlusOne dst) := rfl

theorem allReal_degCount (dst : (⟨S800000, .i32⟩ : BufTy).Contents (Elt Ideal)) :
    AllReal (degCount dst) :=
  allReal_host_scatterAdd _ _ (allReal_zeros _) (allReal_ones _)

theorem degCount_nonneg (dst : (⟨S800000, .i32⟩ : BufTy).Contents (Elt Ideal)) (i : S50000.Idx) :
    0 ≤ degCount dst i :=
  host_scatterAdd_nonneg _ _ (fun k => (zeros_apply _ k).ge)
    (fun j => zero_le_one.trans (ones_apply _ j).ge) i

theorem degPlusOne_apply (dst : (⟨S800000, .i32⟩ : BufTy).Contents (Elt Ideal)) (i : S50000.Idx) :
    degPlusOne dst i = degCount dst i + 1 :=
  (addf_apply _ _ i).trans (congrArg (degCount dst i + ·) (ones_apply _ i))

/-- The degree plus one is all-real, whatever the edge list. -/
theorem allReal_degPlusOne (dst : (⟨S800000, .i32⟩ : BufTy).Contents (Elt Ideal)) :
    AllReal (degPlusOne dst) :=
  allReal_addf (allReal_degCount dst) (allReal_ones _)

/-- The degree plus one is positive (it is at least one). -/
theorem degPlusOne_pos (dst : (⟨S800000, .i32⟩ : BufTy).Contents (Elt Ideal)) (i : S50000.Idx) :
    0 < degPlusOne dst i := by
  rw [degPlusOne_apply]
  exact pos_of_nonneg_add_one (degCount_nonneg dst i)

/-- **The inverse square-root degrees are all-real**, whatever the edge list. -/
theorem allReal_degInv (dst : (⟨S800000, .i32⟩ : BufTy).Contents (Elt Ideal)) :
    AllReal (degInv (F := Ideal) dst) := by
  rw [degInv_eq]
  exact allReal_host_rsqrt (allReal_degPlusOne dst) (degPlusOne_pos dst)

/-- … and positive. -/
theorem degInv_pos (dst : (⟨S800000, .i32⟩ : BufTy).Contents (Elt Ideal)) (i : S50000.Idx) :
    0 < degInv (F := Ideal) dst i := by
  rw [degInv_eq]
  exact host_rsqrt_pos (allReal_degPlusOne dst) (degPlusOne_pos dst) i

/-- The splat of the stabilising constant at any shape reads the positive real it denotes. -/
theorem eps_apply {t : Shape} (h : S_.BroadcastsInDim t ![]) (i : t.Idx) :
    broadcastInDim t ![] h (constant (F := Ideal) S_ .f32 0x3727C5AC#32) i = ((epsF32 : ℝ) : EReal) :=
  (broadcastInDim_scalar_apply h _ i).trans ((constant_apply _ _).trans ofBits_f32_eps)

theorem allReal_eps {t : Shape} (h : S_.BroadcastsInDim t ![]) :
    AllReal (broadcastInDim t ![] h (constant (F := Ideal) S_ .f32 0x3727C5AC#32)) :=
  fun i => (eps_apply h i).symm ▸ isReal_coe epsF32

section Stages
variable (src dst : (⟨S800000, .i32⟩ : BufTy).Contents (Elt Ideal)) {dinv : FVec Ideal S50000 .f32}

theorem allReal_edgeNorm (hd : AllReal dinv) : AllReal (edgeNorm (F := Ideal) dinv src dst) :=
  allReal_mulf (allReal_host_gather _ hd _) (allReal_host_gather _ hd _)

theorem allReal_lin64 {h : FVec Ideal S50000x64 .f32} {W : FVec Ideal S64x64 .f32} (hh : AllReal h)
    (hW : AllReal W) : AllReal (lin64 (F := Ideal) h W) :=
  allReal_host_dotGeneral _ _ hh hW

theorem allReal_agg64 {hw : FVec Ideal S50000x64 .f32} (hhw : AllReal hw) (hd : AllReal dinv) :
    AllReal (agg64 (F := Ideal) hw src dst dinv) :=
  allReal_host_scatterAdd _ _ (allReal_zeros _)
    (allReal_mulf (allReal_host_gather _ hhw _)
      (allReal_bcast _ _ (allReal_bcast _ _ (allReal_edgeNorm src dst hd))))

/-- The 64-wide graph convolution keeps arrays all-real. -/
theorem allReal_pre64 {h : FVec Ideal S50000x64 .f32} {W : FVec Ideal S64x64 .f32}
    {b : FVec Ideal S64 .f32} (hh : AllReal h) (hW : AllReal W) (hb : AllReal b) (hd : AllReal dinv) :
    AllReal (pre64 (F := Ideal) h W b src dst dinv) :=
  allReal_addf
    (allReal_addf (allReal_agg64 src dst (allReal_lin64 hh hW) hd)
      (allReal_mulf (allReal_lin64 hh hW) (allReal_bcast _ _ (allReal_bcast _ _ (allReal_mulf hd hd)))))
    (allReal_bcast _ _ (allReal_bcast _ _ hb))

end Stages

section Norm

theorem allReal_colMean {P : FVec Ideal S50000x64 .f32} (hP : AllReal P) :
    AllReal (colMean (F := Ideal) P) := fun j => by
  obtain ⟨c, rfl⟩ : ∃ c : Fin 64, j = ix1 c := ⟨j 0, eq_ix1 j⟩
  exact colMean_real P hP c

theorem allReal_colVar {P : FVec Ideal S50000x64 .f32} (hP : AllReal P) :
    AllReal (colVar (F := Ideal) P) := fun j => by
  obtain ⟨c, rfl⟩ : ∃ c : Fin 64, j = ix1 c := ⟨j 0, eq_ix1 j⟩
  obtain ⟨v, _, h⟩ := colVar_real_nonneg P hP c
  exact ⟨v, h⟩

/-- The variance plus the stabilising constant is positive. -/
theorem colVar_add_eps_pos {P : FVec Ideal S50000x64 .f32} (hP : AllReal P) (j : S64.Idx) :
    0 < addf (colVar (F := Ideal) P)
      (broadcastInDim S64 ![] bcast_S_S64 (constant (F := Ideal) S_ .f32 0x3727C5AC#32)) j := by
  obtain ⟨c, rfl⟩ : ∃ c : Fin 64, j = ix1 c := ⟨j 0, eq_ix1 j⟩
  obtain ⟨v, hv, h⟩ := colVar_real_nonneg P hP c
  rw [addf_apply, eps_apply, h, ← EReal.coe_add]
  exact EReal.coe_pos.mpr (add_pos_of_nonneg_of_pos hv epsF32_pos)

/-- Batch normalisation with all-real means, scales and shifts, and variances whose sum with the
stabilising constant is positive, then the rectifier, keeps an array all-real. -/
theorem allReal_bnRelu {P : FVec Ideal S50000x64 .f32} {mean var g be : FVec Ideal S64 .f32}
    (hP : AllReal P) (hm : AllReal mean) (hv : AllReal var)
    (hpos : ∀ j, 0 < addf var
      (broadcastInDim S64 ![] bcast_S_S64 (constant (F := Ideal) S_ .f32 0x3727C5AC#32)) j)
    (hg : AllReal g) (hbe : AllReal be) : AllReal (bnRelu (F := Ideal) P mean var g be) :=
  allReal_maximumf
    (allReal_addf
      (allReal_mulf
        (allReal_mulf (allReal_bcast _ _ (allReal_bcast _ _ hg))
          (allReal_subf hP (allReal_bcast _ _ (allReal_bcast _ _ hm))))
        (allReal_bcast _ _ (allReal_bcast _ _
          (allReal_host_rsqrt (allReal_addf hv (allReal_eps _)) hpos))))
      (allReal_bcast _ _ (allReal_bcast _ _ hbe)))
    (allReal_zeros _)

theorem allReal_bn64 {P : FVec Ideal S50000x64 .f32} {g be : FVec Ideal S64 .f32} (hP : AllReal P)
    (hg : AllReal g) (hbe : AllReal be) : AllReal (bn64 (F := Ideal) P g be) :=
  allReal_bnRelu hP (allReal_colMean hP) (allReal_colVar hP) (colVar_add_eps_pos hP) hg hbe

/-- **One hidden layer keeps arrays all-real.** -/
theorem allReal_layer64 (src dst : (⟨S800000, .i32⟩ : BufTy).Contents (Elt Ideal))
    {dinv : FVec Ideal S50000 .f32} {h : FVec Ideal S50000x64 .f32} {W : FVec Ideal S64x64 .f32}
    {b g be : FVec Ideal S64 .f32} (hh : AllReal h) (hW : AllReal W) (hb : AllReal b) (hg : AllReal g)
    (hbe : AllReal be) (hd : AllReal dinv) :
    AllReal (layer64 (F := Ideal) h W b g be src dst dinv) :=
  allReal_bn64 (allReal_pre64 src dst hh hW hb hd) hg hbe

end Norm

/-! ## The two hidden layers of the reference, all-real from all-real arguments -/

section Layers
variable (x : FVec Ideal S50000x64 .f32) (e : (⟨S2x800000, .i32⟩ : BufTy).Contents (Elt Ideal))
  (W1 : FVec Ideal S64x64 .f32) (b1 g1 be1 : FVec Ideal S64 .f32)
  (Wh : FVec Ideal S64x64 .f32) (bh gh beh : FVec Ideal S64 .f32)

/-- The first layer's pre-activation (what its batch normalisation takes the mean and variance of). -/
theorem allReal_P1 (hx : AllReal x) (hW1 : AllReal W1) (hb1 : AllReal b1) :
    AllReal (pre64 (F := Ideal) x W1 b1 (srcOf e) (dstOf e) (degInv (dstOf e))) :=
  allReal_pre64 _ _ hx hW1 hb1 (allReal_degInv _)

/-- The first hidden layer's output. -/
theorem allReal_h1 (hx : AllReal x) (hW1 : AllReal W1) (hb1 : AllReal b1) (hg1 : AllReal g1)
    (hbe1 : AllReal be1) :
    AllReal (layer64 (F := Ideal) x W1 b1 g1 be1 (srcOf e) (dstOf e) (degInv (dstOf e))) :=
  allReal_layer64 _ _ hx hW1 hb1 hg1 hbe1 (allReal_degInv _)

/-- The second layer's pre-activation. -/
theorem allReal_P2 (hx : AllReal x) (hW1 : AllReal W1) (hb1 : AllReal b1) (hg1 : AllReal g1)
    (hbe1 : AllReal be1) (hWh : AllReal Wh) (hbh : AllReal bh) :
    AllReal (pre64 (F := Ideal)
      (layer64 (F := Ideal) x W1 b1 g1 be1 (srcOf e) (dstOf e) (degInv (dstOf e)))
      Wh bh (srcOf e) (dstOf e) (degInv (dstOf e))) :=
  allReal_pre64 _ _ (allReal_h1 x e W1 b1 g1 be1 hx hW1 hb1 hg1 hbe1) hWh hbh (allReal_degInv _)

end Layers

/-! ## The remaining stages read at an index -/

theorem host_rsqrt_apply {s : Shape} (v : FVec Ideal s .f32) (i : s.Idx) :
    Host.rsqrt v i = Ideal.rsqrt (v i) := rfl

/-- Batch normalisation and the rectifier at row r, column c, in the reference's association. -/
theorem bnRelu_apply (P : FVec Ideal S50000x64 .f32) (mean var g be : FVec Ideal S64 .f32)
    (r : Fin 50000) (c : Fin 64) :
    bnRelu (F := Ideal) P mean var g be (ix2 r c)
      = max (g (ix1 c) * (P (ix2 r c) - mean (ix1 c))
              * Ideal.rsqrt (var (ix1 c) + ((epsF32 : ℝ) : EReal)) + be (ix1 c)) 0 := by
  unfold bnRelu
  rw [maximumf_apply, addf_apply, mulf_apply, mulf_apply, subf_apply, zeros_apply,
    bcast_vec_rows_apply, bcast_vec_rows_apply, bcast_vec_rows_apply, bcast_vec_rows_apply,
    host_rsqrt_apply, addf_apply, eps_apply]

/-- The 64-wide graph convolution's combination at row r, column c, in the reference's association:
the neighbour sum, plus the node's own row of h·W times its squared inverse square-root degree, plus
the bias. -/
theorem pre64_apply (h : FVec Ideal S50000x64 .f32) (W : FVec Ideal S64x64 .f32)
    (b : FVec Ideal S64 .f32) (src dst : (⟨S800000, .i32⟩ : BufTy).Contents (Elt Ideal))
    (dinv : FVec Ideal S50000 .f32) (r : Fin 50000) (c : Fin 64) :
    pre64 (F := Ideal) h W b src dst dinv (ix2 r c)
      = agg64 (F := Ideal) (lin64 (F := Ideal) h W) src dst dinv (ix2 r c)
        + lin64 (F := Ideal) h W (ix2 r c) * (dinv (ix1 r) * dinv (ix1 r)) + b (ix1 c) := by
  unfold pre64
  rw [addf_apply, addf_apply, mulf_apply, bcast_col_apply, bcast_vec_rows_apply, mulf_apply]

/-- The product with a 64×64 weight matrix at row r, column c: the sum over the 64 contracted
coordinates. -/
theorem lin64_apply (h : FVec Ideal S50000x64 .f32) (W : FVec Ideal S64x64 .f32) (r : Fin 50000)
    (c : Fin 64) :
    lin64 (F := Ideal) h W (ix2 r c) = ∑ k : Fin 64, h (ix2 r k) * W (ix2 k c) := by
  have hr : dot_S50000x64_S64x64_S50000x64_1_0_0_1_n_n.contr.rank = 1 := rfl
  have hs : dot_S50000x64_S64x64_S50000x64_1_0_0_1_n_n.contr.size ⟨0, by omega⟩ = 64 := rfl
  refine (Ideal.dotGeneral_apply dot_S50000x64_S64x64_S50000x64_1_0_0_1_n_n none .single h W
    (ix2 r c)).trans ?_
  rw [← Equiv.sum_comp (contrEquiv1 dot_S50000x64_S64x64_S50000x64_1_0_0_1_n_n 64 hr hs).symm]
  refine Finset.sum_congr rfl fun k _ => congrArg₂ (· * ·) (congrArg h ?_) (congrArg W ?_)
  · funext a; fin_cases a <;> exact Fin.ext rfl
  · funext a; fin_cases a <;> exact Fin.ext rfl

/-- The product with the 64×1 weight column at row r: the sum over the 64 contracted coordinates. -/
theorem lin1_apply (h : FVec Ideal S50000x64 .f32) (W : FVec Ideal S64x1 .f32) (r : Fin 50000) :
    lin1 (F := Ideal) h W (ix2 r (0 : Fin 1)) = ∑ k : Fin 64, h (ix2 r k) * W (ix2 k (0 : Fin 1)) := by
  have hr : dot_S50000x64_S64x1_S50000x1_1_0_0_1_n_n.contr.rank = 1 := rfl
  have hs : dot_S50000x64_S64x1_S50000x1_1_0_0_1_n_n.contr.size ⟨0, by omega⟩ = 64 := rfl
  refine (Ideal.dotGeneral_apply dot_S50000x64_S64x1_S50000x1_1_0_0_1_n_n none .single h W
    (ix2 r (0 : Fin 1))).trans ?_
  rw [← Equiv.sum_comp (contrEquiv1 dot_S50000x64_S64x1_S50000x1_1_0_0_1_n_n 64 hr hs).symm]
  refine Finset.sum_congr rfl fun k _ => congrArg₂ (· * ·) (congrArg h ?_) (congrArg W ?_)
  · funext a; fin_cases a <;> exact Fin.ext rfl
  · funext a; fin_cases a <;> exact Fin.ext rfl

end Cert.ReferenceIdeal.RefRun

end
-- ==== Proof.BridgeHost.lean ====
/-
  The two programs' shared host stages are the same functions: the kernel program's and the reference's definitions
  of the edge list's rows, the index wrap, the inverse square-root degrees, the edges' weights and the weighted
  neighbour sums are equal (the same operations over equal shapes and dimension records); a vector read as a one-row
  array is its broadcast along the new axis; the squared degrees read as a column are their broadcast to a column; and
  dividing a row of column sums by 50000 is dividing the vector of column sums by 50000, read as a row.
-/
import proofs.«135780_j72241349919044_1_alg».proof.Proof.RefValue
import proofs.«135780_j72241349919044_1_alg».proof.Proof.KI.HostSpec
import Idealize.ShloMosaic.Lib.Pipeline.Value
import Idealize.ShloMosaic.Lib.ValueIdx

noncomputable section

namespace Cert.BridgeHost

open Idealize.ShloMosaic Idealize.ShloMosaic.ValueIdx

variable {F : FTy → Type} [FloatOps F]

/-- The sources: the same row of the same edge list. -/
theorem srcOf_eq : (Cert.KernelIdeal.HostRead.srcOf (F := F)) = Cert.ReferenceIdeal.RefRun.srcOf := rfl
/-- The destinations. -/
theorem dstOf_eq : (Cert.KernelIdeal.HostRead.dstOf (F := F)) = Cert.ReferenceIdeal.RefRun.dstOf := rfl
/-- The wrap of negative node numbers and the column of gather indices. -/
theorem wrapIdx_eq : (Cert.KernelIdeal.HostRead.wrapIdx (F := F)) = Cert.ReferenceIdeal.RefRun.wrapIdx := rfl
/-- The inverse square-root degrees. -/
theorem degInv_eq : (Cert.KernelIdeal.HostRead.degInv (F := F)) = Cert.ReferenceIdeal.RefRun.degInv := rfl
/-- The edges' weights. -/
theorem edgeNorm_eq : (Cert.KernelIdeal.HostRead.edgeNorm (F := F)) = Cert.ReferenceIdeal.RefRun.edgeNorm := rfl
/-- The weighted neighbour sum at width 64. -/
theorem agg64_eq : (Cert.KernelIdeal.HostRead.agg64 (F := F)) = Cert.ReferenceIdeal.RefRun.agg64 := rfl
/-- The weighted neighbour sum at width 1. -/
theorem agg1_eq : (Cert.KernelIdeal.HostRead.agg1 (F := F)) = Cert.ReferenceIdeal.RefRun.agg1 := rfl

/-- A vector of length 64 read as a 1×64 row is the vector broadcast along a new leading axis: entry `(0, i)` of
    either is entry `i` of the vector. -/
theorem row64_eq (b : (⟨Cert.KernelIdeal.S64, .f32⟩ : BufTy).Contents (Elt F)) :
    Cert.KernelIdeal.HostRead.row64 b = broadcastInDim Cert.ReferenceIdeal.S1x64 ![1] Cert.ReferenceIdeal.Gen.bcast_S64_S1x64_1 b := by
  funext j
  rw [broadcastInDim_apply ![1] Cert.ReferenceIdeal.Gen.bcast_S64_S1x64_1 b j (fun a => j a.succ)
    (fun a => by match a with | ⟨0, _⟩ => rfl)]
  exact shapeCast_addUnit_apply ![64] b _ j

/-- A vector of length 1 read as a 1×1 array is the vector broadcast along a new leading axis. -/
theorem row1_eq (b : (⟨Cert.KernelIdeal.S1, .f32⟩ : BufTy).Contents (Elt F)) :
    Cert.KernelIdeal.HostRead.row1 b = broadcastInDim Cert.ReferenceIdeal.S1x1 ![1] Cert.ReferenceIdeal.Gen.bcast_S1_S1x1_1 b := by
  funext j
  rw [broadcastInDim_apply ![1] Cert.ReferenceIdeal.Gen.bcast_S1_S1x1_1 b j (fun a => j a.succ)
    (fun a => by
      match a with
      | ⟨0, _⟩ =>
        have h1 : (j 1).val < 1 := (j 1).isLt
        change (j 1).val = 0
        omega)]
  exact shapeCast_addUnit_apply ![1] b _ j

/-- The squared inverse square-root degrees read as a 50000×1 column are their broadcast to a column: entry `(i, 0)`
    of either is entry `i` of the vector. -/
theorem dinv2col_eq (dinv : (⟨Cert.KernelIdeal.S50000, .f32⟩ : BufTy).Contents (Elt F)) :
    Cert.KernelIdeal.HostRead.dinv2col dinv
      = broadcastInDim Cert.ReferenceIdeal.S50000x1 ![0] Cert.ReferenceIdeal.Gen.bcast_S50000_S50000x1_0 (mulf dinv dinv) := by
  funext j
  rw [broadcastInDim_apply ![0] Cert.ReferenceIdeal.Gen.bcast_S50000_S50000x1_0 (mulf dinv dinv) j (ix1 (j 0))
    (fun a => by match a with | ⟨0, _⟩ => rfl)]
  exact shapeCast_apply (mulf dinv dinv) _ j (ix1 (j 0)) (by
    have h1 : (j 1).val = 0 := by have := (j 1).isLt; change (j 1).val < 1 at this; omega
    rw [Shape.rowMajor_val_one, Shape.rowMajor_val_two]
    change (j 0).val = (j 0).val * 1 + (j 1).val
    rw [h1, Nat.mul_one, Nat.add_zero])

/-- Dividing a row of column sums by 50000 is dividing the vector of column sums by 50000 and reading the quotient
    as a row: the division is entry by entry and the divisor the same constant everywhere. -/
theorem meanOf_row64 (s : (⟨Cert.KernelIdeal.S64, .f32⟩ : BufTy).Contents (Elt F)) :
    Cert.KernelIdeal.HostRead.meanOf (Cert.KernelIdeal.HostRead.row64 s)
      = Cert.KernelIdeal.HostRead.row64 (Host.divf s (broadcastInDim Cert.ReferenceIdeal.S64 ![] Cert.ReferenceIdeal.Gen.bcast_S_S64
          (constant Cert.ReferenceIdeal.S_ .f32 0x47435000#32 : (⟨Cert.ReferenceIdeal.S_, .f32⟩ : BufTy).Contents (Elt F)))) := by
  funext j; rfl

/-- Hence the kernel program's means of the reference's column sums, as a row, are the reference's column means as a row. -/
theorem meanOf_row64_colMean (P : (⟨Cert.ReferenceIdeal.S50000x64, .f32⟩ : BufTy).Contents (Elt F)) :
    Cert.KernelIdeal.HostRead.meanOf (Cert.KernelIdeal.HostRead.row64 (Host.reduceAdd P (constant Cert.ReferenceIdeal.S_ .f32 0x00000000#32 : (⟨Cert.ReferenceIdeal.S_, .f32⟩ : BufTy).Contents (Elt F))
        Cert.ReferenceIdeal.Gen.reducesTo_S50000x64_S64_d0 Cert.ReferenceIdeal.Gen.h_S_))
      = Cert.KernelIdeal.HostRead.row64 (Cert.ReferenceIdeal.RefRun.colMean P) :=
  meanOf_row64 _

end Cert.BridgeHost

end
-- ==== Proof.Bridge.lean ====
import proofs.«135780_j72241349919044_1_alg».proof.Proof.RefClosed
import proofs.«135780_j72241349919044_1_alg».proof.Proof.BridgeHost
import proofs.«135780_j72241349919044_1_alg».proof.Proof.KI.KSpec

/-!
# The kernel program's value is the reference's value

Both programs compute a three-layer graph convolution network with batch normalisation. Stage by
stage the kernel program's closed forms (sums of products for the matrix products, the combination of
the neighbour sum, the self-loop term and the bias, the column sums and sums of squares over the 50000
rows, the normalisation and rectifier) are the reference's stages read at an index. The one place
where the two differ as formulas is the column variance: the kernel program forms the mean of the
squares minus the square of the mean, the reference the mean of the squared deviations; they agree
because every entry of the array whose variance is taken is a real number, which holds when every
entry of every float argument is.
-/

noncomputable section

namespace Cert.Bridge

open Idealize.ShloMosaic Idealize.ShloMosaic.ValueIdx Cert.Lib
open Cert.ReferenceIdeal Cert.ReferenceIdeal.Gen Cert.ReferenceIdeal.RefRun
open scoped BigOperators

/-- Every index of a rank-two shape is a pair of coordinates. -/
theorem idx2_cases {a b : ℕ} (i : (⟨2, ![a, b]⟩ : Shape).Idx) :
    ∃ (r : Fin a) (c : Fin b), i = ix2 r c := ⟨i 0, i 1, eq_ix2 i⟩

/-! ## The kernel program's reshaped vectors read at an index -/

/-- A vector of 64 read as a 1×64 row, at column c. -/
theorem krow64_apply (v : FVec Ideal S64 .f32) (c : Fin 64) :
    Cert.KernelIdeal.HostRead.row64 (F := Ideal) v (ix2 (0 : Fin 1) c) = v (ix1 c) := by
  rw [Cert.BridgeHost.row64_eq]; exact bcast_vec_row_apply v c

/-- The squared inverse square-root degrees read as a column, at row r. -/
theorem kdinv2col_apply (dinv : FVec Ideal S50000 .f32) (r : Fin 50000) :
    Cert.KernelIdeal.HostRead.dinv2col (F := Ideal) dinv (ix2 r (0 : Fin 1))
      = dinv (ix1 r) * dinv (ix1 r) := by
  rw [Cert.BridgeHost.dinv2col_eq]
  exact broadcastInDim_apply _ _ (mulf dinv dinv) _ (ix1 r) fun a => by fin_cases a; rfl

/-- The splat of 50000 at any shape reads 50000. -/
theorem c50000_apply {t : Shape} (h : S_.BroadcastsInDim t ![]) (i : t.Idx) :
    broadcastInDim t ![] h (constant (F := Ideal) S_ .f32 0x47435000#32) i = ((50000 : ℝ) : EReal) :=
  (broadcastInDim_scalar_apply h _ i).trans ((constant_apply _ _).trans ofBits_f32_50000)

/-! ## Stage by stage -/

/-- The matrix product with a 64×64 weight matrix. -/
theorem step_lin64 (X : FVec Ideal S50000x64 .f32) (W : FVec Ideal S64x64 .f32) :
    (fun i : S50000x64.Idx => ∑ k : Fin 64, X (ix2 (i 0 : Fin 50000) k) * W (ix2 k (i 1 : Fin 64)))
      = lin64 (F := Ideal) X W := by
  funext i
  obtain ⟨r, c, rfl⟩ := idx2_cases i
  exact (lin64_apply X W r c).symm

/-- The combination of the neighbour sum, the self-loop term and the bias. -/
theorem step_pre64 (h : FVec Ideal S50000x64 .f32) (W : FVec Ideal S64x64 .f32)
    (b : FVec Ideal S64 .f32) (src dst : (⟨S800000, .i32⟩ : BufTy).Contents (Elt Ideal))
    (dinv : FVec Ideal S50000 .f32) :
    (fun i : S50000x64.Idx =>
        agg64 (F := Ideal) (lin64 (F := Ideal) h W) src dst dinv i
          + lin64 (F := Ideal) h W i
            * Cert.KernelIdeal.HostRead.dinv2col (F := Ideal) dinv (ix2 (i 0 : Fin 50000) (0 : Fin 1))
          + Cert.KernelIdeal.HostRead.row64 (F := Ideal) b (ix2 (0 : Fin 1) (i 1 : Fin 64)))
      = pre64 (F := Ideal) h W b src dst dinv := by
  funext i
  obtain ⟨r, c, rfl⟩ := idx2_cases i
  show agg64 (F := Ideal) (lin64 (F := Ideal) h W) src dst dinv (ix2 r c)
      + lin64 (F := Ideal) h W (ix2 r c)
        * Cert.KernelIdeal.HostRead.dinv2col (F := Ideal) dinv (ix2 r (0 : Fin 1))
      + Cert.KernelIdeal.HostRead.row64 (F := Ideal) b (ix2 (0 : Fin 1) c) = _
  rw [kdinv2col_apply, krow64_apply, pre64_apply]

/-- The column means: the kernel program's row of column sums over 50000 is the reference's column
means read as a row. -/
theorem step_mean (P : FVec Ideal S50000x64 .f32) :
    Cert.KernelIdeal.HostRead.meanOf (F := Ideal)
        (fun j : S1x64.Idx => ∑ r : Fin 50000, P (ix2 r (j 1 : Fin 64)))
      = Cert.KernelIdeal.HostRead.row64 (F := Ideal) (colMean (F := Ideal) P) := by
  funext j
  obtain ⟨z, c, rfl⟩ := idx2_cases j
  obtain rfl : z = 0 := Subsingleton.elim _ _
  rw [krow64_apply, colMean_apply]
  exact congrArg (Ideal.div (∑ r : Fin 50000, P (ix2 r c)) ·) (c50000_apply _ _)

/-- **The column variances**: the kernel program's mean of squares minus squared mean is the
reference's column variance read as a row, when every entry of P is a real. -/
theorem step_var (P : FVec Ideal S50000x64 .f32) (hP : AllReal P) :
    Cert.KernelIdeal.HostRead.varOf (F := Ideal)
        (fun j : S1x64.Idx => ∑ r : Fin 50000, P (ix2 r (j 1 : Fin 64)) * P (ix2 r (j 1 : Fin 64)))
        (Cert.KernelIdeal.HostRead.row64 (F := Ideal) (colMean (F := Ideal) P))
      = Cert.KernelIdeal.HostRead.row64 (F := Ideal) (colVar (F := Ideal) P) := by
  funext j
  obtain ⟨z, c, rfl⟩ := idx2_cases j
  obtain rfl : z = 0 := Subsingleton.elim _ _
  rw [krow64_apply, colVar_eq_meanSq_sub_sqMean P hP c]
  show Ideal.div (∑ r : Fin 50000, P (ix2 r c) * P (ix2 r c))
        (broadcastInDim S1x64 ![] bcast_S_S1x64 (constant (F := Ideal) S_ .f32 0x47435000#32)
          (ix2 (0 : Fin 1) c))
      - Cert.KernelIdeal.HostRead.row64 (F := Ideal) (colMean (F := Ideal) P) (ix2 (0 : Fin 1) c)
        * Cert.KernelIdeal.HostRead.row64 (F := Ideal) (colMean (F := Ideal) P) (ix2 (0 : Fin 1) c) = _
  rw [c50000_apply, krow64_apply]

/-- The normalisation and the rectifier, the four vectors of 64 read as rows. -/
theorem step_bn (P : FVec Ideal S50000x64 .f32) (mean var g be : FVec Ideal S64 .f32) :
    (fun i : S50000x64.Idx =>
        max (Cert.KernelIdeal.HostRead.row64 (F := Ideal) g (ix2 (0 : Fin 1) (i 1 : Fin 64))
              * (P i - Cert.KernelIdeal.HostRead.row64 (F := Ideal) mean (ix2 (0 : Fin 1) (i 1 : Fin 64)))
              * Ideal.rsqrt (Cert.KernelIdeal.HostRead.row64 (F := Ideal) var (ix2 (0 : Fin 1) (i 1 : Fin 64))
                  + Ideal.ofBits .f32 0x3727C5AC#32)
            + Cert.KernelIdeal.HostRead.row64 (F := Ideal) be (ix2 (0 : Fin 1) (i 1 : Fin 64))) 0)
      = bnRelu (F := Ideal) P mean var g be := by
  funext i
  obtain ⟨r, c, rfl⟩ := idx2_cases i
  show max (Cert.KernelIdeal.HostRead.row64 (F := Ideal) g (ix2 (0 : Fin 1) c)
              * (P (ix2 r c) - Cert.KernelIdeal.HostRead.row64 (F := Ideal) mean (ix2 (0 : Fin 1) c))
              * Ideal.rsqrt (Cert.KernelIdeal.HostRead.row64 (F := Ideal) var (ix2 (0 : Fin 1) c)
                  + Ideal.ofBits .f32 0x3727C5AC#32)
            + Cert.KernelIdeal.HostRead.row64 (F := Ideal) be (ix2 (0 : Fin 1) c)) 0 = _
  rw [krow64_apply, krow64_apply, krow64_apply, krow64_apply, ofBits_f32_eps, bnRelu_apply]

/-! ## The kernel program's composite stages are the reference's -/

section Compose
open Cert.KernelIdeal.KVal

theorem klin64_eq (X : FVec Ideal S50000x64 .f32) (W : FVec Ideal S64x64 .f32) :
    klin64 X W = lin64 (F := Ideal) X W := step_lin64 X W

theorem klin1_eq (X : FVec Ideal S50000x64 .f32) (W : FVec Ideal S64x1 .f32) :
    klin1 X W = lin1 (F := Ideal) X W := by
  funext i
  obtain ⟨r, z, rfl⟩ := idx2_cases i
  obtain rfl : z = 0 := Subsingleton.elim _ _
  exact (lin1_apply X W r).symm

/-- A 64-wide layer's pre-activation. -/
theorem kP64_eq (x : FVec Ideal S50000x64 .f32) (W : FVec Ideal S64x64 .f32)
    (b : FVec Ideal S64 .f32) (src dst : (⟨S800000, .i32⟩ : BufTy).Contents (Elt Ideal))
    (dinv : FVec Ideal S50000 .f32) :
    kP64 x W b src dst dinv = pre64 (F := Ideal) x W b src dst dinv := by
  unfold kP64
  rw [klin64_eq, Cert.BridgeHost.agg64_eq]
  exact step_pre64 x W b src dst dinv

/-- The normalisation with the array's own statistics, when every entry of the array is a real. -/
theorem kstatBn_eq (P : FVec Ideal S50000x64 .f32) (g be : FVec Ideal S64 .f32) (hP : AllReal P) :
    kstatBn P g be = bn64 (F := Ideal) P g be := by
  have hM : Cert.KernelIdeal.HostRead.meanOf (F := Ideal) (ksum64 P)
      = Cert.KernelIdeal.HostRead.row64 (F := Ideal) (colMean (F := Ideal) P) := step_mean P
  have hS : Cert.KernelIdeal.HostRead.varOf (F := Ideal) (ksq64 P)
        (Cert.KernelIdeal.HostRead.row64 (F := Ideal) (colMean (F := Ideal) P))
      = Cert.KernelIdeal.HostRead.row64 (F := Ideal) (colVar (F := Ideal) P) := step_var P hP
  unfold kstatBn
  rw [hM, hS]
  exact step_bn P (colMean (F := Ideal) P) (colVar (F := Ideal) P) g be

/-- One hidden layer, when its pre-activation is all-real. -/
theorem klayer64_eq (x : FVec Ideal S50000x64 .f32) (W : FVec Ideal S64x64 .f32)
    (b g be : FVec Ideal S64 .f32) (src dst : (⟨S800000, .i32⟩ : BufTy).Contents (Elt Ideal))
    (dinv : FVec Ideal S50000 .f32) (hP : AllReal (pre64 (F := Ideal) x W b src dst dinv)) :
    klayer64 x W b g be src dst dinv = layer64 (F := Ideal) x W b g be src dst dinv := by
  unfold klayer64
  rw [kP64_eq, kstatBn_eq _ g be hP]
  rfl

/-- The output layer. -/
theorem kP1_eq (h : FVec Ideal S50000x64 .f32) (W : FVec Ideal S64x1 .f32) (b : FVec Ideal S1 .f32)
    (src dst : (⟨S800000, .i32⟩ : BufTy).Contents (Elt Ideal)) (dinv : FVec Ideal S50000 .f32) :
    kP1 h W b src dst dinv = pre1 (F := Ideal) h W b src dst dinv := by
  unfold kP1
  rw [klin1_eq, Cert.BridgeHost.agg1_eq, Cert.BridgeHost.dinv2col_eq, Cert.BridgeHost.row1_eq]
  funext i
  have hb : broadcastInDim S50000x1 ![0, 1] bcast_S1x1_S50000x1_0_1
        (broadcastInDim S1x1 ![1] bcast_S1_S1x1_1 b) i
      = broadcastInDim S1x1 ![1] bcast_S1_S1x1_1 b (ix2 (0 : Fin 1) (0 : Fin 1)) :=
    broadcastInDim_apply ![0, 1] bcast_S1x1_S50000x1_0_1 _ i (ix2 (0 : Fin 1) (0 : Fin 1))
      (fun a => by fin_cases a <;> rfl)
  unfold pre1 kpre1
  rw [addf_apply, addf_apply, mulf_apply, hb]

end Compose

/-- **The kernel program's value is the reference's value**, when every entry of every float argument
is a real number. (Only the arguments that reach a batch normalisation's statistics matter: the
features, the two hidden layers' weights and biases and the first layer's scale and shift.) -/
theorem out_eq (x : FVec Ideal S50000x64 .f32) (e : (⟨S2x800000, .i32⟩ : BufTy).Contents (Elt Ideal))
    (W1 : FVec Ideal S64x64 .f32) (b1 g1 be1 : FVec Ideal S64 .f32)
    (Wh : FVec Ideal S64x64 .f32) (bh gh beh : FVec Ideal S64 .f32)
    (Wo : FVec Ideal S64x1 .f32) (bo : FVec Ideal S1 .f32)
    (hx : AllReal x) (hW1 : AllReal W1) (hb1 : AllReal b1) (hg1 : AllReal g1) (hbe1 : AllReal be1)
    (hWh : AllReal Wh) (hbh : AllReal bh) (hgh : AllReal gh) (hbeh : AllReal beh)
    (hWo : AllReal Wo) (hbo : AllReal bo) :
    Cert.KernelIdeal.KVal.kernelOut x e W1 b1 g1 be1 Wh bh gh beh Wo bo
      = refOut (F := Ideal) x e W1 b1 g1 be1 Wh bh gh beh Wo bo := by
  unfold Cert.KernelIdeal.KVal.kernelOut
  rw [Cert.BridgeHost.srcOf_eq, Cert.BridgeHost.dstOf_eq, Cert.BridgeHost.degInv_eq]
  rw [klayer64_eq x W1 b1 g1 be1 _ _ _ (allReal_P1 x e W1 b1 hx hW1 hb1)]
  rw [klayer64_eq _ Wh bh gh beh _ _ _
    (allReal_P2 x e W1 b1 g1 be1 Wh bh hx hW1 hb1 hg1 hbe1 hWh hbh)]
  rw [kP1_eq]
  rfl

end Cert.Bridge

end
-- ==== Proof.Algebraic.lean ====
/-
  The two idealized programs compute one function. From memories that agree on the twelve arguments both programs
  run to the end; the kernel program leaves in its result array the value of the kernel function at the arguments'
  launch contents, the reference program leaves the reference function of the same contents, and on arrays of real
  numbers (which the precondition grants for every float argument) the two functions are equal. Both runs leave the
  arguments as launched.
-/
import proofs.«135780_j72241349919044_1_alg».proof.Defs
import proofs.«135780_j72241349919044_1_alg».proof.Proof.KI.Run
import proofs.«135780_j72241349919044_1_alg».proof.Proof.KI.KVal
import proofs.«135780_j72241349919044_1_alg».proof.Proof.RefRun
import proofs.«135780_j72241349919044_1_alg».proof.Proof.FiniteInputs
import proofs.«135780_j72241349919044_1_alg».proof.Proof.Bridge

set_option maxRecDepth 16384

noncomputable section

namespace Cert.Proof

open Idealize.ShloMosaic Idealize.ShloMosaic.TcCoe Idealize.SL.Sem

/-- The value both programs end at, per device: the kernel function of the arguments' launch contents. -/
abbrev common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v122) :=
  Cert.KernelIdeal.KVal.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- The kernel program's run: the result array ends at the common value, the arguments as launched. -/
theorem kernel_side (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v122) = common m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  Cert.KernelIdeal.Hand.run_post m g fun s h c =>
    ⟨(h c _ (Cert.KernelIdeal.Hand.mem_uc Cert.KernelIdeal.main_v122 (by decide))).trans (Cert.KernelIdeal.KVal.kval m g c),
      (h c _ (Cert.KernelIdeal.Hand.mem_uc Cert.KernelIdeal.main_arg0 (by decide))).trans (Cert.KernelIdeal.Hand.W14_main_arg0 m g c),
      (h c _ (Cert.KernelIdeal.Hand.mem_uc Cert.KernelIdeal.main_arg1 (by decide))).trans (Cert.KernelIdeal.Hand.W14_main_arg1 m g c),
      (h c _ (Cert.KernelIdeal.Hand.mem_uc Cert.KernelIdeal.main_arg2 (by decide))).trans (Cert.KernelIdeal.Hand.W14_main_arg2 m g c),
      (h c _ (Cert.KernelIdeal.Hand.mem_uc Cert.KernelIdeal.main_arg3 (by decide))).trans (Cert.KernelIdeal.Hand.W14_main_arg3 m g c),
      (h c _ (Cert.KernelIdeal.Hand.mem_uc Cert.KernelIdeal.main_arg4 (by decide))).trans (Cert.KernelIdeal.Hand.W14_main_arg4 m g c),
      (h c _ (Cert.KernelIdeal.Hand.mem_uc Cert.KernelIdeal.main_arg5 (by decide))).trans (Cert.KernelIdeal.Hand.W14_main_arg5 m g c),
      (h c _ (Cert.KernelIdeal.Hand.mem_uc Cert.KernelIdeal.main_arg6 (by decide))).trans (Cert.KernelIdeal.Hand.W14_main_arg6 m g c),
      (h c _ (Cert.KernelIdeal.Hand.mem_uc Cert.KernelIdeal.main_arg7 (by decide))).trans (Cert.KernelIdeal.Hand.W14_main_arg7 m g c),
      (h c _ (Cert.KernelIdeal.Hand.mem_uc Cert.KernelIdeal.main_arg8 (by decide))).trans (Cert.KernelIdeal.Hand.W14_main_arg8 m g c),
      (h c _ (Cert.KernelIdeal.Hand.mem_uc Cert.KernelIdeal.main_arg9 (by decide))).trans (Cert.KernelIdeal.Hand.W14_main_arg9 m g c),
      (h c _ (Cert.KernelIdeal.Hand.mem_uc Cert.KernelIdeal.main_arg10 (by decide))).trans (Cert.KernelIdeal.Hand.W14_main_arg10 m g c),
      (h c _ (Cert.KernelIdeal.Hand.mem_uc Cert.KernelIdeal.main_arg11 (by decide))).trans (Cert.KernelIdeal.Hand.W14_main_arg11 m g c)⟩

theorem algebraic : Cert.algebraic_KernelIdeal_ReferenceIdeal := by
  intro m g m' g' hpre hagree
  refine ⟨common m, kernel_side m g, ?_⟩
  refine (θ_run Cert.ReferenceIdeal.defs _ _).mono (fun _ h c => ⟨(h c).1.trans ?_, (h c).2⟩)
    (Cert.ReferenceIdeal.RefRun.run (F := Ideal) m' g')
  have hr := Cert.FiniteInputs.pre_KernelIdeal_allReal m hpre c
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.Bridge.out_eq _ _ _ _ _ _ _ _ _ _ _ _ hr.1 hr.2.1 hr.2.2.1 hr.2.2.2.1 hr.2.2.2.2.1 hr.2.2.2.2.2.1 hr.2.2.2.2.2.2.1 hr.2.2.2.2.2.2.2.1 hr.2.2.2.2.2.2.2.2.1 hr.2.2.2.2.2.2.2.2.2.1 hr.2.2.2.2.2.2.2.2.2.2).symm

end Cert.Proof

end
-- ==== Proof.lean ====
/-
  The certificate's five claims. Each of the kernel program and its idealization runs to the end from any memory with
  its argument arrays unchanged: the main program is fourteen items, six stretches of host operations and eight kernel
  regions, and the run threads the contents of every buffer through them from the launch. The reference program is one
  list of host operations, and its run is the fold of that list. The idealization rewrites no operation. At the
  extended reals the kernel's result and the reference's are one function of the arguments' launch contents, given
  that every float argument is an array of reals.
-/
import proofs.«135780_j72241349919044_1_alg».proof.Defs
import proofs.«135780_j72241349919044_1_alg».proof.Proof.Gen.Kernel
import proofs.«135780_j72241349919044_1_alg».proof.Proof.Gen.KernelIdeal
import proofs.«135780_j72241349919044_1_alg».proof.Proof.Gen.ReferenceIdeal
import proofs.«135780_j72241349919044_1_alg».proof.Proof.Gen.Pre_finite_inputs
import proofs.«135780_j72241349919044_1_alg».proof.Proof.K.Run
import proofs.«135780_j72241349919044_1_alg».proof.Proof.KI.Run
import proofs.«135780_j72241349919044_1_alg».proof.Proof.RefRun
import proofs.«135780_j72241349919044_1_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m g _ => Cert.Kernel.Hand.frame m g,
  fun m g _ => Cert.KernelIdeal.Hand.frame m g,
  fun m g _ => (θ_run Cert.ReferenceIdeal.defs _ _).mono (fun _ h c => (h c).2) (Cert.ReferenceIdeal.RefRun.run (F := Ideal) m g),
  trivial,
  algebraic⟩

end Cert.Proof

end
